-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v158)) (v3 : (c : Dev Cert.KernelIdeal.nD) → Buf (Elt Ideal) ((c.tc : Thread Cert.KernelIdeal.nD Cert.KernelIdeal.τ).loc Cert.KernelIdeal.main_v93)) (v4 : (c : Dev Cert.KernelIdeal.nD) → Buf (Elt Ideal) ((c.tc : Thread Cert.KernelIdeal.nD Cert.KernelIdeal.τ).loc Cert.KernelIdeal.main_v261)) (v5 : (c : Dev Cert.KernelIdeal.nD) → Buf (Elt Ideal) ((c.tc : Thread Cert.KernelIdeal.nD Cert.KernelIdeal.τ).loc Cert.KernelIdeal.main_v241)) (v6 : (c : Dev Cert.KernelIdeal.nD) → Buf (Elt Ideal) ((c.tc : Thread Cert.KernelIdeal.nD Cert.KernelIdeal.τ).loc Cert.KernelIdeal.main_v364)) (v7 : (c : Dev Cert.KernelIdeal.nD) → Buf (Elt Ideal) ((c.tc : Thread Cert.KernelIdeal.nD Cert.KernelIdeal.τ).loc Cert.KernelIdeal.main_v344)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v158) = v2 c
          ∧ r.2.mem ((c.tc : Thread Cert.KernelIdeal.nD Cert.KernelIdeal.τ).loc Cert.KernelIdeal.main_v93) = v3 c
          ∧ r.2.mem ((c.tc : Thread Cert.KernelIdeal.nD Cert.KernelIdeal.τ).loc Cert.KernelIdeal.main_v261) = v4 c
          ∧ r.2.mem ((c.tc : Thread Cert.KernelIdeal.nD Cert.KernelIdeal.τ).loc Cert.KernelIdeal.main_v241) = v5 c
          ∧ r.2.mem ((c.tc : Thread Cert.KernelIdeal.nD Cert.KernelIdeal.τ).loc Cert.KernelIdeal.main_v364) = v6 c
          ∧ r.2.mem ((c.tc : Thread Cert.KernelIdeal.nD Cert.KernelIdeal.τ).loc Cert.KernelIdeal.main_v344) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v162) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v265) = v4 c
          ∧ r.2.mem ((c.tc : Thread Cert.ReferenceIdeal.nD Cert.ReferenceIdeal.τ).loc Cert.ReferenceIdeal.main_v245) = v5 c
          ∧ r.2.mem ((c.tc : Thread Cert.ReferenceIdeal.nD Cert.ReferenceIdeal.τ).loc Cert.ReferenceIdeal.main_v368) = v6 c
          ∧ r.2.mem ((c.tc : Thread Cert.ReferenceIdeal.nD Cert.ReferenceIdeal.τ).loc Cert.ReferenceIdeal.main_v348) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x16 : Shape := ⟨2, ![262144, 16]⟩
abbrev S1048576x16 : Shape := ⟨2, ![1048576, 16]⟩
abbrev S16x64 : Shape := ⟨2, ![16, 64]⟩
abbrev S64 : Shape := ⟨1, ![64]⟩
abbrev S12x64 : Shape := ⟨2, ![12, 64]⟩
abbrev S2048 : Shape := ⟨1, ![2048]⟩
abbrev S4096 : Shape := ⟨1, ![4096]⟩
abbrev S2x32768 : Shape := ⟨2, ![2, 32768]⟩
abbrev S2x65536 : Shape := ⟨2, ![2, 65536]⟩
abbrev S65536 : Shape := ⟨1, ![65536]⟩
abbrev S_ : Shape := ⟨0, ![]⟩

class Facts : Prop where
  bcast_S_S262144x16 : S_.BroadcastsInDim S262144x16 (![] : Fin 0 → Fin S262144x16.rank)
  reducesTo_S262144x16_S_d0_1 : S262144x16.ReducesTo [0, 1] S_
  h_S_ : 0 < S_.numel
  bcast_S_S1048576x16 : S_.BroadcastsInDim S1048576x16 (![] : Fin 0 → Fin S1048576x16.rank)
  reducesTo_S1048576x16_S_d0_1 : S1048576x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S12x64 : S_.BroadcastsInDim S12x64 (![] : Fin 0 → Fin S12x64.rank)
  reducesTo_S12x64_S_d0_1 : S12x64.ReducesTo [0, 1] S_

variable [Facts]

def fn_part2 {F : FTy → Type} [FloatOps F] (main_arg7 : FVec F S12x64 .f32) (main_v33 : IVec S_ 1) : IVec S_ 1 :=
  let main_v34 : FVec F S12x64 .f32 := Host.absf main_arg7
  let main_cst_12 : FVec F S_ .f32 := constant S_ .f32 0x7F800000#32
  let main_v35 : FVec F S12x64 .f32 := broadcastInDim S12x64 ![] bcast_S_S12x64 main_cst_12
  let main_v36 : IVec S12x64 1 := cmpf .olt main_v34 main_v35
  let main_c_13 : IVec S_ 1 := constantI S_ 1 1#1
  let main_v37 : IVec S_ 1 := (fun x v => Host.reduce IntOp.andi x v reducesTo_S12x64_S_d0_1 h_S_) main_v36 main_c_13
  let main_v38 : IVec S_ 1 := andi main_v33 main_v37
  main_v38

def fn_part1 {F : FTy → Type} [FloatOps F] (main_arg4 : FVec F S16x64 .f32) (main_arg5 : FVec F S64 .f32) (main_arg6 : FVec F S12x64 .f32) (main_arg7 : FVec F S12x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg4
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S12x64 .f32 := Host.absf main_arg6
  let main_cst_10 : FVec F S_ .f32 := constant S_ .f32 0x7F800000#32
  let main_v30 : FVec F S12x64 .f32 := broadcastInDim S12x64 ![] bcast_S_S12x64 main_cst_10
  let main_v31 : IVec S12x64 1 := cmpf .olt main_v29 main_v30
  let main_c_11 : IVec S_ 1 := constantI S_ 1 1#1
  let main_v32 : IVec S_ 1 := (fun x v => Host.reduce IntOp.andi x v reducesTo_S12x64_S_d0_1 h_S_) main_v31 main_c_11
  let main_v33 : IVec S_ 1 := andi main_v28 main_v32
  fn_part2 (F := F) main_arg7 main_v33

def fn {F : FTy → Type} [FloatOps F] (main_arg0 : FVec F S262144x16 .f32) (main_arg1 : FVec F S1048576x16 .f32) (main_arg2 : FVec F S16x64 .f32) (main_arg3 : FVec F S64 .f32) (main_arg4 : FVec F S16x64 .f32) (main_arg5 : FVec F S64 .f32) (main_arg6 : FVec F S12x64 .f32) (main_arg7 : FVec F S12x64 .f32) (main_arg8 : IVec S2048 32) (main_arg9 : IVec S4096 32) (main_arg10 : IVec S2x32768 32) (main_arg11 : IVec S2x32768 32) (main_arg12 : IVec S2x65536 32) (main_arg13 : IVec S65536 32) (main_arg14 : IVec S2x65536 32) (main_arg15 : IVec S65536 32) : IVec S_ 1 :=
  let main_v0 : FVec F S262144x16 .f32 := Host.absf main_arg0
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_c : IVec S_ 1 := constantI S_ 1 1#1
  let main_v3 : IVec S_ 1 := (fun x v => Host.reduce IntOp.andi x v reducesTo_S262144x16_S_d0_1 h_S_) main_v2 main_c
  let main_v4 : FVec F S1048576x16 .f32 := Host.absf main_arg1
  let main_cst_0 : FVec F S_ .f32 := constant S_ .f32 0x7F800000#32
  let main_v5 : FVec F S1048576x16 .f32 := broadcastInDim S1048576x16 ![] bcast_S_S1048576x16 main_cst_0
  let main_v6 : IVec S1048576x16 1 := cmpf .olt main_v4 main_v5
  let main_c_1 : IVec S_ 1 := constantI S_ 1 1#1
  let main_v7 : IVec S_ 1 := (fun x v => Host.reduce IntOp.andi x v reducesTo_S1048576x16_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S262144x16 : Shape := ⟨2, ![262144, 16]⟩
abbrev S1048576x16 : Shape := ⟨2, ![1048576, 16]⟩
abbrev S16x64 : Shape := ⟨2, ![16, 64]⟩
abbrev S64 : Shape := ⟨1, ![64]⟩
abbrev S12x64 : Shape := ⟨2, ![12, 64]⟩
abbrev S2048 : Shape := ⟨1, ![2048]⟩
abbrev S4096 : Shape := ⟨1, ![4096]⟩
abbrev S2x32768 : Shape := ⟨2, ![2, 32768]⟩
abbrev S2x65536 : Shape := ⟨2, ![2, 65536]⟩
abbrev S65536 : Shape := ⟨1, ![65536]⟩
abbrev S1x64 : Shape := ⟨2, ![1, 64]⟩
abbrev S262144x64 : Shape := ⟨2, ![262144, 64]⟩
abbrev S16384x16 : Shape := ⟨2, ![16384, 16]⟩
abbrev S16384x64 : Shape := ⟨2, ![16384, 64]⟩
abbrev S16x128x128x64 : Shape := ⟨4, ![16, 128, 128, 64]⟩
abbrev S_ : Shape := ⟨0, ![]⟩
abbrev S16 : Shape := ⟨1, ![16]⟩
abbrev S2048x1 : Shape := ⟨2, ![2048, 1]⟩
abbrev S1 : Shape := ⟨1, ![1]⟩
abbrev S17 : Shape := ⟨1, ![17]⟩
abbrev S1x32768 : Shape := ⟨2, ![1, 32768]⟩
abbrev S32768 : Shape := ⟨1, ![32768]⟩
abbrev S32768x1 : Shape := ⟨2, ![32768, 1]⟩
abbrev S32768x3 : Shape := ⟨2, ![32768, 3]⟩
abbrev S32768x64 : Shape := ⟨2, ![32768, 64]⟩
abbrev S1048576x64 : Shape := ⟨2, ![1048576, 64]⟩
abbrev S16x256x256x64 : Shape := ⟨4, ![16, 256, 256, 64]⟩
abbrev S4096x1 : Shape := ⟨2, ![4096, 1]⟩
abbrev S1x2048 : Shape := ⟨2, ![1, 2048]⟩
abbrev S1x1x1x2048 : Shape := ⟨4, ![1, 1, 1, 2048]⟩
abbrev S2x1x1x2048 : Shape := ⟨4, ![2, 1, 1, 2048]⟩
abbrev S2x2048 : Shape := ⟨2, ![2, 2048]⟩
abbrev S2x67584 : Shape := ⟨2, ![2, 67584]⟩
abbrev S67584 : Shape := ⟨1, ![67584]⟩
abbrev S67584x1 : Shape := ⟨2, ![67584, 1]⟩
abbrev S67584x64 : Shape := ⟨2, ![67584, 64]⟩
abbrev S1x67584 : Shape := ⟨2, ![1, 67584]⟩
abbrev S67584x3 : Shape := ⟨2, ![67584, 3]⟩
abbrev S1x4096 : Shape := ⟨2, ![1, 4096]⟩
abbrev S1x1x1x4096 : Shape := ⟨4, ![1, 1, 1, 4096]⟩
abbrev S2x1x1x4096 : Shape := ⟨4, ![2, 1, 1, 4096]⟩
abbrev S2x4096 : Shape := ⟨2, ![2, 4096]⟩
abbrev S2x69632 : Shape := ⟨2, ![2, 69632]⟩
abbrev S69632 : Shape := ⟨1, ![69632]⟩
abbrev S69632x1 : Shape := ⟨2, ![69632, 1]⟩
abbrev S69632x64 : Shape := ⟨2, ![69632, 64]⟩
abbrev S1x69632 : Shape := ⟨2, ![1, 69632]⟩
abbrev S69632x3 : Shape := ⟨2, ![69632, 3]⟩

abbrev nBuf : Space → Nat
  | .hbm => 486
  | .vmem => 12
  | .smem => 0
  | _ => 0

abbrev hbmTy0_0 (i : Nat) : BufTy := match i % 128 with
  | 0 => ⟨S262144x16, .f32⟩
  | 1 => ⟨S1048576x16, .f32⟩
  | 2 => ⟨S16x64, .f32⟩
  | 3 => ⟨S64, .f32⟩
  | 4 => ⟨S16x64, .f32⟩
  | 5 => ⟨S64, .f32⟩
  | 6 => ⟨S12x64, .f32⟩
  | 7 => ⟨S12x64, .f32⟩
  | 8 => ⟨S2048, .i32⟩
  | 9 => ⟨S4096, .i32⟩
  | 10 => ⟨S2x32768, .i32⟩
  | 11 => ⟨S2x32768, .i32⟩
  | 12 => ⟨S2x65536, .i32⟩
  | 13 => ⟨S65536, .i32⟩
  | 14 => ⟨S2x65536, .i32⟩
  | 15 => ⟨S65536, .i32⟩
  | 16 => ⟨S1x64, .f32⟩
  | 17 => ⟨S262144x64, .f32⟩
  | 18 => ⟨S16x128x128x64, .f32⟩
  | 19 => ⟨S_, .i32⟩
  | 20 => ⟨S2048, .i32⟩
  | 21 => ⟨S_, .i32⟩
  | 22 => ⟨S16, .i32⟩
  | 23 => ⟨S2048x1, .i32⟩
  | 24 => ⟨S16, .i32⟩
  | 25 => ⟨S_, .i32⟩
  | 26 => ⟨S1, .i32⟩
  | 27 => ⟨S_, .i32⟩
  | 28 => ⟨S_, .i32⟩
  | 29 => ⟨S16, .i32⟩
  | 30 => ⟨S17, .i32⟩
  | 31 => ⟨S1x32768, .i32⟩
  | 32 => ⟨S32768, .i32⟩
  | 33 => ⟨S_, .i32⟩
  | 34 => ⟨S32768, .i32⟩
  | 35 => ⟨S32768, .i1⟩
  | 36 => ⟨S_, .i32⟩
  | 37 => ⟨S32768, .i32⟩
  | 38 => ⟨S32768, .i32⟩
  | 39 => ⟨S32768, .i32⟩
  | 40 => ⟨S32768x1, .i32⟩
  | 41 => ⟨S32768, .i32⟩
  | 42 => ⟨S1x32768, .i32⟩
  | 43 => ⟨S32768, .i32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S32768, .i32⟩
  | 53 => ⟨S32768, .i32⟩
  | 54 => ⟨S1x32768, .i32⟩
  | 55 => ⟨S32768, .i32⟩
  | 56 => ⟨S1x32768, .i32⟩
  | 57 => ⟨S32768, .i32⟩
  | 58 => ⟨S_, .i32⟩
  | 59 => ⟨S32768, .i32⟩
  | 60 => ⟨S32768, .i1⟩
  | 61 => ⟨S_, .i32⟩
  | 62 => ⟨S32768, .i32⟩
  | 63 => ⟨S32768, .i32⟩
  | 64 => ⟨S32768, .i32⟩
  | 65 => ⟨S32768x1, .i32⟩
  | 66 => ⟨S32768, .i32⟩
  | 67 => ⟨S_, .i32⟩
  | 68 => ⟨S32768, .i32⟩
  | 69 => ⟨S32768, .i1⟩
  | 70 => ⟨S_, .i32⟩
  | 71 => ⟨S32768, .i32⟩
  | 72 => ⟨S32768, .i32⟩
  | 73 => ⟨S32768, .i32⟩
  | 74 => ⟨S32768x1, .i32⟩
  | 75 => ⟨S32768, .i32⟩
  | 76 => ⟨S32768, .i32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S_, .i32⟩
  | 85 => ⟨S32768, .i32⟩
  | 86 => ⟨S32768, .i1⟩
  | 87 => ⟨S_, .i32⟩
  | 88 => ⟨S32768, .i32⟩
  | 89 => ⟨S32768, .i32⟩
  | 90 => ⟨S32768, .i32⟩
  | 91 => ⟨S_, .i32⟩
  | 92 => ⟨S32768, .i32⟩
  | 93 => ⟨S32768, .i1⟩
  | 94 => ⟨S_, .i32⟩
  | 95 => ⟨S32768, .i32⟩
  | 96 => ⟨S32768, .i32⟩
  | 97 => ⟨S32768, .i32⟩
  | 98 => ⟨S32768x1, .i32⟩
  | 99 => ⟨S32768x1, .i32⟩
  | 100 => ⟨S32768x1, .i32⟩
  | 101 => ⟨S32768x3, .i32⟩
  | 102 => ⟨S32768x64, .f32⟩
  | 103 => ⟨S_, .i32⟩
  | 104 => ⟨S32768, .i32⟩
  | 105 => ⟨S32768, .i1⟩
  | 106 => ⟨S_, .i32⟩
  | 107 => ⟨S32768, .i32⟩
  | 108 => ⟨S32768, .i32⟩
  | 109 => ⟨S32768, .i32⟩
  | 110 => ⟨S_, .i32⟩
  | 111 => ⟨S32768, .i32⟩
  | 112 => ⟨S32768, .i1⟩
  | 113 => ⟨S_, .i32⟩
  | 114 => ⟨S32768, .i32⟩
  | 115 => ⟨S32768, .i32⟩
  | 116 => ⟨S32768, .i32⟩
  | 117 => ⟨S_, .i32⟩
  | 118 => ⟨S32768, .i32⟩
  | 119 => ⟨S32768, .i1⟩
  | 120 => ⟨S_, .i32⟩
  | 121 => ⟨S32768, .i32⟩
  | 122 => ⟨S32768, .i32⟩
  | 123 => ⟨S32768, .i32⟩
  | 124 => ⟨S32768x1, .i32⟩
  | 125 => ⟨S32768x1, .i32⟩
  | 126 => ⟨S32768x1, .i32⟩
  | 127 => ⟨S32768x3, .i32⟩
  | _ => ⟨S262144x16, .f32⟩

abbrev hbmTy0_1 (i : Nat) : BufTy := match i % 128 with
  | 0 => ⟨S32768x64, .f32⟩
  | 1 => ⟨S32768x64, .f32⟩
  | 2 => ⟨S_, .f32⟩
  | 3 => ⟨S32768x64, .f32⟩
  | 4 => ⟨S32768x64, .f32⟩
  | 5 => ⟨S1x64, .f32⟩
  | 6 => ⟨S1048576x64, .f32⟩
  | 7 => ⟨S16x256x256x64, .f32⟩
  | 8 => ⟨S_, .i32⟩
  | 9 => ⟨S4096, .i32⟩
  | 10 => ⟨S_, .i32⟩
  | 11 => ⟨S16, .i32⟩
  | 12 => ⟨S4096x1, .i32⟩
  | 13 => ⟨S16, .i32⟩
  | 14 => ⟨S_, .i32⟩
  | 15 => ⟨S1, .i32⟩
  | 16 => ⟨S_, .i32⟩
  | 17 => ⟨S_, .i32⟩
  | 18 => ⟨S16, .i32⟩
  | 19 => ⟨S17, .i32⟩
  | 20 => ⟨S1x32768, .i32⟩
  | 21 => ⟨S32768, .i32⟩
  | 22 => ⟨S_, .i32⟩
  | 23 => ⟨S32768, .i32⟩
  | 24 => ⟨S32768, .i1⟩
  | 25 => ⟨S_, .i32⟩
  | 26 => ⟨S32768, .i32⟩
  | 27 => ⟨S32768, .i32⟩
  | 28 => ⟨S32768, .i32⟩
  | 29 => ⟨S32768x1, .i32⟩
  | 30 => ⟨S32768, .i32⟩
  | 31 => ⟨S1x32768, .i32⟩
  | 32 => ⟨S32768, .i32⟩
  | 33 => ⟨S_, .i32⟩
  | 34 => ⟨S32768, .i32⟩
  | 35 => ⟨S32768, .i1⟩
  | 36 => ⟨S_, .i32⟩
  | 37 => ⟨S32768, .i32⟩
  | 38 => ⟨S32768, .i32⟩
  | 39 => ⟨S32768, .i32⟩
  | 40 => ⟨S32768x1, .i32⟩
  | 41 => ⟨S32768, .i32⟩
  | 42 => ⟨S32768, .i32⟩
  | 43 => ⟨S1x32768, .i32⟩
  | 44 => ⟨S32768, .i32⟩
  | 45 => ⟨S1x32768, .i32⟩
  | 46 => ⟨S32768, .i32⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S32768, .i32⟩
  | 56 => ⟨S_, .i32⟩
  | 57 => ⟨S32768, .i32⟩
  | 58 => ⟨S32768, .i1⟩
  | 59 => ⟨S_, .i32⟩
  | 60 => ⟨S32768, .i32⟩
  | 61 => ⟨S32768, .i32⟩
  | 62 => ⟨S32768, .i32⟩
  | 63 => ⟨S32768x1, .i32⟩
  | 64 => ⟨S32768, .i32⟩
  | 65 => ⟨S32768, .i32⟩
  | 66 => ⟨S_, .i32⟩
  | 67 => ⟨S32768, .i32⟩
  | 68 => ⟨S32768, .i1⟩
  | 69 => ⟨S_, .i32⟩
  | 70 => ⟨S32768, .i32⟩
  | 71 => ⟨S32768, .i32⟩
  | 72 => ⟨S32768, .i32⟩
  | 73 => ⟨S_, .i32⟩
  | 74 => ⟨S32768, .i32⟩
  | 75 => ⟨S32768, .i1⟩
  | 76 => ⟨S_, .i32⟩
  | 77 => ⟨S32768, .i32⟩
  | 78 => ⟨S32768, .i32⟩
  | 79 => ⟨S32768, .i32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S32768x1, .i32⟩
  | 88 => ⟨S32768x1, .i32⟩
  | 89 => ⟨S32768x1, .i32⟩
  | 90 => ⟨S32768x3, .i32⟩
  | 91 => ⟨S32768x64, .f32⟩
  | 92 => ⟨S2048, .i32⟩
  | 93 => ⟨S1x2048, .i32⟩
  | 94 => ⟨S1x1x1x2048, .i32⟩
  | 95 => ⟨S2x1x1x2048, .i32⟩
  | 96 => ⟨S2x2048, .i32⟩
  | 97 => ⟨S2x67584, .i32⟩
  | 98 => ⟨S_, .i32⟩
  | 99 => ⟨S65536, .i32⟩
  | 100 => ⟨S65536, .i32⟩
  | 101 => ⟨S_, .i32⟩
  | 102 => ⟨S2048, .i32⟩
  | 103 => ⟨S67584, .i32⟩
  | 104 => ⟨S_, .i32⟩
  | 105 => ⟨S67584, .i32⟩
  | 106 => ⟨S67584, .i1⟩
  | 107 => ⟨S_, .i32⟩
  | 108 => ⟨S67584, .i32⟩
  | 109 => ⟨S67584, .i32⟩
  | 110 => ⟨S67584, .i32⟩
  | 111 => ⟨S67584x1, .i32⟩
  | 112 => ⟨S67584x64, .f32⟩
  | 113 => ⟨S_, .i32⟩
  | 114 => ⟨S2048, .i32⟩
  | 115 => ⟨S_, .i32⟩
  | 116 => ⟨S16, .i32⟩
  | 117 => ⟨S2048x1, .i32⟩
  | 118 => ⟨S16, .i32⟩
  | 119 => ⟨S_, .i32⟩
  | 120 => ⟨S1, .i32⟩
  | 121 => ⟨S_, .i32⟩
  | 122 => ⟨S_, .i32⟩
  | 123 => ⟨S16, .i32⟩
  | 124 => ⟨S17, .i32⟩
  | 125 => ⟨S1x67584, .i32⟩
  | 126 => ⟨S67584, .i32⟩
  | 127 => ⟨S_, .i32⟩
  | _ => ⟨S262144x16, .f32⟩

abbrev hbmTy0_2 (i : Nat) : BufTy := match i % 128 with
  | 0 => ⟨S67584, .i32⟩
  | 1 => ⟨S67584, .i1⟩
  | 2 => ⟨S_, .i32⟩
  | 3 => ⟨S67584, .i32⟩
  | 4 => ⟨S67584, .i32⟩
  | 5 => ⟨S67584, .i32⟩
  | 6 => ⟨S67584x1, .i32⟩
  | 7 => ⟨S67584, .i32⟩
  | 8 => ⟨S1x67584, .i32⟩
  | 9 => ⟨S67584, .i32⟩
  | 10 => ⟨S_, .i32⟩
  | 11 => ⟨S67584, .i32⟩
  | 12 => ⟨S67584, .i1⟩
  | 13 => ⟨S_, .i32⟩
  | 14 => ⟨S67584, .i32⟩
  | 15 => ⟨S67584, .i32⟩
  | 16 => ⟨S67584, .i32⟩
  | 17 => ⟨S67584x1, .i32⟩
  | 18 => ⟨S67584, .i32⟩
  | 19 => ⟨S67584, .i32⟩
  | 20 => ⟨S1x67584, .i32⟩
  | 21 => ⟨S67584, .i32⟩
  | 22 => ⟨S1x67584, .i32⟩
  | 23 => ⟨S67584, .i32⟩
  | 24 => ⟨S_, .i32⟩
  | 25 => ⟨S67584, .i32⟩
  | 26 => ⟨S67584, .i1⟩
  | 27 => ⟨S_, .i32⟩
  | 28 => ⟨S67584, .i32⟩
  | 29 => ⟨S67584, .i32⟩
  | 30 => ⟨S67584, .i32⟩
  | 31 => ⟨S67584x1, .i32⟩
  | 32 => ⟨S67584, .i32⟩
  | 33 => ⟨S_, .i32⟩
  | 34 => ⟨S67584, .i32⟩
  | 35 => ⟨S67584, .i1⟩
  | 36 => ⟨S_, .i32⟩
  | 37 => ⟨S67584, .i32⟩
  | 38 => ⟨S67584, .i32⟩
  | 39 => ⟨S67584, .i32⟩
  | 40 => ⟨S67584x1, .i32⟩
  | 41 => ⟨S67584, .i32⟩
  | 42 => ⟨S67584, .i32⟩
  | 43 => ⟨S_, .f32⟩
  | 44 => ⟨S16x128x128x64, .f32⟩
  | 45 => ⟨S_, .i32⟩
  | 46 => ⟨S67584, .i32⟩
  | 47 => ⟨S67584, .i1⟩
  | 48 => ⟨S_, .i32⟩
  | 49 => ⟨S67584, .i32⟩
  | 50 => ⟨S67584, .i32⟩
  | 51 => ⟨S67584, .i32⟩
  | 52 => ⟨S_, .i32⟩
  | 53 => ⟨S67584, .i32⟩
  | 54 => ⟨S67584, .i1⟩
  | 55 => ⟨S_, .i32⟩
  | 56 => ⟨S67584, .i32⟩
  | 57 => ⟨S67584, .i32⟩
  | 58 => ⟨S67584, .i32⟩
  | 59 => ⟨S_, .i32⟩
  | 60 => ⟨S67584, .i32⟩
  | 61 => ⟨S67584, .i1⟩
  | 62 => ⟨S_, .i32⟩
  | 63 => ⟨S67584, .i32⟩
  | 64 => ⟨S67584, .i32⟩
  | 65 => ⟨S67584, .i32⟩
  | 66 => ⟨S67584x1, .i32⟩
  | 67 => ⟨S67584x1, .i32⟩
  | 68 => ⟨S67584x1, .i32⟩
  | 69 => ⟨S67584x3, .i32⟩
  | 70 => ⟨S16x128x128x64, .f32⟩
  | 71 => ⟨S_, .i32⟩
  | 72 => ⟨S32768, .i32⟩
  | 73 => ⟨S32768, .i1⟩
  | 74 => ⟨S_, .i32⟩
  | 75 => ⟨S32768, .i32⟩
  | 76 => ⟨S32768, .i32⟩
  | 77 => ⟨S32768, .i32⟩
  | 78 => ⟨S_, .i32⟩
  | 79 => ⟨S32768, .i32⟩
  | 80 => ⟨S32768, .i1⟩
  | 81 => ⟨S_, .i32⟩
  | 82 => ⟨S32768, .i32⟩
  | 83 => ⟨S32768, .i32⟩
  | 84 => ⟨S32768, .i32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768x1, .i32⟩
  | 94 => ⟨S32768x1, .i32⟩
  | 95 => ⟨S32768x3, .i32⟩
  | 96 => ⟨S32768x64, .f32⟩
  | 97 => ⟨S4096, .i32⟩
  | 98 => ⟨S1x4096, .i32⟩
  | 99 => ⟨S1x1x1x4096, .i32⟩
  | 100 => ⟨S2x1x1x4096, .i32⟩
  | 101 => ⟨S2x4096, .i32⟩
  | 102 => ⟨S2x69632, .i32⟩
  | 103 => ⟨S_, .i32⟩
  | 104 => ⟨S65536, .i32⟩
  | 105 => ⟨S65536, .i32⟩
  | 106 => ⟨S_, .i32⟩
  | 107 => ⟨S4096, .i32⟩
  | 108 => ⟨S69632, .i32⟩
  | 109 => ⟨S_, .i32⟩
  | 110 => ⟨S69632, .i32⟩
  | 111 => ⟨S69632, .i1⟩
  | 112 => ⟨S_, .i32⟩
  | 113 => ⟨S69632, .i32⟩
  | 114 => ⟨S69632, .i32⟩
  | 115 => ⟨S69632, .i32⟩
  | 116 => ⟨S69632x1, .i32⟩
  | 117 => ⟨S69632x64, .f32⟩
  | 118 => ⟨S_, .i32⟩
  | 119 => ⟨S4096, .i32⟩
  | 120 => ⟨S_, .i32⟩
  | 121 => ⟨S16, .i32⟩
  | 122 => ⟨S4096x1, .i32⟩
  | 123 => ⟨S16, .i32⟩
  | 124 => ⟨S_, .i32⟩
  | 125 => ⟨S1, .i32⟩
  | 126 => ⟨S_, .i32⟩
  | 127 => ⟨S_, .i32⟩
  | _ => ⟨S262144x16, .f32⟩

abbrev hbmTy0_3 (i : Nat) : BufTy := match i % 128 with
  | 0 => ⟨S16, .i32⟩
  | 1 => ⟨S17, .i32⟩
  | 2 => ⟨S1x69632, .i32⟩
  | 3 => ⟨S69632, .i32⟩
  | 4 => ⟨S_, .i32⟩
  | 5 => ⟨S69632, .i32⟩
  | 6 => ⟨S69632, .i1⟩
  | 7 => ⟨S_, .i32⟩
  | 8 => ⟨S69632, .i32⟩
  | 9 => ⟨S69632, .i32⟩
  | 10 => ⟨S69632, .i32⟩
  | 11 => ⟨S69632x1, .i32⟩
  | 12 => ⟨S69632, .i32⟩
  | 13 => ⟨S1x69632, .i32⟩
  | 14 => ⟨S69632, .i32⟩
  | 15 => ⟨S_, .i32⟩
  | 16 => ⟨S69632, .i32⟩
  | 17 => ⟨S69632, .i1⟩
  | 18 => ⟨S_, .i32⟩
  | 19 => ⟨S69632, .i32⟩
  | 20 => ⟨S69632, .i32⟩
  | 21 => ⟨S69632, .i32⟩
  | 22 => ⟨S69632x1, .i32⟩
  | 23 => ⟨S69632, .i32⟩
  | 24 => ⟨S69632, .i32⟩
  | 25 => ⟨S1x69632, .i32⟩
  | 26 => ⟨S69632, .i32⟩
  | 27 => ⟨S1x69632, .i32⟩
  | 28 => ⟨S69632, .i32⟩
  | 29 => ⟨S_, .i32⟩
  | 30 => ⟨S69632, .i32⟩
  | 31 => ⟨S69632, .i1⟩
  | 32 => ⟨S_, .i32⟩
  | 33 => ⟨S69632, .i32⟩
  | 34 => ⟨S69632, .i32⟩
  | 35 => ⟨S69632, .i32⟩
  | 36 => ⟨S69632x1, .i32⟩
  | 37 => ⟨S69632, .i32⟩
  | 38 => ⟨S_, .i32⟩
  | 39 => ⟨S69632, .i32⟩
  | 40 => ⟨S69632, .i1⟩
  | 41 => ⟨S_, .i32⟩
  | 42 => ⟨S69632, .i32⟩
  | 43 => ⟨S69632, .i32⟩
  | 44 => ⟨S69632, .i32⟩
  | 45 => ⟨S69632x1, .i32⟩
  | 46 => ⟨S69632, .i32⟩
  | 47 => ⟨S69632, .i32⟩
  | 48 => ⟨S_, .f32⟩
  | 49 => ⟨S16x256x256x64, .f32⟩
  | 50 => ⟨S_, .i32⟩
  | 51 => ⟨S69632, .i32⟩
  | 52 => ⟨S69632, .i1⟩
  | 53 => ⟨S_, .i32⟩
  | 54 => ⟨S69632, .i32⟩
  | 55 => ⟨S69632, .i32⟩
  | 56 => ⟨S69632, .i32⟩
  | 57 => ⟨S_, .i32⟩
  | 58 => ⟨S69632, .i32⟩
  | 59 => ⟨S69632, .i1⟩
  | 60 => ⟨S_, .i32⟩
  | 61 => ⟨S69632, .i32⟩
  | 62 => ⟨S69632, .i32⟩
  | 63 => ⟨S69632, .i32⟩
  | 64 => ⟨S_, .i32⟩
  | 65 => ⟨S69632, .i32⟩
  | 66 => ⟨S69632, .i1⟩
  | 67 => ⟨S_, .i32⟩
  | 68 => ⟨S69632, .i32⟩
  | 69 => ⟨S69632, .i32⟩
  | 70 => ⟨S69632, .i32⟩
  | 71 => ⟨S69632x1, .i32⟩
  | 72 => ⟨S69632x1, .i32⟩
  | 73 => ⟨S69632x1, .i32⟩
  | 74 => ⟨S69632x3, .i32⟩
  | 75 => ⟨S16x256x256x64, .f32⟩
  | 76 => ⟨S_, .i32⟩
  | 77 => ⟨S32768, .i32⟩
  | 78 => ⟨S32768, .i1⟩
  | 79 => ⟨S_, .i32⟩
  | 80 => ⟨S32768, .i32⟩
  | 81 => ⟨S32768, .i32⟩
  | 82 => ⟨S32768, .i32⟩
  | 83 => ⟨S_, .i32⟩
  | 84 => ⟨S32768, .i32⟩
  | 85 => ⟨S32768, .i1⟩
  | 86 => ⟨S_, .i32⟩
  | 87 => ⟨S32768, .i32⟩
  | 88 => ⟨S32768, .i32⟩
  | 89 => ⟨S32768, .i32⟩
  | 90 => ⟨S_, .i32⟩
  | 91 => ⟨S32768, .i32⟩
  | 92 => ⟨S32768, .i1⟩
  | 93 => ⟨S_, .i32⟩
  | 94 => ⟨S32768, .i32⟩
  | 95 => ⟨S32768, .i32⟩
  | 96 => ⟨S32768, .i32⟩
  | 97 => ⟨S32768x1, .i32⟩
  | 98 => ⟨S32768x1, .i32⟩
  | 99 => ⟨S32768x1, .i32⟩
  | 100 => ⟨S32768x3, .i32⟩
  | 101 => ⟨S32768x64, .f32⟩
  | _ => ⟨S262144x16, .f32⟩

abbrev hbmTy (i : Nat) : BufTy := match i / 128 with
  | 0 => hbmTy0_0 i
  | 1 => hbmTy0_1 i
  | 2 => hbmTy0_2 i
  | 3 => hbmTy0_3 i
  | _ => ⟨S262144x16, .f32⟩

abbrev bufTy : (tb : Table) → Fin (tcTables nBuf tb) → BufTy
  | .hbm, ⟨i, _⟩ => hbmTy i
  | .local _ .vmem, ⟨0, _⟩ => ⟨S16384x16, .f32⟩
  | .local _ .vmem, ⟨1, _⟩ => ⟨S16384x16, .f32⟩
  | .local _ .vmem, ⟨2, _⟩ => ⟨S16x64, .f32⟩
  | .local _ .vmem, ⟨3, _⟩ => ⟨S1x64, .f32⟩
  | .local _ .vmem, ⟨4, _⟩ => ⟨S16384x64, .f32⟩
  | .local _ .vmem, ⟨5, _⟩ => ⟨S16384x64, .f32⟩
  | .local _ .vmem, ⟨6, _⟩ => ⟨S16384x16, .f32⟩
  | .local _ .vmem, ⟨7, _⟩ => ⟨S16384x16, .f32⟩
  | .local _ .vmem, ⟨8, _⟩ => ⟨S16x64, .f32⟩
  | .local _ .vmem, ⟨9, _⟩ => ⟨S1x64, .f32⟩
  | .local _ .vmem, ⟨10, _⟩ => ⟨S16384x64, .f32⟩
  | .local _ .vmem, ⟨11, _⟩ => ⟨S16384x64, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_call0_call0_c : Ref sig .tc := ⟨.hbm, 27, rfl⟩
abbrev main_call0_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_10 : Ref sig .tc := ⟨.hbm, 77, rfl⟩
abbrev main_v48 : Ref sig .tc := ⟨.hbm, 78, rfl⟩
abbrev main_v49 : Ref sig .tc := ⟨.hbm, 79, rfl⟩
abbrev main_c_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_12 : Ref sig .tc := ⟨.hbm, 84, rfl⟩
abbrev main_v53 : Ref sig .tc := ⟨.hbm, 85, rfl⟩
abbrev main_v54 : Ref sig .tc := ⟨.hbm, 86, rfl⟩
abbrev main_c_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_14 : Ref sig .tc := ⟨.hbm, 91, rfl⟩
abbrev main_v58 : Ref sig .tc := ⟨.hbm, 92, rfl⟩
abbrev main_v59 : Ref sig .tc := ⟨.hbm, 93, rfl⟩
abbrev main_c_15 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_16 : Ref sig .tc := ⟨.hbm, 103, rfl⟩
abbrev main_v68 : Ref sig .tc := ⟨.hbm, 104, rfl⟩
abbrev main_v69 : Ref sig .tc := ⟨.hbm, 105, rfl⟩
abbrev main_c_17 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_18 : Ref sig .tc := ⟨.hbm, 110, rfl⟩
abbrev main_v73 : Ref sig .tc := ⟨.hbm, 111, rfl⟩
abbrev main_v74 : Ref sig .tc := ⟨.hbm, 112, rfl⟩
abbrev main_c_19 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_20 : Ref sig .tc := ⟨.hbm, 117, rfl⟩
abbrev main_v78 : Ref sig .tc := ⟨.hbm, 118, rfl⟩
abbrev main_v79 : Ref sig .tc := ⟨.hbm, 119, rfl⟩
abbrev main_c_21 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_22 : Ref sig .tc := ⟨.hbm, 136, rfl⟩
abbrev main_v94 : Ref sig .tc := ⟨.hbm, 137, rfl⟩
abbrev main_c_23 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_24 : Ref sig .tc := ⟨.hbm, 142, rfl⟩
abbrev main_v98 : Ref sig .tc := ⟨.hbm, 143, rfl⟩
abbrev main_call1_call0_c : Ref sig .tc := ⟨.hbm, 144, rfl⟩
abbrev main_call1_call0_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_25 : Ref sig .tc := ⟨.hbm, 150, rfl⟩
abbrev main_v103 : Ref sig .tc := ⟨.hbm, 151, rfl⟩
abbrev main_v104 : Ref sig .tc := ⟨.hbm, 152, rfl⟩
abbrev main_c_26 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_c_27 : Ref sig .tc := ⟨.hbm, 161, rfl⟩
abbrev main_v112 : Ref sig .tc := ⟨.hbm, 162, rfl⟩
abbrev main_v113 : Ref sig .tc := ⟨.hbm, 163, rfl⟩
abbrev main_c_28 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_c_29 : Ref sig .tc := ⟨.hbm, 175, rfl⟩
abbrev main_v124 : Ref sig .tc := ⟨.hbm, 176, rfl⟩
abbrev main_v125 : Ref sig .tc := ⟨.hbm, 177, rfl⟩
abbrev main_c_30 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_c_31 : Ref sig .tc := ⟨.hbm, 184, rfl⟩
abbrev main_v131 : Ref sig .tc := ⟨.hbm, 185, rfl⟩
abbrev main_v132 : Ref sig .tc := ⟨.hbm, 186, rfl⟩
abbrev main_c_32 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_c_33 : Ref sig .tc := ⟨.hbm, 194, rfl⟩
abbrev main_v139 : Ref sig .tc := ⟨.hbm, 195, rfl⟩
abbrev main_v140 : Ref sig .tc := ⟨.hbm, 196, rfl⟩
abbrev main_c_34 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_c_35 : Ref sig .tc := ⟨.hbm, 201, rfl⟩
abbrev main_v144 : Ref sig .tc := ⟨.hbm, 202, rfl⟩
abbrev main_v145 : Ref sig .tc := ⟨.hbm, 203, rfl⟩
abbrev main_c_36 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_c_37 : Ref sig .tc := ⟨.hbm, 208, rfl⟩
abbrev main_v149 : Ref sig .tc := ⟨.hbm, 209, rfl⟩
abbrev main_v150 : Ref sig .tc := ⟨.hbm, 210, rfl⟩
abbrev main_c_38 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_c_39 : Ref sig .tc := ⟨.hbm, 226, rfl⟩
abbrev main_v165 : Ref sig .tc := ⟨.hbm, 227, rfl⟩
abbrev main_v166 : Ref sig .tc := ⟨.hbm, 228, rfl⟩
abbrev main_c_40 : Ref sig .tc := ⟨.hbm, 229, rfl⟩
abbrev main_v167 : Ref sig .tc := ⟨.hbm, 230, rfl⟩
abbrev main_v168 : Ref sig .tc := ⟨.hbm, 231, rfl⟩
abbrev main_c_41 : Ref sig .tc := ⟨.hbm, 232, rfl⟩
abbrev main_v169 : Ref sig .tc := ⟨.hbm, 233, rfl⟩
abbrev main_v170 : Ref sig .tc := ⟨.hbm, 234, rfl⟩
abbrev main_c_42 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_c_43 : Ref sig .tc := ⟨.hbm, 241, rfl⟩
abbrev main_v176 : Ref sig .tc := ⟨.hbm, 242, rfl⟩
abbrev main_c_44 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_c_45 : Ref sig .tc := ⟨.hbm, 247, rfl⟩
abbrev main_v180 : Ref sig .tc := ⟨.hbm, 248, rfl⟩
abbrev main_call2_call0_c : Ref sig .tc := ⟨.hbm, 249, rfl⟩
abbrev main_call2_call0_v0 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_c_46 : Ref sig .tc := ⟨.hbm, 255, rfl⟩
abbrev main_v185 : Ref sig .tc := ⟨.hbm, 256, rfl⟩
abbrev main_v186 : Ref sig .tc := ⟨.hbm, 257, rfl⟩
abbrev main_c_47 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_c_48 : Ref sig .tc := ⟨.hbm, 266, rfl⟩
abbrev main_v194 : Ref sig .tc := ⟨.hbm, 267, rfl⟩
abbrev main_v195 : Ref sig .tc := ⟨.hbm, 268, rfl⟩
abbrev main_c_49 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_c_50 : Ref sig .tc := ⟨.hbm, 280, rfl⟩
abbrev main_v206 : Ref sig .tc := ⟨.hbm, 281, rfl⟩
abbrev main_v207 : Ref sig .tc := ⟨.hbm, 282, rfl⟩
abbrev main_c_51 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_c_52 : Ref sig .tc := ⟨.hbm, 289, rfl⟩
abbrev main_v213 : Ref sig .tc := ⟨.hbm, 290, rfl⟩
abbrev main_v214 : Ref sig .tc := ⟨.hbm, 291, rfl⟩
abbrev main_c_53 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_cst_54 : Ref sig .tc := ⟨.hbm, 299, rfl⟩
abbrev main_v221 : Ref sig .tc := ⟨.hbm, 300, rfl⟩
abbrev main_c_55 : Ref sig .tc := ⟨.hbm, 301, rfl⟩
abbrev main_v222 : Ref sig .tc := ⟨.hbm, 302, rfl⟩
abbrev main_v223 : Ref sig .tc := ⟨.hbm, 303, rfl⟩
abbrev main_c_56 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_c_57 : Ref sig .tc := ⟨.hbm, 308, rfl⟩
abbrev main_v227 : Ref sig .tc := ⟨.hbm, 309, rfl⟩
abbrev main_v228 : Ref sig .tc := ⟨.hbm, 310, rfl⟩
abbrev main_c_58 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_c_59 : Ref sig .tc := ⟨.hbm, 315, rfl⟩
abbrev main_v232 : Ref sig .tc := ⟨.hbm, 316, rfl⟩
abbrev main_v233 : Ref sig .tc := ⟨.hbm, 317, rfl⟩
abbrev main_c_60 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_c_61 : Ref sig .tc := ⟨.hbm, 327, rfl⟩
abbrev main_v242 : Ref sig .tc := ⟨.hbm, 328, rfl⟩
abbrev main_v243 : Ref sig .tc := ⟨.hbm, 329, rfl⟩
abbrev main_c_62 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_c_63 : Ref sig .tc := ⟨.hbm, 334, rfl⟩
abbrev main_v247 : Ref sig .tc := ⟨.hbm, 335, rfl⟩
abbrev main_v248 : Ref sig .tc := ⟨.hbm, 336, rfl⟩
abbrev main_c_64 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_c_65 : Ref sig .tc := ⟨.hbm, 341, rfl⟩
abbrev main_v252 : Ref sig .tc := ⟨.hbm, 342, rfl⟩
abbrev main_v253 : Ref sig .tc := ⟨.hbm, 343, rfl⟩
abbrev main_c_66 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_c_67 : Ref sig .tc := ⟨.hbm, 359, rfl⟩
abbrev main_v268 : Ref sig .tc := ⟨.hbm, 360, rfl⟩
abbrev main_v269 : Ref sig .tc := ⟨.hbm, 361, rfl⟩
abbrev main_c_68 : Ref sig .tc := ⟨.hbm, 362, rfl⟩
abbrev main_v270 : Ref sig .tc := ⟨.hbm, 363, rfl⟩
abbrev main_v271 : Ref sig .tc := ⟨.hbm, 364, rfl⟩
abbrev main_c_69 : Ref sig .tc := ⟨.hbm, 365, rfl⟩
abbrev main_v272 : Ref sig .tc := ⟨.hbm, 366, rfl⟩
abbrev main_v273 : Ref sig .tc := ⟨.hbm, 367, rfl⟩
abbrev main_c_70 : Ref sig .tc := ⟨.hbm, 368, rfl⟩
abbrev main_v274 : Ref sig .tc := ⟨.hbm, 369, rfl⟩
abbrev main_v275 : Ref sig .tc := ⟨.hbm, 370, rfl⟩
abbrev main_v276 : Ref sig .tc := ⟨.hbm, 371, rfl⟩
abbrev main_v277 : Ref sig .tc := ⟨.hbm, 372, rfl⟩
abbrev main_v278 : Ref sig .tc := ⟨.hbm, 373, rfl⟩
abbrev main_c_71 : Ref sig .tc := ⟨.hbm, 374, rfl⟩
abbrev main_v279 : Ref sig .tc := ⟨.hbm, 375, rfl⟩
abbrev main_c_72 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_c_73 : Ref sig .tc := ⟨.hbm, 380, rfl⟩
abbrev main_v283 : Ref sig .tc := ⟨.hbm, 381, rfl⟩
abbrev main_call3_call0_c : Ref sig .tc := ⟨.hbm, 382, rfl⟩
abbrev main_call3_call0_v0 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_c_74 : Ref sig .tc := ⟨.hbm, 388, rfl⟩
abbrev main_v288 : Ref sig .tc := ⟨.hbm, 389, rfl⟩
abbrev main_v289 : Ref sig .tc := ⟨.hbm, 390, rfl⟩
abbrev main_c_75 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_v294 : Ref sig .tc := ⟨.hbm, 396, rfl⟩
abbrev main_v295 : Ref sig .tc := ⟨.hbm, 397, rfl⟩
abbrev main_v296 : Ref sig .tc := ⟨.hbm, 398, rfl⟩
abbrev main_c_76 : Ref sig .tc := ⟨.hbm, 399, rfl⟩
abbrev main_v297 : Ref sig .tc := ⟨.hbm, 400, rfl⟩
abbrev main_v298 : Ref sig .tc := ⟨.hbm, 401, rfl⟩
abbrev main_c_77 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_c_78 : Ref sig .tc := ⟨.hbm, 413, rfl⟩
abbrev main_v309 : Ref sig .tc := ⟨.hbm, 414, rfl⟩
abbrev main_v310 : Ref sig .tc := ⟨.hbm, 415, rfl⟩
abbrev main_c_79 : Ref sig .tc := ⟨.hbm, 416, rfl⟩
abbrev main_v311 : Ref sig .tc := ⟨.hbm, 417, rfl⟩
abbrev main_v312 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_c_80 : Ref sig .tc := ⟨.hbm, 422, rfl⟩
abbrev main_v316 : Ref sig .tc := ⟨.hbm, 423, rfl⟩
abbrev main_v317 : Ref sig .tc := ⟨.hbm, 424, rfl⟩
abbrev main_c_81 : Ref sig .tc := ⟨.hbm, 425, rfl⟩
abbrev main_v318 : Ref sig .tc := ⟨.hbm, 426, rfl⟩
abbrev main_v319 : Ref sig .tc := ⟨.hbm, 427, rfl⟩
abbrev main_v320 : Ref sig .tc := ⟨.hbm, 428, rfl⟩
abbrev main_v321 : Ref sig .tc := ⟨.hbm, 429, rfl⟩
abbrev main_v322 : Ref sig .tc := ⟨.hbm, 430, rfl⟩
abbrev main_v323 : Ref sig .tc := ⟨.hbm, 431, rfl⟩
abbrev main_cst_82 : Ref sig .tc := ⟨.hbm, 432, rfl⟩
abbrev main_v324 : Ref sig .tc := ⟨.hbm, 433, rfl⟩
abbrev main_c_83 : Ref sig .tc := ⟨.hbm, 434, rfl⟩
abbrev main_v325 : Ref sig .tc := ⟨.hbm, 435, rfl⟩
abbrev main_v326 : Ref sig .tc := ⟨.hbm, 436, rfl⟩
abbrev main_c_84 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_c_85 : Ref sig .tc := ⟨.hbm, 441, rfl⟩
abbrev main_v330 : Ref sig .tc := ⟨.hbm, 442, rfl⟩
abbrev main_v331 : Ref sig .tc := ⟨.hbm, 443, rfl⟩
abbrev main_c_86 : Ref sig .tc := ⟨.hbm, 444, rfl⟩
abbrev main_v332 : Ref sig .tc := ⟨.hbm, 445, rfl⟩
abbrev main_v333 : Ref sig .tc := ⟨.hbm, 446, rfl⟩
abbrev main_v334 : Ref sig .tc := ⟨.hbm, 447, rfl⟩
abbrev main_c_87 : Ref sig .tc := ⟨.hbm, 448, rfl⟩
abbrev main_v335 : Ref sig .tc := ⟨.hbm, 449, rfl⟩
abbrev main_v336 : Ref sig .tc := ⟨.hbm, 450, rfl⟩
abbrev main_c_88 : Ref sig .tc := ⟨.hbm, 451, rfl⟩
abbrev main_v337 : Ref sig .tc := ⟨.hbm, 452, rfl⟩
abbrev main_v338 : Ref sig .tc := ⟨.hbm, 453, rfl⟩
abbrev main_v339 : Ref sig .tc := ⟨.hbm, 454, rfl⟩
abbrev main_v340 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_c_89 : Ref sig .tc := ⟨.hbm, 460, rfl⟩
abbrev main_v345 : Ref sig .tc := ⟨.hbm, 461, rfl⟩
abbrev main_v346 : Ref sig .tc := ⟨.hbm, 462, rfl⟩
abbrev main_c_90 : Ref sig .tc := ⟨.hbm, 463, rfl⟩
abbrev main_v347 : Ref sig .tc := ⟨.hbm, 464, rfl⟩
abbrev main_v348 : Ref sig .tc := ⟨.hbm, 465, rfl⟩
abbrev main_v349 : Ref sig .tc := ⟨.hbm, 466, rfl⟩
abbrev main_c_91 : Ref sig .tc := ⟨.hbm, 467, rfl⟩
abbrev main_v350 : Ref sig .tc := ⟨.hbm, 468, rfl⟩
abbrev main_v351 : Ref sig .tc := ⟨.hbm, 469, rfl⟩
abbrev main_c_92 : Ref sig .tc := ⟨.hbm, 470, rfl⟩
abbrev main_v352 : Ref sig .tc := ⟨.hbm, 471, rfl⟩
abbrev main_v353 : Ref sig .tc := ⟨.hbm, 472, rfl⟩
abbrev main_v354 : Ref sig .tc := ⟨.hbm, 473, rfl⟩
abbrev main_c_93 : Ref sig .tc := ⟨.hbm, 474, rfl⟩
abbrev main_v355 : Ref sig .tc := ⟨.hbm, 475, rfl⟩
abbrev main_v356 : Ref sig .tc := ⟨.hbm, 476, rfl⟩
abbrev main_c_94 : Ref sig .tc := ⟨.hbm, 477, rfl⟩
abbrev main_v357 : Ref sig .tc := ⟨.hbm, 478, rfl⟩
abbrev main_v358 : Ref sig .tc := ⟨.hbm, 479, rfl⟩
abbrev main_v359 : Ref sig .tc := ⟨.hbm, 480, rfl⟩
abbrev main_v360 : Ref sig .tc := ⟨.hbm, 481, rfl⟩
abbrev main_v361 : Ref sig .tc := ⟨.hbm, 482, rfl⟩
abbrev main_v362 : Ref sig .tc := ⟨.hbm, 483, rfl⟩
abbrev main_v363 : Ref sig .tc := ⟨.hbm, 484, rfl⟩
abbrev main_v364 : Ref sig .tc := ⟨.hbm, 485, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16384x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64_S1x64 : S64.ShapeCasts S1x64
  inb_S16384x16_S16384x16_0_0 : ∀ a, (![0, 0] : Fin 2 → Nat) a + S16384x16.size a ≤ S16384x16.size a
  h_S16384x16 : 0 < S16384x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S16384x64_S16384x64_0_0 : ∀ a, (![0, 0] : Fin 2 → Nat) a + S16384x64.size a ≤ S16384x64.size a
  h_S16384x64 : 0 < S16384x64.numel
  shapeCasts_S262144x64_S16x128x128x64 : S262144x64.ShapeCasts S16x128x128x64
  bcast_S_S2048 : S_.BroadcastsInDim S2048 (![] : Fin 0 → Fin S2048.rank)
  bcast_S_S16 : S_.BroadcastsInDim S16 (![] : Fin 0 → Fin S16.rank)
  bcast_S2048_S2048x1_0 : S2048.BroadcastsInDim S2048x1 (![0] : Fin 1 → Fin S2048x1.rank)
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  concatenates_S1_S16_S17_d0 : Shape.Concatenates [S1, S16] S17 0
  slices_S2x32768_S1x32768_0_0 : S2x32768.Slices ![0, 0] S1x32768
  shapeCasts_S1x32768_S32768 : S1x32768.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S2x32768_S1x32768_1_0 : S2x32768.Slices ![1, 0] S1x32768
  concatenates_S32768x1_S32768x1_S32768x1_S32768x3_d1 : Shape.Concatenates [S32768x1, S32768x1, S32768x1] S32768x3 1
  bcast_S_S32768x64 : S_.BroadcastsInDim S32768x64 (![] : Fin 0 → Fin S32768x64.rank)
  shapeCasts_S1048576x64_S16x256x256x64 : S1048576x64.ShapeCasts S16x256x256x64
  bcast_S_S4096 : S_.BroadcastsInDim S4096 (![] : Fin 0 → Fin S4096.rank)
  bcast_S4096_S4096x1_0 : S4096.BroadcastsInDim S4096x1 (![0] : Fin 1 → Fin S4096x1.rank)
  bcast_S2048_S1x2048_1 : S2048.BroadcastsInDim S1x2048 (![1] : Fin 1 → Fin S1x2048.rank)
  shapeCasts_S1x2048_S1x1x1x2048 : S1x2048.ShapeCasts S1x1x1x2048
  bcast_S1x1x1x2048_S2x1x1x2048_0_1_2_3 : S1x1x1x2048.BroadcastsInDim S2x1x1x2048 (![0, 1, 2, 3] : Fin 4 → Fin S2x1x1x2048.rank)
  shapeCasts_S2x1x1x2048_S2x2048 : S2x1x1x2048.ShapeCasts S2x2048
  concatenates_S2x65536_S2x2048_S2x67584_d1 : Shape.Concatenates [S2x65536, S2x2048] S2x67584 1
  bcast_S_S65536 : S_.BroadcastsInDim S65536 (![] : Fin 0 → Fin S65536.rank)
  concatenates_S65536_S2048_S67584_d0 : Shape.Concatenates [S65536, S2048] S67584 0
  bcast_S_S67584 : S_.BroadcastsInDim S67584 (![] : Fin 0 → Fin S67584.rank)
  bcast_S67584_S67584x1_0 : S67584.BroadcastsInDim S67584x1 (![0] : Fin 1 → Fin S67584x1.rank)
  slices_S2x67584_S1x67584_0_0 : S2x67584.Slices ![0, 0] S1x67584
  shapeCasts_S1x67584_S67584 : S1x67584.ShapeCasts S67584
  slices_S2x67584_S1x67584_1_0 : S2x67584.Slices ![1, 0] S1x67584
  bcast_S_S16x128x128x64 : S_.BroadcastsInDim S16x128x128x64 (![] : Fin 0 → Fin S16x128x128x64.rank)
  concatenates_S67584x1_S67584x1_S67584x1_S67584x3_d1 : Shape.Concatenates [S67584x1, S67584x1, S67584x1] S67584x3 1
  bcast_S4096_S1x4096_1 : S4096.BroadcastsInDim S1x4096 (![1] : Fin 1 → Fin S1x4096.rank)
  shapeCasts_S1x4096_S1x1x1x4096 : S1x4096.ShapeCasts S1x1x1x4096
  bcast_S1x1x1x4096_S2x1x1x4096_0_1_2_3 : S1x1x1x4096.BroadcastsInDim S2x1x1x4096 (![0, 1, 2, 3] : Fin 4 → Fin S2x1x1x4096.rank)
  shapeCasts_S2x1x1x4096_S2x4096 : S2x1x1x4096.ShapeCasts S2x4096
  concatenates_S2x65536_S2x4096_S2x69632_d1 : Shape.Concatenates [S2x65536, S2x4096] S2x69632 1
  concatenates_S65536_S4096_S69632_d0 : Shape.Concatenates [S65536, S4096] S69632 0
  bcast_S_S69632 : S_.BroadcastsInDim S69632 (![] : Fin 0 → Fin S69632.rank)
  bcast_S69632_S69632x1_0 : S69632.BroadcastsInDim S69632x1 (![0] : Fin 1 → Fin S69632x1.rank)
  slices_S2x69632_S1x69632_0_0 : S2x69632.Slices ![0, 0] S1x69632
  shapeCasts_S1x69632_S69632 : S1x69632.ShapeCasts S69632
  slices_S2x69632_S1x69632_1_0 : S2x69632.Slices ![1, 0] S1x69632
  bcast_S_S16x256x256x64 : S_.BroadcastsInDim S16x256x256x64 (![] : Fin 0 → Fin S16x256x256x64.rank)
  concatenates_S69632x1_S69632x1_S69632x1_S69632x3_d1 : Shape.Concatenates [S69632x1, S69632x1, S69632x1] S69632x3 1
  dot_S16384x16_S16x64_S16384x64_1_0_0_1_n_n_wf : DotDims.WF S16384x16 S16x64 S16384x64 [1] [0] [0] [1] [] []
  scatter_S16_S2048x1_S2048_n_0_0_1_wf : ScatterDims.WF S16 S2048x1 S2048 [] [0] [0] 1
  gather_S2048_S32768x1_S32768_n_0_n_n_0_1_1_wf : GatherDims.WF S2048 S32768x1 S32768 [] [0] [] [0] [] 1 ![1]
  gather_S17_S32768x1_S32768_n_0_n_n_0_1_1_wf : GatherDims.WF S17 S32768x1 S32768 [] [0] [] [0] [] 1 ![1]
  gather_S16x128x128x64_S32768x3_S32768x64_1_012_n_n_012_1_11164_wf : GatherDims.WF S16x128x128x64 S32768x3 S32768x64 [1] [0, 1, 2] [] [0, 1, 2] [] 1 ![1, 1, 1, 64]
  scatter_S16_S4096x1_S4096_n_0_0_1_wf : ScatterDims.WF S16 S4096x1 S4096 [] [0] [0] 1
  gather_S4096_S32768x1_S32768_n_0_n_n_0_1_1_wf : GatherDims.WF S4096 S32768x1 S32768 [] [0] [] [0] [] 1 ![1]
  gather_S16x256x256x64_S32768x3_S32768x64_1_012_n_n_012_1_11164_wf : GatherDims.WF S16x256x256x64 S32768x3 S32768x64 [1] [0, 1, 2] [] [0, 1, 2] [] 1 ![1, 1, 1, 64]
  gather_S12x64_S67584x1_S67584x64_1_0_n_n_0_1_164_wf : GatherDims.WF S12x64 S67584x1 S67584x64 [1] [0] [] [0] [] 1 ![1, 64]
  gather_S2048_S67584x1_S67584_n_0_n_n_0_1_1_wf : GatherDims.WF S2048 S67584x1 S67584 [] [0] [] [0] [] 1 ![1]
  gather_S17_S67584x1_S67584_n_0_n_n_0_1_1_wf : GatherDims.WF S17 S67584x1 S67584 [] [0] [] [0] [] 1 ![1]
  scatter_S16x128x128x64_S67584x3_S67584x64_1_012_012_1_wf : ScatterDims.WF S16x128x128x64 S67584x3 S67584x64 [1] [0, 1, 2] [0, 1, 2] 1
  gather_S12x64_S69632x1_S69632x64_1_0_n_n_0_1_164_wf : GatherDims.WF S12x64 S69632x1 S69632x64 [1] [0] [] [0] [] 1 ![1, 64]
  gather_S4096_S69632x1_S69632_n_0_n_n_0_1_1_wf : GatherDims.WF S4096 S69632x1 S69632 [] [0] [] [0] [] 1 ![1]
  gather_S17_S69632x1_S69632_n_0_n_n_0_1_1_wf : GatherDims.WF S17 S69632x1 S69632 [] [0] [] [0] [] 1 ![1]
  scatter_S16x256x256x64_S69632x3_S69632x64_1_012_012_1_wf : ScatterDims.WF S16x256x256x64 S69632x3 S69632x64 [1] [0, 1, 2] [0, 1, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x16.size a ≤ S262144x16.size a
  hwx0_0 : ∀ i : grid0.Coords, EltTy.bits .f32 = 32 ∨ (Rect.block (s := S262144x16) S16384x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x64.size a ≤ S262144x64.size a
  hwx0_3 : ∀ i : grid0.Coords, EltTy.bits .f32 = 32 ∨ (Rect.block (s := S262144x64) S16384x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x16.size a ≤ S1048576x16.size a
  hwx1_0 : ∀ i : grid1.Coords, EltTy.bits .f32 = 32 ∨ (Rect.block (s := S1048576x16) S16384x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16384x64.size a ≤ S1048576x64.size a
  hwx1_3 : ∀ i : grid1.Coords, EltTy.bits .f32 = 32 ∨ (Rect.block (s := S1048576x64) S16384x64.size (cc1_transform_3 i) (hinb1_3 i)).WholeWords (EltTy.packing .f32)

variable [Facts₀]

def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf
def scatter_S16_S2048x1_S2048_n_0_0_1 : ScatterDims S16 S2048x1 S2048 where
  updateWindowDims := []
  insertedWindowDims := [0]
  scatterDimsToOperandDims := [0]
  indexVectorDim := 1
  wf := scatter_S16_S2048x1_S2048_n_0_0_1_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf
def gather_S17_S32768x1_S32768_n_0_n_n_0_1_1 : GatherDims S17 S32768x1 S32768 where
  offsetDims := []
  collapsedSliceDims := [0]
  operandBatchingDims := []
  startIndicesBatchingDims := []
  startIndexMap := [0]
  indexVectorDim := 1
  sliceSizes := ![1]
  wf := gather_S17_S32768x1_S32768_n_0_n_n_0_1_1_wf
def gather_S16x128x128x64_S32768x3_S32768x64_1_012_n_n_012_1_11164 : GatherDims S16x128x128x64 S32768x3 S32768x64 where
  offsetDims := [1]
  collapsedSliceDims := [0, 1, 2]
  operandBatchingDims := []
  startIndicesBatchingDims := []
  startIndexMap := [0, 1, 2]
  indexVectorDim := 1
  sliceSizes := ![1, 1, 1, 64]
  wf := gather_S16x128x128x64_S32768x3_S32768x64_1_012_n_n_012_1_11164_wf
def scatter_S16_S4096x1_S4096_n_0_0_1 : ScatterDims S16 S4096x1 S4096 where
  updateWindowDims := []
  insertedWindowDims := [0]
  scatterDimsToOperandDims := [0]
  indexVectorDim := 1
  wf := scatter_S16_S4096x1_S4096_n_0_0_1_wf
def gather_S4096_S32768x1_S32768_n_0_n_n_0_1_1 : GatherDims S4096 S32768x1 S32768 where
  offsetDims := []
  collapsedSliceDims := [0]
  operandBatchingDims := []
  startIndicesBatchingDims := []
  startIndexMap := [0]
  indexVectorDim := 1
  sliceSizes := ![1]
  wf := gather_S4096_S32768x1_S32768_n_0_n_n_0_1_1_wf
def gather_S16x256x256x64_S32768x3_S32768x64_1_012_n_n_012_1_11164 : GatherDims S16x256x256x64 S32768x3 S32768x64 where
  offsetDims := [1]
  collapsedSliceDims := [0, 1, 2]
  operandBatchingDims := []
  startIndicesBatchingDims := []
  startIndexMap := [0, 1, 2]
  indexVectorDim := 1
  sliceSizes := ![1, 1, 1, 64]
  wf := gather_S16x256x256x64_S32768x3_S32768x64_1_012_n_n_012_1_11164_wf
def gather_S12x64_S67584x1_S67584x64_1_0_n_n_0_1_164 : GatherDims S12x64 S67584x1 S67584x64 where
  offsetDims := [1]
  collapsedSliceDims := [0]
  operandBatchingDims := []
  startIndicesBatchingDims := []
  startIndexMap := [0]
  indexVectorDim := 1
  sliceSizes := ![1, 64]
  wf := gather_S12x64_S67584x1_S67584x64_1_0_n_n_0_1_164_wf
def gather_S2048_S67584x1_S67584_n_0_n_n_0_1_1 : GatherDims S2048 S67584x1 S67584 where
  offsetDims := []
  collapsedSliceDims := [0]
  operandBatchingDims := []
  startIndicesBatchingDims := []
  startIndexMap := [0]
  indexVectorDim := 1
  sliceSizes := ![1]
  wf := gather_S2048_S67584x1_S67584_n_0_n_n_0_1_1_wf
def gather_S17_S67584x1_S67584_n_0_n_n_0_1_1 : GatherDims S17 S67584x1 S67584 where
  offsetDims := []
  collapsedSliceDims := [0]
  operandBatchingDims := []
  startIndicesBatchingDims := []
  startIndexMap := [0]
  indexVectorDim := 1
  sliceSizes := ![1]
  wf := gather_S17_S67584x1_S67584_n_0_n_n_0_1_1_wf
def scatter_S16x128x128x64_S67584x3_S67584x64_1_012_012_1 : ScatterDims S16x128x128x64 S67584x3 S67584x64 where
  updateWindowDims := [1]
  insertedWindowDims := [0, 1, 2]
  scatterDimsToOperandDims := [0, 1, 2]
  indexVectorDim := 1
  wf := scatter_S16x128x128x64_S67584x3_S67584x64_1_012_012_1_wf
def gather_S12x64_S69632x1_S69632x64_1_0_n_n_0_1_164 : GatherDims S12x64 S69632x1 S69632x64 where
  offsetDims := [1]
  collapsedSliceDims := [0]
  operandBatchingDims := []
  startIndicesBatchingDims := []
  startIndexMap := [0]
  indexVectorDim := 1
  sliceSizes := ![1, 64]
  wf := gather_S12x64_S69632x1_S69632x64_1_0_n_n_0_1_164_wf
def gather_S4096_S69632x1_S69632_n_0_n_n_0_1_1 : GatherDims S4096 S69632x1 S69632 where
  offsetDims := []
  collapsedSliceDims := [0]
  operandBatchingDims := []
  startIndicesBatchingDims := []
  startIndexMap := [0]
  indexVectorDim := 1
  sliceSizes := ![1]
  wf := gather_S4096_S69632x1_S69632_n_0_n_n_0_1_1_wf
def gather_S17_S69632x1_S69632_n_0_n_n_0_1_1 : GatherDims S17 S69632x1 S69632 where
  offsetDims := []
  collapsedSliceDims := [0]
  operandBatchingDims := []
  startIndicesBatchingDims := []
  startIndexMap := [0]
  indexVectorDim := 1
  sliceSizes := ![1]
  wf := gather_S17_S69632x1_S69632_n_0_n_n_0_1_1_wf
def scatter_S16x256x256x64_S69632x3_S69632x64_1_012_012_1 : ScatterDims S16x256x256x64 S69632x3 S69632x64 where
  updateWindowDims := [1]
  insertedWindowDims := [0, 1, 2]
  scatterDimsToOperandDims := [0, 1, 2]
  indexVectorDim := 1
  wf := scatter_S16x256x256x64_S69632x3_S69632x64_1_012_012_1_wf

abbrev win0_0 : Pipeline.Window sig grid0 :=
  Pipeline.Window.ofSpec (Memref.whole main_arg0) S16384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16384x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S16384x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v92) S16384x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x16 : Shape := ⟨2, ![262144, 16]⟩
abbrev S1048576x16 : Shape := ⟨2, ![1048576, 16]⟩
abbrev S16x64 : Shape := ⟨2, ![16, 64]⟩
abbrev S64 : Shape := ⟨1, ![64]⟩
abbrev S12x64 : Shape := ⟨2, ![12, 64]⟩
abbrev S2048 : Shape := ⟨1, ![2048]⟩
abbrev S4096 : Shape := ⟨1, ![4096]⟩
abbrev S2x32768 : Shape := ⟨2, ![2, 32768]⟩
abbrev S2x65536 : Shape := ⟨2, ![2, 65536]⟩
abbrev S65536 : Shape := ⟨1, ![65536]⟩
abbrev S16x128x128x16 : Shape := ⟨4, ![16, 128, 128, 16]⟩
abbrev S16x128x128x64 : Shape := ⟨4, ![16, 128, 128, 64]⟩
abbrev S1x1x1x64 : Shape := ⟨4, ![1, 1, 1, 64]⟩
abbrev S_ : Shape := ⟨0, ![]⟩
abbrev S16 : Shape := ⟨1, ![16]⟩
abbrev S2048x1 : Shape := ⟨2, ![2048, 1]⟩
abbrev S1 : Shape := ⟨1, ![1]⟩
abbrev S17 : Shape := ⟨1, ![17]⟩
abbrev S1x32768 : Shape := ⟨2, ![1, 32768]⟩
abbrev S32768 : Shape := ⟨1, ![32768]⟩
abbrev S32768x1 : Shape := ⟨2, ![32768, 1]⟩
abbrev S32768x3 : Shape := ⟨2, ![32768, 3]⟩
abbrev S32768x64 : Shape := ⟨2, ![32768, 64]⟩
abbrev S16x256x256x16 : Shape := ⟨4, ![16, 256, 256, 16]⟩
abbrev S16x256x256x64 : Shape := ⟨4, ![16, 256, 256, 64]⟩
abbrev S4096x1 : Shape := ⟨2, ![4096, 1]⟩
abbrev S1x2048 : Shape := ⟨2, ![1, 2048]⟩
abbrev S1x1x1x2048 : Shape := ⟨4, ![1, 1, 1, 2048]⟩
abbrev S2x1x1x2048 : Shape := ⟨4, ![2, 1, 1, 2048]⟩
abbrev S2x2048 : Shape := ⟨2, ![2, 2048]⟩
abbrev S2x67584 : Shape := ⟨2, ![2, 67584]⟩
abbrev S67584 : Shape := ⟨1, ![67584]⟩
abbrev S67584x1 : Shape := ⟨2, ![67584, 1]⟩
abbrev S67584x64 : Shape := ⟨2, ![67584, 64]⟩
abbrev S1x67584 : Shape := ⟨2, ![1, 67584]⟩
abbrev S67584x3 : Shape := ⟨2, ![67584, 3]⟩
abbrev S1x4096 : Shape := ⟨2, ![1, 4096]⟩
abbrev S1x1x1x4096 : Shape := ⟨4, ![1, 1, 1, 4096]⟩
abbrev S2x1x1x4096 : Shape := ⟨4, ![2, 1, 1, 4096]⟩
abbrev S2x4096 : Shape := ⟨2, ![2, 4096]⟩
abbrev S2x69632 : Shape := ⟨2, ![2, 69632]⟩
abbrev S69632 : Shape := ⟨1, ![69632]⟩
abbrev S69632x1 : Shape := ⟨2, ![69632, 1]⟩
abbrev S69632x64 : Shape := ⟨2, ![69632, 64]⟩
abbrev S1x69632 : Shape := ⟨2, ![1, 69632]⟩
abbrev S69632x3 : Shape := ⟨2, ![69632, 3]⟩

abbrev nBuf : Space → Nat
  | .hbm => 490
  | .vmem => 0
  | .smem => 0
  | _ => 0

abbrev hbmTy0_0 (i : Nat) : BufTy := match i % 128 with
  | 0 => ⟨S262144x16, .f32⟩
  | 1 => ⟨S1048576x16, .f32⟩
  | 2 => ⟨S16x64, .f32⟩
  | 3 => ⟨S64, .f32⟩
  | 4 => ⟨S16x64, .f32⟩
  | 5 => ⟨S64, .f32⟩
  | 6 => ⟨S12x64, .f32⟩
  | 7 => ⟨S12x64, .f32⟩
  | 8 => ⟨S2048, .i32⟩
  | 9 => ⟨S4096, .i32⟩
  | 10 => ⟨S2x32768, .i32⟩
  | 11 => ⟨S2x32768, .i32⟩
  | 12 => ⟨S2x65536, .i32⟩
  | 13 => ⟨S65536, .i32⟩
  | 14 => ⟨S2x65536, .i32⟩
  | 15 => ⟨S65536, .i32⟩
  | 16 => ⟨S16x128x128x16, .f32⟩
  | 17 => ⟨S16x128x128x64, .f32⟩
  | 18 => ⟨S1x1x1x64, .f32⟩
  | 19 => ⟨S16x128x128x64, .f32⟩
  | 20 => ⟨S16x128x128x64, .f32⟩
  | 21 => ⟨S_, .i32⟩
  | 22 => ⟨S2048, .i32⟩
  | 23 => ⟨S_, .i32⟩
  | 24 => ⟨S16, .i32⟩
  | 25 => ⟨S2048x1, .i32⟩
  | 26 => ⟨S16, .i32⟩
  | 27 => ⟨S_, .i32⟩
  | 28 => ⟨S1, .i32⟩
  | 29 => ⟨S_, .i32⟩
  | 30 => ⟨S_, .i32⟩
  | 31 => ⟨S16, .i32⟩
  | 32 => ⟨S17, .i32⟩
  | 33 => ⟨S1x32768, .i32⟩
  | 34 => ⟨S32768, .i32⟩
  | 35 => ⟨S_, .i32⟩
  | 36 => ⟨S32768, .i32⟩
  | 37 => ⟨S32768, .i1⟩
  | 38 => ⟨S_, .i32⟩
  | 39 => ⟨S32768, .i32⟩
  | 40 => ⟨S32768, .i32⟩
  | 41 => ⟨S32768, .i32⟩
  | 42 => ⟨S32768x1, .i32⟩
  | 43 => ⟨S32768, .i32⟩
  | 44 => ⟨S1x32768, .i32⟩
  | 45 => ⟨S32768, .i32⟩
  | 46 => ⟨S_, .i32⟩
  | 47 => ⟨S32768, .i32⟩
  | 48 => ⟨S32768, .i1⟩
  | 49 => ⟨S_, .i32⟩
  | 50 => ⟨S32768, .i32⟩
  | 51 => ⟨S32768, .i32⟩
  | 52 => ⟨S32768, .i32⟩
  | 53 => ⟨S32768x1, .i32⟩
  | 54 => ⟨S32768, .i32⟩
  | 55 => ⟨S32768, .i32⟩
  | 56 => ⟨S1x32768, .i32⟩
  | 57 => ⟨S32768, .i32⟩
  | 58 => ⟨S1x32768, .i32⟩
  | 59 => ⟨S32768, .i32⟩
  | 60 => ⟨S_, .i32⟩
  | 61 => ⟨S32768, .i32⟩
  | 62 => ⟨S32768, .i1⟩
  | 63 => ⟨S_, .i32⟩
  | 64 => ⟨S32768, .i32⟩
  | 65 => ⟨S32768, .i32⟩
  | 66 => ⟨S32768, .i32⟩
  | 67 => ⟨S32768x1, .i32⟩
  | 68 => ⟨S32768, .i32⟩
  | 69 => ⟨S_, .i32⟩
  | 70 => ⟨S32768, .i32⟩
  | 71 => ⟨S32768, .i1⟩
  | 72 => ⟨S_, .i32⟩
  | 73 => ⟨S32768, .i32⟩
  | 74 => ⟨S32768, .i32⟩
  | 75 => ⟨S32768, .i32⟩
  | 76 => ⟨S32768x1, .i32⟩
  | 77 => ⟨S32768, .i32⟩
  | 78 => ⟨S32768, .i32⟩
  | 79 => ⟨S_, .i32⟩
  | 80 => ⟨S32768, .i32⟩
  | 81 => ⟨S32768, .i1⟩
  | 82 => ⟨S_, .i32⟩
  | 83 => ⟨S32768, .i32⟩
  | 84 => ⟨S32768, .i32⟩
  | 85 => ⟨S32768, .i32⟩
  | 86 => ⟨S_, .i32⟩
  | 87 => ⟨S32768, .i32⟩
  | 88 => ⟨S32768, .i1⟩
  | 89 => ⟨S_, .i32⟩
  | 90 => ⟨S32768, .i32⟩
  | 91 => ⟨S32768, .i32⟩
  | 92 => ⟨S32768, .i32⟩
  | 93 => ⟨S_, .i32⟩
  | 94 => ⟨S32768, .i32⟩
  | 95 => ⟨S32768, .i1⟩
  | 96 => ⟨S_, .i32⟩
  | 97 => ⟨S32768, .i32⟩
  | 98 => ⟨S32768, .i32⟩
  | 99 => ⟨S32768, .i32⟩
  | 100 => ⟨S32768x1, .i32⟩
  | 101 => ⟨S32768x1, .i32⟩
  | 102 => ⟨S32768x1, .i32⟩
  | 103 => ⟨S32768x3, .i32⟩
  | 104 => ⟨S32768x64, .f32⟩
  | 105 => ⟨S_, .i32⟩
  | 106 => ⟨S32768, .i32⟩
  | 107 => ⟨S32768, .i1⟩
  | 108 => ⟨S_, .i32⟩
  | 109 => ⟨S32768, .i32⟩
  | 110 => ⟨S32768, .i32⟩
  | 111 => ⟨S32768, .i32⟩
  | 112 => ⟨S_, .i32⟩
  | 113 => ⟨S32768, .i32⟩
  | 114 => ⟨S32768, .i1⟩
  | 115 => ⟨S_, .i32⟩
  | 116 => ⟨S32768, .i32⟩
  | 117 => ⟨S32768, .i32⟩
  | 118 => ⟨S32768, .i32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768x1, .i32⟩
  | _ => ⟨S262144x16, .f32⟩

abbrev hbmTy0_1 (i : Nat) : BufTy := match i % 128 with
  | 0 => ⟨S32768x1, .i32⟩
  | 1 => ⟨S32768x3, .i32⟩
  | 2 => ⟨S32768x64, .f32⟩
  | 3 => ⟨S32768x64, .f32⟩
  | 4 => ⟨S_, .f32⟩
  | 5 => ⟨S32768x64, .f32⟩
  | 6 => ⟨S32768x64, .f32⟩
  | 7 => ⟨S16x256x256x16, .f32⟩
  | 8 => ⟨S16x256x256x64, .f32⟩
  | 9 => ⟨S1x1x1x64, .f32⟩
  | 10 => ⟨S16x256x256x64, .f32⟩
  | 11 => ⟨S16x256x256x64, .f32⟩
  | 12 => ⟨S_, .i32⟩
  | 13 => ⟨S4096, .i32⟩
  | 14 => ⟨S_, .i32⟩
  | 15 => ⟨S16, .i32⟩
  | 16 => ⟨S4096x1, .i32⟩
  | 17 => ⟨S16, .i32⟩
  | 18 => ⟨S_, .i32⟩
  | 19 => ⟨S1, .i32⟩
  | 20 => ⟨S_, .i32⟩
  | 21 => ⟨S_, .i32⟩
  | 22 => ⟨S16, .i32⟩
  | 23 => ⟨S17, .i32⟩
  | 24 => ⟨S1x32768, .i32⟩
  | 25 => ⟨S32768, .i32⟩
  | 26 => ⟨S_, .i32⟩
  | 27 => ⟨S32768, .i32⟩
  | 28 => ⟨S32768, .i1⟩
  | 29 => ⟨S_, .i32⟩
  | 30 => ⟨S32768, .i32⟩
  | 31 => ⟨S32768, .i32⟩
  | 32 => ⟨S32768, .i32⟩
  | 33 => ⟨S32768x1, .i32⟩
  | 34 => ⟨S32768, .i32⟩
  | 35 => ⟨S1x32768, .i32⟩
  | 36 => ⟨S32768, .i32⟩
  | 37 => ⟨S_, .i32⟩
  | 38 => ⟨S32768, .i32⟩
  | 39 => ⟨S32768, .i1⟩
  | 40 => ⟨S_, .i32⟩
  | 41 => ⟨S32768, .i32⟩
  | 42 => ⟨S32768, .i32⟩
  | 43 => ⟨S32768, .i32⟩
  | 44 => ⟨S32768x1, .i32⟩
  | 45 => ⟨S32768, .i32⟩
  | 46 => ⟨S32768, .i32⟩
  | 47 => ⟨S1x32768, .i32⟩
  | 48 => ⟨S32768, .i32⟩
  | 49 => ⟨S1x32768, .i32⟩
  | 50 => ⟨S32768, .i32⟩
  | 51 => ⟨S_, .i32⟩
  | 52 => ⟨S32768, .i32⟩
  | 53 => ⟨S32768, .i1⟩
  | 54 => ⟨S_, .i32⟩
  | 55 => ⟨S32768, .i32⟩
  | 56 => ⟨S32768, .i32⟩
  | 57 => ⟨S32768, .i32⟩
  | 58 => ⟨S32768x1, .i32⟩
  | 59 => ⟨S32768, .i32⟩
  | 60 => ⟨S_, .i32⟩
  | 61 => ⟨S32768, .i32⟩
  | 62 => ⟨S32768, .i1⟩
  | 63 => ⟨S_, .i32⟩
  | 64 => ⟨S32768, .i32⟩
  | 65 => ⟨S32768, .i32⟩
  | 66 => ⟨S32768, .i32⟩
  | 67 => ⟨S32768x1, .i32⟩
  | 68 => ⟨S32768, .i32⟩
  | 69 => ⟨S32768, .i32⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S_, .i32⟩
  | 85 => ⟨S32768, .i32⟩
  | 86 => ⟨S32768, .i1⟩
  | 87 => ⟨S_, .i32⟩
  | 88 => ⟨S32768, .i32⟩
  | 89 => ⟨S32768, .i32⟩
  | 90 => ⟨S32768, .i32⟩
  | 91 => ⟨S32768x1, .i32⟩
  | 92 => ⟨S32768x1, .i32⟩
  | 93 => ⟨S32768x1, .i32⟩
  | 94 => ⟨S32768x3, .i32⟩
  | 95 => ⟨S32768x64, .f32⟩
  | 96 => ⟨S2048, .i32⟩
  | 97 => ⟨S1x2048, .i32⟩
  | 98 => ⟨S1x1x1x2048, .i32⟩
  | 99 => ⟨S2x1x1x2048, .i32⟩
  | 100 => ⟨S2x2048, .i32⟩
  | 101 => ⟨S2x67584, .i32⟩
  | 102 => ⟨S_, .i32⟩
  | 103 => ⟨S65536, .i32⟩
  | 104 => ⟨S65536, .i32⟩
  | 105 => ⟨S_, .i32⟩
  | 106 => ⟨S2048, .i32⟩
  | 107 => ⟨S67584, .i32⟩
  | 108 => ⟨S_, .i32⟩
  | 109 => ⟨S67584, .i32⟩
  | 110 => ⟨S67584, .i1⟩
  | 111 => ⟨S_, .i32⟩
  | 112 => ⟨S67584, .i32⟩
  | 113 => ⟨S67584, .i32⟩
  | 114 => ⟨S67584, .i32⟩
  | 115 => ⟨S67584x1, .i32⟩
  | 116 => ⟨S67584x64, .f32⟩
  | 117 => ⟨S_, .i32⟩
  | 118 => ⟨S2048, .i32⟩
  | 119 => ⟨S_, .i32⟩
  | 120 => ⟨S16, .i32⟩
  | 121 => ⟨S2048x1, .i32⟩
  | 122 => ⟨S16, .i32⟩
  | 123 => ⟨S_, .i32⟩
  | 124 => ⟨S1, .i32⟩
  | 125 => ⟨S_, .i32⟩
  | 126 => ⟨S_, .i32⟩
  | 127 => ⟨S16, .i32⟩
  | _ => ⟨S262144x16, .f32⟩

abbrev hbmTy0_2 (i : Nat) : BufTy := match i % 128 with
  | 0 => ⟨S17, .i32⟩
  | 1 => ⟨S1x67584, .i32⟩
  | 2 => ⟨S67584, .i32⟩
  | 3 => ⟨S_, .i32⟩
  | 4 => ⟨S67584, .i32⟩
  | 5 => ⟨S67584, .i1⟩
  | 6 => ⟨S_, .i32⟩
  | 7 => ⟨S67584, .i32⟩
  | 8 => ⟨S67584, .i32⟩
  | 9 => ⟨S67584, .i32⟩
  | 10 => ⟨S67584x1, .i32⟩
  | 11 => ⟨S67584, .i32⟩
  | 12 => ⟨S1x67584, .i32⟩
  | 13 => ⟨S67584, .i32⟩
  | 14 => ⟨S_, .i32⟩
  | 15 => ⟨S67584, .i32⟩
  | 16 => ⟨S67584, .i1⟩
  | 17 => ⟨S_, .i32⟩
  | 18 => ⟨S67584, .i32⟩
  | 19 => ⟨S67584, .i32⟩
  | 20 => ⟨S67584, .i32⟩
  | 21 => ⟨S67584x1, .i32⟩
  | 22 => ⟨S67584, .i32⟩
  | 23 => ⟨S67584, .i32⟩
  | 24 => ⟨S1x67584, .i32⟩
  | 25 => ⟨S67584, .i32⟩
  | 26 => ⟨S1x67584, .i32⟩
  | 27 => ⟨S67584, .i32⟩
  | 28 => ⟨S_, .i32⟩
  | 29 => ⟨S67584, .i32⟩
  | 30 => ⟨S67584, .i1⟩
  | 31 => ⟨S_, .i32⟩
  | 32 => ⟨S67584, .i32⟩
  | 33 => ⟨S67584, .i32⟩
  | 34 => ⟨S67584, .i32⟩
  | 35 => ⟨S67584x1, .i32⟩
  | 36 => ⟨S67584, .i32⟩
  | 37 => ⟨S_, .i32⟩
  | 38 => ⟨S67584, .i32⟩
  | 39 => ⟨S67584, .i1⟩
  | 40 => ⟨S_, .i32⟩
  | 41 => ⟨S67584, .i32⟩
  | 42 => ⟨S67584, .i32⟩
  | 43 => ⟨S67584, .i32⟩
  | 44 => ⟨S67584x1, .i32⟩
  | 45 => ⟨S67584, .i32⟩
  | 46 => ⟨S67584, .i32⟩
  | 47 => ⟨S_, .f32⟩
  | 48 => ⟨S16x128x128x64, .f32⟩
  | 49 => ⟨S_, .i32⟩
  | 50 => ⟨S67584, .i32⟩
  | 51 => ⟨S67584, .i1⟩
  | 52 => ⟨S_, .i32⟩
  | 53 => ⟨S67584, .i32⟩
  | 54 => ⟨S67584, .i32⟩
  | 55 => ⟨S67584, .i32⟩
  | 56 => ⟨S_, .i32⟩
  | 57 => ⟨S67584, .i32⟩
  | 58 => ⟨S67584, .i1⟩
  | 59 => ⟨S_, .i32⟩
  | 60 => ⟨S67584, .i32⟩
  | 61 => ⟨S67584, .i32⟩
  | 62 => ⟨S67584, .i32⟩
  | 63 => ⟨S_, .i32⟩
  | 64 => ⟨S67584, .i32⟩
  | 65 => ⟨S67584, .i1⟩
  | 66 => ⟨S_, .i32⟩
  | 67 => ⟨S67584, .i32⟩
  | 68 => ⟨S67584, .i32⟩
  | 69 => ⟨S67584, .i32⟩
  | 70 => ⟨S67584x1, .i32⟩
  | 71 => ⟨S67584x1, .i32⟩
  | 72 => ⟨S67584x1, .i32⟩
  | 73 => ⟨S67584x3, .i32⟩
  | 74 => ⟨S16x128x128x64, .f32⟩
  | 75 => ⟨S_, .i32⟩
  | 76 => ⟨S32768, .i32⟩
  | 77 => ⟨S32768, .i1⟩
  | 78 => ⟨S_, .i32⟩
  | 79 => ⟨S32768, .i32⟩
  | 80 => ⟨S32768, .i32⟩
  | 81 => ⟨S32768, .i32⟩
  | 82 => ⟨S_, .i32⟩
  | 83 => ⟨S32768, .i32⟩
  | 84 => ⟨S32768, .i1⟩
  | 85 => ⟨S_, .i32⟩
  | 86 => ⟨S32768, .i32⟩
  | 87 => ⟨S32768, .i32⟩
  | 88 => ⟨S32768, .i32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S32768x1, .i32⟩
  | 98 => ⟨S32768x1, .i32⟩
  | 99 => ⟨S32768x3, .i32⟩
  | 100 => ⟨S32768x64, .f32⟩
  | 101 => ⟨S4096, .i32⟩
  | 102 => ⟨S1x4096, .i32⟩
  | 103 => ⟨S1x1x1x4096, .i32⟩
  | 104 => ⟨S2x1x1x4096, .i32⟩
  | 105 => ⟨S2x4096, .i32⟩
  | 106 => ⟨S2x69632, .i32⟩
  | 107 => ⟨S_, .i32⟩
  | 108 => ⟨S65536, .i32⟩
  | 109 => ⟨S65536, .i32⟩
  | 110 => ⟨S_, .i32⟩
  | 111 => ⟨S4096, .i32⟩
  | 112 => ⟨S69632, .i32⟩
  | 113 => ⟨S_, .i32⟩
  | 114 => ⟨S69632, .i32⟩
  | 115 => ⟨S69632, .i1⟩
  | 116 => ⟨S_, .i32⟩
  | 117 => ⟨S69632, .i32⟩
  | 118 => ⟨S69632, .i32⟩
  | 119 => ⟨S69632, .i32⟩
  | 120 => ⟨S69632x1, .i32⟩
  | 121 => ⟨S69632x64, .f32⟩
  | 122 => ⟨S_, .i32⟩
  | 123 => ⟨S4096, .i32⟩
  | 124 => ⟨S_, .i32⟩
  | 125 => ⟨S16, .i32⟩
  | 126 => ⟨S4096x1, .i32⟩
  | 127 => ⟨S16, .i32⟩
  | _ => ⟨S262144x16, .f32⟩

abbrev hbmTy0_3 (i : Nat) : BufTy := match i % 128 with
  | 0 => ⟨S_, .i32⟩
  | 1 => ⟨S1, .i32⟩
  | 2 => ⟨S_, .i32⟩
  | 3 => ⟨S_, .i32⟩
  | 4 => ⟨S16, .i32⟩
  | 5 => ⟨S17, .i32⟩
  | 6 => ⟨S1x69632, .i32⟩
  | 7 => ⟨S69632, .i32⟩
  | 8 => ⟨S_, .i32⟩
  | 9 => ⟨S69632, .i32⟩
  | 10 => ⟨S69632, .i1⟩
  | 11 => ⟨S_, .i32⟩
  | 12 => ⟨S69632, .i32⟩
  | 13 => ⟨S69632, .i32⟩
  | 14 => ⟨S69632, .i32⟩
  | 15 => ⟨S69632x1, .i32⟩
  | 16 => ⟨S69632, .i32⟩
  | 17 => ⟨S1x69632, .i32⟩
  | 18 => ⟨S69632, .i32⟩
  | 19 => ⟨S_, .i32⟩
  | 20 => ⟨S69632, .i32⟩
  | 21 => ⟨S69632, .i1⟩
  | 22 => ⟨S_, .i32⟩
  | 23 => ⟨S69632, .i32⟩
  | 24 => ⟨S69632, .i32⟩
  | 25 => ⟨S69632, .i32⟩
  | 26 => ⟨S69632x1, .i32⟩
  | 27 => ⟨S69632, .i32⟩
  | 28 => ⟨S69632, .i32⟩
  | 29 => ⟨S1x69632, .i32⟩
  | 30 => ⟨S69632, .i32⟩
  | 31 => ⟨S1x69632, .i32⟩
  | 32 => ⟨S69632, .i32⟩
  | 33 => ⟨S_, .i32⟩
  | 34 => ⟨S69632, .i32⟩
  | 35 => ⟨S69632, .i1⟩
  | 36 => ⟨S_, .i32⟩
  | 37 => ⟨S69632, .i32⟩
  | 38 => ⟨S69632, .i32⟩
  | 39 => ⟨S69632, .i32⟩
  | 40 => ⟨S69632x1, .i32⟩
  | 41 => ⟨S69632, .i32⟩
  | 42 => ⟨S_, .i32⟩
  | 43 => ⟨S69632, .i32⟩
  | 44 => ⟨S69632, .i1⟩
  | 45 => ⟨S_, .i32⟩
  | 46 => ⟨S69632, .i32⟩
  | 47 => ⟨S69632, .i32⟩
  | 48 => ⟨S69632, .i32⟩
  | 49 => ⟨S69632x1, .i32⟩
  | 50 => ⟨S69632, .i32⟩
  | 51 => ⟨S69632, .i32⟩
  | 52 => ⟨S_, .f32⟩
  | 53 => ⟨S16x256x256x64, .f32⟩
  | 54 => ⟨S_, .i32⟩
  | 55 => ⟨S69632, .i32⟩
  | 56 => ⟨S69632, .i1⟩
  | 57 => ⟨S_, .i32⟩
  | 58 => ⟨S69632, .i32⟩
  | 59 => ⟨S69632, .i32⟩
  | 60 => ⟨S69632, .i32⟩
  | 61 => ⟨S_, .i32⟩
  | 62 => ⟨S69632, .i32⟩
  | 63 => ⟨S69632, .i1⟩
  | 64 => ⟨S_, .i32⟩
  | 65 => ⟨S69632, .i32⟩
  | 66 => ⟨S69632, .i32⟩
  | 67 => ⟨S69632, .i32⟩
  | 68 => ⟨S_, .i32⟩
  | 69 => ⟨S69632, .i32⟩
  | 70 => ⟨S69632, .i1⟩
  | 71 => ⟨S_, .i32⟩
  | 72 => ⟨S69632, .i32⟩
  | 73 => ⟨S69632, .i32⟩
  | 74 => ⟨S69632, .i32⟩
  | 75 => ⟨S69632x1, .i32⟩
  | 76 => ⟨S69632x1, .i32⟩
  | 77 => ⟨S69632x1, .i32⟩
  | 78 => ⟨S69632x3, .i32⟩
  | 79 => ⟨S16x256x256x64, .f32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S_, .i32⟩
  | 88 => ⟨S32768, .i32⟩
  | 89 => ⟨S32768, .i1⟩
  | 90 => ⟨S_, .i32⟩
  | 91 => ⟨S32768, .i32⟩
  | 92 => ⟨S32768, .i32⟩
  | 93 => ⟨S32768, .i32⟩
  | 94 => ⟨S_, .i32⟩
  | 95 => ⟨S32768, .i32⟩
  | 96 => ⟨S32768, .i1⟩
  | 97 => ⟨S_, .i32⟩
  | 98 => ⟨S32768, .i32⟩
  | 99 => ⟨S32768, .i32⟩
  | 100 => ⟨S32768, .i32⟩
  | 101 => ⟨S32768x1, .i32⟩
  | 102 => ⟨S32768x1, .i32⟩
  | 103 => ⟨S32768x1, .i32⟩
  | 104 => ⟨S32768x3, .i32⟩
  | 105 => ⟨S32768x64, .f32⟩
  | _ => ⟨S262144x16, .f32⟩

abbrev hbmTy (i : Nat) : BufTy := match i / 128 with
  | 0 => hbmTy0_0 i
  | 1 => hbmTy0_1 i
  | 2 => hbmTy0_2 i
  | 3 => hbmTy0_3 i
  | _ => ⟨S262144x16, .f32⟩

abbrev bufTy : (tb : Table) → Fin (tcTables nBuf tb) → BufTy
  | .hbm, ⟨i, _⟩ => hbmTy i
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_call0_call0_c : Ref sig .tc := ⟨.hbm, 29, rfl⟩
abbrev main_call0_call0_v0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_12 : Ref sig .tc := ⟨.hbm, 86, rfl⟩
abbrev main_v55 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_14 : Ref sig .tc := ⟨.hbm, 93, rfl⟩
abbrev main_v60 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_16 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_18 : Ref sig .tc := ⟨.hbm, 112, rfl⟩
abbrev main_v75 : Ref sig .tc := ⟨.hbm, 113, rfl⟩
abbrev main_v76 : Ref sig .tc := ⟨.hbm, 114, rfl⟩
abbrev main_c_19 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_c_21 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_22 : Ref sig .tc := ⟨.hbm, 140, rfl⟩
abbrev main_v98 : Ref sig .tc := ⟨.hbm, 141, rfl⟩
abbrev main_c_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_c_24 : Ref sig .tc := ⟨.hbm, 146, rfl⟩
abbrev main_v102 : Ref sig .tc := ⟨.hbm, 147, rfl⟩
abbrev main_call1_call0_c : Ref sig .tc := ⟨.hbm, 148, rfl⟩
abbrev main_call1_call0_v0 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_c_25 : Ref sig .tc := ⟨.hbm, 154, rfl⟩
abbrev main_v107 : Ref sig .tc := ⟨.hbm, 155, rfl⟩
abbrev main_v108 : Ref sig .tc := ⟨.hbm, 156, rfl⟩
abbrev main_c_26 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_c_27 : Ref sig .tc := ⟨.hbm, 165, rfl⟩
abbrev main_v116 : Ref sig .tc := ⟨.hbm, 166, rfl⟩
abbrev main_v117 : Ref sig .tc := ⟨.hbm, 167, rfl⟩
abbrev main_c_28 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_29 : Ref sig .tc := ⟨.hbm, 179, rfl⟩
abbrev main_v128 : Ref sig .tc := ⟨.hbm, 180, rfl⟩
abbrev main_v129 : Ref sig .tc := ⟨.hbm, 181, rfl⟩
abbrev main_c_30 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_31 : Ref sig .tc := ⟨.hbm, 188, rfl⟩
abbrev main_v135 : Ref sig .tc := ⟨.hbm, 189, rfl⟩
abbrev main_v136 : Ref sig .tc := ⟨.hbm, 190, rfl⟩
abbrev main_c_32 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_33 : Ref sig .tc := ⟨.hbm, 198, rfl⟩
abbrev main_v143 : Ref sig .tc := ⟨.hbm, 199, rfl⟩
abbrev main_v144 : Ref sig .tc := ⟨.hbm, 200, rfl⟩
abbrev main_c_34 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_c_35 : Ref sig .tc := ⟨.hbm, 205, rfl⟩
abbrev main_v148 : Ref sig .tc := ⟨.hbm, 206, rfl⟩
abbrev main_v149 : Ref sig .tc := ⟨.hbm, 207, rfl⟩
abbrev main_c_36 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_c_37 : Ref sig .tc := ⟨.hbm, 212, rfl⟩
abbrev main_v153 : Ref sig .tc := ⟨.hbm, 213, rfl⟩
abbrev main_v154 : Ref sig .tc := ⟨.hbm, 214, rfl⟩
abbrev main_c_38 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_c_39 : Ref sig .tc := ⟨.hbm, 230, rfl⟩
abbrev main_v169 : Ref sig .tc := ⟨.hbm, 231, rfl⟩
abbrev main_v170 : Ref sig .tc := ⟨.hbm, 232, rfl⟩
abbrev main_c_40 : Ref sig .tc := ⟨.hbm, 233, rfl⟩
abbrev main_v171 : Ref sig .tc := ⟨.hbm, 234, rfl⟩
abbrev main_v172 : Ref sig .tc := ⟨.hbm, 235, rfl⟩
abbrev main_c_41 : Ref sig .tc := ⟨.hbm, 236, rfl⟩
abbrev main_v173 : Ref sig .tc := ⟨.hbm, 237, rfl⟩
abbrev main_v174 : Ref sig .tc := ⟨.hbm, 238, rfl⟩
abbrev main_c_42 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_c_43 : Ref sig .tc := ⟨.hbm, 245, rfl⟩
abbrev main_v180 : Ref sig .tc := ⟨.hbm, 246, rfl⟩
abbrev main_c_44 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_c_45 : Ref sig .tc := ⟨.hbm, 251, rfl⟩
abbrev main_v184 : Ref sig .tc := ⟨.hbm, 252, rfl⟩
abbrev main_call2_call0_c : Ref sig .tc := ⟨.hbm, 253, rfl⟩
abbrev main_call2_call0_v0 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_c_46 : Ref sig .tc := ⟨.hbm, 259, rfl⟩
abbrev main_v189 : Ref sig .tc := ⟨.hbm, 260, rfl⟩
abbrev main_v190 : Ref sig .tc := ⟨.hbm, 261, rfl⟩
abbrev main_c_47 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_c_48 : Ref sig .tc := ⟨.hbm, 270, rfl⟩
abbrev main_v198 : Ref sig .tc := ⟨.hbm, 271, rfl⟩
abbrev main_v199 : Ref sig .tc := ⟨.hbm, 272, rfl⟩
abbrev main_c_49 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_c_50 : Ref sig .tc := ⟨.hbm, 284, rfl⟩
abbrev main_v210 : Ref sig .tc := ⟨.hbm, 285, rfl⟩
abbrev main_v211 : Ref sig .tc := ⟨.hbm, 286, rfl⟩
abbrev main_c_51 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_c_52 : Ref sig .tc := ⟨.hbm, 293, rfl⟩
abbrev main_v217 : Ref sig .tc := ⟨.hbm, 294, rfl⟩
abbrev main_v218 : Ref sig .tc := ⟨.hbm, 295, rfl⟩
abbrev main_c_53 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_cst_54 : Ref sig .tc := ⟨.hbm, 303, rfl⟩
abbrev main_v225 : Ref sig .tc := ⟨.hbm, 304, rfl⟩
abbrev main_c_55 : Ref sig .tc := ⟨.hbm, 305, rfl⟩
abbrev main_v226 : Ref sig .tc := ⟨.hbm, 306, rfl⟩
abbrev main_v227 : Ref sig .tc := ⟨.hbm, 307, rfl⟩
abbrev main_c_56 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_c_57 : Ref sig .tc := ⟨.hbm, 312, rfl⟩
abbrev main_v231 : Ref sig .tc := ⟨.hbm, 313, rfl⟩
abbrev main_v232 : Ref sig .tc := ⟨.hbm, 314, rfl⟩
abbrev main_c_58 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_c_59 : Ref sig .tc := ⟨.hbm, 319, rfl⟩
abbrev main_v236 : Ref sig .tc := ⟨.hbm, 320, rfl⟩
abbrev main_v237 : Ref sig .tc := ⟨.hbm, 321, rfl⟩
abbrev main_c_60 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_c_61 : Ref sig .tc := ⟨.hbm, 331, rfl⟩
abbrev main_v246 : Ref sig .tc := ⟨.hbm, 332, rfl⟩
abbrev main_v247 : Ref sig .tc := ⟨.hbm, 333, rfl⟩
abbrev main_c_62 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_c_63 : Ref sig .tc := ⟨.hbm, 338, rfl⟩
abbrev main_v251 : Ref sig .tc := ⟨.hbm, 339, rfl⟩
abbrev main_v252 : Ref sig .tc := ⟨.hbm, 340, rfl⟩
abbrev main_c_64 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_c_65 : Ref sig .tc := ⟨.hbm, 345, rfl⟩
abbrev main_v256 : Ref sig .tc := ⟨.hbm, 346, rfl⟩
abbrev main_v257 : Ref sig .tc := ⟨.hbm, 347, rfl⟩
abbrev main_c_66 : Ref sig .tc := ⟨.hbm, 348, rfl⟩
abbrev main_v258 : Ref sig .tc := ⟨.hbm, 349, rfl⟩
abbrev main_v259 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_c_67 : Ref sig .tc := ⟨.hbm, 363, rfl⟩
abbrev main_v272 : Ref sig .tc := ⟨.hbm, 364, rfl⟩
abbrev main_v273 : Ref sig .tc := ⟨.hbm, 365, rfl⟩
abbrev main_c_68 : Ref sig .tc := ⟨.hbm, 366, rfl⟩
abbrev main_v274 : Ref sig .tc := ⟨.hbm, 367, rfl⟩
abbrev main_v275 : Ref sig .tc := ⟨.hbm, 368, rfl⟩
abbrev main_c_69 : Ref sig .tc := ⟨.hbm, 369, rfl⟩
abbrev main_v276 : Ref sig .tc := ⟨.hbm, 370, rfl⟩
abbrev main_v277 : Ref sig .tc := ⟨.hbm, 371, rfl⟩
abbrev main_c_70 : Ref sig .tc := ⟨.hbm, 372, rfl⟩
abbrev main_v278 : Ref sig .tc := ⟨.hbm, 373, rfl⟩
abbrev main_v279 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_c_71 : Ref sig .tc := ⟨.hbm, 378, rfl⟩
abbrev main_v283 : Ref sig .tc := ⟨.hbm, 379, rfl⟩
abbrev main_c_72 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_c_73 : Ref sig .tc := ⟨.hbm, 384, rfl⟩
abbrev main_v287 : Ref sig .tc := ⟨.hbm, 385, rfl⟩
abbrev main_call3_call0_c : Ref sig .tc := ⟨.hbm, 386, rfl⟩
abbrev main_call3_call0_v0 : Ref sig .tc := ⟨.hbm, 387, rfl⟩
abbrev main_v288 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩
abbrev main_c_74 : Ref sig .tc := ⟨.hbm, 392, rfl⟩
abbrev main_v292 : Ref sig .tc := ⟨.hbm, 393, rfl⟩
abbrev main_v293 : Ref sig .tc := ⟨.hbm, 394, rfl⟩
abbrev main_c_75 : Ref sig .tc := ⟨.hbm, 395, rfl⟩
abbrev main_v294 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_v299 : Ref sig .tc := ⟨.hbm, 401, rfl⟩
abbrev main_v300 : Ref sig .tc := ⟨.hbm, 402, rfl⟩
abbrev main_c_76 : Ref sig .tc := ⟨.hbm, 403, rfl⟩
abbrev main_v301 : Ref sig .tc := ⟨.hbm, 404, rfl⟩
abbrev main_v302 : Ref sig .tc := ⟨.hbm, 405, rfl⟩
abbrev main_c_77 : Ref sig .tc := ⟨.hbm, 406, rfl⟩
abbrev main_v303 : Ref sig .tc := ⟨.hbm, 407, rfl⟩
abbrev main_v304 : Ref sig .tc := ⟨.hbm, 408, rfl⟩
abbrev main_v305 : Ref sig .tc := ⟨.hbm, 409, rfl⟩
abbrev main_v306 : Ref sig .tc := ⟨.hbm, 410, rfl⟩
abbrev main_v307 : Ref sig .tc := ⟨.hbm, 411, rfl⟩
abbrev main_v308 : Ref sig .tc := ⟨.hbm, 412, rfl⟩
abbrev main_v309 : Ref sig .tc := ⟨.hbm, 413, rfl⟩
abbrev main_v310 : Ref sig .tc := ⟨.hbm, 414, rfl⟩
abbrev main_v311 : Ref sig .tc := ⟨.hbm, 415, rfl⟩
abbrev main_v312 : Ref sig .tc := ⟨.hbm, 416, rfl⟩
abbrev main_c_78 : Ref sig .tc := ⟨.hbm, 417, rfl⟩
abbrev main_v313 : Ref sig .tc := ⟨.hbm, 418, rfl⟩
abbrev main_v314 : Ref sig .tc := ⟨.hbm, 419, rfl⟩
abbrev main_c_79 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_v319 : Ref sig .tc := ⟨.hbm, 425, rfl⟩
abbrev main_c_80 : Ref sig .tc := ⟨.hbm, 426, rfl⟩
abbrev main_v320 : Ref sig .tc := ⟨.hbm, 427, rfl⟩
abbrev main_v321 : Ref sig .tc := ⟨.hbm, 428, rfl⟩
abbrev main_c_81 : Ref sig .tc := ⟨.hbm, 429, rfl⟩
abbrev main_v322 : Ref sig .tc := ⟨.hbm, 430, rfl⟩
abbrev main_v323 : Ref sig .tc := ⟨.hbm, 431, rfl⟩
abbrev main_v324 : Ref sig .tc := ⟨.hbm, 432, rfl⟩
abbrev main_v325 : Ref sig .tc := ⟨.hbm, 433, rfl⟩
abbrev main_v326 : Ref sig .tc := ⟨.hbm, 434, rfl⟩
abbrev main_v327 : Ref sig .tc := ⟨.hbm, 435, rfl⟩
abbrev main_cst_82 : Ref sig .tc := ⟨.hbm, 436, rfl⟩
abbrev main_v328 : Ref sig .tc := ⟨.hbm, 437, rfl⟩
abbrev main_c_83 : Ref sig .tc := ⟨.hbm, 438, rfl⟩
abbrev main_v329 : Ref sig .tc := ⟨.hbm, 439, rfl⟩
abbrev main_v330 : Ref sig .tc := ⟨.hbm, 440, rfl⟩
abbrev main_c_84 : Ref sig .tc := ⟨.hbm, 441, rfl⟩
abbrev main_v331 : Ref sig .tc := ⟨.hbm, 442, rfl⟩
abbrev main_v332 : Ref sig .tc := ⟨.hbm, 443, rfl⟩
abbrev main_v333 : Ref sig .tc := ⟨.hbm, 444, rfl⟩
abbrev main_c_85 : Ref sig .tc := ⟨.hbm, 445, rfl⟩
abbrev main_v334 : Ref sig .tc := ⟨.hbm, 446, rfl⟩
abbrev main_v335 : Ref sig .tc := ⟨.hbm, 447, rfl⟩
abbrev main_c_86 : Ref sig .tc := ⟨.hbm, 448, rfl⟩
abbrev main_v336 : Ref sig .tc := ⟨.hbm, 449, rfl⟩
abbrev main_v337 : Ref sig .tc := ⟨.hbm, 450, rfl⟩
abbrev main_v338 : Ref sig .tc := ⟨.hbm, 451, rfl⟩
abbrev main_c_87 : Ref sig .tc := ⟨.hbm, 452, rfl⟩
abbrev main_v339 : Ref sig .tc := ⟨.hbm, 453, rfl⟩
abbrev main_v340 : Ref sig .tc := ⟨.hbm, 454, rfl⟩
abbrev main_c_88 : Ref sig .tc := ⟨.hbm, 455, rfl⟩
abbrev main_v341 : Ref sig .tc := ⟨.hbm, 456, rfl⟩
abbrev main_v342 : Ref sig .tc := ⟨.hbm, 457, rfl⟩
abbrev main_v343 : Ref sig .tc := ⟨.hbm, 458, rfl⟩
abbrev main_v344 : Ref sig .tc := ⟨.hbm, 459, rfl⟩
abbrev main_v345 : Ref sig .tc := ⟨.hbm, 460, rfl⟩
abbrev main_v346 : Ref sig .tc := ⟨.hbm, 461, rfl⟩
abbrev main_v347 : Ref sig .tc := ⟨.hbm, 462, rfl⟩
abbrev main_v348 : Ref sig .tc := ⟨.hbm, 463, rfl⟩
abbrev main_c_89 : Ref sig .tc := ⟨.hbm, 464, rfl⟩
abbrev main_v349 : Ref sig .tc := ⟨.hbm, 465, rfl⟩
abbrev main_v350 : Ref sig .tc := ⟨.hbm, 466, rfl⟩
abbrev main_c_90 : Ref sig .tc := ⟨.hbm, 467, rfl⟩
abbrev main_v351 : Ref sig .tc := ⟨.hbm, 468, rfl⟩
abbrev main_v352 : Ref sig .tc := ⟨.hbm, 469, rfl⟩
abbrev main_v353 : Ref sig .tc := ⟨.hbm, 470, rfl⟩
abbrev main_c_91 : Ref sig .tc := ⟨.hbm, 471, rfl⟩
abbrev main_v354 : Ref sig .tc := ⟨.hbm, 472, rfl⟩
abbrev main_v355 : Ref sig .tc := ⟨.hbm, 473, rfl⟩
abbrev main_c_92 : Ref sig .tc := ⟨.hbm, 474, rfl⟩
abbrev main_v356 : Ref sig .tc := ⟨.hbm, 475, rfl⟩
abbrev main_v357 : Ref sig .tc := ⟨.hbm, 476, rfl⟩
abbrev main_v358 : Ref sig .tc := ⟨.hbm, 477, rfl⟩
abbrev main_c_93 : Ref sig .tc := ⟨.hbm, 478, rfl⟩
abbrev main_v359 : Ref sig .tc := ⟨.hbm, 479, rfl⟩
abbrev main_v360 : Ref sig .tc := ⟨.hbm, 480, rfl⟩
abbrev main_c_94 : Ref sig .tc := ⟨.hbm, 481, rfl⟩
abbrev main_v361 : Ref sig .tc := ⟨.hbm, 482, rfl⟩
abbrev main_v362 : Ref sig .tc := ⟨.hbm, 483, rfl⟩
abbrev main_v363 : Ref sig .tc := ⟨.hbm, 484, rfl⟩
abbrev main_v364 : Ref sig .tc := ⟨.hbm, 485, rfl⟩
abbrev main_v365 : Ref sig .tc := ⟨.hbm, 486, rfl⟩
abbrev main_v366 : Ref sig .tc := ⟨.hbm, 487, rfl⟩
abbrev main_v367 : Ref sig .tc := ⟨.hbm, 488, rfl⟩
abbrev main_v368 : Ref sig .tc := ⟨.hbm, 489, rfl⟩

abbrev nD : Nat := 1
abbrev τ : Topo := Topo.v7x

variable {F : FTy → Type} [FloatOps F]

class Facts₀ : Prop where
  shapeCasts_S262144x16_S16x128x128x16 : S262144x16.ShapeCasts S16x128x128x16
  bcast_S64_S1x1x1x64_3 : S64.BroadcastsInDim S1x1x1x64 (![3] : Fin 1 → Fin S1x1x1x64.rank)
  bcast_S1x1x1x64_S16x128x128x64_0_1_2_3 : S1x1x1x64.BroadcastsInDim S16x128x128x64 (![0, 1, 2, 3] : Fin 4 → Fin S16x128x128x64.rank)
  bcast_S_S2048 : S_.BroadcastsInDim S2048 (![] : Fin 0 → Fin S2048.rank)
  bcast_S_S16 : S_.BroadcastsInDim S16 (![] : Fin 0 → Fin S16.rank)
  bcast_S2048_S2048x1_0 : S2048.BroadcastsInDim S2048x1 (![0] : Fin 1 → Fin S2048x1.rank)
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  concatenates_S1_S16_S17_d0 : Shape.Concatenates [S1, S16] S17 0
  slices_S2x32768_S1x32768_0_0 : S2x32768.Slices ![0, 0] S1x32768
  shapeCasts_S1x32768_S32768 : S1x32768.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S2x32768_S1x32768_1_0 : S2x32768.Slices ![1, 0] S1x32768
  concatenates_S32768x1_S32768x1_S32768x1_S32768x3_d1 : Shape.Concatenates [S32768x1, S32768x1, S32768x1] S32768x3 1
  bcast_S_S32768x64 : S_.BroadcastsInDim S32768x64 (![] : Fin 0 → Fin S32768x64.rank)
  shapeCasts_S1048576x16_S16x256x256x16 : S1048576x16.ShapeCasts S16x256x256x16
  bcast_S1x1x1x64_S16x256x256x64_0_1_2_3 : S1x1x1x64.BroadcastsInDim S16x256x256x64 (![0, 1, 2, 3] : Fin 4 → Fin S16x256x256x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S2048_S1x2048_1 : S2048.BroadcastsInDim S1x2048 (![1] : Fin 1 → Fin S1x2048.rank)
  shapeCasts_S1x2048_S1x1x1x2048 : S1x2048.ShapeCasts S1x1x1x2048
  bcast_S1x1x1x2048_S2x1x1x2048_0_1_2_3 : S1x1x1x2048.BroadcastsInDim S2x1x1x2048 (![0, 1, 2, 3] : Fin 4 → Fin S2x1x1x2048.rank)
  shapeCasts_S2x1x1x2048_S2x2048 : S2x1x1x2048.ShapeCasts S2x2048
  concatenates_S2x65536_S2x2048_S2x67584_d1 : Shape.Concatenates [S2x65536, S2x2048] S2x67584 1
  bcast_S_S65536 : S_.BroadcastsInDim S65536 (![] : Fin 0 → Fin S65536.rank)
  concatenates_S65536_S2048_S67584_d0 : Shape.Concatenates [S65536, S2048] S67584 0
  bcast_S_S67584 : S_.BroadcastsInDim S67584 (![] : Fin 0 → Fin S67584.rank)
  bcast_S67584_S67584x1_0 : S67584.BroadcastsInDim S67584x1 (![0] : Fin 1 → Fin S67584x1.rank)
  slices_S2x67584_S1x67584_0_0 : S2x67584.Slices ![0, 0] S1x67584
  shapeCasts_S1x67584_S67584 : S1x67584.ShapeCasts S67584
  slices_S2x67584_S1x67584_1_0 : S2x67584.Slices ![1, 0] S1x67584
  bcast_S_S16x128x128x64 : S_.BroadcastsInDim S16x128x128x64 (![] : Fin 0 → Fin S16x128x128x64.rank)
  concatenates_S67584x1_S67584x1_S67584x1_S67584x3_d1 : Shape.Concatenates [S67584x1, S67584x1, S67584x1] S67584x3 1
  bcast_S4096_S1x4096_1 : S4096.BroadcastsInDim S1x4096 (![1] : Fin 1 → Fin S1x4096.rank)
  shapeCasts_S1x4096_S1x1x1x4096 : S1x4096.ShapeCasts S1x1x1x4096
  bcast_S1x1x1x4096_S2x1x1x4096_0_1_2_3 : S1x1x1x4096.BroadcastsInDim S2x1x1x4096 (![0, 1, 2, 3] : Fin 4 → Fin S2x1x1x4096.rank)
  shapeCasts_S2x1x1x4096_S2x4096 : S2x1x1x4096.ShapeCasts S2x4096
  concatenates_S2x65536_S2x4096_S2x69632_d1 : Shape.Concatenates [S2x65536, S2x4096] S2x69632 1
  concatenates_S65536_S4096_S69632_d0 : Shape.Concatenates [S65536, S4096] S69632 0
  bcast_S_S69632 : S_.BroadcastsInDim S69632 (![] : Fin 0 → Fin S69632.rank)
  bcast_S69632_S69632x1_0 : S69632.BroadcastsInDim S69632x1 (![0] : Fin 1 → Fin S69632x1.rank)
  slices_S2x69632_S1x69632_0_0 : S2x69632.Slices ![0, 0] S1x69632
  shapeCasts_S1x69632_S69632 : S1x69632.ShapeCasts S69632
  slices_S2x69632_S1x69632_1_0 : S2x69632.Slices ![1, 0] S1x69632
  bcast_S_S16x256x256x64 : S_.BroadcastsInDim S16x256x256x64 (![] : Fin 0 → Fin S16x256x256x64.rank)
  concatenates_S69632x1_S69632x1_S69632x1_S69632x3_d1 : Shape.Concatenates [S69632x1, S69632x1, S69632x1] S69632x3 1
  dot_S16x128x128x16_S16x64_S16x128x128x64_3_0_012_1_n_n_wf : DotDims.WF S16x128x128x16 S16x64 S16x128x128x64 [3] [0] [0, 1, 2] [1] [] []
  scatter_S16_S2048x1_S2048_n_0_0_1_wf : ScatterDims.WF S16 S2048x1 S2048 [] [0] [0] 1
  gather_S2048_S32768x1_S32768_n_0_n_n_0_1_1_wf : GatherDims.WF S2048 S32768x1 S32768 [] [0] [] [0] [] 1 ![1]
  gather_S17_S32768x1_S32768_n_0_n_n_0_1_1_wf : GatherDims.WF S17 S32768x1 S32768 [] [0] [] [0] [] 1 ![1]
  gather_S16x128x128x64_S32768x3_S32768x64_1_012_n_n_012_1_11164_wf : GatherDims.WF S16x128x128x64 S32768x3 S32768x64 [1] [0, 1, 2] [] [0, 1, 2] [] 1 ![1, 1, 1, 64]
  dot_S16x256x256x16_S16x64_S16x256x256x64_3_0_012_1_n_n_wf : DotDims.WF S16x256x256x16 S16x64 S16x256x256x64 [3] [0] [0, 1, 2] [1] [] []
  scatter_S16_S4096x1_S4096_n_0_0_1_wf : ScatterDims.WF S16 S4096x1 S4096 [] [0] [0] 1
  gather_S4096_S32768x1_S32768_n_0_n_n_0_1_1_wf : GatherDims.WF S4096 S32768x1 S32768 [] [0] [] [0] [] 1 ![1]
  gather_S16x256x256x64_S32768x3_S32768x64_1_012_n_n_012_1_11164_wf : GatherDims.WF S16x256x256x64 S32768x3 S32768x64 [1] [0, 1, 2] [] [0, 1, 2] [] 1 ![1, 1, 1, 64]
  gather_S12x64_S67584x1_S67584x64_1_0_n_n_0_1_164_wf : GatherDims.WF S12x64 S67584x1 S67584x64 [1] [0] [] [0] [] 1 ![1, 64]
  gather_S2048_S67584x1_S67584_n_0_n_n_0_1_1_wf : GatherDims.WF S2048 S67584x1 S67584 [] [0] [] [0] [] 1 ![1]
  gather_S17_S67584x1_S67584_n_0_n_n_0_1_1_wf : GatherDims.WF S17 S67584x1 S67584 [] [0] [] [0] [] 1 ![1]
  scatter_S16x128x128x64_S67584x3_S67584x64_1_012_012_1_wf : ScatterDims.WF S16x128x128x64 S67584x3 S67584x64 [1] [0, 1, 2] [0, 1, 2] 1
  gather_S12x64_S69632x1_S69632x64_1_0_n_n_0_1_164_wf : GatherDims.WF S12x64 S69632x1 S69632x64 [1] [0] [] [0] [] 1 ![1, 64]
  gather_S4096_S69632x1_S69632_n_0_n_n_0_1_1_wf : GatherDims.WF S4096 S69632x1 S69632 [] [0] [] [0] [] 1 ![1]
  gather_S17_S69632x1_S69632_n_0_n_n_0_1_1_wf : GatherDims.WF S17 S69632x1 S69632 [] [0] [] [0] [] 1 ![1]
  scatter_S16x256x256x64_S69632x3_S69632x64_1_012_012_1_wf : ScatterDims.WF S16x256x256x64 S69632x3 S69632x64 [1] [0, 1, 2] [0, 1, 2] 1

variable [Facts₀]

def dot_S16x128x128x16_S16x64_S16x128x128x64_3_0_012_1_n_n : DotDims S16x128x128x16 S16x64 S16x128x128x64 where
  lhsContracting := [3]
  rhsContracting := [0]
  lhsNonContracting := [0, 1, 2]
  rhsNonContracting := [1]
  lhsBatch := []
  rhsBatch := []
  wf := dot_S16x128x128x16_S16x64_S16x128x128x64_3_0_012_1_n_n_wf
def scatter_S16_S2048x1_S2048_n_0_0_1 : ScatterDims S16 S2048x1 S2048 where
  updateWindowDims := []
  insertedWindowDims := [0]
  scatterDimsToOperandDims := [0]
  indexVectorDim := 1
  wf := scatter_S16_S2048x1_S2048_n_0_0_1_wf
def gather_S2048_S32768x1_S32768_n_0_n_n_0_1_1 : GatherDims S2048 S32768x1 S32768 where
  offsetDims := []
  collapsedSliceDims := [0]
  operandBatchingDims := []
  startIndicesBatchingDims := []
  startIndexMap := [0]
  indexVectorDim := 1
  sliceSizes := ![1]
  wf := gather_S2048_S32768x1_S32768_n_0_n_n_0_1_1_wf
def gather_S17_S32768x1_S32768_n_0_n_n_0_1_1 : GatherDims S17 S32768x1 S32768 where
  offsetDims := []
  collapsedSliceDims := [0]
  operandBatchingDims := []
  startIndicesBatchingDims := []
  startIndexMap := [0]
  indexVectorDim := 1
  sliceSizes := ![1]
  wf := gather_S17_S32768x1_S32768_n_0_n_n_0_1_1_wf
def gather_S16x128x128x64_S32768x3_S32768x64_1_012_n_n_012_1_11164 : GatherDims S16x128x128x64 S32768x3 S32768x64 where
  offsetDims := [1]
  collapsedSliceDims := [0, 1, 2]
  operandBatchingDims := []
  startIndicesBatchingDims := []
  startIndexMap := [0, 1, 2]
  indexVectorDim := 1
  sliceSizes := ![1, 1, 1, 64]
  wf := gather_S16x128x128x64_S32768x3_S32768x64_1_012_n_n_012_1_11164_wf
def dot_S16x256x256x16_S16x64_S16x256x256x64_3_0_012_1_n_n : DotDims S16x256x256x16 S16x64 S16x256x256x64 where
  lhsContracting := [3]
  rhsContracting := [0]
  lhsNonContracting := [0, 1, 2]
  rhsNonContracting := [1]
  lhsBatch := []
  rhsBatch := []
  wf := dot_S16x256x256x16_S16x64_S16x256x256x64_3_0_012_1_n_n_wf
def scatter_S16_S4096x1_S4096_n_0_0_1 : ScatterDims S16 S4096x1 S4096 where
  updateWindowDims := []
  insertedWindowDims := [0]
  scatterDimsToOperandDims := [0]
  indexVectorDim := 1
  wf := scatter_S16_S4096x1_S4096_n_0_0_1_wf
def gather_S4096_S32768x1_S32768_n_0_n_n_0_1_1 : GatherDims S4096 S32768x1 S32768 where
  offsetDims := []
  collapsedSliceDims := [0]
  operandBatchingDims := []
  startIndicesBatchingDims := []
  startIndexMap := [0]
  indexVectorDim := 1
  sliceSizes := ![1]
  wf := gather_S4096_S32768x1_S32768_n_0_n_n_0_1_1_wf
def gather_S16x256x256x64_S32768x3_S32768x64_1_012_n_n_012_1_11164 : GatherDims S16x256x256x64 S32768x3 S32768x64 where
  offsetDims := [1]
  collapsedSliceDims := [0, 1, 2]
  operandBatchingDims := []
  startIndicesBatchingDims := []
  startIndexMap := [0, 1, 2]
  indexVectorDim := 1
  sliceSizes := ![1, 1, 1, 64]
  wf := gather_S16x256x256x64_S32768x3_S32768x64_1_012_n_n_012_1_11164_wf
def gather_S12x64_S67584x1_S67584x64_1_0_n_n_0_1_164 : GatherDims S12x64 S67584x1 S67584x64 where
  offsetDims := [1]
  collapsedSliceDims := [0]
  operandBatchingDims := []
  startIndicesBatchingDims := []
  startIndexMap := [0]
  indexVectorDim := 1
  sliceSizes := ![1, 64]
  wf := gather_S12x64_S67584x1_S67584x64_1_0_n_n_0_1_164_wf
def gather_S2048_S67584x1_S67584_n_0_n_n_0_1_1 : GatherDims S2048 S67584x1 S67584 where
  offsetDims := []
  collapsedSliceDims := [0]
  operandBatchingDims := []
  startIndicesBatchingDims := []
  startIndexMap := [0]
  indexVectorDim := 1
  sliceSizes := ![1]
  wf := gather_S2048_S67584x1_S67584_n_0_n_n_0_1_1_wf
def gather_S17_S67584x1_S67584_n_0_n_n_0_1_1 : GatherDims S17 S67584x1 S67584 where
  offsetDims := []
  collapsedSliceDims := [0]
  operandBatchingDims := []
  startIndicesBatchingDims := []
  startIndexMap := [0]
  indexVectorDim := 1
  sliceSizes := ![1]
  wf := gather_S17_S67584x1_S67584_n_0_n_n_0_1_1_wf
def scatter_S16x128x128x64_S67584x3_S67584x64_1_012_012_1 : ScatterDims S16x128x128x64 S67584x3 S67584x64 where
  updateWindowDims := [1]
  insertedWindowDims := [0, 1, 2]
  scatterDimsToOperandDims := [0, 1, 2]
  indexVectorDim := 1
  wf := scatter_S16x128x128x64_S67584x3_S67584x64_1_012_012_1_wf
def gather_S12x64_S69632x1_S69632x64_1_0_n_n_0_1_164 : GatherDims S12x64 S69632x1 S69632x64 where
  offsetDims := [1]
  collapsedSliceDims := [0]
  operandBatchingDims := []
  startIndicesBatchingDims := []
  startIndexMap := [0]
  indexVectorDim := 1
  sliceSizes := ![1, 64]
  wf := gather_S12x64_S69632x1_S69632x64_1_0_n_n_0_1_164_wf
def gather_S4096_S69632x1_S69632_n_0_n_n_0_1_1 : GatherDims S4096 S69632x1 S69632 where
  offsetDims := []
  collapsedSliceDims := [0]
  operandBatchingDims := []
  startIndicesBatchingDims := []
  startIndexMap := [0]
  indexVectorDim := 1
  sliceSizes := ![1]
  wf := gather_S4096_S69632x1_S69632_n_0_n_n_0_1_1_wf
def gather_S17_S69632x1_S69632_n_0_n_n_0_1_1 : GatherDims S17 S69632x1 S69632 where
  offsetDims := []
  collapsedSliceDims := [0]
  operandBatchingDims := []
  startIndicesBatchingDims := []
  startIndexMap := [0]
  indexVectorDim := 1
  sliceSizes := ![1]
  wf := gather_S17_S69632x1_S69632_n_0_n_n_0_1_1_wf
def scatter_S16x256x256x64_S69632x3_S69632x64_1_012_012_1 : ScatterDims S16x256x256x64 S69632x3 S69632x64 where
  updateWindowDims := [1]
  insertedWindowDims := [0, 1, 2]
  scatterDimsToOperandDims := [0, 1, 2]
  indexVectorDim := 1
  wf := scatter_S16x256x256x64_S69632x3_S69632x64_1_012_012_1_wf

class Facts : Prop extends Facts₀ where

variable [Facts]
-- ==== Proof.BRegion.lean ====
import proofs.«175666_j17377437679648_2_alg».proof.Proof.Gen.Kernel.Launch
import proofs.«175666_j17377437679648_2_alg».proof.Proof.Gen.Kernel.Skeleton
import proofs.«175666_j17377437679648_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

/-! # The two kernel regions, each at the buffer contents it is entered with

Each region runs one body over a grid of row blocks: the body loads a block of 16384 rows of 16, the whole 16 × 64 weight
matrix and the 1 × 64 bias row, and stores the 16384 × 64 block  rows · weights + bias  over the whole output block (it also
loads the output block first and does not use it). So after the body at point t the three input buffers hold their
blocks and the output buffer holds the payload of the three blocks; this is the proof data of each region, stated at a
parameter V, the contents of the core's buffers when the region is entered. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of rows, of the weight matrix, of the bias row and of the output: the body's four accesses. -/
abbrev rX : Rect S16384x16 := Rect.unit (s := S16384x16) ![0, 0] S16384x16.size inb_S16384x16_S16384x16_0_0
abbrev rW : Rect S16x64 := Rect.unit (s := S16x64) ![0, 0] S16x64.size inb_S16x64_S16x64_0_0
abbrev rB : Rect S1x64 := Rect.unit (s := S1x64) ![0, 0] S1x64.size inb_S1x64_S1x64_0_0
abbrev rO : Rect S16384x64 := Rect.unit (s := S16384x64) ![0, 0] S16384x64.size inb_S16384x64_S16384x64_0_0

/-- The one store covers the output block. -/
theorem coverO (p0 : Vec F S16384x64 .f32) (y : S16384x64.Idx) :
    ∃ pc ∈ ([⟨rO, p0⟩] : List (View.Piece (Elt F) S16384x64 .f32)), y ∈ pc.1.set :=
  View.cover_of_tiled [⟨rO, p0⟩] S16384x64.size (by rfl) y

section Regions
variable (V : (c : Dev nD) → (b : Ref sig .tc) → Buf (Elt F) ((c : Thread nD τ).loc b))

/-! ## Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output buffer after the body: the payload of the three loaded blocks, stored over the whole block. -/
def out0_3 (x0 : Vec F S16384x16 .f32) (x1 : Vec F S16x64 .f32) (x2 : Vec F S1x64 .f32) : Vec F S16384x64 .f32 :=
  View.canon [⟨rO, k0_pay1 (View.ld x0 rX) (View.ld x1 rW) (View.ld x2 rB)⟩]

set_option maxHeartbeats 4000000 in
/-- The body on whole staging buffers, the inputs' at x0 x1 x2 and the output's at anything: it ends with the inputs' as they were
    and the output's at the payload. -/
theorem sound_kernel0 (c : Dev nD) (E : Set ℕ) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16384x64 .f32) (harg4 : arg4.IsWhole)
    (x0 : Vec F S16384x16 .f32) (x1 : Vec F S16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_bias_kernel i arg1 harg1 arg2 harg2 arg3 harg3 arg4 harg4) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-- The proof data of region 0 on core c: the arrays as the region finds them; after the body each input's buffer at its block and the
    output's at the payload of the blocks; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## Region 1 -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output buffer after the body: the payload of the three loaded blocks, stored over the whole block. -/
def out1_3 (x0 : Vec F S16384x16 .f32) (x1 : Vec F S16x64 .f32) (x2 : Vec F S1x64 .f32) : Vec F S16384x64 .f32 :=
  View.canon [⟨rO, k1_pay1 (View.ld x0 rX) (View.ld x1 rW) (View.ld x2 rB)⟩]

set_option maxHeartbeats 4000000 in
/-- The body on whole staging buffers, the inputs' at x0 x1 x2 and the output's at anything: it ends with the inputs' as they were
    and the output's at the payload. -/
theorem sound_kernel1 (c : Dev nD) (E : Set ℕ) (i : grid1.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16384x64 .f32) (harg4 : arg4.IsWhole)
    (x0 : Vec F S16384x16 .f32) (x1 : Vec F S16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_bias_kernel i arg1 harg1 arg2 harg2 arg3 harg3 arg4 harg4) K := by
  simp only [cc1__linear_bias_kernel_eq_skeleton]; unfold cc1__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-- The proof data of region 1 on core c: the arrays as the region finds them; after the body each input's buffer at its block and the
    output's at the payload of the blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.BRun.lean ====
import proofs.«175666_j17377437679648_2_alg».proof.Proof.BRegion

set_option maxRecDepth 65536

/-! # The run: the program's segments from the launch to the return

The program is 17 stretches of host operations and, after the first and after the fifth of them, a kernel region. The contents of a
core's buffers at each boundary are a fold from the launch memory: a stretch applies its operations in order, a region replaces its
four arrays by what its write-backs leave (the three inputs as entered, the output at the blocks the body stored). Every weakly fair
execution terminates, and at the end every unscoped buffer holds the last boundary's contents. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the stretch main_part0_ops0. -/
abbrev W1 : Dev nD → Valuation τ sig (Elt F) := fun c => StableHlo.after main_part0_ops0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the stretch main_part0_ops1. -/
abbrev W3 : Dev nD → Valuation τ sig (Elt F) := fun c => StableHlo.after main_part0_ops1 (W2 m ρ c)
/-- After the stretch main_part0_ops2. -/
abbrev W4 : Dev nD → Valuation τ sig (Elt F) := fun c => StableHlo.after main_part0_ops2 (W3 m ρ c)
/-- After the stretch main_part0_ops3. -/
abbrev W5 : Dev nD → Valuation τ sig (Elt F) := fun c => StableHlo.after main_part0_ops3 (W4 m ρ c)
/-- After the stretch main_part1_ops0. -/
abbrev W6 : Dev nD → Valuation τ sig (Elt F) := fun c => StableHlo.after main_part1_ops0 (W5 m ρ c)
/-- The same read at the TensorCore's references (what region 1's proof data take). -/
abbrev V6 : (c : Dev nD) → (b : Ref sig .tc) → Buf (Elt F) ((c : Thread nD τ).loc b) := fun c b => W6 m ρ c b
/-- At region 1's exit: its arrays at what the write-backs leave, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
/-- After the stretch main_part1_ops1. -/
abbrev W8 : Dev nD → Valuation τ sig (Elt F) := fun c => StableHlo.after main_part1_ops1 (W7 m ρ c)
/-- After the stretch main_part2_ops0. -/
abbrev W9 : Dev nD → Valuation τ sig (Elt F) := fun c => StableHlo.after main_part2_ops0 (W8 m ρ c)
/-- After the stretch main_part2_ops1. -/
abbrev W10 : Dev nD → Valuation τ sig (Elt F) := fun c => StableHlo.after main_part2_ops1 (W9 m ρ c)
/-- After the stretch main_part2_ops2. -/
abbrev W11 : Dev nD → Valuation τ sig (Elt F) := fun c => StableHlo.after main_part2_ops2 (W10 m ρ c)
/-- After the stretch main_part3_ops0. -/
abbrev W12 : Dev nD → Valuation τ sig (Elt F) := fun c => StableHlo.after main_part3_ops0 (W11 m ρ c)
/-- After the stretch main_part3_ops1. -/
abbrev W13 : Dev nD → Valuation τ sig (Elt F) := fun c => StableHlo.after main_part3_ops1 (W12 m ρ c)
/-- After the stretch main_part3_ops2. -/
abbrev W14 : Dev nD → Valuation τ sig (Elt F) := fun c => StableHlo.after main_part3_ops2 (W13 m ρ c)
/-- After the stretch main_part4_ops0. -/
abbrev W15 : Dev nD → Valuation τ sig (Elt F) := fun c => StableHlo.after main_part4_ops0 (W14 m ρ c)
/-- After the stretch main_part5_ops0. -/
abbrev W16 : Dev nD → Valuation τ sig (Elt F) := fun c => StableHlo.after main_part5_ops0 (W15 m ρ c)
/-- After the stretch main_part6_ops0. -/
abbrev W17 : Dev nD → Valuation τ sig (Elt F) := fun c => StableHlo.after main_part6_ops0 (W16 m ρ c)
/-- After the stretch main_part6_ops1. -/
abbrev W18 : Dev nD → Valuation τ sig (Elt F) := fun c => StableHlo.after main_part6_ops1 (W17 m ρ c)
/-- After the stretch main_part7_ops0. -/
abbrev W19 : Dev nD → Valuation τ sig (Elt F) := fun c => StableHlo.after main_part7_ops0 (W18 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem main_part0_ops0_fresh : (main_part0_ops0 : List (HloOp τ sig (Elt F))).Forall fun op => op.fresh = ∅ := by
  simp only [List.Forall]; repeat' constructor
/-- No operation of this stretch allocates a buffer. -/
theorem main_part0_ops1_fresh : (main_part0_ops1 : List (HloOp τ sig (Elt F))).Forall fun op => op.fresh = ∅ := by
  simp only [List.Forall]; repeat' constructor
/-- No operation of this stretch allocates a buffer. -/
theorem main_part0_ops2_fresh : (main_part0_ops2 : List (HloOp τ sig (Elt F))).Forall fun op => op.fresh = ∅ := by
  simp only [List.Forall]; repeat' constructor
/-- No operation of this stretch allocates a buffer. -/
theorem main_part0_ops3_fresh : (main_part0_ops3 : List (HloOp τ sig (Elt F))).Forall fun op => op.fresh = ∅ := by
  simp only [List.Forall]; repeat' constructor
/-- No operation of this stretch allocates a buffer. -/
theorem main_part1_ops0_fresh : (main_part1_ops0 : List (HloOp τ sig (Elt F))).Forall fun op => op.fresh = ∅ := by
  simp only [List.Forall]; repeat' constructor
/-- No operation of this stretch allocates a buffer. -/
theorem main_part1_ops1_fresh : (main_part1_ops1 : List (HloOp τ sig (Elt F))).Forall fun op => op.fresh = ∅ := by
  simp only [List.Forall]; repeat' constructor
/-- No operation of this stretch allocates a buffer. -/
theorem main_part2_ops0_fresh : (main_part2_ops0 : List (HloOp τ sig (Elt F))).Forall fun op => op.fresh = ∅ := by
  simp only [List.Forall]; repeat' constructor
/-- No operation of this stretch allocates a buffer. -/
theorem main_part2_ops1_fresh : (main_part2_ops1 : List (HloOp τ sig (Elt F))).Forall fun op => op.fresh = ∅ := by
  simp only [List.Forall]; repeat' constructor
/-- No operation of this stretch allocates a buffer. -/
theorem main_part2_ops2_fresh : (main_part2_ops2 : List (HloOp τ sig (Elt F))).Forall fun op => op.fresh = ∅ := by
  simp only [List.Forall]; repeat' constructor
/-- No operation of this stretch allocates a buffer. -/
theorem main_part3_ops0_fresh : (main_part3_ops0 : List (HloOp τ sig (Elt F))).Forall fun op => op.fresh = ∅ := by
  simp only [List.Forall]; repeat' constructor
/-- No operation of this stretch allocates a buffer. -/
theorem main_part3_ops1_fresh : (main_part3_ops1 : List (HloOp τ sig (Elt F))).Forall fun op => op.fresh = ∅ := by
  simp only [List.Forall]; repeat' constructor
/-- No operation of this stretch allocates a buffer. -/
theorem main_part3_ops2_fresh : (main_part3_ops2 : List (HloOp τ sig (Elt F))).Forall fun op => op.fresh = ∅ := by
  simp only [List.Forall]; repeat' constructor
/-- No operation of this stretch allocates a buffer. -/
theorem main_part4_ops0_fresh : (main_part4_ops0 : List (HloOp τ sig (Elt F))).Forall fun op => op.fresh = ∅ := by
  simp only [List.Forall]; repeat' constructor
/-- No operation of this stretch allocates a buffer. -/
theorem main_part5_ops0_fresh : (main_part5_ops0 : List (HloOp τ sig (Elt F))).Forall fun op => op.fresh = ∅ := by
  simp only [List.Forall]; repeat' constructor
/-- No operation of this stretch allocates a buffer. -/
theorem main_part6_ops0_fresh : (main_part6_ops0 : List (HloOp τ sig (Elt F))).Forall fun op => op.fresh = ∅ := by
  simp only [List.Forall]; repeat' constructor
/-- No operation of this stretch allocates a buffer. -/
theorem main_part6_ops1_fresh : (main_part6_ops1 : List (HloOp τ sig (Elt F))).Forall fun op => op.fresh = ∅ := by
  simp only [List.Forall]; repeat' constructor
/-- No operation of this stretch allocates a buffer. -/
theorem main_part7_ops0_fresh : (main_part7_ops0 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator register at some state. -/
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every unscoped buffer at W1, left at W2. Its arrays are split out of the unscoped
    buffers and put back at the exit contents; the generator register goes into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W6, left at W7. Its arrays are split out of the unscoped
    buffers and put back at the exit contents; the generator register goes into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last stretch ends in the last thread state beside the core owing nothing. -/
theorem last_chain (c : Dev nD) : iprop(StableHlo.held (c : Thread nD τ) (Pipeline.ucRefs τ sig) (W19 m ρ c) ∗ R c)
    ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The program as segments, and the launch -/

/-- The 19 segments in order. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part0_ops2 main_part0_ops2_sub main_part0_ops2_fresh (W3 m ρ)),
    .host (hseg main_part0_ops3 main_part0_ops3_sub main_part0_ops3_fresh (W4 m ρ)),
    .host (hseg main_part1_ops0 main_part1_ops0_sub main_part1_ops0_fresh (W5 m ρ)),
    .region (reg1 m ρ),
    .host (hseg main_part1_ops1 main_part1_ops1_sub main_part1_ops1_fresh (W7 m ρ)),
    .host (hseg main_part2_ops0 main_part2_ops0_sub main_part2_ops0_fresh (W8 m ρ)),
    .host (hseg main_part2_ops1 main_part2_ops1_sub main_part2_ops1_fresh (W9 m ρ)),
    .host (hseg main_part2_ops2 main_part2_ops2_sub main_part2_ops2_fresh (W10 m ρ)),
    .host (hseg main_part3_ops0 main_part3_ops0_sub main_part3_ops0_fresh (W11 m ρ)),
    .host (hseg main_part3_ops1 main_part3_ops1_sub main_part3_ops1_fresh (W12 m ρ)),
    .host (hseg main_part3_ops2 main_part3_ops2_sub main_part3_ops2_fresh (W13 m ρ)),
    .host (hseg main_part4_ops0 main_part4_ops0_sub main_part4_ops0_fresh (W14 m ρ)),
    .host (hseg main_part5_ops0 main_part5_ops0_sub main_part5_ops0_fresh (W15 m ρ)),
    .host (hseg main_part6_ops0 main_part6_ops0_sub main_part6_ops0_fresh (W16 m ρ)),
    .host (hseg main_part6_ops1 main_part6_ops1_sub main_part6_ops1_fresh (W17 m ρ)),
    .host (hseg main_part7_ops0 main_part7_ops0_sub main_part7_ops0_fresh (W18 m ρ)) ]
/-- The program IS the run of the segments. -/
theorem main_run (c : Dev nD) : main (F := F) c = Pipeline.Seg.run (segs m ρ) := (main_chain_windows c).trans (by chain_rfl)

set_option backward.isDefEq.respectTransparency.types false in
set_option maxHeartbeats 4000000 in
/-- From any memory with zero counters every weakly fair execution of the program on the TensorCores terminates, nothing faulting, and in
    every final state each unscoped buffer holds the last boundary's contents. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W19 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c b hb => h c _ (mem_uc b hb))

end Cert.Kernel.Hand

end
-- ==== Proof.LibWritten.lean ====
import Idealize.ShloMosaic.Lib.StableHlo.Run

/-! # A line of host operations beside the list of references it writes

Each host operation writes exactly one buffer, its result. When the k-th operation of a line writes exactly the k-th
reference of a list, every operation writes inside the list, and a reference outside the list is written by no
operation of the line: after the line it holds what it held before. -/

namespace Cert.Lib.Written

open Idealize.ShloMosaic Idealize.SL.Sem Idealize.ShloMosaic.StableHlo

variable {τ : Topo} {sig : RefSig} {Val : EltTy → Type}

/-- The k-th operation writes exactly the k-th reference. -/
abbrev Pairs (ops : List (HloOp τ sig Val)) (W : List (Ref sig .tc)) : Prop :=
  List.Forall₂ (fun op y => op.writes = {Proc.devRef (τ := τ) .tc y}) ops W

/-- Then every operation writes inside the list. -/
theorem Pairs.sub {ops : List (HloOp τ sig Val)} {W : List (Ref sig .tc)} (h : Pairs ops W) :
    ops.Forall fun op => op.writes ⊆ (W.map (Proc.devRef (τ := τ) .tc)).toFinset := by
  refine List.forall_iff_forall_mem.mpr ?_
  induction h with
  | nil => intro op hop; exact nomatch hop
  | @cons op₀ y ops' W' hab _ ih =>
    intro op hop
    rcases List.mem_cons.mp hop with rfl | hop
    · rw [hab]
      exact Finset.singleton_subset_iff.mpr (List.mem_toFinset.mpr (List.mem_map_of_mem List.mem_cons_self))
    · intro b hb
      have hb' := List.mem_toFinset.mp (ih op hop hb)
      exact List.mem_toFinset.mpr (by rw [List.map_cons]; exact List.mem_cons_of_mem _ hb')

/-- A reference outside the list holds after the line what it held before. -/
theorem Pairs.keep {ops : List (HloOp τ sig Val)} {W : List (Ref sig .tc)} (h : Pairs ops W) {r : Ref sig .tc} (hr : r ∉ W)
    (V : Valuation τ sig Val) : after ops V (Proc.devRef .tc r) = V (Proc.devRef .tc r) :=
  after_of_writes_sub ops V h.sub hr

end Cert.Lib.Written
-- ==== Proof.BFold.lean ====
import proofs.«175666_j17377437679648_2_alg».proof.Proof.BRun
import proofs.«175666_j17377437679648_2_alg».proof.Proof.LibWritten

set_option maxRecDepth 65536

/-! # What each segment leaves unchanged

Each host operation writes exactly one buffer, its result. Listing those results in order beside a stretch's operations (the
k-th operation writes the k-th reference), a reference outside the list is written by no operation of the stretch, so it holds
after the stretch what it held before. A region changes its output array only: each of its three input arrays is never written
back, and every other buffer is outside its windows. So a reference that no stretch writes and that is no region's output holds at
the end of the run what it held at the launch; the sixteen arguments are such references. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The regions: every reference but the output keeps its contents -/

/-- Region 0 changes its output array only: an input array is never written back, any other buffer is outside its windows. -/
theorem W2_of (c : Dev nD) (r : Ref sig .tc) (h : r ≠ main_v1) :
    W2 m ρ c (Proc.devRef .tc r) = W1 m ρ c (Proc.devRef .tc r) := by
  by_cases h0 : r = main_arg0
  · subst h0
    exact (W2_arr m ρ c 0).trans (((dat0 (V1 m ρ) c).arrAt_in 0 rfl _).trans (A_eq0 (V1 m ρ) c 0))
  by_cases h1 : r = main_arg2
  · subst h1
    exact (W2_arr m ρ c 1).trans (((dat0 (V1 m ρ) c).arrAt_in 1 rfl _).trans (A_eq0 (V1 m ρ) c 1))
  by_cases h2 : r = main_v0
  · subst h2
    exact (W2_arr m ρ c 2).trans (((dat0 (V1 m ρ) c).arrAt_in 2 rfl _).trans (A_eq0 (V1 m ρ) c 2))
  exact W2_of_ne m ρ c r fun w => match w with
    | ⟨0, _⟩ => Ne.symm h0
    | ⟨1, _⟩ => Ne.symm h1
    | ⟨2, _⟩ => Ne.symm h2
    | ⟨3, _⟩ => Ne.symm h
    | ⟨_ + 4, hw⟩ => absurd hw (Nat.not_lt.2 (Nat.le_add_left _ _))

/-- Region 1 changes its output array only: an input array is never written back, any other buffer is outside its windows. -/
theorem W7_of (c : Dev nD) (r : Ref sig .tc) (h : r ≠ main_v92) :
    W7 m ρ c (Proc.devRef .tc r) = W6 m ρ c (Proc.devRef .tc r) := by
  by_cases h0 : r = main_arg1
  · subst h0
    exact (W7_arr m ρ c 0).trans (((dat1 (V6 m ρ) c).arrAt_in 0 rfl _).trans (A_eq1 (V6 m ρ) c 0))
  by_cases h1 : r = main_arg4
  · subst h1
    exact (W7_arr m ρ c 1).trans (((dat1 (V6 m ρ) c).arrAt_in 1 rfl _).trans (A_eq1 (V6 m ρ) c 1))
  by_cases h2 : r = main_v91
  · subst h2
    exact (W7_arr m ρ c 2).trans (((dat1 (V6 m ρ) c).arrAt_in 2 rfl _).trans (A_eq1 (V6 m ρ) c 2))
  exact W7_of_ne m ρ c r fun w => match w with
    | ⟨0, _⟩ => Ne.symm h0
    | ⟨1, _⟩ => Ne.symm h1
    | ⟨2, _⟩ => Ne.symm h2
    | ⟨3, _⟩ => Ne.symm h
    | ⟨_ + 4, hw⟩ => absurd hw (Nat.not_lt.2 (Nat.le_add_left _ _))

/-! ## The host stretches: what each writes, and what it leaves -/

/-- The references main_part0_ops0's 1 operation write, in order. -/
abbrev main_part0_ops0_W : List (Ref sig .tc) :=
  [main_v0]
theorem main_part0_ops0_pairs : Cert.Lib.Written.Pairs (main_part0_ops0 : List (HloOp τ sig (Elt F))) main_part0_ops0_W :=
  .cons rfl (.nil)
theorem main_part0_ops0_writes : (main_part0_ops0 : List (HloOp τ sig (Elt F))).Forall fun op => op.writes ⊆ (main_part0_ops0_W.map (Proc.devRef (τ := τ) .tc)).toFinset :=
  main_part0_ops0_pairs.sub
theorem W1_of (c : Dev nD) (r : Ref sig .tc) (h : r ∉ main_part0_ops0_W) :
    W1 m ρ c (Proc.devRef .tc r) = W0 m ρ c (Proc.devRef .tc r) :=
  StableHlo.after_of_writes_sub main_part0_ops0 _ main_part0_ops0_writes h

/-- The references main_part0_ops1's 9 operations write, in order. -/
abbrev main_part0_ops1_W : List (Ref sig .tc) :=
  [main_v2, main_c, main_v3, main_c_0, main_v4, main_v5, main_v6, main_c_1, main_v7]
theorem main_part0_ops1_pairs : Cert.Lib.Written.Pairs (main_part0_ops1 : List (HloOp τ sig (Elt F))) main_part0_ops1_W :=
  .cons rfl (.cons rfl (.cons rfl (.cons rfl (.cons rfl (.cons rfl (.cons rfl (.cons rfl (.cons rfl (.nil)))))))))
theorem main_part0_ops1_writes : (main_part0_ops1 : List (HloOp τ sig (Elt F))).Forall fun op => op.writes ⊆ (main_part0_ops1_W.map (Proc.devRef (τ := τ) .tc)).toFinset :=
  main_part0_ops1_pairs.sub
theorem W3_of (c : Dev nD) (r : Ref sig .tc) (h : r ∉ main_part0_ops1_W) :
    W3 m ρ c (Proc.devRef .tc r) = W2 m ρ c (Proc.devRef .tc r) :=
  StableHlo.after_of_writes_sub main_part0_ops1 _ main_part0_ops1_writes h

/-- The references main_part0_ops2's 3 operations write, in order. -/
abbrev main_part0_ops2_W : List (Ref sig .tc) :=
  [main_call0_call0_c, main_call0_call0_v0, main_v8]
theorem main_part0_ops2_pairs : Cert.Lib.Written.Pairs (main_part0_ops2 : List (HloOp τ sig (Elt F))) main_part0_ops2_W :=
  .cons rfl (.cons rfl (.cons rfl (.nil)))
theorem main_part0_ops2_writes : (main_part0_ops2 : List (HloOp τ sig (Elt F))).Forall fun op => op.writes ⊆ (main_part0_ops2_W.map (Proc.devRef (τ := τ) .tc)).toFinset :=
  main_part0_ops2_pairs.sub
theorem W4_of (c : Dev nD) (r : Ref sig .tc) (h : r ∉ main_part0_ops2_W) :
    W4 m ρ c (Proc.devRef .tc r) = W3 m ρ c (Proc.devRef .tc r) :=
  StableHlo.after_of_writes_sub main_part0_ops2 _ main_part0_ops2_writes h

/-- The references main_part0_ops3's 48 operations write, in order. -/
abbrev main_part0_ops3_W : List (Ref sig .tc) :=
  [main_v9, main_v10, main_v11, main_c_2, main_v12, main_v13, main_c_3, main_v14, main_v15, main_v16,
    main_v17, main_v18, main_v19, main_v20, main_c_4, main_v21, main_v22, main_c_5, main_v23, main_v24,
    main_v25, main_v26, main_v27, main_v28, main_v29, main_v30, main_v31, main_v32, main_c_6, main_v33,
    main_v34, main_c_7, main_v35, main_v36, main_v37, main_v38, main_v39, main_c_8, main_v40, main_v41,
    main_c_9, main_v42, main_v43, main_v44, main_v45, main_v46, main_v47, main_c_10]
theorem main_part0_ops3_pairs : Cert.Lib.Written.Pairs (main_part0_ops3 : List (HloOp τ sig (Elt F))) main_part0_ops3_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))
theorem main_part0_ops3_writes : (main_part0_ops3 : List (HloOp τ sig (Elt F))).Forall fun op => op.writes ⊆ (main_part0_ops3_W.map (Proc.devRef (τ := τ) .tc)).toFinset :=
  main_part0_ops3_pairs.sub
theorem W5_of (c : Dev nD) (r : Ref sig .tc) (h : r ∉ main_part0_ops3_W) :
    W5 m ρ c (Proc.devRef .tc r) = W4 m ρ c (Proc.devRef .tc r) :=
  StableHlo.after_of_writes_sub main_part0_ops3 _ main_part0_ops3_writes h

/-- The references main_part1_ops0's 56 operations write, in order. -/
abbrev main_part1_ops0_W : List (Ref sig .tc) :=
  [main_v48, main_v49, main_c_11, main_v50, main_v51, main_v52, main_c_12, main_v53, main_v54, main_c_13,
    main_v55, main_v56, main_v57, main_c_14, main_v58, main_v59, main_c_15, main_v60, main_v61, main_v62,
    main_v63, main_v64, main_v65, main_v66, main_v67, main_c_16, main_v68, main_v69, main_c_17, main_v70,
    main_v71, main_v72, main_c_18, main_v73, main_v74, main_c_19, main_v75, main_v76, main_v77, main_c_20,
    main_v78, main_v79, main_c_21, main_v80, main_v81, main_v82, main_v83, main_v84, main_v85, main_v86,
    main_v87, main_v88, main_cst, main_v89, main_v90, main_v91]
theorem main_part1_ops0_pairs : Cert.Lib.Written.Pairs (main_part1_ops0 : List (HloOp τ sig (Elt F))) main_part1_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))
theorem main_part1_ops0_writes : (main_part1_ops0 : List (HloOp τ sig (Elt F))).Forall fun op => op.writes ⊆ (main_part1_ops0_W.map (Proc.devRef (τ := τ) .tc)).toFinset :=
  main_part1_ops0_pairs.sub
theorem W6_of (c : Dev nD) (r : Ref sig .tc) (h : r ∉ main_part1_ops0_W) :
    W6 m ρ c (Proc.devRef .tc r) = W5 m ρ c (Proc.devRef .tc r) :=
  StableHlo.after_of_writes_sub main_part1_ops0 _ main_part1_ops0_writes h

/-- The references main_part1_ops1's 3 operations write, in order. -/
abbrev main_part1_ops1_W : List (Ref sig .tc) :=
  [main_v93, main_c_22, main_v94]
theorem main_part1_ops1_pairs : Cert.Lib.Written.Pairs (main_part1_ops1 : List (HloOp τ sig (Elt F))) main_part1_ops1_W :=
  .cons rfl (.cons rfl (.cons rfl (.nil)))
theorem main_part1_ops1_writes : (main_part1_ops1 : List (HloOp τ sig (Elt F))).Forall fun op => op.writes ⊆ (main_part1_ops1_W.map (Proc.devRef (τ := τ) .tc)).toFinset :=
  main_part1_ops1_pairs.sub
theorem W8_of (c : Dev nD) (r : Ref sig .tc) (h : r ∉ main_part1_ops1_W) :
    W8 m ρ c (Proc.devRef .tc r) = W7 m ρ c (Proc.devRef .tc r) :=
  StableHlo.after_of_writes_sub main_part1_ops1 _ main_part1_ops1_writes h

/-- The references main_part2_ops0's 6 operations write, in order. -/
abbrev main_part2_ops0_W : List (Ref sig .tc) :=
  [main_c_23, main_v95, main_v96, main_v97, main_c_24, main_v98]
theorem main_part2_ops0_pairs : Cert.Lib.Written.Pairs (main_part2_ops0 : List (HloOp τ sig (Elt F))) main_part2_ops0_W :=
  .cons rfl (.cons rfl (.cons rfl (.cons rfl (.cons rfl (.cons rfl (.nil))))))
theorem main_part2_ops0_writes : (main_part2_ops0 : List (HloOp τ sig (Elt F))).Forall fun op => op.writes ⊆ (main_part2_ops0_W.map (Proc.devRef (τ := τ) .tc)).toFinset :=
  main_part2_ops0_pairs.sub
theorem W9_of (c : Dev nD) (r : Ref sig .tc) (h : r ∉ main_part2_ops0_W) :
    W9 m ρ c (Proc.devRef .tc r) = W8 m ρ c (Proc.devRef .tc r) :=
  StableHlo.after_of_writes_sub main_part2_ops0 _ main_part2_ops0_writes h

/-- The references main_part2_ops1's 3 operations write, in order. -/
abbrev main_part2_ops1_W : List (Ref sig .tc) :=
  [main_call1_call0_c, main_call1_call0_v0, main_v99]
theorem main_part2_ops1_pairs : Cert.Lib.Written.Pairs (main_part2_ops1 : List (HloOp τ sig (Elt F))) main_part2_ops1_W :=
  .cons rfl (.cons rfl (.cons rfl (.nil)))
theorem main_part2_ops1_writes : (main_part2_ops1 : List (HloOp τ sig (Elt F))).Forall fun op => op.writes ⊆ (main_part2_ops1_W.map (Proc.devRef (τ := τ) .tc)).toFinset :=
  main_part2_ops1_pairs.sub
theorem W10_of (c : Dev nD) (r : Ref sig .tc) (h : r ∉ main_part2_ops1_W) :
    W10 m ρ c (Proc.devRef .tc r) = W9 m ρ c (Proc.devRef .tc r) :=
  StableHlo.after_of_writes_sub main_part2_ops1 _ main_part2_ops1_writes h

/-- The references main_part2_ops2's 53 operations write, in order. -/
abbrev main_part2_ops2_W : List (Ref sig .tc) :=
  [main_v100, main_v101, main_v102, main_c_25, main_v103, main_v104, main_c_26, main_v105, main_v106, main_v107,
    main_v108, main_v109, main_v110, main_v111, main_c_27, main_v112, main_v113, main_c_28, main_v114, main_v115,
    main_v116, main_v117, main_v118, main_v119, main_v120, main_v121, main_v122, main_v123, main_c_29, main_v124,
    main_v125, main_c_30, main_v126, main_v127, main_v128, main_v129, main_v130, main_c_31, main_v131, main_v132,
    main_c_32, main_v133, main_v134, main_v135, main_v136, main_v137, main_v138, main_c_33, main_v139, main_v140,
    main_c_34, main_v141, main_v142]
theorem main_part2_ops2_pairs : Cert.Lib.Written.Pairs (main_part2_ops2 : List (HloOp τ sig (Elt F))) main_part2_ops2_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))
theorem main_part2_ops2_writes : (main_part2_ops2 : List (HloOp τ sig (Elt F))).Forall fun op => op.writes ⊆ (main_part2_ops2_W.map (Proc.devRef (τ := τ) .tc)).toFinset :=
  main_part2_ops2_pairs.sub
theorem W11_of (c : Dev nD) (r : Ref sig .tc) (h : r ∉ main_part2_ops2_W) :
    W11 m ρ c (Proc.devRef .tc r) = W10 m ρ c (Proc.devRef .tc r) :=
  StableHlo.after_of_writes_sub main_part2_ops2 _ main_part2_ops2_writes h

/-- The references main_part3_ops0's 49 operations write, in order. -/
abbrev main_part3_ops0_W : List (Ref sig .tc) :=
  [main_v143, main_c_35, main_v144, main_v145, main_c_36, main_v146, main_v147, main_v148, main_c_37, main_v149,
    main_v150, main_c_38, main_v151, main_v152, main_v153, main_v154, main_v155, main_v156, main_v157, main_v158,
    main_v159, main_v160, main_v161, main_v162, main_v163, main_v164, main_c_39, main_v165, main_v166, main_c_40,
    main_v167, main_v168, main_c_41, main_v169, main_v170, main_c_42, main_v171, main_v172, main_v173, main_v174,
    main_v175, main_c_43, main_v176, main_c_44, main_v177, main_v178, main_v179, main_c_45, main_v180]
theorem main_part3_ops0_pairs : Cert.Lib.Written.Pairs (main_part3_ops0 : List (HloOp τ sig (Elt F))) main_part3_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))
theorem main_part3_ops0_writes : (main_part3_ops0 : List (HloOp τ sig (Elt F))).Forall fun op => op.writes ⊆ (main_part3_ops0_W.map (Proc.devRef (τ := τ) .tc)).toFinset :=
  main_part3_ops0_pairs.sub
theorem W12_of (c : Dev nD) (r : Ref sig .tc) (h : r ∉ main_part3_ops0_W) :
    W12 m ρ c (Proc.devRef .tc r) = W11 m ρ c (Proc.devRef .tc r) :=
  StableHlo.after_of_writes_sub main_part3_ops0 _ main_part3_ops0_writes h

/-- The references main_part3_ops1's 3 operations write, in order. -/
abbrev main_part3_ops1_W : List (Ref sig .tc) :=
  [main_call2_call0_c, main_call2_call0_v0, main_v181]
theorem main_part3_ops1_pairs : Cert.Lib.Written.Pairs (main_part3_ops1 : List (HloOp τ sig (Elt F))) main_part3_ops1_W :=
  .cons rfl (.cons rfl (.cons rfl (.nil)))
theorem main_part3_ops1_writes : (main_part3_ops1 : List (HloOp τ sig (Elt F))).Forall fun op => op.writes ⊆ (main_part3_ops1_W.map (Proc.devRef (τ := τ) .tc)).toFinset :=
  main_part3_ops1_pairs.sub
theorem W13_of (c : Dev nD) (r : Ref sig .tc) (h : r ∉ main_part3_ops1_W) :
    W13 m ρ c (Proc.devRef .tc r) = W12 m ρ c (Proc.devRef .tc r) :=
  StableHlo.after_of_writes_sub main_part3_ops1 _ main_part3_ops1_writes h

/-- The references main_part3_ops2's 10 operations write, in order. -/
abbrev main_part3_ops2_W : List (Ref sig .tc) :=
  [main_v182, main_v183, main_v184, main_c_46, main_v185, main_v186, main_c_47, main_v187, main_v188, main_v189]
theorem main_part3_ops2_pairs : Cert.Lib.Written.Pairs (main_part3_ops2 : List (HloOp τ sig (Elt F))) main_part3_ops2_W :=
  .cons rfl (.cons rfl (.cons rfl (.cons rfl (.cons rfl (.cons rfl (.cons rfl (.cons rfl (.cons rfl (.cons rfl (.nil))))))))))
theorem main_part3_ops2_writes : (main_part3_ops2 : List (HloOp τ sig (Elt F))).Forall fun op => op.writes ⊆ (main_part3_ops2_W.map (Proc.devRef (τ := τ) .tc)).toFinset :=
  main_part3_ops2_pairs.sub
theorem W14_of (c : Dev nD) (r : Ref sig .tc) (h : r ∉ main_part3_ops2_W) :
    W14 m ρ c (Proc.devRef .tc r) = W13 m ρ c (Proc.devRef .tc r) :=
  StableHlo.after_of_writes_sub main_part3_ops2 _ main_part3_ops2_writes h

/-- The references main_part4_ops0's 60 operations write, in order. -/
abbrev main_part4_ops0_W : List (Ref sig .tc) :=
  [main_v190, main_v191, main_v192, main_v193, main_c_48, main_v194, main_v195, main_c_49, main_v196, main_v197,
    main_v198, main_v199, main_v200, main_v201, main_v202, main_v203, main_v204, main_v205, main_c_50, main_v206,
    main_v207, main_c_51, main_v208, main_v209, main_v210, main_v211, main_v212, main_c_52, main_v213, main_v214,
    main_c_53, main_v215, main_v216, main_v217, main_v218, main_v219, main_v220, main_cst_54, main_v221, main_c_55,
    main_v222, main_v223, main_c_56, main_v224, main_v225, main_v226, main_c_57, main_v227, main_v228, main_c_58,
    main_v229, main_v230, main_v231, main_c_59, main_v232, main_v233, main_c_60, main_v234, main_v235, main_v236]
theorem main_part4_ops0_pairs : Cert.Lib.Written.Pairs (main_part4_ops0 : List (HloOp τ sig (Elt F))) main_part4_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))
theorem main_part4_ops0_writes : (main_part4_ops0 : List (HloOp τ sig (Elt F))).Forall fun op => op.writes ⊆ (main_part4_ops0_W.map (Proc.devRef (τ := τ) .tc)).toFinset :=
  main_part4_ops0_pairs.sub
theorem W15_of (c : Dev nD) (r : Ref sig .tc) (h : r ∉ main_part4_ops0_W) :
    W15 m ρ c (Proc.devRef .tc r) = W14 m ρ c (Proc.devRef .tc r) :=
  StableHlo.after_of_writes_sub main_part4_ops0 _ main_part4_ops0_writes h

/-- The references main_part5_ops0's 60 operations write, in order. -/
abbrev main_part5_ops0_W : List (Ref sig .tc) :=
  [main_v237, main_v238, main_v239, main_v240, main_v241, main_c_61, main_v242, main_v243, main_c_62, main_v244,
    main_v245, main_v246, main_c_63, main_v247, main_v248, main_c_64, main_v249, main_v250, main_v251, main_c_65,
    main_v252, main_v253, main_c_66, main_v254, main_v255, main_v256, main_v257, main_v258, main_v259, main_v260,
    main_v261, main_v262, main_v263, main_v264, main_v265, main_v266, main_v267, main_c_67, main_v268, main_v269,
    main_c_68, main_v270, main_v271, main_c_69, main_v272, main_v273, main_c_70, main_v274, main_v275, main_v276,
    main_v277, main_v278, main_c_71, main_v279, main_c_72, main_v280, main_v281, main_v282, main_c_73, main_v283]
theorem main_part5_ops0_pairs : Cert.Lib.Written.Pairs (main_part5_ops0 : List (HloOp τ sig (Elt F))) main_part5_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))
theorem main_part5_ops0_writes : (main_part5_ops0 : List (HloOp τ sig (Elt F))).Forall fun op => op.writes ⊆ (main_part5_ops0_W.map (Proc.devRef (τ := τ) .tc)).toFinset :=
  main_part5_ops0_pairs.sub
theorem W16_of (c : Dev nD) (r : Ref sig .tc) (h : r ∉ main_part5_ops0_W) :
    W16 m ρ c (Proc.devRef .tc r) = W15 m ρ c (Proc.devRef .tc r) :=
  StableHlo.after_of_writes_sub main_part5_ops0 _ main_part5_ops0_writes h

/-- The references main_part6_ops0's 3 operations write, in order. -/
abbrev main_part6_ops0_W : List (Ref sig .tc) :=
  [main_call3_call0_c, main_call3_call0_v0, main_v284]
theorem main_part6_ops0_pairs : Cert.Lib.Written.Pairs (main_part6_ops0 : List (HloOp τ sig (Elt F))) main_part6_ops0_W :=
  .cons rfl (.cons rfl (.cons rfl (.nil)))
theorem main_part6_ops0_writes : (main_part6_ops0 : List (HloOp τ sig (Elt F))).Forall fun op => op.writes ⊆ (main_part6_ops0_W.map (Proc.devRef (τ := τ) .tc)).toFinset :=
  main_part6_ops0_pairs.sub
theorem W17_of (c : Dev nD) (r : Ref sig .tc) (h : r ∉ main_part6_ops0_W) :
    W17 m ρ c (Proc.devRef .tc r) = W16 m ρ c (Proc.devRef .tc r) :=
  StableHlo.after_of_writes_sub main_part6_ops0 _ main_part6_ops0_writes h

/-- The references main_part6_ops1's 59 operations write, in order. -/
abbrev main_part6_ops1_W : List (Ref sig .tc) :=
  [main_v285, main_v286, main_v287, main_c_74, main_v288, main_v289, main_c_75, main_v290, main_v291, main_v292,
    main_v293, main_v294, main_v295, main_v296, main_c_76, main_v297, main_v298, main_c_77, main_v299, main_v300,
    main_v301, main_v302, main_v303, main_v304, main_v305, main_v306, main_v307, main_v308, main_c_78, main_v309,
    main_v310, main_c_79, main_v311, main_v312, main_v313, main_v314, main_v315, main_c_80, main_v316, main_v317,
    main_c_81, main_v318, main_v319, main_v320, main_v321, main_v322, main_v323, main_cst_82, main_v324, main_c_83,
    main_v325, main_v326, main_c_84, main_v327, main_v328, main_v329, main_c_85, main_v330, main_v331]
theorem main_part6_ops1_pairs : Cert.Lib.Written.Pairs (main_part6_ops1 : List (HloOp τ sig (Elt F))) main_part6_ops1_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))
theorem main_part6_ops1_writes : (main_part6_ops1 : List (HloOp τ sig (Elt F))).Forall fun op => op.writes ⊆ (main_part6_ops1_W.map (Proc.devRef (τ := τ) .tc)).toFinset :=
  main_part6_ops1_pairs.sub
theorem W18_of (c : Dev nD) (r : Ref sig .tc) (h : r ∉ main_part6_ops1_W) :
    W18 m ρ c (Proc.devRef .tc r) = W17 m ρ c (Proc.devRef .tc r) :=
  StableHlo.after_of_writes_sub main_part6_ops1 _ main_part6_ops1_writes h

/-- The references main_part7_ops0's 42 operations write, in order. -/
abbrev main_part7_ops0_W : List (Ref sig .tc) :=
  [main_c_86, main_v332, main_v333, main_v334, main_c_87, main_v335, main_v336, main_c_88, main_v337, main_v338,
    main_v339, main_v340, main_v341, main_v342, main_v343, main_v344, main_c_89, main_v345, main_v346, main_c_90,
    main_v347, main_v348, main_v349, main_c_91, main_v350, main_v351, main_c_92, main_v352, main_v353, main_v354,
    main_c_93, main_v355, main_v356, main_c_94, main_v357, main_v358, main_v359, main_v360, main_v361, main_v362,
    main_v363, main_v364]
theorem main_part7_ops0_pairs : Cert.Lib.Written.Pairs (main_part7_ops0 : List (HloOp τ sig (Elt F))) main_part7_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))
theorem main_part7_ops0_writes : (main_part7_ops0 : List (HloOp τ sig (Elt F))).Forall fun op => op.writes ⊆ (main_part7_ops0_W.map (Proc.devRef (τ := τ) .tc)).toFinset :=
  main_part7_ops0_pairs.sub
theorem W19_of_W18 (c : Dev nD) (r : Ref sig .tc) (h : r ∉ main_part7_ops0_W) :
    W19 m ρ c (Proc.devRef .tc r) = W18 m ρ c (Proc.devRef .tc r) :=
  StableHlo.after_of_writes_sub main_part7_ops0 _ main_part7_ops0_writes h

/-! ## The whole run -/

/-- Every reference some stretch writes, and the two regions' outputs, segment by segment. -/
abbrev allW : List (Ref sig .tc) :=
  main_part0_ops0_W ++ ([main_v1] ++ (main_part0_ops1_W ++ (main_part0_ops2_W ++ (main_part0_ops3_W ++ (main_part1_ops0_W ++ ([main_v92] ++ (main_part1_ops1_W ++ (main_part2_ops0_W ++ (main_part2_ops1_W ++ (main_part2_ops2_W ++ (main_part3_ops0_W ++ (main_part3_ops1_W ++ (main_part3_ops2_W ++ (main_part4_ops0_W ++ (main_part5_ops0_W ++ (main_part6_ops0_W ++ (main_part6_ops1_W ++ (main_part7_ops0_W))))))))))))))))))

/-- A reference no segment writes holds at the end of the run what it held at the launch. -/
theorem W19_of (c : Dev nD) (r : Ref sig .tc) (h : r ∉ allW) :
    W19 m ρ c (Proc.devRef .tc r) = W0 m ρ c (Proc.devRef .tc r) := by
  have t0 := h
  have h0 := fun hx => t0 (List.mem_append.mpr (Or.inl hx))
  have t1 := fun hx => t0 (List.mem_append.mpr (Or.inr hx))
  have h1 := fun hx => t1 (List.mem_append.mpr (Or.inl hx))
  have t2 := fun hx => t1 (List.mem_append.mpr (Or.inr hx))
  have h2 := fun hx => t2 (List.mem_append.mpr (Or.inl hx))
  have t3 := fun hx => t2 (List.mem_append.mpr (Or.inr hx))
  have h3 := fun hx => t3 (List.mem_append.mpr (Or.inl hx))
  have t4 := fun hx => t3 (List.mem_append.mpr (Or.inr hx))
  have h4 := fun hx => t4 (List.mem_append.mpr (Or.inl hx))
  have t5 := fun hx => t4 (List.mem_append.mpr (Or.inr hx))
  have h5 := fun hx => t5 (List.mem_append.mpr (Or.inl hx))
  have t6 := fun hx => t5 (List.mem_append.mpr (Or.inr hx))
  have h6 := fun hx => t6 (List.mem_append.mpr (Or.inl hx))
  have t7 := fun hx => t6 (List.mem_append.mpr (Or.inr hx))
  have h7 := fun hx => t7 (List.mem_append.mpr (Or.inl hx))
  have t8 := fun hx => t7 (List.mem_append.mpr (Or.inr hx))
  have h8 := fun hx => t8 (List.mem_append.mpr (Or.inl hx))
  have t9 := fun hx => t8 (List.mem_append.mpr (Or.inr hx))
  have h9 := fun hx => t9 (List.mem_append.mpr (Or.inl hx))
  have t10 := fun hx => t9 (List.mem_append.mpr (Or.inr hx))
  have h10 := fun hx => t10 (List.mem_append.mpr (Or.inl hx))
  have t11 := fun hx => t10 (List.mem_append.mpr (Or.inr hx))
  have h11 := fun hx => t11 (List.mem_append.mpr (Or.inl hx))
  have t12 := fun hx => t11 (List.mem_append.mpr (Or.inr hx))
  have h12 := fun hx => t12 (List.mem_append.mpr (Or.inl hx))
  have t13 := fun hx => t12 (List.mem_append.mpr (Or.inr hx))
  have h13 := fun hx => t13 (List.mem_append.mpr (Or.inl hx))
  have t14 := fun hx => t13 (List.mem_append.mpr (Or.inr hx))
  have h14 := fun hx => t14 (List.mem_append.mpr (Or.inl hx))
  have t15 := fun hx => t14 (List.mem_append.mpr (Or.inr hx))
  have h15 := fun hx => t15 (List.mem_append.mpr (Or.inl hx))
  have t16 := fun hx => t15 (List.mem_append.mpr (Or.inr hx))
  have h16 := fun hx => t16 (List.mem_append.mpr (Or.inl hx))
  have t17 := fun hx => t16 (List.mem_append.mpr (Or.inr hx))
  have h17 := fun hx => t17 (List.mem_append.mpr (Or.inl hx))
  have t18 := fun hx => t17 (List.mem_append.mpr (Or.inr hx))
  have h18 := t18
  exact (W19_of_W18 m ρ c r h18).trans <|
    (W18_of m ρ c r h17).trans <|
    (W17_of m ρ c r h16).trans <|
    (W16_of m ρ c r h15).trans <|
    (W15_of m ρ c r h14).trans <|
    (W14_of m ρ c r h13).trans <|
    (W13_of m ρ c r h12).trans <|
    (W12_of m ρ c r h11).trans <|
    (W11_of m ρ c r h10).trans <|
    (W10_of m ρ c r h9).trans <|
    (W9_of m ρ c r h8).trans <|
    (W8_of m ρ c r h7).trans <|
    (W7_of m ρ c r fun e => h6 (e ▸ List.mem_cons_self)).trans <|
    (W6_of m ρ c r h5).trans <|
    (W5_of m ρ c r h4).trans <|
    (W4_of m ρ c r h3).trans <|
    (W3_of m ρ c r h2).trans <|
    (W2_of m ρ c r fun e => h1 (e ▸ List.mem_cons_self)).trans <|
    (W1_of m ρ c r h0)

/-! ## The arguments end as launched -/

/-- The sixteen arguments. -/
abbrev argRefs : List (Ref sig .tc) :=
  [main_arg0, main_arg1, main_arg2, main_arg3, main_arg4, main_arg5, main_arg6, main_arg7, main_arg8, main_arg9, main_arg10, main_arg11, main_arg12, main_arg13, main_arg14, main_arg15]
/-- No segment writes an argument (membership of references is decidable; one evaluation for the sixteen). -/
theorem args_not_written : ∀ r ∈ argRefs, r ∉ allW := by decide +kernel
theorem W19_arg0 (c : Dev nD) : W19 m ρ c (Proc.devRef .tc main_arg0) = m ((c.tc : Thread nD τ).loc main_arg0) :=
  (W19_of m ρ c main_arg0 (args_not_written _ (by decide))).trans rfl
theorem W19_arg1 (c : Dev nD) : W19 m ρ c (Proc.devRef .tc main_arg1) = m ((c.tc : Thread nD τ).loc main_arg1) :=
  (W19_of m ρ c main_arg1 (args_not_written _ (by decide))).trans rfl
theorem W19_arg2 (c : Dev nD) : W19 m ρ c (Proc.devRef .tc main_arg2) = m ((c.tc : Thread nD τ).loc main_arg2) :=
  (W19_of m ρ c main_arg2 (args_not_written _ (by decide))).trans rfl
theorem W19_arg3 (c : Dev nD) : W19 m ρ c (Proc.devRef .tc main_arg3) = m ((c.tc : Thread nD τ).loc main_arg3) :=
  (W19_of m ρ c main_arg3 (args_not_written _ (by decide))).trans rfl
theorem W19_arg4 (c : Dev nD) : W19 m ρ c (Proc.devRef .tc main_arg4) = m ((c.tc : Thread nD τ).loc main_arg4) :=
  (W19_of m ρ c main_arg4 (args_not_written _ (by decide))).trans rfl
theorem W19_arg5 (c : Dev nD) : W19 m ρ c (Proc.devRef .tc main_arg5) = m ((c.tc : Thread nD τ).loc main_arg5) :=
  (W19_of m ρ c main_arg5 (args_not_written _ (by decide))).trans rfl
theorem W19_arg6 (c : Dev nD) : W19 m ρ c (Proc.devRef .tc main_arg6) = m ((c.tc : Thread nD τ).loc main_arg6) :=
  (W19_of m ρ c main_arg6 (args_not_written _ (by decide))).trans rfl
theorem W19_arg7 (c : Dev nD) : W19 m ρ c (Proc.devRef .tc main_arg7) = m ((c.tc : Thread nD τ).loc main_arg7) :=
  (W19_of m ρ c main_arg7 (args_not_written _ (by decide))).trans rfl
theorem W19_arg8 (c : Dev nD) : W19 m ρ c (Proc.devRef .tc main_arg8) = m ((c.tc : Thread nD τ).loc main_arg8) :=
  (W19_of m ρ c main_arg8 (args_not_written _ (by decide))).trans rfl
theorem W19_arg9 (c : Dev nD) : W19 m ρ c (Proc.devRef .tc main_arg9) = m ((c.tc : Thread nD τ).loc main_arg9) :=
  (W19_of m ρ c main_arg9 (args_not_written _ (by decide))).trans rfl
theorem W19_arg10 (c : Dev nD) : W19 m ρ c (Proc.devRef .tc main_arg10) = m ((c.tc : Thread nD τ).loc main_arg10) :=
  (W19_of m ρ c main_arg10 (args_not_written _ (by decide))).trans rfl
theorem W19_arg11 (c : Dev nD) : W19 m ρ c (Proc.devRef .tc main_arg11) = m ((c.tc : Thread nD τ).loc main_arg11) :=
  (W19_of m ρ c main_arg11 (args_not_written _ (by decide))).trans rfl
theorem W19_arg12 (c : Dev nD) : W19 m ρ c (Proc.devRef .tc main_arg12) = m ((c.tc : Thread nD τ).loc main_arg12) :=
  (W19_of m ρ c main_arg12 (args_not_written _ (by decide))).trans rfl
theorem W19_arg13 (c : Dev nD) : W19 m ρ c (Proc.devRef .tc main_arg13) = m ((c.tc : Thread nD τ).loc main_arg13) :=
  (W19_of m ρ c main_arg13 (args_not_written _ (by decide))).trans rfl
theorem W19_arg14 (c : Dev nD) : W19 m ρ c (Proc.devRef .tc main_arg14) = m ((c.tc : Thread nD τ).loc main_arg14) :=
  (W19_of m ρ c main_arg14 (args_not_written _ (by decide))).trans rfl
theorem W19_arg15 (c : Dev nD) : W19 m ρ c (Proc.devRef .tc main_arg15) = m ((c.tc : Thread nD τ).loc main_arg15) :=
  (W19_of m ρ c main_arg15 (args_not_written _ (by decide))).trans rfl

/-! ## The bias rows: a stretch's reshape of an argument, read after the stretch -/

/-- After main_part0_ops0 the buffer main_v0 holds main_arg3's contents as one row: the stretch's reshape writes it, no later operation of the stretch does, and none writes main_arg3. -/
theorem main_part0_ops0_v0 (V : Valuation τ sig (Elt F)) :
    StableHlo.after main_part0_ops0 V (Proc.devRef .tc main_v0)
      = fun i => shapeCast S1x64 (V (Proc.devRef .tc main_arg3)) shapeCasts_S64_S1x64 i := by
  after_results_simp
  rfl
theorem W1_v0 (c : Dev nD) :
    W1 m ρ c (Proc.devRef .tc main_v0)
      = fun i => shapeCast S1x64 (W0 m ρ c (Proc.devRef .tc main_arg3)) shapeCasts_S64_S1x64 i :=
  main_part0_ops0_v0 _
/-- After main_part1_ops0 the buffer main_v91 holds main_arg5's contents as one row: the stretch's reshape writes it, no later operation of the stretch does, and none writes main_arg5. -/
theorem main_part1_ops0_v91 (V : Valuation τ sig (Elt F)) :
    StableHlo.after main_part1_ops0 V (Proc.devRef .tc main_v91)
      = fun i => shapeCast S1x64 (V (Proc.devRef .tc main_arg5)) shapeCasts_S64_S1x64 i := by
  after_results_simp
  rfl
theorem W6_v91 (c : Dev nD) :
    W6 m ρ c (Proc.devRef .tc main_v91)
      = fun i => shapeCast S1x64 (W5 m ρ c (Proc.devRef .tc main_arg5)) shapeCasts_S64_S1x64 i :=
  main_part1_ops0_v91 _

end Cert.Kernel.Hand

end
-- ==== Proof.KRegion.lean ====
import proofs.«175666_j17377437679648_2_alg».proof.Proof.Gen.KernelIdeal.Launch
import proofs.«175666_j17377437679648_2_alg».proof.Proof.Gen.KernelIdeal.Skeleton
import proofs.«175666_j17377437679648_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

/-! # The two kernel regions, each at the buffer contents it is entered with

Each region runs one body over a grid of row blocks: the body loads a block of 16384 rows of 16, the whole 16 × 64 weight
matrix and the 1 × 64 bias row, and stores the 16384 × 64 block  rows · weights + bias  over the whole output block (it also
loads the output block first and does not use it). So after the body at point t the three input buffers hold their
blocks and the output buffer holds the payload of the three blocks; this is the proof data of each region, stated at a
parameter V, the contents of the core's buffers when the region is entered. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of rows, of the weight matrix, of the bias row and of the output: the body's four accesses. -/
abbrev rX : Rect S16384x16 := Rect.unit (s := S16384x16) ![0, 0] S16384x16.size inb_S16384x16_S16384x16_0_0
abbrev rW : Rect S16x64 := Rect.unit (s := S16x64) ![0, 0] S16x64.size inb_S16x64_S16x64_0_0
abbrev rB : Rect S1x64 := Rect.unit (s := S1x64) ![0, 0] S1x64.size inb_S1x64_S1x64_0_0
abbrev rO : Rect S16384x64 := Rect.unit (s := S16384x64) ![0, 0] S16384x64.size inb_S16384x64_S16384x64_0_0

/-- The one store covers the output block. -/
theorem coverO (p0 : Vec F S16384x64 .f32) (y : S16384x64.Idx) :
    ∃ pc ∈ ([⟨rO, p0⟩] : List (View.Piece (Elt F) S16384x64 .f32)), y ∈ pc.1.set :=
  View.cover_of_tiled [⟨rO, p0⟩] S16384x64.size (by rfl) y

section Regions
variable (V : (c : Dev nD) → (b : Ref sig .tc) → Buf (Elt F) ((c : Thread nD τ).loc b))

/-! ## Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output buffer after the body: the payload of the three loaded blocks, stored over the whole block. -/
def out0_3 (x0 : Vec F S16384x16 .f32) (x1 : Vec F S16x64 .f32) (x2 : Vec F S1x64 .f32) : Vec F S16384x64 .f32 :=
  View.canon [⟨rO, k0_pay1 (View.ld x0 rX) (View.ld x1 rW) (View.ld x2 rB)⟩]

set_option maxHeartbeats 4000000 in
/-- The body on whole staging buffers, the inputs' at x0 x1 x2 and the output's at anything: it ends with the inputs' as they were
    and the output's at the payload. -/
theorem sound_kernel0 (c : Dev nD) (E : Set ℕ) (i : grid0.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16384x64 .f32) (harg4 : arg4.IsWhole)
    (x0 : Vec F S16384x16 .f32) (x1 : Vec F S16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_bias_kernel i arg1 harg1 arg2 harg2 arg3 harg3 arg4 harg4) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-- The proof data of region 0 on core c: the arrays as the region finds them; after the body each input's buffer at its block and the
    output's at the payload of the blocks; the invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## Region 1 -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The output buffer after the body: the payload of the three loaded blocks, stored over the whole block. -/
def out1_3 (x0 : Vec F S16384x16 .f32) (x1 : Vec F S16x64 .f32) (x2 : Vec F S1x64 .f32) : Vec F S16384x64 .f32 :=
  View.canon [⟨rO, k1_pay1 (View.ld x0 rX) (View.ld x1 rW) (View.ld x2 rB)⟩]

set_option maxHeartbeats 4000000 in
/-- The body on whole staging buffers, the inputs' at x0 x1 x2 and the output's at anything: it ends with the inputs' as they were
    and the output's at the payload. -/
theorem sound_kernel1 (c : Dev nD) (E : Set ℕ) (i : grid1.Coords) (arg1 : Memref sig .tc .vmem S16384x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16384x64 .f32) (harg4 : arg4.IsWhole)
    (x0 : Vec F S16384x16 .f32) (x1 : Vec F S16x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_bias_kernel i arg1 harg1 arg2 harg2 arg3 harg3 arg4 harg4) K := by
  simp only [cc1__linear_bias_kernel_eq_skeleton]; unfold cc1__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-- The proof data of region 1 on core c: the arrays as the region finds them; after the body each input's buffer at its block and the
    output's at the payload of the blocks; the invariant is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KRun.lean ====
import proofs.«175666_j17377437679648_2_alg».proof.Proof.KRegion

set_option maxRecDepth 65536

/-! # The run: the program's segments from the launch to the return

The program is 17 stretches of host operations and, after the first and after the fifth of them, a kernel region. The contents of a
core's buffers at each boundary are a fold from the launch memory: a stretch applies its operations in order, a region replaces its
four arrays by what its write-backs leave (the three inputs as entered, the output at the blocks the body stored). Every weakly fair
execution terminates, and at the end every unscoped buffer holds the last boundary's contents. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the stretch main_part0_ops0. -/
abbrev W1 : Dev nD → Valuation τ sig (Elt F) := fun c => StableHlo.after main_part0_ops0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the stretch main_part0_ops1. -/
abbrev W3 : Dev nD → Valuation τ sig (Elt F) := fun c => StableHlo.after main_part0_ops1 (W2 m ρ c)
/-- After the stretch main_part0_ops2. -/
abbrev W4 : Dev nD → Valuation τ sig (Elt F) := fun c => StableHlo.after main_part0_ops2 (W3 m ρ c)
/-- After the stretch main_part0_ops3. -/
abbrev W5 : Dev nD → Valuation τ sig (Elt F) := fun c => StableHlo.after main_part0_ops3 (W4 m ρ c)
/-- After the stretch main_part1_ops0. -/
abbrev W6 : Dev nD → Valuation τ sig (Elt F) := fun c => StableHlo.after main_part1_ops0 (W5 m ρ c)
/-- The same read at the TensorCore's references (what region 1's proof data take). -/
abbrev V6 : (c : Dev nD) → (b : Ref sig .tc) → Buf (Elt F) ((c : Thread nD τ).loc b) := fun c b => W6 m ρ c b
/-- At region 1's exit: its arrays at what the write-backs leave, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)
/-- After the stretch main_part1_ops1. -/
abbrev W8 : Dev nD → Valuation τ sig (Elt F) := fun c => StableHlo.after main_part1_ops1 (W7 m ρ c)
/-- After the stretch main_part2_ops0. -/
abbrev W9 : Dev nD → Valuation τ sig (Elt F) := fun c => StableHlo.after main_part2_ops0 (W8 m ρ c)
/-- After the stretch main_part2_ops1. -/
abbrev W10 : Dev nD → Valuation τ sig (Elt F) := fun c => StableHlo.after main_part2_ops1 (W9 m ρ c)
/-- After the stretch main_part2_ops2. -/
abbrev W11 : Dev nD → Valuation τ sig (Elt F) := fun c => StableHlo.after main_part2_ops2 (W10 m ρ c)
/-- After the stretch main_part3_ops0. -/
abbrev W12 : Dev nD → Valuation τ sig (Elt F) := fun c => StableHlo.after main_part3_ops0 (W11 m ρ c)
/-- After the stretch main_part3_ops1. -/
abbrev W13 : Dev nD → Valuation τ sig (Elt F) := fun c => StableHlo.after main_part3_ops1 (W12 m ρ c)
/-- After the stretch main_part3_ops2. -/
abbrev W14 : Dev nD → Valuation τ sig (Elt F) := fun c => StableHlo.after main_part3_ops2 (W13 m ρ c)
/-- After the stretch main_part4_ops0. -/
abbrev W15 : Dev nD → Valuation τ sig (Elt F) := fun c => StableHlo.after main_part4_ops0 (W14 m ρ c)
/-- After the stretch main_part5_ops0. -/
abbrev W16 : Dev nD → Valuation τ sig (Elt F) := fun c => StableHlo.after main_part5_ops0 (W15 m ρ c)
/-- After the stretch main_part6_ops0. -/
abbrev W17 : Dev nD → Valuation τ sig (Elt F) := fun c => StableHlo.after main_part6_ops0 (W16 m ρ c)
/-- After the stretch main_part6_ops1. -/
abbrev W18 : Dev nD → Valuation τ sig (Elt F) := fun c => StableHlo.after main_part6_ops1 (W17 m ρ c)
/-- After the stretch main_part7_ops0. -/
abbrev W19 : Dev nD → Valuation τ sig (Elt F) := fun c => StableHlo.after main_part7_ops0 (W18 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem main_part0_ops0_fresh : (main_part0_ops0 : List (HloOp τ sig (Elt F))).Forall fun op => op.fresh = ∅ := by
  simp only [List.Forall]; repeat' constructor
/-- No operation of this stretch allocates a buffer. -/
theorem main_part0_ops1_fresh : (main_part0_ops1 : List (HloOp τ sig (Elt F))).Forall fun op => op.fresh = ∅ := by
  simp only [List.Forall]; repeat' constructor
/-- No operation of this stretch allocates a buffer. -/
theorem main_part0_ops2_fresh : (main_part0_ops2 : List (HloOp τ sig (Elt F))).Forall fun op => op.fresh = ∅ := by
  simp only [List.Forall]; repeat' constructor
/-- No operation of this stretch allocates a buffer. -/
theorem main_part0_ops3_fresh : (main_part0_ops3 : List (HloOp τ sig (Elt F))).Forall fun op => op.fresh = ∅ := by
  simp only [List.Forall]; repeat' constructor
/-- No operation of this stretch allocates a buffer. -/
theorem main_part1_ops0_fresh : (main_part1_ops0 : List (HloOp τ sig (Elt F))).Forall fun op => op.fresh = ∅ := by
  simp only [List.Forall]; repeat' constructor
/-- No operation of this stretch allocates a buffer. -/
theorem main_part1_ops1_fresh : (main_part1_ops1 : List (HloOp τ sig (Elt F))).Forall fun op => op.fresh = ∅ := by
  simp only [List.Forall]; repeat' constructor
/-- No operation of this stretch allocates a buffer. -/
theorem main_part2_ops0_fresh : (main_part2_ops0 : List (HloOp τ sig (Elt F))).Forall fun op => op.fresh = ∅ := by
  simp only [List.Forall]; repeat' constructor
/-- No operation of this stretch allocates a buffer. -/
theorem main_part2_ops1_fresh : (main_part2_ops1 : List (HloOp τ sig (Elt F))).Forall fun op => op.fresh = ∅ := by
  simp only [List.Forall]; repeat' constructor
/-- No operation of this stretch allocates a buffer. -/
theorem main_part2_ops2_fresh : (main_part2_ops2 : List (HloOp τ sig (Elt F))).Forall fun op => op.fresh = ∅ := by
  simp only [List.Forall]; repeat' constructor
/-- No operation of this stretch allocates a buffer. -/
theorem main_part3_ops0_fresh : (main_part3_ops0 : List (HloOp τ sig (Elt F))).Forall fun op => op.fresh = ∅ := by
  simp only [List.Forall]; repeat' constructor
/-- No operation of this stretch allocates a buffer. -/
theorem main_part3_ops1_fresh : (main_part3_ops1 : List (HloOp τ sig (Elt F))).Forall fun op => op.fresh = ∅ := by
  simp only [List.Forall]; repeat' constructor
/-- No operation of this stretch allocates a buffer. -/
theorem main_part3_ops2_fresh : (main_part3_ops2 : List (HloOp τ sig (Elt F))).Forall fun op => op.fresh = ∅ := by
  simp only [List.Forall]; repeat' constructor
/-- No operation of this stretch allocates a buffer. -/
theorem main_part4_ops0_fresh : (main_part4_ops0 : List (HloOp τ sig (Elt F))).Forall fun op => op.fresh = ∅ := by
  simp only [List.Forall]; repeat' constructor
/-- No operation of this stretch allocates a buffer. -/
theorem main_part5_ops0_fresh : (main_part5_ops0 : List (HloOp τ sig (Elt F))).Forall fun op => op.fresh = ∅ := by
  simp only [List.Forall]; repeat' constructor
/-- No operation of this stretch allocates a buffer. -/
theorem main_part6_ops0_fresh : (main_part6_ops0 : List (HloOp τ sig (Elt F))).Forall fun op => op.fresh = ∅ := by
  simp only [List.Forall]; repeat' constructor
/-- No operation of this stretch allocates a buffer. -/
theorem main_part6_ops1_fresh : (main_part6_ops1 : List (HloOp τ sig (Elt F))).Forall fun op => op.fresh = ∅ := by
  simp only [List.Forall]; repeat' constructor
/-- No operation of this stretch allocates a buffer. -/
theorem main_part7_ops0_fresh : (main_part7_ops0 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator register at some state. -/
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every unscoped buffer at W1, left at W2. Its arrays are split out of the unscoped
    buffers and put back at the exit contents; the generator register goes into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W6, left at W7. Its arrays are split out of the unscoped
    buffers and put back at the exit contents; the generator register goes into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last stretch ends in the last thread state beside the core owing nothing. -/
theorem last_chain (c : Dev nD) : iprop(StableHlo.held (c : Thread nD τ) (Pipeline.ucRefs τ sig) (W19 m ρ c) ∗ R c)
    ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The program as segments, and the launch -/

/-- The 19 segments in order. -/
abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part0_ops2 main_part0_ops2_sub main_part0_ops2_fresh (W3 m ρ)),
    .host (hseg main_part0_ops3 main_part0_ops3_sub main_part0_ops3_fresh (W4 m ρ)),
    .host (hseg main_part1_ops0 main_part1_ops0_sub main_part1_ops0_fresh (W5 m ρ)),
    .region (reg1 m ρ),
    .host (hseg main_part1_ops1 main_part1_ops1_sub main_part1_ops1_fresh (W7 m ρ)),
    .host (hseg main_part2_ops0 main_part2_ops0_sub main_part2_ops0_fresh (W8 m ρ)),
    .host (hseg main_part2_ops1 main_part2_ops1_sub main_part2_ops1_fresh (W9 m ρ)),
    .host (hseg main_part2_ops2 main_part2_ops2_sub main_part2_ops2_fresh (W10 m ρ)),
    .host (hseg main_part3_ops0 main_part3_ops0_sub main_part3_ops0_fresh (W11 m ρ)),
    .host (hseg main_part3_ops1 main_part3_ops1_sub main_part3_ops1_fresh (W12 m ρ)),
    .host (hseg main_part3_ops2 main_part3_ops2_sub main_part3_ops2_fresh (W13 m ρ)),
    .host (hseg main_part4_ops0 main_part4_ops0_sub main_part4_ops0_fresh (W14 m ρ)),
    .host (hseg main_part5_ops0 main_part5_ops0_sub main_part5_ops0_fresh (W15 m ρ)),
    .host (hseg main_part6_ops0 main_part6_ops0_sub main_part6_ops0_fresh (W16 m ρ)),
    .host (hseg main_part6_ops1 main_part6_ops1_sub main_part6_ops1_fresh (W17 m ρ)),
    .host (hseg main_part7_ops0 main_part7_ops0_sub main_part7_ops0_fresh (W18 m ρ)) ]
/-- The program IS the run of the segments. -/
theorem main_run (c : Dev nD) : main (F := F) c = Pipeline.Seg.run (segs m ρ) := (main_chain_windows c).trans (by chain_rfl)

set_option backward.isDefEq.respectTransparency.types false in
set_option maxHeartbeats 4000000 in
/-- From any memory with zero counters every weakly fair execution of the program on the TensorCores terminates, nothing faulting, and in
    every final state each unscoped buffer holds the last boundary's contents. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W19 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c b hb => h c _ (mem_uc b hb))

end Cert.KernelIdeal.Hand

end
-- ==== Proof.KFold.lean ====
import proofs.«175666_j17377437679648_2_alg».proof.Proof.KRun
import proofs.«175666_j17377437679648_2_alg».proof.Proof.LibWritten

set_option maxRecDepth 65536

/-! # What each segment leaves unchanged

Each host operation writes exactly one buffer, its result. Listing those results in order beside a stretch's operations (the
k-th operation writes the k-th reference), a reference outside the list is written by no operation of the stretch, so it holds
after the stretch what it held before. A region changes its output array only: each of its three input arrays is never written
back, and every other buffer is outside its windows. So a reference that no stretch writes and that is no region's output holds at
the end of the run what it held at the launch; the sixteen arguments are such references. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The regions: every reference but the output keeps its contents -/

/-- Region 0 changes its output array only: an input array is never written back, any other buffer is outside its windows. -/
theorem W2_of (c : Dev nD) (r : Ref sig .tc) (h : r ≠ main_v1) :
    W2 m ρ c (Proc.devRef .tc r) = W1 m ρ c (Proc.devRef .tc r) := by
  by_cases h0 : r = main_arg0
  · subst h0
    exact (W2_arr m ρ c 0).trans (((dat0 (V1 m ρ) c).arrAt_in 0 rfl _).trans (A_eq0 (V1 m ρ) c 0))
  by_cases h1 : r = main_arg2
  · subst h1
    exact (W2_arr m ρ c 1).trans (((dat0 (V1 m ρ) c).arrAt_in 1 rfl _).trans (A_eq0 (V1 m ρ) c 1))
  by_cases h2 : r = main_v0
  · subst h2
    exact (W2_arr m ρ c 2).trans (((dat0 (V1 m ρ) c).arrAt_in 2 rfl _).trans (A_eq0 (V1 m ρ) c 2))
  exact W2_of_ne m ρ c r fun w => match w with
    | ⟨0, _⟩ => Ne.symm h0
    | ⟨1, _⟩ => Ne.symm h1
    | ⟨2, _⟩ => Ne.symm h2
    | ⟨3, _⟩ => Ne.symm h
    | ⟨_ + 4, hw⟩ => absurd hw (Nat.not_lt.2 (Nat.le_add_left _ _))

/-- Region 1 changes its output array only: an input array is never written back, any other buffer is outside its windows. -/
theorem W7_of (c : Dev nD) (r : Ref sig .tc) (h : r ≠ main_v92) :
    W7 m ρ c (Proc.devRef .tc r) = W6 m ρ c (Proc.devRef .tc r) := by
  by_cases h0 : r = main_arg1
  · subst h0
    exact (W7_arr m ρ c 0).trans (((dat1 (V6 m ρ) c).arrAt_in 0 rfl _).trans (A_eq1 (V6 m ρ) c 0))
  by_cases h1 : r = main_arg4
  · subst h1
    exact (W7_arr m ρ c 1).trans (((dat1 (V6 m ρ) c).arrAt_in 1 rfl _).trans (A_eq1 (V6 m ρ) c 1))
  by_cases h2 : r = main_v91
  · subst h2
    exact (W7_arr m ρ c 2).trans (((dat1 (V6 m ρ) c).arrAt_in 2 rfl _).trans (A_eq1 (V6 m ρ) c 2))
  exact W7_of_ne m ρ c r fun w => match w with
    | ⟨0, _⟩ => Ne.symm h0
    | ⟨1, _⟩ => Ne.symm h1
    | ⟨2, _⟩ => Ne.symm h2
    | ⟨3, _⟩ => Ne.symm h
    | ⟨_ + 4, hw⟩ => absurd hw (Nat.not_lt.2 (Nat.le_add_left _ _))

/-! ## The host stretches: what each writes, and what it leaves -/

/-- The references main_part0_ops0's 1 operation write, in order. -/
abbrev main_part0_ops0_W : List (Ref sig .tc) :=
  [main_v0]
theorem main_part0_ops0_pairs : Cert.Lib.Written.Pairs (main_part0_ops0 : List (HloOp τ sig (Elt F))) main_part0_ops0_W :=
  .cons rfl (.nil)
theorem main_part0_ops0_writes : (main_part0_ops0 : List (HloOp τ sig (Elt F))).Forall fun op => op.writes ⊆ (main_part0_ops0_W.map (Proc.devRef (τ := τ) .tc)).toFinset :=
  main_part0_ops0_pairs.sub
theorem W1_of (c : Dev nD) (r : Ref sig .tc) (h : r ∉ main_part0_ops0_W) :
    W1 m ρ c (Proc.devRef .tc r) = W0 m ρ c (Proc.devRef .tc r) :=
  StableHlo.after_of_writes_sub main_part0_ops0 _ main_part0_ops0_writes h

/-- The references main_part0_ops1's 9 operations write, in order. -/
abbrev main_part0_ops1_W : List (Ref sig .tc) :=
  [main_v2, main_c, main_v3, main_c_0, main_v4, main_v5, main_v6, main_c_1, main_v7]
theorem main_part0_ops1_pairs : Cert.Lib.Written.Pairs (main_part0_ops1 : List (HloOp τ sig (Elt F))) main_part0_ops1_W :=
  .cons rfl (.cons rfl (.cons rfl (.cons rfl (.cons rfl (.cons rfl (.cons rfl (.cons rfl (.cons rfl (.nil)))))))))
theorem main_part0_ops1_writes : (main_part0_ops1 : List (HloOp τ sig (Elt F))).Forall fun op => op.writes ⊆ (main_part0_ops1_W.map (Proc.devRef (τ := τ) .tc)).toFinset :=
  main_part0_ops1_pairs.sub
theorem W3_of (c : Dev nD) (r : Ref sig .tc) (h : r ∉ main_part0_ops1_W) :
    W3 m ρ c (Proc.devRef .tc r) = W2 m ρ c (Proc.devRef .tc r) :=
  StableHlo.after_of_writes_sub main_part0_ops1 _ main_part0_ops1_writes h

/-- The references main_part0_ops2's 3 operations write, in order. -/
abbrev main_part0_ops2_W : List (Ref sig .tc) :=
  [main_call0_call0_c, main_call0_call0_v0, main_v8]
theorem main_part0_ops2_pairs : Cert.Lib.Written.Pairs (main_part0_ops2 : List (HloOp τ sig (Elt F))) main_part0_ops2_W :=
  .cons rfl (.cons rfl (.cons rfl (.nil)))
theorem main_part0_ops2_writes : (main_part0_ops2 : List (HloOp τ sig (Elt F))).Forall fun op => op.writes ⊆ (main_part0_ops2_W.map (Proc.devRef (τ := τ) .tc)).toFinset :=
  main_part0_ops2_pairs.sub
theorem W4_of (c : Dev nD) (r : Ref sig .tc) (h : r ∉ main_part0_ops2_W) :
    W4 m ρ c (Proc.devRef .tc r) = W3 m ρ c (Proc.devRef .tc r) :=
  StableHlo.after_of_writes_sub main_part0_ops2 _ main_part0_ops2_writes h

/-- The references main_part0_ops3's 48 operations write, in order. -/
abbrev main_part0_ops3_W : List (Ref sig .tc) :=
  [main_v9, main_v10, main_v11, main_c_2, main_v12, main_v13, main_c_3, main_v14, main_v15, main_v16,
    main_v17, main_v18, main_v19, main_v20, main_c_4, main_v21, main_v22, main_c_5, main_v23, main_v24,
    main_v25, main_v26, main_v27, main_v28, main_v29, main_v30, main_v31, main_v32, main_c_6, main_v33,
    main_v34, main_c_7, main_v35, main_v36, main_v37, main_v38, main_v39, main_c_8, main_v40, main_v41,
    main_c_9, main_v42, main_v43, main_v44, main_v45, main_v46, main_v47, main_c_10]
theorem main_part0_ops3_pairs : Cert.Lib.Written.Pairs (main_part0_ops3 : List (HloOp τ sig (Elt F))) main_part0_ops3_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))
theorem main_part0_ops3_writes : (main_part0_ops3 : List (HloOp τ sig (Elt F))).Forall fun op => op.writes ⊆ (main_part0_ops3_W.map (Proc.devRef (τ := τ) .tc)).toFinset :=
  main_part0_ops3_pairs.sub
theorem W5_of (c : Dev nD) (r : Ref sig .tc) (h : r ∉ main_part0_ops3_W) :
    W5 m ρ c (Proc.devRef .tc r) = W4 m ρ c (Proc.devRef .tc r) :=
  StableHlo.after_of_writes_sub main_part0_ops3 _ main_part0_ops3_writes h

/-- The references main_part1_ops0's 56 operations write, in order. -/
abbrev main_part1_ops0_W : List (Ref sig .tc) :=
  [main_v48, main_v49, main_c_11, main_v50, main_v51, main_v52, main_c_12, main_v53, main_v54, main_c_13,
    main_v55, main_v56, main_v57, main_c_14, main_v58, main_v59, main_c_15, main_v60, main_v61, main_v62,
    main_v63, main_v64, main_v65, main_v66, main_v67, main_c_16, main_v68, main_v69, main_c_17, main_v70,
    main_v71, main_v72, main_c_18, main_v73, main_v74, main_c_19, main_v75, main_v76, main_v77, main_c_20,
    main_v78, main_v79, main_c_21, main_v80, main_v81, main_v82, main_v83, main_v84, main_v85, main_v86,
    main_v87, main_v88, main_cst, main_v89, main_v90, main_v91]
theorem main_part1_ops0_pairs : Cert.Lib.Written.Pairs (main_part1_ops0 : List (HloOp τ sig (Elt F))) main_part1_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))
theorem main_part1_ops0_writes : (main_part1_ops0 : List (HloOp τ sig (Elt F))).Forall fun op => op.writes ⊆ (main_part1_ops0_W.map (Proc.devRef (τ := τ) .tc)).toFinset :=
  main_part1_ops0_pairs.sub
theorem W6_of (c : Dev nD) (r : Ref sig .tc) (h : r ∉ main_part1_ops0_W) :
    W6 m ρ c (Proc.devRef .tc r) = W5 m ρ c (Proc.devRef .tc r) :=
  StableHlo.after_of_writes_sub main_part1_ops0 _ main_part1_ops0_writes h

/-- The references main_part1_ops1's 3 operations write, in order. -/
abbrev main_part1_ops1_W : List (Ref sig .tc) :=
  [main_v93, main_c_22, main_v94]
theorem main_part1_ops1_pairs : Cert.Lib.Written.Pairs (main_part1_ops1 : List (HloOp τ sig (Elt F))) main_part1_ops1_W :=
  .cons rfl (.cons rfl (.cons rfl (.nil)))
theorem main_part1_ops1_writes : (main_part1_ops1 : List (HloOp τ sig (Elt F))).Forall fun op => op.writes ⊆ (main_part1_ops1_W.map (Proc.devRef (τ := τ) .tc)).toFinset :=
  main_part1_ops1_pairs.sub
theorem W8_of (c : Dev nD) (r : Ref sig .tc) (h : r ∉ main_part1_ops1_W) :
    W8 m ρ c (Proc.devRef .tc r) = W7 m ρ c (Proc.devRef .tc r) :=
  StableHlo.after_of_writes_sub main_part1_ops1 _ main_part1_ops1_writes h

/-- The references main_part2_ops0's 6 operations write, in order. -/
abbrev main_part2_ops0_W : List (Ref sig .tc) :=
  [main_c_23, main_v95, main_v96, main_v97, main_c_24, main_v98]
theorem main_part2_ops0_pairs : Cert.Lib.Written.Pairs (main_part2_ops0 : List (HloOp τ sig (Elt F))) main_part2_ops0_W :=
  .cons rfl (.cons rfl (.cons rfl (.cons rfl (.cons rfl (.cons rfl (.nil))))))
theorem main_part2_ops0_writes : (main_part2_ops0 : List (HloOp τ sig (Elt F))).Forall fun op => op.writes ⊆ (main_part2_ops0_W.map (Proc.devRef (τ := τ) .tc)).toFinset :=
  main_part2_ops0_pairs.sub
theorem W9_of (c : Dev nD) (r : Ref sig .tc) (h : r ∉ main_part2_ops0_W) :
    W9 m ρ c (Proc.devRef .tc r) = W8 m ρ c (Proc.devRef .tc r) :=
  StableHlo.after_of_writes_sub main_part2_ops0 _ main_part2_ops0_writes h

/-- The references main_part2_ops1's 3 operations write, in order. -/
abbrev main_part2_ops1_W : List (Ref sig .tc) :=
  [main_call1_call0_c, main_call1_call0_v0, main_v99]
theorem main_part2_ops1_pairs : Cert.Lib.Written.Pairs (main_part2_ops1 : List (HloOp τ sig (Elt F))) main_part2_ops1_W :=
  .cons rfl (.cons rfl (.cons rfl (.nil)))
theorem main_part2_ops1_writes : (main_part2_ops1 : List (HloOp τ sig (Elt F))).Forall fun op => op.writes ⊆ (main_part2_ops1_W.map (Proc.devRef (τ := τ) .tc)).toFinset :=
  main_part2_ops1_pairs.sub
theorem W10_of (c : Dev nD) (r : Ref sig .tc) (h : r ∉ main_part2_ops1_W) :
    W10 m ρ c (Proc.devRef .tc r) = W9 m ρ c (Proc.devRef .tc r) :=
  StableHlo.after_of_writes_sub main_part2_ops1 _ main_part2_ops1_writes h

/-- The references main_part2_ops2's 53 operations write, in order. -/
abbrev main_part2_ops2_W : List (Ref sig .tc) :=
  [main_v100, main_v101, main_v102, main_c_25, main_v103, main_v104, main_c_26, main_v105, main_v106, main_v107,
    main_v108, main_v109, main_v110, main_v111, main_c_27, main_v112, main_v113, main_c_28, main_v114, main_v115,
    main_v116, main_v117, main_v118, main_v119, main_v120, main_v121, main_v122, main_v123, main_c_29, main_v124,
    main_v125, main_c_30, main_v126, main_v127, main_v128, main_v129, main_v130, main_c_31, main_v131, main_v132,
    main_c_32, main_v133, main_v134, main_v135, main_v136, main_v137, main_v138, main_c_33, main_v139, main_v140,
    main_c_34, main_v141, main_v142]
theorem main_part2_ops2_pairs : Cert.Lib.Written.Pairs (main_part2_ops2 : List (HloOp τ sig (Elt F))) main_part2_ops2_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))
theorem main_part2_ops2_writes : (main_part2_ops2 : List (HloOp τ sig (Elt F))).Forall fun op => op.writes ⊆ (main_part2_ops2_W.map (Proc.devRef (τ := τ) .tc)).toFinset :=
  main_part2_ops2_pairs.sub
theorem W11_of (c : Dev nD) (r : Ref sig .tc) (h : r ∉ main_part2_ops2_W) :
    W11 m ρ c (Proc.devRef .tc r) = W10 m ρ c (Proc.devRef .tc r) :=
  StableHlo.after_of_writes_sub main_part2_ops2 _ main_part2_ops2_writes h

/-- The references main_part3_ops0's 49 operations write, in order. -/
abbrev main_part3_ops0_W : List (Ref sig .tc) :=
  [main_v143, main_c_35, main_v144, main_v145, main_c_36, main_v146, main_v147, main_v148, main_c_37, main_v149,
    main_v150, main_c_38, main_v151, main_v152, main_v153, main_v154, main_v155, main_v156, main_v157, main_v158,
    main_v159, main_v160, main_v161, main_v162, main_v163, main_v164, main_c_39, main_v165, main_v166, main_c_40,
    main_v167, main_v168, main_c_41, main_v169, main_v170, main_c_42, main_v171, main_v172, main_v173, main_v174,
    main_v175, main_c_43, main_v176, main_c_44, main_v177, main_v178, main_v179, main_c_45, main_v180]
theorem main_part3_ops0_pairs : Cert.Lib.Written.Pairs (main_part3_ops0 : List (HloOp τ sig (Elt F))) main_part3_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))
theorem main_part3_ops0_writes : (main_part3_ops0 : List (HloOp τ sig (Elt F))).Forall fun op => op.writes ⊆ (main_part3_ops0_W.map (Proc.devRef (τ := τ) .tc)).toFinset :=
  main_part3_ops0_pairs.sub
theorem W12_of (c : Dev nD) (r : Ref sig .tc) (h : r ∉ main_part3_ops0_W) :
    W12 m ρ c (Proc.devRef .tc r) = W11 m ρ c (Proc.devRef .tc r) :=
  StableHlo.after_of_writes_sub main_part3_ops0 _ main_part3_ops0_writes h

/-- The references main_part3_ops1's 3 operations write, in order. -/
abbrev main_part3_ops1_W : List (Ref sig .tc) :=
  [main_call2_call0_c, main_call2_call0_v0, main_v181]
theorem main_part3_ops1_pairs : Cert.Lib.Written.Pairs (main_part3_ops1 : List (HloOp τ sig (Elt F))) main_part3_ops1_W :=
  .cons rfl (.cons rfl (.cons rfl (.nil)))
theorem main_part3_ops1_writes : (main_part3_ops1 : List (HloOp τ sig (Elt F))).Forall fun op => op.writes ⊆ (main_part3_ops1_W.map (Proc.devRef (τ := τ) .tc)).toFinset :=
  main_part3_ops1_pairs.sub
theorem W13_of (c : Dev nD) (r : Ref sig .tc) (h : r ∉ main_part3_ops1_W) :
    W13 m ρ c (Proc.devRef .tc r) = W12 m ρ c (Proc.devRef .tc r) :=
  StableHlo.after_of_writes_sub main_part3_ops1 _ main_part3_ops1_writes h

/-- The references main_part3_ops2's 10 operations write, in order. -/
abbrev main_part3_ops2_W : List (Ref sig .tc) :=
  [main_v182, main_v183, main_v184, main_c_46, main_v185, main_v186, main_c_47, main_v187, main_v188, main_v189]
theorem main_part3_ops2_pairs : Cert.Lib.Written.Pairs (main_part3_ops2 : List (HloOp τ sig (Elt F))) main_part3_ops2_W :=
  .cons rfl (.cons rfl (.cons rfl (.cons rfl (.cons rfl (.cons rfl (.cons rfl (.cons rfl (.cons rfl (.cons rfl (.nil))))))))))
theorem main_part3_ops2_writes : (main_part3_ops2 : List (HloOp τ sig (Elt F))).Forall fun op => op.writes ⊆ (main_part3_ops2_W.map (Proc.devRef (τ := τ) .tc)).toFinset :=
  main_part3_ops2_pairs.sub
theorem W14_of (c : Dev nD) (r : Ref sig .tc) (h : r ∉ main_part3_ops2_W) :
    W14 m ρ c (Proc.devRef .tc r) = W13 m ρ c (Proc.devRef .tc r) :=
  StableHlo.after_of_writes_sub main_part3_ops2 _ main_part3_ops2_writes h

/-- The references main_part4_ops0's 60 operations write, in order. -/
abbrev main_part4_ops0_W : List (Ref sig .tc) :=
  [main_v190, main_v191, main_v192, main_v193, main_c_48, main_v194, main_v195, main_c_49, main_v196, main_v197,
    main_v198, main_v199, main_v200, main_v201, main_v202, main_v203, main_v204, main_v205, main_c_50, main_v206,
    main_v207, main_c_51, main_v208, main_v209, main_v210, main_v211, main_v212, main_c_52, main_v213, main_v214,
    main_c_53, main_v215, main_v216, main_v217, main_v218, main_v219, main_v220, main_cst_54, main_v221, main_c_55,
    main_v222, main_v223, main_c_56, main_v224, main_v225, main_v226, main_c_57, main_v227, main_v228, main_c_58,
    main_v229, main_v230, main_v231, main_c_59, main_v232, main_v233, main_c_60, main_v234, main_v235, main_v236]
theorem main_part4_ops0_pairs : Cert.Lib.Written.Pairs (main_part4_ops0 : List (HloOp τ sig (Elt F))) main_part4_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))
theorem main_part4_ops0_writes : (main_part4_ops0 : List (HloOp τ sig (Elt F))).Forall fun op => op.writes ⊆ (main_part4_ops0_W.map (Proc.devRef (τ := τ) .tc)).toFinset :=
  main_part4_ops0_pairs.sub
theorem W15_of (c : Dev nD) (r : Ref sig .tc) (h : r ∉ main_part4_ops0_W) :
    W15 m ρ c (Proc.devRef .tc r) = W14 m ρ c (Proc.devRef .tc r) :=
  StableHlo.after_of_writes_sub main_part4_ops0 _ main_part4_ops0_writes h

/-- The references main_part5_ops0's 60 operations write, in order. -/
abbrev main_part5_ops0_W : List (Ref sig .tc) :=
  [main_v237, main_v238, main_v239, main_v240, main_v241, main_c_61, main_v242, main_v243, main_c_62, main_v244,
    main_v245, main_v246, main_c_63, main_v247, main_v248, main_c_64, main_v249, main_v250, main_v251, main_c_65,
    main_v252, main_v253, main_c_66, main_v254, main_v255, main_v256, main_v257, main_v258, main_v259, main_v260,
    main_v261, main_v262, main_v263, main_v264, main_v265, main_v266, main_v267, main_c_67, main_v268, main_v269,
    main_c_68, main_v270, main_v271, main_c_69, main_v272, main_v273, main_c_70, main_v274, main_v275, main_v276,
    main_v277, main_v278, main_c_71, main_v279, main_c_72, main_v280, main_v281, main_v282, main_c_73, main_v283]
theorem main_part5_ops0_pairs : Cert.Lib.Written.Pairs (main_part5_ops0 : List (HloOp τ sig (Elt F))) main_part5_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))
theorem main_part5_ops0_writes : (main_part5_ops0 : List (HloOp τ sig (Elt F))).Forall fun op => op.writes ⊆ (main_part5_ops0_W.map (Proc.devRef (τ := τ) .tc)).toFinset :=
  main_part5_ops0_pairs.sub
theorem W16_of (c : Dev nD) (r : Ref sig .tc) (h : r ∉ main_part5_ops0_W) :
    W16 m ρ c (Proc.devRef .tc r) = W15 m ρ c (Proc.devRef .tc r) :=
  StableHlo.after_of_writes_sub main_part5_ops0 _ main_part5_ops0_writes h

/-- The references main_part6_ops0's 3 operations write, in order. -/
abbrev main_part6_ops0_W : List (Ref sig .tc) :=
  [main_call3_call0_c, main_call3_call0_v0, main_v284]
theorem main_part6_ops0_pairs : Cert.Lib.Written.Pairs (main_part6_ops0 : List (HloOp τ sig (Elt F))) main_part6_ops0_W :=
  .cons rfl (.cons rfl (.cons rfl (.nil)))
theorem main_part6_ops0_writes : (main_part6_ops0 : List (HloOp τ sig (Elt F))).Forall fun op => op.writes ⊆ (main_part6_ops0_W.map (Proc.devRef (τ := τ) .tc)).toFinset :=
  main_part6_ops0_pairs.sub
theorem W17_of (c : Dev nD) (r : Ref sig .tc) (h : r ∉ main_part6_ops0_W) :
    W17 m ρ c (Proc.devRef .tc r) = W16 m ρ c (Proc.devRef .tc r) :=
  StableHlo.after_of_writes_sub main_part6_ops0 _ main_part6_ops0_writes h

/-- The references main_part6_ops1's 59 operations write, in order. -/
abbrev main_part6_ops1_W : List (Ref sig .tc) :=
  [main_v285, main_v286, main_v287, main_c_74, main_v288, main_v289, main_c_75, main_v290, main_v291, main_v292,
    main_v293, main_v294, main_v295, main_v296, main_c_76, main_v297, main_v298, main_c_77, main_v299, main_v300,
    main_v301, main_v302, main_v303, main_v304, main_v305, main_v306, main_v307, main_v308, main_c_78, main_v309,
    main_v310, main_c_79, main_v311, main_v312, main_v313, main_v314, main_v315, main_c_80, main_v316, main_v317,
    main_c_81, main_v318, main_v319, main_v320, main_v321, main_v322, main_v323, main_cst_82, main_v324, main_c_83,
    main_v325, main_v326, main_c_84, main_v327, main_v328, main_v329, main_c_85, main_v330, main_v331]
theorem main_part6_ops1_pairs : Cert.Lib.Written.Pairs (main_part6_ops1 : List (HloOp τ sig (Elt F))) main_part6_ops1_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))
theorem main_part6_ops1_writes : (main_part6_ops1 : List (HloOp τ sig (Elt F))).Forall fun op => op.writes ⊆ (main_part6_ops1_W.map (Proc.devRef (τ := τ) .tc)).toFinset :=
  main_part6_ops1_pairs.sub
theorem W18_of (c : Dev nD) (r : Ref sig .tc) (h : r ∉ main_part6_ops1_W) :
    W18 m ρ c (Proc.devRef .tc r) = W17 m ρ c (Proc.devRef .tc r) :=
  StableHlo.after_of_writes_sub main_part6_ops1 _ main_part6_ops1_writes h

/-- The references main_part7_ops0's 42 operations write, in order. -/
abbrev main_part7_ops0_W : List (Ref sig .tc) :=
  [main_c_86, main_v332, main_v333, main_v334, main_c_87, main_v335, main_v336, main_c_88, main_v337, main_v338,
    main_v339, main_v340, main_v341, main_v342, main_v343, main_v344, main_c_89, main_v345, main_v346, main_c_90,
    main_v347, main_v348, main_v349, main_c_91, main_v350, main_v351, main_c_92, main_v352, main_v353, main_v354,
    main_c_93, main_v355, main_v356, main_c_94, main_v357, main_v358, main_v359, main_v360, main_v361, main_v362,
    main_v363, main_v364]
theorem main_part7_ops0_pairs : Cert.Lib.Written.Pairs (main_part7_ops0 : List (HloOp τ sig (Elt F))) main_part7_ops0_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))
theorem main_part7_ops0_writes : (main_part7_ops0 : List (HloOp τ sig (Elt F))).Forall fun op => op.writes ⊆ (main_part7_ops0_W.map (Proc.devRef (τ := τ) .tc)).toFinset :=
  main_part7_ops0_pairs.sub
theorem W19_of_W18 (c : Dev nD) (r : Ref sig .tc) (h : r ∉ main_part7_ops0_W) :
    W19 m ρ c (Proc.devRef .tc r) = W18 m ρ c (Proc.devRef .tc r) :=
  StableHlo.after_of_writes_sub main_part7_ops0 _ main_part7_ops0_writes h

/-! ## The whole run -/

/-- Every reference some stretch writes, and the two regions' outputs, segment by segment. -/
abbrev allW : List (Ref sig .tc) :=
  main_part0_ops0_W ++ ([main_v1] ++ (main_part0_ops1_W ++ (main_part0_ops2_W ++ (main_part0_ops3_W ++ (main_part1_ops0_W ++ ([main_v92] ++ (main_part1_ops1_W ++ (main_part2_ops0_W ++ (main_part2_ops1_W ++ (main_part2_ops2_W ++ (main_part3_ops0_W ++ (main_part3_ops1_W ++ (main_part3_ops2_W ++ (main_part4_ops0_W ++ (main_part5_ops0_W ++ (main_part6_ops0_W ++ (main_part6_ops1_W ++ (main_part7_ops0_W))))))))))))))))))

/-- A reference no segment writes holds at the end of the run what it held at the launch. -/
theorem W19_of (c : Dev nD) (r : Ref sig .tc) (h : r ∉ allW) :
    W19 m ρ c (Proc.devRef .tc r) = W0 m ρ c (Proc.devRef .tc r) := by
  have t0 := h
  have h0 := fun hx => t0 (List.mem_append.mpr (Or.inl hx))
  have t1 := fun hx => t0 (List.mem_append.mpr (Or.inr hx))
  have h1 := fun hx => t1 (List.mem_append.mpr (Or.inl hx))
  have t2 := fun hx => t1 (List.mem_append.mpr (Or.inr hx))
  have h2 := fun hx => t2 (List.mem_append.mpr (Or.inl hx))
  have t3 := fun hx => t2 (List.mem_append.mpr (Or.inr hx))
  have h3 := fun hx => t3 (List.mem_append.mpr (Or.inl hx))
  have t4 := fun hx => t3 (List.mem_append.mpr (Or.inr hx))
  have h4 := fun hx => t4 (List.mem_append.mpr (Or.inl hx))
  have t5 := fun hx => t4 (List.mem_append.mpr (Or.inr hx))
  have h5 := fun hx => t5 (List.mem_append.mpr (Or.inl hx))
  have t6 := fun hx => t5 (List.mem_append.mpr (Or.inr hx))
  have h6 := fun hx => t6 (List.mem_append.mpr (Or.inl hx))
  have t7 := fun hx => t6 (List.mem_append.mpr (Or.inr hx))
  have h7 := fun hx => t7 (List.mem_append.mpr (Or.inl hx))
  have t8 := fun hx => t7 (List.mem_append.mpr (Or.inr hx))
  have h8 := fun hx => t8 (List.mem_append.mpr (Or.inl hx))
  have t9 := fun hx => t8 (List.mem_append.mpr (Or.inr hx))
  have h9 := fun hx => t9 (List.mem_append.mpr (Or.inl hx))
  have t10 := fun hx => t9 (List.mem_append.mpr (Or.inr hx))
  have h10 := fun hx => t10 (List.mem_append.mpr (Or.inl hx))
  have t11 := fun hx => t10 (List.mem_append.mpr (Or.inr hx))
  have h11 := fun hx => t11 (List.mem_append.mpr (Or.inl hx))
  have t12 := fun hx => t11 (List.mem_append.mpr (Or.inr hx))
  have h12 := fun hx => t12 (List.mem_append.mpr (Or.inl hx))
  have t13 := fun hx => t12 (List.mem_append.mpr (Or.inr hx))
  have h13 := fun hx => t13 (List.mem_append.mpr (Or.inl hx))
  have t14 := fun hx => t13 (List.mem_append.mpr (Or.inr hx))
  have h14 := fun hx => t14 (List.mem_append.mpr (Or.inl hx))
  have t15 := fun hx => t14 (List.mem_append.mpr (Or.inr hx))
  have h15 := fun hx => t15 (List.mem_append.mpr (Or.inl hx))
  have t16 := fun hx => t15 (List.mem_append.mpr (Or.inr hx))
  have h16 := fun hx => t16 (List.mem_append.mpr (Or.inl hx))
  have t17 := fun hx => t16 (List.mem_append.mpr (Or.inr hx))
  have h17 := fun hx => t17 (List.mem_append.mpr (Or.inl hx))
  have t18 := fun hx => t17 (List.mem_append.mpr (Or.inr hx))
  have h18 := t18
  exact (W19_of_W18 m ρ c r h18).trans <|
    (W18_of m ρ c r h17).trans <|
    (W17_of m ρ c r h16).trans <|
    (W16_of m ρ c r h15).trans <|
    (W15_of m ρ c r h14).trans <|
    (W14_of m ρ c r h13).trans <|
    (W13_of m ρ c r h12).trans <|
    (W12_of m ρ c r h11).trans <|
    (W11_of m ρ c r h10).trans <|
    (W10_of m ρ c r h9).trans <|
    (W9_of m ρ c r h8).trans <|
    (W8_of m ρ c r h7).trans <|
    (W7_of m ρ c r fun e => h6 (e ▸ List.mem_cons_self)).trans <|
    (W6_of m ρ c r h5).trans <|
    (W5_of m ρ c r h4).trans <|
    (W4_of m ρ c r h3).trans <|
    (W3_of m ρ c r h2).trans <|
    (W2_of m ρ c r fun e => h1 (e ▸ List.mem_cons_self)).trans <|
    (W1_of m ρ c r h0)

/-! ## The arguments end as launched -/

/-- The sixteen arguments. -/
abbrev argRefs : List (Ref sig .tc) :=
  [main_arg0, main_arg1, main_arg2, main_arg3, main_arg4, main_arg5, main_arg6, main_arg7, main_arg8, main_arg9, main_arg10, main_arg11, main_arg12, main_arg13, main_arg14, main_arg15]
/-- No segment writes an argument (membership of references is decidable; one evaluation for the sixteen). -/
theorem args_not_written : ∀ r ∈ argRefs, r ∉ allW := by decide +kernel
theorem W19_arg0 (c : Dev nD) : W19 m ρ c (Proc.devRef .tc main_arg0) = m ((c.tc : Thread nD τ).loc main_arg0) :=
  (W19_of m ρ c main_arg0 (args_not_written _ (by decide))).trans rfl
theorem W19_arg1 (c : Dev nD) : W19 m ρ c (Proc.devRef .tc main_arg1) = m ((c.tc : Thread nD τ).loc main_arg1) :=
  (W19_of m ρ c main_arg1 (args_not_written _ (by decide))).trans rfl
theorem W19_arg2 (c : Dev nD) : W19 m ρ c (Proc.devRef .tc main_arg2) = m ((c.tc : Thread nD τ).loc main_arg2) :=
  (W19_of m ρ c main_arg2 (args_not_written _ (by decide))).trans rfl
theorem W19_arg3 (c : Dev nD) : W19 m ρ c (Proc.devRef .tc main_arg3) = m ((c.tc : Thread nD τ).loc main_arg3) :=
  (W19_of m ρ c main_arg3 (args_not_written _ (by decide))).trans rfl
theorem W19_arg4 (c : Dev nD) : W19 m ρ c (Proc.devRef .tc main_arg4) = m ((c.tc : Thread nD τ).loc main_arg4) :=
  (W19_of m ρ c main_arg4 (args_not_written _ (by decide))).trans rfl
theorem W19_arg5 (c : Dev nD) : W19 m ρ c (Proc.devRef .tc main_arg5) = m ((c.tc : Thread nD τ).loc main_arg5) :=
  (W19_of m ρ c main_arg5 (args_not_written _ (by decide))).trans rfl
theorem W19_arg6 (c : Dev nD) : W19 m ρ c (Proc.devRef .tc main_arg6) = m ((c.tc : Thread nD τ).loc main_arg6) :=
  (W19_of m ρ c main_arg6 (args_not_written _ (by decide))).trans rfl
theorem W19_arg7 (c : Dev nD) : W19 m ρ c (Proc.devRef .tc main_arg7) = m ((c.tc : Thread nD τ).loc main_arg7) :=
  (W19_of m ρ c main_arg7 (args_not_written _ (by decide))).trans rfl
theorem W19_arg8 (c : Dev nD) : W19 m ρ c (Proc.devRef .tc main_arg8) = m ((c.tc : Thread nD τ).loc main_arg8) :=
  (W19_of m ρ c main_arg8 (args_not_written _ (by decide))).trans rfl
theorem W19_arg9 (c : Dev nD) : W19 m ρ c (Proc.devRef .tc main_arg9) = m ((c.tc : Thread nD τ).loc main_arg9) :=
  (W19_of m ρ c main_arg9 (args_not_written _ (by decide))).trans rfl
theorem W19_arg10 (c : Dev nD) : W19 m ρ c (Proc.devRef .tc main_arg10) = m ((c.tc : Thread nD τ).loc main_arg10) :=
  (W19_of m ρ c main_arg10 (args_not_written _ (by decide))).trans rfl
theorem W19_arg11 (c : Dev nD) : W19 m ρ c (Proc.devRef .tc main_arg11) = m ((c.tc : Thread nD τ).loc main_arg11) :=
  (W19_of m ρ c main_arg11 (args_not_written _ (by decide))).trans rfl
theorem W19_arg12 (c : Dev nD) : W19 m ρ c (Proc.devRef .tc main_arg12) = m ((c.tc : Thread nD τ).loc main_arg12) :=
  (W19_of m ρ c main_arg12 (args_not_written _ (by decide))).trans rfl
theorem W19_arg13 (c : Dev nD) : W19 m ρ c (Proc.devRef .tc main_arg13) = m ((c.tc : Thread nD τ).loc main_arg13) :=
  (W19_of m ρ c main_arg13 (args_not_written _ (by decide))).trans rfl
theorem W19_arg14 (c : Dev nD) : W19 m ρ c (Proc.devRef .tc main_arg14) = m ((c.tc : Thread nD τ).loc main_arg14) :=
  (W19_of m ρ c main_arg14 (args_not_written _ (by decide))).trans rfl
theorem W19_arg15 (c : Dev nD) : W19 m ρ c (Proc.devRef .tc main_arg15) = m ((c.tc : Thread nD τ).loc main_arg15) :=
  (W19_of m ρ c main_arg15 (args_not_written _ (by decide))).trans rfl

/-! ## The bias rows: a stretch's reshape of an argument, read after the stretch -/

/-- After main_part0_ops0 the buffer main_v0 holds main_arg3's contents as one row: the stretch's reshape writes it, no later operation of the stretch does, and none writes main_arg3. -/
theorem main_part0_ops0_v0 (V : Valuation τ sig (Elt F)) :
    StableHlo.after main_part0_ops0 V (Proc.devRef .tc main_v0)
      = fun i => shapeCast S1x64 (V (Proc.devRef .tc main_arg3)) shapeCasts_S64_S1x64 i := by
  after_results_simp
  rfl
theorem W1_v0 (c : Dev nD) :
    W1 m ρ c (Proc.devRef .tc main_v0)
      = fun i => shapeCast S1x64 (W0 m ρ c (Proc.devRef .tc main_arg3)) shapeCasts_S64_S1x64 i :=
  main_part0_ops0_v0 _
/-- After main_part1_ops0 the buffer main_v91 holds main_arg5's contents as one row: the stretch's reshape writes it, no later operation of the stretch does, and none writes main_arg5. -/
theorem main_part1_ops0_v91 (V : Valuation τ sig (Elt F)) :
    StableHlo.after main_part1_ops0 V (Proc.devRef .tc main_v91)
      = fun i => shapeCast S1x64 (V (Proc.devRef .tc main_arg5)) shapeCasts_S64_S1x64 i := by
  after_results_simp
  rfl
theorem W6_v91 (c : Dev nD) :
    W6 m ρ c (Proc.devRef .tc main_v91)
      = fun i => shapeCast S1x64 (W5 m ρ c (Proc.devRef .tc main_arg5)) shapeCasts_S64_S1x64 i :=
  main_part1_ops0_v91 _

end Cert.KernelIdeal.Hand

end
-- ==== Proof.KValue.lean ====
import proofs.«175666_j17377437679648_2_alg».proof.Proof.KRegion
import Idealize.ShloMosaic.Lib.Pipeline.Value
import Idealize.ShloMosaic.Lib.ValueIdx

set_option maxRecDepth 65536

/-! # What a region leaves in its output array, entry by entry, on the extended reals

Point t of a region's grid writes back rows 16384·t … 16384·t + 16383 of the output, each entry the payload of the point's blocks:
the rows' block of the first array, the whole weight matrix, the whole bias row. The blocks tile the output, so after the
run the entry at row R, column j is  Σ_k A(R,k)·W(k,j) + b(0,j)  of the arrays as the region found them. The payload's own
reading at an entry (the sum over the contracted axis plus the bias) is taken as a hypothesis here. -/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl

/-- The payload read at an entry: the hypothesis the two regions' lemmas take. -/
abbrev PayAt (pay : FVec Ideal S16384x16 .f32 → FVec Ideal S16x64 .f32 → FVec Ideal S1x64 .f32 → FVec Ideal S16384x64 .f32) : Prop :=
  ∀ (x : FVec Ideal S16384x16 .f32) (w : FVec Ideal S16x64 .f32) (b : FVec Ideal S1x64 .f32) (r : Fin 16384) (j : Fin 64),
    pay x w b (ix2 r j) = (∑ k : Fin 16, x (ix2 r k) * w (ix2 k j)) + b (ix2 0 j)

/-! ## Region 0 -/

/-- The index maps of region 0, decided over its 16 points: the rows' window and the output window move together along the rows,
    every other block index is 0. -/
theorem idx_facts0 : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (1 : Fin 2) = 0 ∧ win0_3.index t (0 : Fin 2) ≤ 15 :=
  (by decide +kernel : ∀ t : Fin grid0.N, _)

/-- Every block of rows is some point's. -/
theorem idx_onto0 : ∀ q0 : Fin 16, ∃ t : Fin cfg0.N, win0_3.index t = ![q0.val, 0] :=
  (by decide +kernel : ∀ q0 : Fin 16, ∃ t : Fin grid0.N, win0_3.index t = ![q0.val, 0])

/-- The payload of three blocks at an entry, when the blocks are read off arrays A, W, B at block offset q along the rows. -/
theorem pay_entry0 {pay : FVec Ideal S16384x16 .f32 → FVec Ideal S16x64 .f32 → FVec Ideal S1x64 .f32 → FVec Ideal S16384x64 .f32} (hpay : PayAt pay)
    (x0 : FVec Ideal S16384x16 .f32) (x1 : FVec Ideal S16x64 .f32) (x2 : FVec Ideal S1x64 .f32)
    (A : FVec Ideal S262144x16 .f32) (Wm : FVec Ideal S16x64 .f32) (B : FVec Ideal S1x64 .f32) (R : Fin 262144) (r : Fin 16384) (j : Fin 64)
    (h0 : ∀ k : Fin 16, x0 (ix2 r k) = A (ix2 R k)) (h1 : ∀ k : Fin 16, x1 (ix2 k j) = Wm (ix2 k j)) (h2 : x2 (ix2 0 j) = B (ix2 0 j)) :
    pay x0 x1 x2 (ix2 r j) = (∑ k : Fin 16, A (ix2 R k) * Wm (ix2 k j)) + B (ix2 0 j) := by
  rw [hpay x0 x1 x2 r j, h2]
  exact congrArg (· + B (ix2 0 j)) (Finset.sum_congr rfl fun k _ => by rw [h0 k, h1 k])

section
variable (V : (c : Dev nD) → (b : Ref sig .tc) → Buf (Elt Ideal) ((c : Thread nD τ).loc b))

/-- The region's three input arrays as it finds them, typed as arrays of extended reals. -/
abbrev arrX0 (c : Dev nD) : FVec Ideal S262144x16 .f32 := V c main_arg0
abbrev arrW0 (c : Dev nD) : FVec Ideal S16x64 .f32 := V c main_arg2
abbrev arrB0 (c : Dev nD) : FVec Ideal S1x64 .f32 := V c main_v0

/-- What point t writes back, at an entry of its block: the products of row 16384·q + r of the first array with the weight matrix, plus the bias. -/
theorem flushed0_entry (hpay : PayAt (k0_pay1 (F := Ideal))) (c : Dev nD) (t : Fin cfg0.N) (R : Fin 262144) (r : Fin 16384) (j : Fin 64)
    (hR : R.val = win0_3.index t (0 : Fin 2) * 16384 + r.val) :
    (dat0 (F := Ideal) V c).flushed 3 t (ix2 r j)
      = (∑ k : Fin 16, arrX0 V c (ix2 R k) * arrW0 V c (ix2 k j)) + arrB0 V c (ix2 0 j) := by
  show (cfg0.win 3).cut (grid0.coords t) ((dat0 (F := Ideal) V c).after 3 t) (ix2 r j) = _
  rw [after0_3]
  unfold out0_3
  rw [View.canon_unit_zero hz2]
  simp only [View.ld_unit_zero (S := S16384x16) hz2, View.ld_unit_zero (S := S16x64) hz2, View.ld_unit_zero (S := S1x64) hz2]
  obtain ⟨e0, e1, e2, e3, e4, e5, e6, e7⟩ := idx_facts0 t
  refine pay_entry0 hpay _ _ _ (V c main_arg0) (V c main_arg2) (V c main_v0) R r j (fun k => ?_) (fun k => ?_) ?_
  · show V c main_arg0 (((cfg0.win 0).blk t).view.emb (ix2 r k)) = V c main_arg0 (ix2 R k)
    refine congrArg (V c main_arg0) (funext fun a => Fin.ext ?_)
    match a with
    | ⟨0, _⟩ => show win0_0.index t (0 : Fin 2) * 16384 + 1 * r.val = R.val; omega
    | ⟨1, _⟩ => show win0_0.index t (1 : Fin 2) * 16 + 1 * k.val = k.val; omega
  · show V c main_arg2 (((cfg0.win 1).blk t).view.emb (ix2 k j)) = V c main_arg2 (ix2 k j)
    refine congrArg (V c main_arg2) (funext fun a => Fin.ext ?_)
    match a with
    | ⟨0, _⟩ => show win0_1.index t (0 : Fin 2) * 16 + 1 * k.val = k.val; omega
    | ⟨1, _⟩ => show win0_1.index t (1 : Fin 2) * 64 + 1 * j.val = j.val; omega
  · show V c main_v0 (((cfg0.win 2).blk t).view.emb (ix2 0 j)) = V c main_v0 (ix2 0 j)
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * j.val = j.val; omega

/-- An index of the output array is in point t's block iff each coordinate is in the block's range on its axis. -/
theorem mem_blk0 (t : Fin cfg0.N) (i : S262144x64.Idx) :
    i ∈ ((cfg0.win 3).blk t).view.set ↔ ∀ a : Fin 2, win0_3.index t a * S16384x64.size a ≤ (i a).val ∧ (i a).val < win0_3.index t a * S16384x64.size a + S16384x64.size a := by
  show i ∈ ((View.whole main_v1).slice (win0_3.rect t)).set ↔ _
  rw [View.set_slice_whole, Rect.mem_set_unit]
  exact Iff.rfl

/-- THE OUTPUT ARRAY after the region, entry by entry. -/
theorem arr0_entry (hpay : PayAt (k0_pay1 (F := Ideal))) (c : Dev nD) (R : Fin 262144) (j : Fin 64) :
    ((dat0 (F := Ideal) V c).arrAt 3 cfg0.N : FVec Ideal S262144x64 .f32) (ix2 R j)
      = (∑ k : Fin 16, arrX0 V c (ix2 R k) * arrW0 V c (ix2 k j)) + arrB0 V c (ix2 0 j) := by
  obtain ⟨t, ht⟩ := idx_onto0 ⟨R.val / 16384, by have := R.isLt; omega⟩
  have q0 : win0_3.index t (0 : Fin 2) = R.val / 16384 := congrFun ht 0
  have q1 : win0_3.index t (1 : Fin 2) = 0 := congrFun ht 1
  have hmem : (ix2 R j : S262144x64.Idx) ∈ ((cfg0.win 3).blk t).view.set := by
    rw [mem_blk0]
    intro a
    match a with
    | ⟨0, _⟩ => show win0_3.index t (0 : Fin 2) * 16384 ≤ R.val ∧ R.val < win0_3.index t (0 : Fin 2) * 16384 + 16384; omega
    | ⟨1, _⟩ => show win0_3.index t (1 : Fin 2) * 64 ≤ j.val ∧ j.val < win0_3.index t (1 : Fin 2) * 64 + 64; have := j.isLt; omega
  refine (dat0 (F := Ideal) V c).arrAt_forall_of_flushed 3
    (fun i v => ∀ (R' : Fin 262144) (j' : Fin 64), i = ix2 R' j' →
      v = (∑ k : Fin 16, arrX0 V c (ix2 R' k) * arrW0 V c (ix2 k j')) + arrB0 V c (ix2 0 j'))
    (fun t' hf y R' j' hy => ?_) cfg0.N t (ix2 R j) t.isLt (flush0_3 t) hmem R j rfl
  have hy0 : (y 0).val < 16384 := (y 0).isLt
  have hy1 : (y 1).val < 64 := (y 1).isLt
  have hyeq : y = ix2 (⟨(y 0).val, hy0⟩ : Fin 16384) (⟨(y 1).val, hy1⟩ : Fin 64) := funext fun a => by
    match a with
    | ⟨0, _⟩ => rfl
    | ⟨1, _⟩ => rfl
  obtain ⟨e0, e1, e2, e3, e4, e5, e6, e7⟩ := idx_facts0 t'
  have hR0 : ((((cfg0.win 3).blk t').view.emb y) 0).val = win0_3.index t' (0 : Fin 2) * 16384 + 1 * (y 0).val := rfl
  have hR1 : ((((cfg0.win 3).blk t').view.emb y) 1).val = win0_3.index t' (1 : Fin 2) * 64 + 1 * (y 1).val := rfl
  have hc0 : R'.val = win0_3.index t' (0 : Fin 2) * 16384 + (y 0).val := by
    have := congrArg (fun i : S262144x64.Idx => (i 0).val) hy
    simp only [hR0] at this
    show R'.val = _
    have h2 : ((ix2 R' j' : S262144x64.Idx) 0).val = R'.val := rfl
    omega
  have hc1 : j'.val = (y 1).val := by
    have := congrArg (fun i : S262144x64.Idx => (i 1).val) hy
    simp only [hR1] at this
    have h2 : ((ix2 R' j' : S262144x64.Idx) 1).val = j'.val := rfl
    omega
  have hj : j' = ⟨(y 1).val, hy1⟩ := Fin.ext hc1
  subst hj
  show (dat0 (F := Ideal) V c).flushed 3 t' y = _
  exact (congrArg ((dat0 (F := Ideal) V c).flushed 3 t') hyeq).trans (flushed0_entry V hpay c t' R' ⟨(y 0).val, hy0⟩ ⟨(y 1).val, hy1⟩ hc0)

end

/-! ## Region 1 -/

/-- The index maps of region 1, decided over its 64 points: the rows' window and the output window move together along the rows,
    every other block index is 0. -/
theorem idx_facts1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 ∧ win1_3.index t (0 : Fin 2) ≤ 63 :=
  (by decide +kernel : ∀ t : Fin grid1.N, _)

/-- Every block of rows is some point's. -/
theorem idx_onto1 : ∀ q0 : Fin 64, ∃ t : Fin cfg1.N, win1_3.index t = ![q0.val, 0] :=
  (by decide +kernel : ∀ q0 : Fin 64, ∃ t : Fin grid1.N, win1_3.index t = ![q0.val, 0])

/-- The payload of three blocks at an entry, when the blocks are read off arrays A, W, B at block offset q along the rows. -/
theorem pay_entry1 {pay : FVec Ideal S16384x16 .f32 → FVec Ideal S16x64 .f32 → FVec Ideal S1x64 .f32 → FVec Ideal S16384x64 .f32} (hpay : PayAt pay)
    (x0 : FVec Ideal S16384x16 .f32) (x1 : FVec Ideal S16x64 .f32) (x2 : FVec Ideal S1x64 .f32)
    (A : FVec Ideal S1048576x16 .f32) (Wm : FVec Ideal S16x64 .f32) (B : FVec Ideal S1x64 .f32) (R : Fin 1048576) (r : Fin 16384) (j : Fin 64)
    (h0 : ∀ k : Fin 16, x0 (ix2 r k) = A (ix2 R k)) (h1 : ∀ k : Fin 16, x1 (ix2 k j) = Wm (ix2 k j)) (h2 : x2 (ix2 0 j) = B (ix2 0 j)) :
    pay x0 x1 x2 (ix2 r j) = (∑ k : Fin 16, A (ix2 R k) * Wm (ix2 k j)) + B (ix2 0 j) := by
  rw [hpay x0 x1 x2 r j, h2]
  exact congrArg (· + B (ix2 0 j)) (Finset.sum_congr rfl fun k _ => by rw [h0 k, h1 k])

section
variable (V : (c : Dev nD) → (b : Ref sig .tc) → Buf (Elt Ideal) ((c : Thread nD τ).loc b))

/-- The region's three input arrays as it finds them, typed as arrays of extended reals. -/
abbrev arrX1 (c : Dev nD) : FVec Ideal S1048576x16 .f32 := V c main_arg1
abbrev arrW1 (c : Dev nD) : FVec Ideal S16x64 .f32 := V c main_arg4
abbrev arrB1 (c : Dev nD) : FVec Ideal S1x64 .f32 := V c main_v91

/-- What point t writes back, at an entry of its block: the products of row 16384·q + r of the first array with the weight matrix, plus the bias. -/
theorem flushed1_entry (hpay : PayAt (k1_pay1 (F := Ideal))) (c : Dev nD) (t : Fin cfg1.N) (R : Fin 1048576) (r : Fin 16384) (j : Fin 64)
    (hR : R.val = win1_3.index t (0 : Fin 2) * 16384 + r.val) :
    (dat1 (F := Ideal) V c).flushed 3 t (ix2 r j)
      = (∑ k : Fin 16, arrX1 V c (ix2 R k) * arrW1 V c (ix2 k j)) + arrB1 V c (ix2 0 j) := by
  show (cfg1.win 3).cut (grid1.coords t) ((dat1 (F := Ideal) V c).after 3 t) (ix2 r j) = _
  rw [after1_3]
  unfold out1_3
  rw [View.canon_unit_zero hz2]
  simp only [View.ld_unit_zero (S := S16384x16) hz2, View.ld_unit_zero (S := S16x64) hz2, View.ld_unit_zero (S := S1x64) hz2]
  obtain ⟨e0, e1, e2, e3, e4, e5, e6, e7⟩ := idx_facts1 t
  refine pay_entry1 hpay _ _ _ (V c main_arg1) (V c main_arg4) (V c main_v91) R r j (fun k => ?_) (fun k => ?_) ?_
  · show V c main_arg1 (((cfg1.win 0).blk t).view.emb (ix2 r k)) = V c main_arg1 (ix2 R k)
    refine congrArg (V c main_arg1) (funext fun a => Fin.ext ?_)
    match a with
    | ⟨0, _⟩ => show win1_0.index t (0 : Fin 2) * 16384 + 1 * r.val = R.val; omega
    | ⟨1, _⟩ => show win1_0.index t (1 : Fin 2) * 16 + 1 * k.val = k.val; omega
  · show V c main_arg4 (((cfg1.win 1).blk t).view.emb (ix2 k j)) = V c main_arg4 (ix2 k j)
    refine congrArg (V c main_arg4) (funext fun a => Fin.ext ?_)
    match a with
    | ⟨0, _⟩ => show win1_1.index t (0 : Fin 2) * 16 + 1 * k.val = k.val; omega
    | ⟨1, _⟩ => show win1_1.index t (1 : Fin 2) * 64 + 1 * j.val = j.val; omega
  · show V c main_v91 (((cfg1.win 2).blk t).view.emb (ix2 0 j)) = V c main_v91 (ix2 0 j)
    refine congrArg (V c main_v91) (funext fun a => Fin.ext ?_)
    match a with
    | ⟨0, _⟩ => show win1_2.index t (0 : Fin 2) * 1 + 1 * 0 = 0; omega
    | ⟨1, _⟩ => show win1_2.index t (1 : Fin 2) * 64 + 1 * j.val = j.val; omega

/-- An index of the output array is in point t's block iff each coordinate is in the block's range on its axis. -/
theorem mem_blk1 (t : Fin cfg1.N) (i : S1048576x64.Idx) :
    i ∈ ((cfg1.win 3).blk t).view.set ↔ ∀ a : Fin 2, win1_3.index t a * S16384x64.size a ≤ (i a).val ∧ (i a).val < win1_3.index t a * S16384x64.size a + S16384x64.size a := by
  show i ∈ ((View.whole main_v92).slice (win1_3.rect t)).set ↔ _
  rw [View.set_slice_whole, Rect.mem_set_unit]
  exact Iff.rfl

/-- THE OUTPUT ARRAY after the region, entry by entry. -/
theorem arr1_entry (hpay : PayAt (k1_pay1 (F := Ideal))) (c : Dev nD) (R : Fin 1048576) (j : Fin 64) :
    ((dat1 (F := Ideal) V c).arrAt 3 cfg1.N : FVec Ideal S1048576x64 .f32) (ix2 R j)
      = (∑ k : Fin 16, arrX1 V c (ix2 R k) * arrW1 V c (ix2 k j)) + arrB1 V c (ix2 0 j) := by
  obtain ⟨t, ht⟩ := idx_onto1 ⟨R.val / 16384, by have := R.isLt; omega⟩
  have q0 : win1_3.index t (0 : Fin 2) = R.val / 16384 := congrFun ht 0
  have q1 : win1_3.index t (1 : Fin 2) = 0 := congrFun ht 1
  have hmem : (ix2 R j : S1048576x64.Idx) ∈ ((cfg1.win 3).blk t).view.set := by
    rw [mem_blk1]
    intro a
    match a with
    | ⟨0, _⟩ => show win1_3.index t (0 : Fin 2) * 16384 ≤ R.val ∧ R.val < win1_3.index t (0 : Fin 2) * 16384 + 16384; omega
    | ⟨1, _⟩ => show win1_3.index t (1 : Fin 2) * 64 ≤ j.val ∧ j.val < win1_3.index t (1 : Fin 2) * 64 + 64; have := j.isLt; omega
  refine (dat1 (F := Ideal) V c).arrAt_forall_of_flushed 3
    (fun i v => ∀ (R' : Fin 1048576) (j' : Fin 64), i = ix2 R' j' →
      v = (∑ k : Fin 16, arrX1 V c (ix2 R' k) * arrW1 V c (ix2 k j')) + arrB1 V c (ix2 0 j'))
    (fun t' hf y R' j' hy => ?_) cfg1.N t (ix2 R j) t.isLt (flush1_3 t) hmem R j rfl
  have hy0 : (y 0).val < 16384 := (y 0).isLt
  have hy1 : (y 1).val < 64 := (y 1).isLt
  have hyeq : y = ix2 (⟨(y 0).val, hy0⟩ : Fin 16384) (⟨(y 1).val, hy1⟩ : Fin 64) := funext fun a => by
    match a with
    | ⟨0, _⟩ => rfl
    | ⟨1, _⟩ => rfl
  obtain ⟨e0, e1, e2, e3, e4, e5, e6, e7⟩ := idx_facts1 t'
  have hR0 : ((((cfg1.win 3).blk t').view.emb y) 0).val = win1_3.index t' (0 : Fin 2) * 16384 + 1 * (y 0).val := rfl
  have hR1 : ((((cfg1.win 3).blk t').view.emb y) 1).val = win1_3.index t' (1 : Fin 2) * 64 + 1 * (y 1).val := rfl
  have hc0 : R'.val = win1_3.index t' (0 : Fin 2) * 16384 + (y 0).val := by
    have := congrArg (fun i : S1048576x64.Idx => (i 0).val) hy
    simp only [hR0] at this
    show R'.val = _
    have h2 : ((ix2 R' j' : S1048576x64.Idx) 0).val = R'.val := rfl
    omega
  have hc1 : j'.val = (y 1).val := by
    have := congrArg (fun i : S1048576x64.Idx => (i 1).val) hy
    simp only [hR1] at this
    have h2 : ((ix2 R' j' : S1048576x64.Idx) 1).val = j'.val := rfl
    omega
  have hj : j' = ⟨(y 1).val, hy1⟩ := Fin.ext hc1
  subst hj
  show (dat1 (F := Ideal) V c).flushed 3 t' y = _
  exact (congrArg ((dat1 (F := Ideal) V c).flushed 3 t') hyeq).trans (flushed1_entry V hpay c t' R' ⟨(y 0).val, hy0⟩ ⟨(y 1).val, hy1⟩ hc0)

end

end Cert.KernelIdeal.Hand

end
-- ==== Proof.KLists.lean ====
import proofs.«175666_j17377437679648_2_alg».proof.Proof.Gen.KernelIdeal.Launch

/-! # The two stretches that follow a kernel region, first operation apart

After each of its two kernel regions the program reshapes the region's result (rows of a matrix) to a four-axis array and goes
on with index bookkeeping. Here each of these two stretches is its first operation followed by the rest. -/

noncomputable section

namespace Cert.KernelIdeal.Hand

open Idealize.ShloMosaic Idealize.SL.Sem
open Cert.KernelIdeal Cert.KernelIdeal.Facts₀ Cert.KernelIdeal.Facts

variable {F : FTy → Type} [FloatOps F]

/-- The first region's result, 262144 rows of 64, reshaped to [16, 128, 128, 64]. -/
abbrev opV2 : HloOp τ sig (Elt F) := StableHlo.reshape main_v1 main_v2 rfl shapeCasts_S262144x64_S16x128x128x64

/-- The 8 operations after it, up to the call of the cumulative sum. -/
abbrev part0_ops1_rest : List (HloOp τ sig (Elt F)) :=
  [ StableHlo.nullary main_c (constantI S_ 32 1#32),
    StableHlo.unary main_c main_v3 (broadcastInDim S2048 ![] bcast_S_S2048 : (⟨S_, .i32⟩ : BufTy).Contents (Elt F) → (⟨S2048, .i32⟩ : BufTy).Contents (Elt F)),
    StableHlo.nullary main_c_0 (constantI S_ 32 0#32),
    StableHlo.unary main_c_0 main_v4 (broadcastInDim S16 ![] bcast_S_S16 : (⟨S_, .i32⟩ : BufTy).Contents (Elt F) → (⟨S16, .i32⟩ : BufTy).Contents (Elt F)),
    StableHlo.unary main_arg8 main_v5 (broadcastInDim S2048x1 ![0] bcast_S2048_S2048x1_0 : (⟨S2048, .i32⟩ : BufTy).Contents (Elt F) → (⟨S2048x1, .i32⟩ : BufTy).Contents (Elt F)),
    StableHlo.ternary main_v4 main_v5 main_v3 main_v6 ((fun x i u => Host.scatter scatter_S16_S2048x1_S2048_n_0_0_1 IntOp.addi x i u) : (⟨S16, .i32⟩ : BufTy).Contents (Elt F) → (⟨S2048x1, .i32⟩ : BufTy).Contents (Elt F) → (⟨S2048, .i32⟩ : BufTy).Contents (Elt F) → (⟨S16, .i32⟩ : BufTy).Contents (Elt F)),
    StableHlo.nullary main_c_1 (constantI S_ 32 0#32),
    StableHlo.unary main_c_1 main_v7 (broadcastInDim S1 ![] bcast_S_S1 : (⟨S_, .i32⟩ : BufTy).Contents (Elt F) → (⟨S1, .i32⟩ : BufTy).Contents (Elt F)) ]

theorem part0_ops1_eq : (Gen.main_part0_ops1 : List (HloOp τ sig (Elt F))) = opV2 :: part0_ops1_rest := rfl

/-- The second region's result, 1048576 rows of 64, reshaped to [16, 256, 256, 64]. -/
abbrev opV93 : HloOp τ sig (Elt F) := StableHlo.reshape main_v92 main_v93 rfl shapeCasts_S1048576x64_S16x256x256x64

/-- The 2 operations after it, to the end of that stretch. -/
abbrev part1_ops1_rest : List (HloOp τ sig (Elt F)) :=
  [ StableHlo.nullary main_c_22 (constantI S_ 32 1#32),
    StableHlo.unary main_c_22 main_v94 (broadcastInDim S4096 ![] bcast_S_S4096 : (⟨S_, .i32⟩ : BufTy).Contents (Elt F) → (⟨S4096, .i32⟩ : BufTy).Contents (Elt F)) ]

theorem part1_ops1_eq : (Gen.main_part1_ops1 : List (HloOp τ sig (Elt F))) = opV93 :: part1_ops1_rest := rfl

end Cert.KernelIdeal.Hand

end
-- ==== Proof.DenseMath.lean ====
import proofs.«175666_j17377437679648_2_alg».proof.Proof.Gen.KernelIdeal.Skeleton
import proofs.«175666_j17377437679648_2_alg».proof.ReferenceIdeal
import proofs.«175666_j17377437679648_2_alg».proof.Proof.Gen.ReferenceIdeal
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

/-! # The dense projection is one function on both sides

At the ideal values (the extended reals: every operation exact, a format change the identity) the kernel body's
payload at a block of rows is, entry by entry, the sum over the contracted coordinate of the products of the row's
and the weight matrix's entries, plus the bias; the reference's dense array (reshape to four axes, contraction of the
last axis with the weight matrix, the bias laid along the last axis, the sum) is the same sum at the row whose
row-major position among the first three axes is (g·N + p)·N + q. So a matrix of rows whose entries are those sums,
reshaped to four axes, is the reference's dense array. -/

noncomputable section

namespace Cert.Bridge.Dense

open Idealize.ShloMosaic Idealize.ShloMosaic.ValueIdx

/-- The block product's dimension numbers are the plain rows-by-columns ones. -/
theorem kdot_eq_plain : Cert.KernelIdeal.dot_S16384x16_S16x64_S16384x64_1_0_0_1_n_n = DotDims.plain 16384 16 64 := rfl

/-- A product of an m×k block by a k×n block accumulated into the zero block, read at an entry: the sum over the
    contracted coordinate of the products of the entries. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- the kernel body's payload at an entry -/
theorem pay0_apply (x : FVec Ideal Cert.KernelIdeal.S16384x16 .f32) (w : FVec Ideal Cert.KernelIdeal.S16x64 .f32)
    (b : FVec Ideal Cert.KernelIdeal.S1x64 .f32) (r : Fin 16384) (j : Fin 64) :
    Cert.KernelIdeal.Gen.k0_pay1 (F := Ideal) x w b (ix2 r j)
      = (∑ k : Fin 16, x (ix2 r k) * w (ix2 k j)) + b (ix2 0 j) := by
  unfold Cert.KernelIdeal.Gen.k0_pay1
  rw [addf_apply, kdot_eq_plain]
  refine congrArg₂ (· + ·) ?_ ?_
  · exact matmul_plain_zero_apply none _ _ r j
  · rw [shapeCast_self]
    exact broadcastTo_1b_ab_apply b _ r j

/-- a matrix of rows reshaped to four axes, read at an entry -/
theorem rows4_0_apply {α : Type} (o : Cert.KernelIdeal.S262144x64.Idx → α)
    (h : Cert.KernelIdeal.S262144x64.ShapeCasts Cert.KernelIdeal.S16x128x128x64)
    (g : Fin 16) (p q : Fin 128) (j : Fin 64) :
    shapeCast Cert.KernelIdeal.S16x128x128x64 o h (ix4 g p q j)
      = o (ix2 ⟨(g.val * 128 + p.val) * 128 + q.val, by omega⟩ j) :=
  shapeCast_apply o h _ _ (by
    rw [Shape.rowMajor_val_four, Shape.rowMajor_val_two]
    rfl)

/-- the same for the second region's body -/
theorem pay1_apply (x : FVec Ideal Cert.KernelIdeal.S16384x16 .f32) (w : FVec Ideal Cert.KernelIdeal.S16x64 .f32)
    (b : FVec Ideal Cert.KernelIdeal.S1x64 .f32) (r : Fin 16384) (j : Fin 64) :
    Cert.KernelIdeal.Gen.k1_pay1 (F := Ideal) x w b (ix2 r j)
      = (∑ k : Fin 16, x (ix2 r k) * w (ix2 k j)) + b (ix2 0 j) := by
  unfold Cert.KernelIdeal.Gen.k1_pay1
  rw [addf_apply, kdot_eq_plain]
  refine congrArg₂ (· + ·) ?_ ?_
  · exact matmul_plain_zero_apply none _ _ r j
  · rw [shapeCast_self]
    exact broadcastTo_1b_ab_apply b _ r j

/-- A matrix of R rows reshaped to four axes [G, P, Q, C] reads, at (g, p, q, j), row (g·P + p)·Q + q at column j:
    the two row-major positions agree. -/
theorem shapeCast_rows4_apply {α : Type} {R G P Q C : Nat} (o : (⟨2, ![R, C]⟩ : Shape).Idx → α)
    (h : (⟨2, ![R, C]⟩ : Shape).ShapeCasts ⟨4, ![G, P, Q, C]⟩) (g : Fin G) (p : Fin P) (q : Fin Q) (j : Fin C)
    (hr : (g.val * P + p.val) * Q + q.val < R) :
    shapeCast ⟨4, ![G, P, Q, C]⟩ o h (ix4 g p q j) = o (ix2 ⟨(g.val * P + p.val) * Q + q.val, hr⟩ j) :=
  shapeCast_apply o h _ _ (by
    rw [Shape.rowMajor_val_four, Shape.rowMajor_val_two]
    rfl)

theorem rows4_1_apply {α : Type} (o : Cert.KernelIdeal.S1048576x64.Idx → α)
    (h : Cert.KernelIdeal.S1048576x64.ShapeCasts Cert.KernelIdeal.S16x256x256x64)
    (g : Fin 16) (p q : Fin 256) (j : Fin 64) :
    shapeCast Cert.KernelIdeal.S16x256x256x64 o h (ix4 g p q j)
      = o (ix2 ⟨(g.val * 256 + p.val) * 256 + q.val, by omega⟩ j) :=
  shapeCast_rows4_apply o h g p q j _

/-- The contraction of a [G, P, Q, K] array's last axis with a [K, N] matrix's first, read at an entry: the sum over
    the contracted coordinate of the products of the entries. At the ideal values. -/
theorem dotGeneral_last_apply {G P Q K N : Nat} {φ₁ φ₂ : FTy}
    (wf : DotDims.WF ⟨4, ![G, P, Q, K]⟩ ⟨2, ![K, N]⟩ ⟨4, ![G, P, Q, N]⟩ [3] [0] [0, 1, 2] [1] [] [])
    (prec : Option ContractPrecision) (A : FVec Ideal ⟨4, ![G, P, Q, K]⟩ φ₁) (B : FVec Ideal ⟨2, ![K, N]⟩ φ₂)
    (g : Fin G) (p : Fin P) (q : Fin Q) (j : Fin N) :
    Host.dotGeneral (⟨[3], [0], [0, 1, 2], [1], [], [], wf⟩ : DotDims _ _ _) prec A B (ix4 g p q j)
      = ∑ c : Fin K, A (ix4 g p q c) * B (ix2 c j) := by
  show FloatOps.dotGeneral _ prec _ A B (ix4 g p q j) = _
  rw [Ideal.dotGeneral_apply,
    ← Equiv.sum_comp (contrEquiv1 (⟨[3], [0], [0, 1, 2], [1], [], [], wf⟩ : DotDims _ _ _) K rfl rfl).symm]
  refine Finset.sum_congr rfl fun c _ => ?_
  have c1 := contrEquiv1_symm_val
    (⟨[3], [0], [0, 1, 2], [1], [], [], wf⟩ : DotDims ⟨4, ![G, P, Q, K]⟩ ⟨2, ![K, N]⟩ ⟨4, ![G, P, Q, N]⟩) K rfl rfl c
  have l : (⟨[3], [0], [0, 1, 2], [1], [], [], wf⟩ : DotDims ⟨4, ![G, P, Q, K]⟩ ⟨2, ![K, N]⟩ ⟨4, ![G, P, Q, N]⟩).lhsIdx
      (ix4 g p q j) ((contrEquiv1 _ K rfl rfl).symm c) = ix4 g p q c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c1
  have r : (⟨[3], [0], [0, 1, 2], [1], [], [], wf⟩ : DotDims ⟨4, ![G, P, Q, K]⟩ ⟨2, ![K, N]⟩ ⟨4, ![G, P, Q, N]⟩).rhsIdx
      (ix4 g p q j) ((contrEquiv1 _ K rfl rfl).symm c) = ix2 c j := by
    funext ax; apply Fin.ext
    match ax with
    | ⟨0, _⟩ => simp [DotDims.rhsIdx]; exact c1
    | ⟨1, _⟩ => simp [DotDims.rhsIdx]; rfl
  rw [l, r]

/-- A vector of N entries laid along the last of four axes (first as [1, 1, 1, N], then over [G, P, Q, N]) reads its
    entry j at every (g, p, q, j). -/
theorem bias4_apply {α : Type} {G P Q N : Nat} (hN : N ≠ 1) (b : (⟨1, ![N]⟩ : Shape).Idx → α)
    (h1 : (⟨1, ![N]⟩ : Shape).BroadcastsInDim ⟨4, ![1, 1, 1, N]⟩ ![3])
    (h2 : (⟨4, ![1, 1, 1, N]⟩ : Shape).BroadcastsInDim ⟨4, ![G, P, Q, N]⟩ ![0, 1, 2, 3])
    (g : Fin G) (p : Fin P) (q : Fin Q) (j : Fin N) :
    broadcastInDim ⟨4, ![G, P, Q, N]⟩ ![0, 1, 2, 3] h2 (broadcastInDim ⟨4, ![1, 1, 1, N]⟩ ![3] h1 b) (ix4 g p q j)
      = b (ix1 j) := by
  refine (broadcastInDim_apply _ h2 _ (ix4 g p q j) (ix4 (0 : Fin 1) (0 : Fin 1) (0 : Fin 1) j) fun a => ?_).trans ?_
  · match a with
    | ⟨0, _⟩ => rfl
    | ⟨1, _⟩ => rfl
    | ⟨2, _⟩ => rfl
    | ⟨3, _⟩ =>
      show j.val = if N = 1 then 0 else j.val
      rw [if_neg hN]
  · refine broadcastInDim_apply _ h1 b _ (ix1 j) fun a => ?_
    match a with
    | ⟨0, _⟩ =>
      show j.val = if N = 1 then 0 else j.val
      rw [if_neg hN]

open Cert.ReferenceIdeal.Facts₀ Cert.ReferenceIdeal.Facts

/-- the reference's dense array at an entry, N = 128 -/
theorem ref_dense0_apply (x : FVec Ideal Cert.ReferenceIdeal.S262144x16 .f32) (w : FVec Ideal Cert.ReferenceIdeal.S16x64 .f32)
    (b : FVec Ideal Cert.ReferenceIdeal.S64 .f32) (g : Fin 16) (p q : Fin 128) (j : Fin 64) :
    addf (Host.dotGeneral (F := Ideal) Cert.ReferenceIdeal.dot_S16x128x128x16_S16x64_S16x128x128x64_3_0_012_1_n_n none
            (shapeCast Cert.ReferenceIdeal.S16x128x128x16 x shapeCasts_S262144x16_S16x128x128x16) w)
         (broadcastInDim Cert.ReferenceIdeal.S16x128x128x64 ![0, 1, 2, 3] bcast_S1x1x1x64_S16x128x128x64_0_1_2_3
            (broadcastInDim Cert.ReferenceIdeal.S1x1x1x64 ![3] bcast_S64_S1x1x1x64_3 b)) (ix4 g p q j)
      = (∑ k : Fin 16, x (ix2 ⟨(g.val * 128 + p.val) * 128 + q.val, by omega⟩ k) * w (ix2 k j)) + b (ix1 j) := by
  rw [addf_apply]
  refine congrArg₂ (· + ·) ?_ (bias4_apply (by decide) b _ _ g p q j)
  refine (dotGeneral_last_apply dot_S16x128x128x16_S16x64_S16x128x128x64_3_0_012_1_n_n_wf none _ w g p q j).trans ?_
  refine Finset.sum_congr rfl fun k _ => ?_
  rw [shapeCast_rows4_apply x _ g p q k (by omega)]

/-- the reference's dense array at an entry, N = 256 -/
theorem ref_dense1_apply (x : FVec Ideal Cert.ReferenceIdeal.S1048576x16 .f32) (w : FVec Ideal Cert.ReferenceIdeal.S16x64 .f32)
    (b : FVec Ideal Cert.ReferenceIdeal.S64 .f32) (g : Fin 16) (p q : Fin 256) (j : Fin 64) :
    addf (Host.dotGeneral (F := Ideal) Cert.ReferenceIdeal.dot_S16x256x256x16_S16x64_S16x256x256x64_3_0_012_1_n_n none
            (shapeCast Cert.ReferenceIdeal.S16x256x256x16 x shapeCasts_S1048576x16_S16x256x256x16) w)
         (broadcastInDim Cert.ReferenceIdeal.S16x256x256x64 ![0, 1, 2, 3] bcast_S1x1x1x64_S16x256x256x64_0_1_2_3
            (broadcastInDim Cert.ReferenceIdeal.S1x1x1x64 ![3] bcast_S64_S1x1x1x64_3 b)) (ix4 g p q j)
      = (∑ k : Fin 16, x (ix2 ⟨(g.val * 256 + p.val) * 256 + q.val, by omega⟩ k) * w (ix2 k j)) + b (ix1 j) := by
  rw [addf_apply]
  refine congrArg₂ (· + ·) ?_ (bias4_apply (by decide) b _ _ g p q j)
  refine (dotGeneral_last_apply dot_S16x256x256x16_S16x64_S16x256x256x64_3_0_012_1_n_n_wf none _ w g p q j).trans ?_
  refine Finset.sum_congr rfl fun k _ => ?_
  rw [shapeCast_rows4_apply x _ g p q k (by omega)]

/-- THE BRIDGE, N = 128: a matrix whose entries are the rows' products with the weight matrix plus the bias, reshaped
    to four axes, is the reference's dense array. -/
theorem dense0_eq (x : FVec Ideal Cert.ReferenceIdeal.S262144x16 .f32) (w : FVec Ideal Cert.ReferenceIdeal.S16x64 .f32)
    (b : FVec Ideal Cert.ReferenceIdeal.S64 .f32) (o : FVec Ideal Cert.KernelIdeal.S262144x64 .f32)
    (ho : ∀ (r : Fin 262144) (j : Fin 64), o (ix2 r j) = (∑ k : Fin 16, x (ix2 r k) * w (ix2 k j)) + b (ix1 j))
    (h : Cert.KernelIdeal.S262144x64.ShapeCasts Cert.KernelIdeal.S16x128x128x64) :
    shapeCast Cert.KernelIdeal.S16x128x128x64 o h
      = addf (Host.dotGeneral (F := Ideal) Cert.ReferenceIdeal.dot_S16x128x128x16_S16x64_S16x128x128x64_3_0_012_1_n_n none
            (shapeCast Cert.ReferenceIdeal.S16x128x128x16 x shapeCasts_S262144x16_S16x128x128x16) w)
         (broadcastInDim Cert.ReferenceIdeal.S16x128x128x64 ![0, 1, 2, 3] bcast_S1x1x1x64_S16x128x128x64_0_1_2_3
            (broadcastInDim Cert.ReferenceIdeal.S1x1x1x64 ![3] bcast_S64_S1x1x1x64_3 b)) := by
  funext i
  obtain ⟨g, p, q, j, rfl⟩ : ∃ (g : Fin 16) (p q : Fin 128) (j : Fin 64), i = ix4 g p q j := ⟨_, _, _, _, eq_ix4 i⟩
  exact (rows4_0_apply o h g p q j).trans ((ho _ j).trans (ref_dense0_apply x w b g p q j).symm)

/-- THE BRIDGE, N = 256. -/
theorem dense1_eq (x : FVec Ideal Cert.ReferenceIdeal.S1048576x16 .f32) (w : FVec Ideal Cert.ReferenceIdeal.S16x64 .f32)
    (b : FVec Ideal Cert.ReferenceIdeal.S64 .f32) (o : FVec Ideal Cert.KernelIdeal.S1048576x64 .f32)
    (ho : ∀ (r : Fin 1048576) (j : Fin 64), o (ix2 r j) = (∑ k : Fin 16, x (ix2 r k) * w (ix2 k j)) + b (ix1 j))
    (h : Cert.KernelIdeal.S1048576x64.ShapeCasts Cert.KernelIdeal.S16x256x256x64) :
    shapeCast Cert.KernelIdeal.S16x256x256x64 o h
      = addf (Host.dotGeneral (F := Ideal) Cert.ReferenceIdeal.dot_S16x256x256x16_S16x64_S16x256x256x64_3_0_012_1_n_n none
            (shapeCast Cert.ReferenceIdeal.S16x256x256x16 x shapeCasts_S1048576x16_S16x256x256x16) w)
         (broadcastInDim Cert.ReferenceIdeal.S16x256x256x64 ![0, 1, 2, 3] bcast_S1x1x1x64_S16x256x256x64_0_1_2_3
            (broadcastInDim Cert.ReferenceIdeal.S1x1x1x64 ![3] bcast_S64_S1x1x1x64_3 b)) := by
  funext i
  obtain ⟨g, p, q, j, rfl⟩ : ∃ (g : Fin 16) (p q : Fin 256) (j : Fin 64), i = ix4 g p q j := ⟨_, _, _, _, eq_ix4 i⟩
  exact (rows4_1_apply o h g p q j).trans ((ho _ j).trans (ref_dense1_apply x w b g p q j).symm)

end Cert.Bridge.Dense

end
-- ==== Proof.LibLineSimulation.lean ====
import Idealize.ShloMosaic.Lib.StableHlo.Run

/-! # Two straight lines of operations that compute the same values

Two programs over different signatures may run the same operations on buffers that correspond: a list `ρ` of pairs
of references, one of each signature and both of one tensor type, says which. Two valuations AGREE on `ρ` when
paired buffers hold the same contents. If an operation of the first line and one of the second read paired buffers,
apply the same function, and write a fresh pair, they keep the agreement and add the pair they write; so two lines
that correspond operation by operation carry agreement on the arguments to agreement on every result. No function
is ever opened: each step compares the two functions as they stand. -/

noncomputable section

namespace Cert.Lib.LineSimulation

open Idealize.ShloMosaic Idealize.ShloMosaic.TcCoe Idealize.SL.Sem Idealize.ShloMosaic.StableHlo

variable {τA τB : Topo} {sigA sigB : RefSig} {Val : EltTy → Type}

/-- A reference of each signature, the two buffers of one tensor type. -/
structure Pair (sigA sigB : RefSig) where
  a : Ref sigA .tc
  b : Ref sigB .tc
  ty : a.ty = b.ty

namespace Pair

/-- Contents of the first buffer as contents of the second (the identity when `ty` is `rfl`). -/
abbrev cast (p : Pair sigA sigB) (u : p.a.ty.Contents Val) : p.b.ty.Contents Val :=
  _root_.cast (congrArg (fun T : BufTy => T.Contents Val) p.ty) u

instance : DecidableEq (Pair sigA sigB) := fun p q =>
  if h : p.a = q.a ∧ p.b = q.b then
    isTrue (by obtain ⟨a, b, t⟩ := p; obtain ⟨a', b', t'⟩ := q; obtain ⟨rfl, rfl⟩ := h; rfl)
  else isFalse fun e => h ⟨e ▸ rfl, e ▸ rfl⟩

end Pair

/-- The two valuations hold the same contents at each listed pair. -/
def Agree (ρ : List (Pair sigA sigB)) (WA : Valuation τA sigA Val) (WB : Valuation τB sigB Val) : Prop :=
  ∀ p ∈ ρ, p.cast (WA (Proc.devRef .tc p.a)) = WB (Proc.devRef .tc p.b)

theorem Agree.nil {WA : Valuation τA sigA Val} {WB : Valuation τB sigB Val} : Agree [] WA WB :=
  fun _ h => nomatch h

theorem Agree.cons {ρ : List (Pair sigA sigB)} {p : Pair sigA sigB} {WA : Valuation τA sigA Val} {WB : Valuation τB sigB Val}
    (h : p.cast (WA (Proc.devRef .tc p.a)) = WB (Proc.devRef .tc p.b)) (t : Agree ρ WA WB) : Agree (p :: ρ) WA WB :=
  fun q hq => by
    rcases List.mem_cons.mp hq with rfl | hq
    · exact h
    · exact t q hq

theorem Agree.mono {ρ ρ' : List (Pair sigA sigB)} {WA : Valuation τA sigA Val} {WB : Valuation τB sigB Val}
    (hs : ∀ p ∈ ρ', p ∈ ρ) (h : Agree ρ WA WB) : Agree ρ' WA WB :=
  fun p hp => h p (hs p hp)

/-- One operation of each line: from agreement on `ρ` to agreement on `ρ` and the pair `y` they write. -/
def Step (ρ : List (Pair sigA sigB)) (opA : HloOp τA sigA Val) (opB : HloOp τB sigB Val) (y : Pair sigA sigB) : Prop :=
  ∀ WA WB, Agree ρ WA WB → Agree (y :: ρ) (opA.result WA) (opB.result WB)

/-- Two lines: from agreement on `ρ` before them to agreement on `ρ'` after them. -/
def Sim (ρ : List (Pair sigA sigB)) (lA : List (HloOp τA sigA Val)) (lB : List (HloOp τB sigB Val))
    (ρ' : List (Pair sigA sigB)) : Prop :=
  ∀ WA WB, Agree ρ WA WB → Agree ρ' (after lA WA) (after lB WB)

theorem Sim.nil {ρ ρ' : List (Pair sigA sigB)} (hs : ∀ p ∈ ρ', p ∈ ρ) :
    Sim (τA := τA) (τB := τB) (Val := Val) ρ [] [] ρ' :=
  fun _ _ h => h.mono hs

theorem Sim.cons {ρ ρ' : List (Pair sigA sigB)} {y : Pair sigA sigB} {opA : HloOp τA sigA Val} {opB : HloOp τB sigB Val}
    {lA : List (HloOp τA sigA Val)} {lB : List (HloOp τB sigB Val)}
    (hstep : Step ρ opA opB y) (t : Sim (y :: ρ) lA lB ρ') : Sim ρ (opA :: lA) (opB :: lB) ρ' :=
  fun WA WB h => t _ _ (hstep WA WB h)

/-- The fold over a concatenation is the fold over the second list from the fold over the first. -/
theorem after_append' {τ : Topo} {sig : RefSig} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem Sim.append {ρ ρ₁ ρ₂ : List (Pair sigA sigB)} {lA lA' : List (HloOp τA sigA Val)} {lB lB' : List (HloOp τB sigB Val)}
    (h₁ : Sim ρ lA lB ρ₁) (h₂ : Sim ρ₁ lA' lB' ρ₂) : Sim ρ (lA ++ lA') (lB ++ lB') ρ₂ :=
  fun WA WB h => by
    rw [after_append', after_append']
    exact h₂ _ _ (h₁ WA WB h)

/-- Two operations that each write one buffer, the pair `y`, fresh for `ρ`, and whose results there agree whenever
    the valuations agree on `ρ`. -/
theorem step_of {ρ : List (Pair sigA sigB)} {opA : HloOp τA sigA Val} {opB : HloOp τB sigB Val} {y : Pair sigA sigB}
    (hwA : opA.writes = {Proc.devRef .tc y.a}) (hwB : opB.writes = {Proc.devRef .tc y.b})
    (hfresh : ∀ p ∈ ρ, p.a ≠ y.a ∧ p.b ≠ y.b)
    (hval : ∀ WA WB, Agree ρ WA WB →
      y.cast (opA.result WA (Proc.devRef .tc y.a)) = opB.result WB (Proc.devRef .tc y.b)) : Step ρ opA opB y := by
  intro WA WB h
  refine Agree.cons (hval WA WB h) fun p hp => ?_
  rw [opA.result_of_not_mem WA (by rw [hwA, Finset.mem_singleton]; exact devRef_ne_of_ne (hfresh p hp).1),
    opB.result_of_not_mem WB (by rw [hwB, Finset.mem_singleton]; exact devRef_ne_of_ne (hfresh p hp).2)]
  exact h p hp

theorem step_nullary {ρ : List (Pair sigA sigB)} (y : Pair sigA sigB)
    {vA : y.a.ty.Contents Val} {vB : y.b.ty.Contents Val} {hA hB}
    (hfresh : ∀ p ∈ ρ, p.a ≠ y.a ∧ p.b ≠ y.b) (hv : y.cast vA = vB) :
    Step ρ (nullary y.a vA hA : HloOp τA sigA Val) (nullary y.b vB hB : HloOp τB sigB Val) y :=
  step_of rfl rfl hfresh fun WA WB _ => by rw [nullary_result, nullary_result]; exact hv

theorem step_unary {ρ : List (Pair sigA sigB)} (x y : Pair sigA sigB)
    {fA : x.a.ty.Contents Val → y.a.ty.Contents Val} {fB : x.b.ty.Contents Val → y.b.ty.Contents Val} {hxA hyA hxB hyB}
    (hx : x ∈ ρ) (hfresh : ∀ p ∈ ρ, p.a ≠ y.a ∧ p.b ≠ y.b) (hf : ∀ u, y.cast (fA u) = fB (x.cast u)) :
    Step ρ (unary x.a y.a fA hxA hyA : HloOp τA sigA Val) (unary x.b y.b fB hxB hyB : HloOp τB sigB Val) y :=
  step_of rfl rfl hfresh fun WA WB h => by rw [unary_result, unary_result, hf, h x hx]

theorem step_binary {ρ : List (Pair sigA sigB)} (a b y : Pair sigA sigB)
    {fA : a.a.ty.Contents Val → b.a.ty.Contents Val → y.a.ty.Contents Val}
    {fB : a.b.ty.Contents Val → b.b.ty.Contents Val → y.b.ty.Contents Val} {haA hbA hyA haB hbB hyB}
    (ha : a ∈ ρ) (hb : b ∈ ρ) (hfresh : ∀ p ∈ ρ, p.a ≠ y.a ∧ p.b ≠ y.b)
    (hf : ∀ u v, y.cast (fA u v) = fB (a.cast u) (b.cast v)) :
    Step ρ (binary a.a b.a y.a fA haA hbA hyA : HloOp τA sigA Val) (binary a.b b.b y.b fB haB hbB hyB : HloOp τB sigB Val) y :=
  step_of rfl rfl hfresh fun WA WB h => by rw [binary_result, binary_result, hf, h a ha, h b hb]

theorem step_ternary {ρ : List (Pair sigA sigB)} (c a b y : Pair sigA sigB)
    {fA : c.a.ty.Contents Val → a.a.ty.Contents Val → b.a.ty.Contents Val → y.a.ty.Contents Val}
    {fB : c.b.ty.Contents Val → a.b.ty.Contents Val → b.b.ty.Contents Val → y.b.ty.Contents Val}
    {hcA haA hbA hyA hcB haB hbB hyB}
    (hc : c ∈ ρ) (ha : a ∈ ρ) (hb : b ∈ ρ) (hfresh : ∀ p ∈ ρ, p.a ≠ y.a ∧ p.b ≠ y.b)
    (hf : ∀ w u v, y.cast (fA w u v) = fB (c.cast w) (a.cast u) (b.cast v)) :
    Step ρ (ternary c.a a.a b.a y.a fA hcA haA hbA hyA : HloOp τA sigA Val)
      (ternary c.b a.b b.b y.b fB hcB haB hbB hyB : HloOp τB sigB Val) y :=
  step_of rfl rfl hfresh fun WA WB h => by rw [ternary_result, ternary_result, hf, h c hc, h a ha, h b hb]

end Cert.Lib.LineSimulation

end
-- ==== Proof.SimSteps.lean ====
import proofs.«175666_j17377437679648_2_alg».proof.Proof.LibLineSimulation

/-! # More steps for two corresponding lines of operations

Beside the steps for operations of zero to three operands: a reshape (the same re-indexing on both sides, whatever the
two shapes are, once the operand and the result types agree), an operation of three operands given as a family (a
concatenation), and an operation of the first line alone that writes a buffer no pair mentions: it keeps every
agreement. -/

noncomputable section

namespace Cert.Lib.LineSimulation

open Idealize.ShloMosaic Idealize.ShloMosaic.TcCoe Idealize.SL.Sem Idealize.ShloMosaic.StableHlo

variable {τA τB : Topo} {sigA sigB : RefSig} {Val : EltTy → Type}

/-- An operation of the first line alone, writing one buffer that is the first component of no pair of `ρ`: the
    agreement on `ρ` is kept, since none of its buffers changes. -/
theorem Sim.consA {ρ ρ' : List (Pair sigA sigB)} {opA : HloOp τA sigA Val}
    {lA : List (HloOp τA sigA Val)} {lB : List (HloOp τB sigB Val)} (yA : Ref sigA .tc)
    (hwA : opA.writes = {Proc.devRef .tc yA}) (hfresh : ∀ p ∈ ρ, p.a ≠ yA)
    (t : Sim ρ lA lB ρ') : Sim ρ (opA :: lA) lB ρ' :=
  fun WA WB h => t _ _ fun p hp => by
    rw [opA.result_of_not_mem WA (by rw [hwA, Finset.mem_singleton]; exact devRef_ne_of_ne (hfresh p hp))]
    exact h p hp

/-- Re-indexing commutes with moving contents along equalities of buffer types: with the types equal, both sides are
    the same re-indexing of the same contents. -/
theorem shapeCast_cast {Tx Tx' Ty Ty' : BufTy} (hx : Tx = Tx') (hy : Ty = Ty') (he : Tx.elt = Ty.elt)
    (he' : Tx'.elt = Ty'.elt) (hn : Tx.shape.ShapeCasts Ty.shape) (hn' : Tx'.shape.ShapeCasts Ty'.shape)
    (u : Tx.Contents Val) :
    cast (congrArg (fun T : BufTy => T.Contents Val) hy) (fun i => he ▸ shapeCast Ty.shape u hn i)
      = fun i => he' ▸ shapeCast Ty'.shape (cast (congrArg (fun T : BufTy => T.Contents Val) hx) u) hn' i := by
  subst hx; subst hy; rfl

/-- Two reshapes of paired operands into a fresh pair. No condition on the shapes beyond what each reshape carries:
    the paired buffers have equal types, so the two re-indexings are the same function. -/
theorem step_reshape {ρ : List (Pair sigA sigB)} (x y : Pair sigA sigB) {heA hnA hxA hyA heB hnB hxB hyB}
    (hx : x ∈ ρ) (hfresh : ∀ p ∈ ρ, p.a ≠ y.a ∧ p.b ≠ y.b) :
    Step ρ (reshape x.a y.a heA hnA hxA hyA : HloOp τA sigA Val) (reshape x.b y.b heB hnB hxB hyB : HloOp τB sigB Val) y :=
  step_of rfl rfl hfresh fun WA WB h => by
    rw [reshape_result, reshape_result, ← h x hx]
    exact shapeCast_cast x.ty y.ty heA heB hnA hnB _

/-- Three values, one of each of three types, as a family over `Fin 3`. -/
def vec3 {α : Fin 3 → Type} (a : α 0) (b : α 1) (c : α 2) : (k : Fin 3) → α k
  | 0 => a
  | 1 => b
  | 2 => c

/-- Two operations of three operands given as a family (a concatenation of three arrays), on paired operands, into a
    fresh pair. -/
theorem step_nary3 {ρ : List (Pair sigA sigB)} (p0 p1 p2 y : Pair sigA sigB)
    {fA : ((k : Fin 3) → (![p0.a, p1.a, p2.a] k).ty.Contents Val) → y.a.ty.Contents Val}
    {fB : ((k : Fin 3) → (![p0.b, p1.b, p2.b] k).ty.Contents Val) → y.b.ty.Contents Val} {hxsA hyA hxsB hyB}
    (h0 : p0 ∈ ρ) (h1 : p1 ∈ ρ) (h2 : p2 ∈ ρ) (hfresh : ∀ p ∈ ρ, p.a ≠ y.a ∧ p.b ≠ y.b)
    (hf : ∀ u, y.cast (fA u)
      = fB (vec3 (α := fun k => (![p0.b, p1.b, p2.b] k).ty.Contents Val) (p0.cast (u 0)) (p1.cast (u 1)) (p2.cast (u 2)))) :
    Step ρ (nary ![p0.a, p1.a, p2.a] y.a fA hxsA hyA : HloOp τA sigA Val)
      (nary ![p0.b, p1.b, p2.b] y.b fB hxsB hyB : HloOp τB sigB Val) y :=
  step_of rfl rfl hfresh fun WA WB h => by
    rw [nary_result, nary_result, hf]
    congr 1
    funext k
    match k with
    | 0 => exact h p0 h0
    | 1 => exact h p1 h1
    | 2 => exact h p2 h2

end Cert.Lib.LineSimulation

end
-- ==== Proof.RefOps.lean ====
import proofs.«175666_j17377437679648_2_alg».proof.ReferenceIdeal
import proofs.«175666_j17377437679648_2_alg».proof.Proof.Gen.ReferenceIdeal
import Idealize.ShloMosaic.Lib.StableHlo.Run

set_option maxRecDepth 4096

/-! # The reference's host operations, in order

The reference program is one straight line of host operations (its four calls of the cumulative-sum helper inlined:
a zero constant, its rank-0 broadcast, and the windowed sum). The line is listed here in consecutive pieces:
the two dense projections (rD1, rD2: a reshape, the contraction with the weight matrix, two broadcasts of the
bias and the sum), and between and after them the index bookkeeping, gathers and scatter-adds (rA1 … rA4,
rT1 … rT12), cut where the kernel program's own line is cut, so that the two lines can be compared piece by piece. -/

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F]

set_option maxHeartbeats 40000000 in
/-- 5 operations of the reference, in order. -/
abbrev rD1 : List (HloOp τ sig (Elt F)) :=
  ( StableHlo.reshape main_arg0 main_v0 rfl shapeCasts_S262144x16_S16x128x128x16
  :: StableHlo.binary main_v0 main_arg2 main_v1 ((fun l r => Host.dotGeneral dot_S16x128x128x16_S16x64_S16x128x128x64_3_0_012_1_n_n none l r) : (⟨S16x128x128x16, .f32⟩ : BufTy).Contents (Elt F) → (⟨S16x64, .f32⟩ : BufTy).Contents (Elt F) → (⟨S16x128x128x64, .f32⟩ : BufTy).Contents (Elt F))
  :: StableHlo.unary main_arg3 main_v2 (broadcastInDim S1x1x1x64 ![3] bcast_S64_S1x1x1x64_3 : (⟨S64, .f32⟩ : BufTy).Contents (Elt F) → (⟨S1x1x1x64, .f32⟩ : BufTy).Contents (Elt F))
  :: StableHlo.unary main_v2 main_v3 (broadcastInDim S16x128x128x64 ![0, 1, 2, 3] bcast_S1x1x1x64_S16x128x128x64_0_1_2_3 : (⟨S1x1x1x64, .f32⟩ : BufTy).Contents (Elt F) → (⟨S16x128x128x64, .f32⟩ : BufTy).Contents (Elt F))
  :: StableHlo.binary main_v1 main_v3 main_v4 (addf : (⟨S16x128x128x64, .f32⟩ : BufTy).Contents (Elt F) → (⟨S16x128x128x64, .f32⟩ : BufTy).Contents (Elt F) → (⟨S16x128x128x64, .f32⟩ : BufTy).Contents (Elt F))
  :: [] )

set_option maxHeartbeats 40000000 in
/-- 8 operations of the reference, in order. -/
abbrev rA1 : List (HloOp τ sig (Elt F)) :=
  ( StableHlo.nullary main_c (constantI S_ 32 1#32)
  :: StableHlo.unary main_c main_v5 (broadcastInDim S2048 ![] bcast_S_S2048 : (⟨S_, .i32⟩ : BufTy).Contents (Elt F) → (⟨S2048, .i32⟩ : BufTy).Contents (Elt F))
  :: StableHlo.nullary main_c_0 (constantI S_ 32 0#32)
  :: StableHlo.unary main_c_0 main_v6 (broadcastInDim S16 ![] bcast_S_S16 : (⟨S_, .i32⟩ : BufTy).Contents (Elt F) → (⟨S16, .i32⟩ : BufTy).Contents (Elt F))
  :: StableHlo.unary main_arg8 main_v7 (broadcastInDim S2048x1 ![0] bcast_S2048_S2048x1_0 : (⟨S2048, .i32⟩ : BufTy).Contents (Elt F) → (⟨S2048x1, .i32⟩ : BufTy).Contents (Elt F))
  :: StableHlo.ternary main_v6 main_v7 main_v5 main_v8 ((fun x i u => Host.scatter scatter_S16_S2048x1_S2048_n_0_0_1 IntOp.addi x i u) : (⟨S16, .i32⟩ : BufTy).Contents (Elt F) → (⟨S2048x1, .i32⟩ : BufTy).Contents (Elt F) → (⟨S2048, .i32⟩ : BufTy).Contents (Elt F) → (⟨S16, .i32⟩ : BufTy).Contents (Elt F))
  :: StableHlo.nullary main_c_1 (constantI S_ 32 0#32)
  :: StableHlo.unary main_c_1 main_v9 (broadcastInDim S1 ![] bcast_S_S1 : (⟨S_, .i32⟩ : BufTy).Contents (Elt F) → (⟨S1, .i32⟩ : BufTy).Contents (Elt F))
  :: [] )

set_option maxHeartbeats 40000000 in
/-- 3 operations of the reference, in order. -/
abbrev rA2 : List (HloOp τ sig (Elt F)) :=
  ( StableHlo.TRef.nullary (.of main_call0_call0_c : StableHlo.TRef sig ⟨S_, .i32⟩) (constantI S_ 32 0#32)
  :: StableHlo.TRef.unary (.of main_call0_call0_c : StableHlo.TRef sig ⟨S_, .i32⟩) (.of main_call0_call0_v0 : StableHlo.TRef sig ⟨S_, .i32⟩) (broadcastInDim S_ ![] bcast_S_S_)
  :: StableHlo.TRef.binary (.of main_v8 : StableHlo.TRef sig ⟨S16, .i32⟩) (.of main_call0_call0_v0 : StableHlo.TRef sig ⟨S_, .i32⟩) (.of main_v10 : StableHlo.TRef sig ⟨S16, .i32⟩) (fun x v => Host.reduceWindow IntOp.addi ![16] ![1] ![15] ![0] x v reduceWindows_S16_S16_w16s1p15_0 h_S_)
  :: [] )

set_option maxHeartbeats 40000000 in
/-- 48 operations of the reference, in order. -/
abbrev rA3 : List (HloOp τ sig (Elt F)) :=
  ( StableHlo.binary main_v9 main_v10 main_v11 ((fun a b => concatenate S17 0 [⟨S1, a⟩, ⟨S16, b⟩] concatenates_S1_S16_S17_d0) : (⟨S1, .i32⟩ : BufTy).Contents (Elt F) → (⟨S16, .i32⟩ : BufTy).Contents (Elt F) → (⟨S17, .i32⟩ : BufTy).Contents (Elt F))
  :: StableHlo.unary main_arg10 main_v12 ((extractStridedSlice S1x32768 ![0, 0] · slices_S2x32768_S1x32768_0_0) : (⟨S2x32768, .i32⟩ : BufTy).Contents (Elt F) → (⟨S1x32768, .i32⟩ : BufTy).Contents (Elt F))
  :: StableHlo.reshape main_v12 main_v13 rfl shapeCasts_S1x32768_S32768
  :: StableHlo.nullary main_c_2 (constantI S_ 32 0#32)
  :: StableHlo.unary main_c_2 main_v14 (broadcastInDim S32768 ![] bcast_S_S32768 : (⟨S_, .i32⟩ : BufTy).Contents (Elt F) → (⟨S32768, .i32⟩ : BufTy).Contents (Elt F))
  :: StableHlo.binary main_v13 main_v14 main_v15 (cmpi .slt : (⟨S32768, .i32⟩ : BufTy).Contents (Elt F) → (⟨S32768, .i32⟩ : BufTy).Contents (Elt F) → (⟨S32768, .i1⟩ : BufTy).Contents (Elt F))
  :: StableHlo.nullary main_c_3 (constantI S_ 32 2048#32)
  :: StableHlo.unary main_c_3 main_v16 (broadcastInDim S32768 ![] bcast_S_S32768 : (⟨S_, .i32⟩ : BufTy).Contents (Elt F) → (⟨S32768, .i32⟩ : BufTy).Contents (Elt F))
  :: StableHlo.binary main_v13 main_v16 main_v17 (addi : (⟨S32768, .i32⟩ : BufTy).Contents (Elt F) → (⟨S32768, .i32⟩ : BufTy).Contents (Elt F) → (⟨S32768, .i32⟩ : BufTy).Contents (Elt F))
  :: StableHlo.ternary main_v15 main_v17 main_v13 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v18 main_v19 (broadcastInDim S32768x1 ![0] bcast_S32768_S32768x1_0 : (⟨S32768, .i32⟩ : BufTy).Contents (Elt F) → (⟨S32768x1, .i32⟩ : BufTy).Contents (Elt F))
  :: StableHlo.binary main_arg8 main_v19 main_v20 ((fun x i => Host.gather gather_S2048_S32768x1_S32768_n_0_n_n_0_1_1 x i) : (⟨S2048, .i32⟩ : BufTy).Contents (Elt F) → (⟨S32768x1, .i32⟩ : BufTy).Contents (Elt F) → (⟨S32768, .i32⟩ : BufTy).Contents (Elt F))
  :: StableHlo.unary main_arg10 main_v21 ((extractStridedSlice S1x32768 ![0, 0] · slices_S2x32768_S1x32768_0_0) : (⟨S2x32768, .i32⟩ : BufTy).Contents (Elt F) → (⟨S1x32768, .i32⟩ : BufTy).Contents (Elt F))
  :: StableHlo.reshape main_v21 main_v22 rfl shapeCasts_S1x32768_S32768
  :: StableHlo.nullary main_c_4 (constantI S_ 32 0#32)
  :: StableHlo.unary main_c_4 main_v23 (broadcastInDim S32768 ![] bcast_S_S32768 : (⟨S_, .i32⟩ : BufTy).Contents (Elt F) → (⟨S32768, .i32⟩ : BufTy).Contents (Elt F))
  :: StableHlo.binary main_v20 main_v23 main_v24 (cmpi .slt : (⟨S32768, .i32⟩ : BufTy).Contents (Elt F) → (⟨S32768, .i32⟩ : BufTy).Contents (Elt F) → (⟨S32768, .i1⟩ : BufTy).Contents (Elt F))
  :: StableHlo.nullary main_c_5 (constantI S_ 32 17#32)
  :: StableHlo.unary main_c_5 main_v25 (broadcastInDim S32768 ![] bcast_S_S32768 : (⟨S_, .i32⟩ : BufTy).Contents (Elt F) → (⟨S32768, .i32⟩ : BufTy).Contents (Elt F))
  :: StableHlo.binary main_v20 main_v25 main_v26 (addi : (⟨S32768, .i32⟩ : BufTy).Contents (Elt F) → (⟨S32768, .i32⟩ : BufTy).Contents (Elt F) → (⟨S32768, .i32⟩ : BufTy).Contents (Elt F))
  :: StableHlo.ternary main_v24 main_v26 main_v20 main_v27 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v27 main_v28 (broadcastInDim S32768x1 ![0] bcast_S32768_S32768x1_0 : (⟨S32768, .i32⟩ : BufTy).Contents (Elt F) → (⟨S32768x1, .i32⟩ : BufTy).Contents (Elt F))
  :: StableHlo.binary main_v11 main_v28 main_v29 ((fun x i => Host.gather gather_S17_S32768x1_S32768_n_0_n_n_0_1_1 x i) : (⟨S17, .i32⟩ : BufTy).Contents (Elt F) → (⟨S32768x1, .i32⟩ : BufTy).Contents (Elt F) → (⟨S32768, .i32⟩ : BufTy).Contents (Elt F))
  :: StableHlo.binary main_v22 main_v29 main_v30 (subi : (⟨S32768, .i32⟩ : BufTy).Contents (Elt F) → (⟨S32768, .i32⟩ : BufTy).Contents (Elt F) → (⟨S32768, .i32⟩ : BufTy).Contents (Elt F))
  :: StableHlo.unary main_arg10 main_v31 ((extractStridedSlice S1x32768 ![1, 0] · slices_S2x32768_S1x32768_1_0) : (⟨S2x32768, .i32⟩ : BufTy).Contents (Elt F) → (⟨S1x32768, .i32⟩ : BufTy).Contents (Elt F))
  :: StableHlo.reshape main_v31 main_v32 rfl shapeCasts_S1x32768_S32768
  :: StableHlo.unary main_arg10 main_v33 ((extractStridedSlice S1x32768 ![1, 0] · slices_S2x32768_S1x32768_1_0) : (⟨S2x32768, .i32⟩ : BufTy).Contents (Elt F) → (⟨S1x32768, .i32⟩ : BufTy).Contents (Elt F))
  :: StableHlo.reshape main_v33 main_v34 rfl shapeCasts_S1x32768_S32768
  :: StableHlo.nullary main_c_6 (constantI S_ 32 0#32)
  :: StableHlo.unary main_c_6 main_v35 (broadcastInDim S32768 ![] bcast_S_S32768 : (⟨S_, .i32⟩ : BufTy).Contents (Elt F) → (⟨S32768, .i32⟩ : BufTy).Contents (Elt F))
  :: StableHlo.binary main_v34 main_v35 main_v36 (cmpi .slt : (⟨S32768, .i32⟩ : BufTy).Contents (Elt F) → (⟨S32768, .i32⟩ : BufTy).Contents (Elt F) → (⟨S32768, .i1⟩ : BufTy).Contents (Elt F))
  :: StableHlo.nullary main_c_7 (constantI S_ 32 2048#32)
  :: StableHlo.unary main_c_7 main_v37 (broadcastInDim S32768 ![] bcast_S_S32768 : (⟨S_, .i32⟩ : BufTy).Contents (Elt F) → (⟨S32768, .i32⟩ : BufTy).Contents (Elt F))
  :: StableHlo.binary main_v34 main_v37 main_v38 (addi : (⟨S32768, .i32⟩ : BufTy).Contents (Elt F) → (⟨S32768, .i32⟩ : BufTy).Contents (Elt F) → (⟨S32768, .i32⟩ : BufTy).Contents (Elt F))
  :: StableHlo.ternary main_v36 main_v38 main_v34 main_v39 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v39 main_v40 (broadcastInDim S32768x1 ![0] bcast_S32768_S32768x1_0 : (⟨S32768, .i32⟩ : BufTy).Contents (Elt F) → (⟨S32768x1, .i32⟩ : BufTy).Contents (Elt F))
  :: StableHlo.binary main_arg8 main_v40 main_v41 ((fun x i => Host.gather gather_S2048_S32768x1_S32768_n_0_n_n_0_1_1 x i) : (⟨S2048, .i32⟩ : BufTy).Contents (Elt F) → (⟨S32768x1, .i32⟩ : BufTy).Contents (Elt F) → (⟨S32768, .i32⟩ : BufTy).Contents (Elt F))
  :: StableHlo.nullary main_c_8 (constantI S_ 32 0#32)
  :: StableHlo.unary main_c_8 main_v42 (broadcastInDim S32768 ![] bcast_S_S32768 : (⟨S_, .i32⟩ : BufTy).Contents (Elt F) → (⟨S32768, .i32⟩ : BufTy).Contents (Elt F))
  :: StableHlo.binary main_v41 main_v42 main_v43 (cmpi .slt : (⟨S32768, .i32⟩ : BufTy).Contents (Elt F) → (⟨S32768, .i32⟩ : BufTy).Contents (Elt F) → (⟨S32768, .i1⟩ : BufTy).Contents (Elt F))
  :: StableHlo.nullary main_c_9 (constantI S_ 32 17#32)
  :: StableHlo.unary main_c_9 main_v44 (broadcastInDim S32768 ![] bcast_S_S32768 : (⟨S_, .i32⟩ : BufTy).Contents (Elt F) → (⟨S32768, .i32⟩ : BufTy).Contents (Elt F))
  :: StableHlo.binary main_v41 main_v44 main_v45 (addi : (⟨S32768, .i32⟩ : BufTy).Contents (Elt F) → (⟨S32768, .i32⟩ : BufTy).Contents (Elt F) → (⟨S32768, .i32⟩ : BufTy).Contents (Elt F))
  :: StableHlo.ternary main_v43 main_v45 main_v41 main_v46 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v46 main_v47 (broadcastInDim S32768x1 ![0] bcast_S32768_S32768x1_0 : (⟨S32768, .i32⟩ : BufTy).Contents (Elt F) → (⟨S32768x1, .i32⟩ : BufTy).Contents (Elt F))
  :: StableHlo.binary main_v11 main_v47 main_v48 ((fun x i => Host.gather gather_S17_S32768x1_S32768_n_0_n_n_0_1_1 x i) : (⟨S17, .i32⟩ : BufTy).Contents (Elt F) → (⟨S32768x1, .i32⟩ : BufTy).Contents (Elt F) → (⟨S32768, .i32⟩ : BufTy).Contents (Elt F))
  :: StableHlo.binary main_v32 main_v48 main_v49 (subi : (⟨S32768, .i32⟩ : BufTy).Contents (Elt F) → (⟨S32768, .i32⟩ : BufTy).Contents (Elt F) → (⟨S32768, .i32⟩ : BufTy).Contents (Elt F))
  :: StableHlo.nullary main_c_10 (constantI S_ 32 0#32)
  :: [] )

set_option maxHeartbeats 40000000 in
/-- 55 operations of the reference, in order. -/
abbrev rA4 : List (HloOp τ sig (Elt F)) :=
  ( StableHlo.unary main_c_10 main_v50 (broadcastInDim S32768 ![] bcast_S_S32768 : (⟨S_, .i32⟩ : BufTy).Contents (Elt F) → (⟨S32768, .i32⟩ : BufTy).Contents (Elt F))
  :: StableHlo.binary main_v20 main_v50 main_v51 (cmpi .slt : (⟨S32768, .i32⟩ : BufTy).Contents (Elt F) → (⟨S32768, .i32⟩ : BufTy).Contents (Elt F) → (⟨S32768, .i1⟩ : BufTy).Contents (Elt F))
  :: StableHlo.nullary main_c_11 (constantI S_ 32 16#32)
  :: StableHlo.unary main_c_11 main_v52 (broadcastInDim S32768 ![] bcast_S_S32768 : (⟨S_, .i32⟩ : BufTy).Contents (Elt F) → (⟨S32768, .i32⟩ : BufTy).Contents (Elt F))
  :: StableHlo.binary main_v20 main_v52 main_v53 (addi : (⟨S32768, .i32⟩ : BufTy).Contents (Elt F) → (⟨S32768, .i32⟩ : BufTy).Contents (Elt F) → (⟨S32768, .i32⟩ : BufTy).Contents (Elt F))
  :: StableHlo.ternary main_v51 main_v53 main_v20 main_v54 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_12 (constantI S_ 32 0#32)
  :: StableHlo.unary main_c_12 main_v55 (broadcastInDim S32768 ![] bcast_S_S32768 : (⟨S_, .i32⟩ : BufTy).Contents (Elt F) → (⟨S32768, .i32⟩ : BufTy).Contents (Elt F))
  :: StableHlo.binary main_v30 main_v55 main_v56 (cmpi .slt : (⟨S32768, .i32⟩ : BufTy).Contents (Elt F) → (⟨S32768, .i32⟩ : BufTy).Contents (Elt F) → (⟨S32768, .i1⟩ : BufTy).Contents (Elt F))
  :: StableHlo.nullary main_c_13 (constantI S_ 32 128#32)
  :: StableHlo.unary main_c_13 main_v57 (broadcastInDim S32768 ![] bcast_S_S32768 : (⟨S_, .i32⟩ : BufTy).Contents (Elt F) → (⟨S32768, .i32⟩ : BufTy).Contents (Elt F))
  :: StableHlo.binary main_v30 main_v57 main_v58 (addi : (⟨S32768, .i32⟩ : BufTy).Contents (Elt F) → (⟨S32768, .i32⟩ : BufTy).Contents (Elt F) → (⟨S32768, .i32⟩ : BufTy).Contents (Elt F))
  :: StableHlo.ternary main_v56 main_v58 main_v30 main_v59 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_14 (constantI S_ 32 0#32)
  :: StableHlo.unary main_c_14 main_v60 (broadcastInDim S32768 ![] bcast_S_S32768 : (⟨S_, .i32⟩ : BufTy).Contents (Elt F) → (⟨S32768, .i32⟩ : BufTy).Contents (Elt F))
  :: StableHlo.binary main_v49 main_v60 main_v61 (cmpi .slt : (⟨S32768, .i32⟩ : BufTy).Contents (Elt F) → (⟨S32768, .i32⟩ : BufTy).Contents (Elt F) → (⟨S32768, .i1⟩ : BufTy).Contents (Elt F))
  :: StableHlo.nullary main_c_15 (constantI S_ 32 128#32)
  :: StableHlo.unary main_c_15 main_v62 (broadcastInDim S32768 ![] bcast_S_S32768 : (⟨S_, .i32⟩ : BufTy).Contents (Elt F) → (⟨S32768, .i32⟩ : BufTy).Contents (Elt F))
  :: StableHlo.binary main_v49 main_v62 main_v63 (addi : (⟨S32768, .i32⟩ : BufTy).Contents (Elt F) → (⟨S32768, .i32⟩ : BufTy).Contents (Elt F) → (⟨S32768, .i32⟩ : BufTy).Contents (Elt F))
  :: StableHlo.ternary main_v61 main_v63 main_v49 main_v64 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v54 main_v65 (broadcastInDim S32768x1 ![0] bcast_S32768_S32768x1_0 : (⟨S32768, .i32⟩ : BufTy).Contents (Elt F) → (⟨S32768x1, .i32⟩ : BufTy).Contents (Elt F))
  :: StableHlo.unary main_v59 main_v66 (broadcastInDim S32768x1 ![0] bcast_S32768_S32768x1_0 : (⟨S32768, .i32⟩ : BufTy).Contents (Elt F) → (⟨S32768x1, .i32⟩ : BufTy).Contents (Elt F))
  :: StableHlo.unary main_v64 main_v67 (broadcastInDim S32768x1 ![0] bcast_S32768_S32768x1_0 : (⟨S32768, .i32⟩ : BufTy).Contents (Elt F) → (⟨S32768x1, .i32⟩ : BufTy).Contents (Elt F))
  :: StableHlo.nary ![main_v65, main_v66, main_v67] main_v68 (fun u => concatenate S32768x3 1 [⟨S32768x1, u 0⟩, ⟨S32768x1, u 1⟩, ⟨S32768x1, u 2⟩] concatenates_S32768x1_S32768x1_S32768x1_S32768x3_d1)
  :: StableHlo.binary main_v4 main_v68 main_v69 ((fun x i => Host.gather gather_S16x128x128x64_S32768x3_S32768x64_1_012_n_n_012_1_11164 x i) : (⟨S16x128x128x64, .f32⟩ : BufTy).Contents (Elt F) → (⟨S32768x3, .i32⟩ : BufTy).Contents (Elt F) → (⟨S32768x64, .f32⟩ : BufTy).Contents (Elt F))
  :: StableHlo.nullary main_c_16 (constantI S_ 32 0#32)
  :: StableHlo.unary main_c_16 main_v70 (broadcastInDim S32768 ![] bcast_S_S32768 : (⟨S_, .i32⟩ : BufTy).Contents (Elt F) → (⟨S32768, .i32⟩ : BufTy).Contents (Elt F))
  :: StableHlo.binary main_v20 main_v70 main_v71 (cmpi .slt : (⟨S32768, .i32⟩ : BufTy).Contents (Elt F) → (⟨S32768, .i32⟩ : BufTy).Contents (Elt F) → (⟨S32768, .i1⟩ : BufTy).Contents (Elt F))
  :: StableHlo.nullary main_c_17 (constantI S_ 32 16#32)
  :: StableHlo.unary main_c_17 main_v72 (broadcastInDim S32768 ![] bcast_S_S32768 : (⟨S_, .i32⟩ : BufTy).Contents (Elt F) → (⟨S32768, .i32⟩ : BufTy).Contents (Elt F))
  :: StableHlo.binary main_v20 main_v72 main_v73 (addi : (⟨S32768, .i32⟩ : BufTy).Contents (Elt F) → (⟨S32768, .i32⟩ : BufTy).Contents (Elt F) → (⟨S32768, .i32⟩ : BufTy).Contents (Elt F))
  :: StableHlo.ternary main_v71 main_v73 main_v20 main_v74 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_18 (constantI S_ 32 0#32)
  :: StableHlo.unary main_c_18 main_v75 (broadcastInDim S32768 ![] bcast_S_S32768 : (⟨S_, .i32⟩ : BufTy).Contents (Elt F) → (⟨S32768, .i32⟩ : BufTy).Contents (Elt F))
  :: StableHlo.binary main_v49 main_v75 main_v76 (cmpi .slt : (⟨S32768, .i32⟩ : BufTy).Contents (Elt F) → (⟨S32768, .i32⟩ : BufTy).Contents (Elt F) → (⟨S32768, .i1⟩ : BufTy).Contents (Elt F))
  :: StableHlo.nullary main_c_19 (constantI S_ 32 128#32)
  :: StableHlo.unary main_c_19 main_v77 (broadcastInDim S32768 ![] bcast_S_S32768 : (⟨S_, .i32⟩ : BufTy).Contents (Elt F) → (⟨S32768, .i32⟩ : BufTy).Contents (Elt F))
  :: StableHlo.binary main_v49 main_v77 main_v78 (addi : (⟨S32768, .i32⟩ : BufTy).Contents (Elt F) → (⟨S32768, .i32⟩ : BufTy).Contents (Elt F) → (⟨S32768, .i32⟩ : BufTy).Contents (Elt F))
  :: StableHlo.ternary main_v76 main_v78 main_v49 main_v79 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_20 (constantI S_ 32 0#32)
  :: StableHlo.unary main_c_20 main_v80 (broadcastInDim S32768 ![] bcast_S_S32768 : (⟨S_, .i32⟩ : BufTy).Contents (Elt F) → (⟨S32768, .i32⟩ : BufTy).Contents (Elt F))
  :: StableHlo.binary main_v30 main_v80 main_v81 (cmpi .slt : (⟨S32768, .i32⟩ : BufTy).Contents (Elt F) → (⟨S32768, .i32⟩ : BufTy).Contents (Elt F) → (⟨S32768, .i1⟩ : BufTy).Contents (Elt F))
  :: StableHlo.nullary main_c_21 (constantI S_ 32 128#32)
  :: StableHlo.unary main_c_21 main_v82 (broadcastInDim S32768 ![] bcast_S_S32768 : (⟨S_, .i32⟩ : BufTy).Contents (Elt F) → (⟨S32768, .i32⟩ : BufTy).Contents (Elt F))
  :: StableHlo.binary main_v30 main_v82 main_v83 (addi : (⟨S32768, .i32⟩ : BufTy).Contents (Elt F) → (⟨S32768, .i32⟩ : BufTy).Contents (Elt F) → (⟨S32768, .i32⟩ : BufTy).Contents (Elt F))
  :: StableHlo.ternary main_v81 main_v83 main_v30 main_v84 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v74 main_v85 (broadcastInDim S32768x1 ![0] bcast_S32768_S32768x1_0 : (⟨S32768, .i32⟩ : BufTy).Contents (Elt F) → (⟨S32768x1, .i32⟩ : BufTy).Contents (Elt F))
  :: StableHlo.unary main_v79 main_v86 (broadcastInDim S32768x1 ![0] bcast_S32768_S32768x1_0 : (⟨S32768, .i32⟩ : BufTy).Contents (Elt F) → (⟨S32768x1, .i32⟩ : BufTy).Contents (Elt F))
  :: StableHlo.unary main_v84 main_v87 (broadcastInDim S32768x1 ![0] bcast_S32768_S32768x1_0 : (⟨S32768, .i32⟩ : BufTy).Contents (Elt F) → (⟨S32768x1, .i32⟩ : BufTy).Contents (Elt F))
  :: StableHlo.nary ![main_v85, main_v86, main_v87] main_v88 (fun u => concatenate S32768x3 1 [⟨S32768x1, u 0⟩, ⟨S32768x1, u 1⟩, ⟨S32768x1, u 2⟩] concatenates_S32768x1_S32768x1_S32768x1_S32768x3_d1)
  :: StableHlo.binary main_v4 main_v88 main_v89 ((fun x i => Host.gather gather_S16x128x128x64_S32768x3_S32768x64_1_012_n_n_012_1_11164 x i) : (⟨S16x128x128x64, .f32⟩ : BufTy).Contents (Elt F) → (⟨S32768x3, .i32⟩ : BufTy).Contents (Elt F) → (⟨S32768x64, .f32⟩ : BufTy).Contents (Elt F))
  :: StableHlo.binary main_v69 main_v89 main_v90 (addf : (⟨S32768x64, .f32⟩ : BufTy).Contents (Elt F) → (⟨S32768x64, .f32⟩ : BufTy).Contents (Elt F) → (⟨S32768x64, .f32⟩ : BufTy).Contents (Elt F))
  :: StableHlo.nullary main_cst (constant S_ .f32 0x3F000000#32)
  :: StableHlo.unary main_cst main_v91 (broadcastInDim S32768x64 ![] bcast_S_S32768x64 : (⟨S_, .f32⟩ : BufTy).Contents (Elt F) → (⟨S32768x64, .f32⟩ : BufTy).Contents (Elt F))
  :: StableHlo.binary main_v91 main_v90 main_v92 (mulf : (⟨S32768x64, .f32⟩ : BufTy).Contents (Elt F) → (⟨S32768x64, .f32⟩ : BufTy).Contents (Elt F) → (⟨S32768x64, .f32⟩ : BufTy).Contents (Elt F))
  :: [] )

set_option maxHeartbeats 40000000 in
/-- 5 operations of the reference, in order. -/
abbrev rD2 : List (HloOp τ sig (Elt F)) :=
  ( StableHlo.reshape main_arg1 main_v93 rfl shapeCasts_S1048576x16_S16x256x256x16
  :: StableHlo.binary main_v93 main_arg4 main_v94 ((fun l r => Host.dotGeneral dot_S16x256x256x16_S16x64_S16x256x256x64_3_0_012_1_n_n none l r) : (⟨S16x256x256x16, .f32⟩ : BufTy).Contents (Elt F) → (⟨S16x64, .f32⟩ : BufTy).Contents (Elt F) → (⟨S16x256x256x64, .f32⟩ : BufTy).Contents (Elt F))
  :: StableHlo.unary main_arg5 main_v95 (broadcastInDim S1x1x1x64 ![3] bcast_S64_S1x1x1x64_3 : (⟨S64, .f32⟩ : BufTy).Contents (Elt F) → (⟨S1x1x1x64, .f32⟩ : BufTy).Contents (Elt F))
  :: StableHlo.unary main_v95 main_v96 (broadcastInDim S16x256x256x64 ![0, 1, 2, 3] bcast_S1x1x1x64_S16x256x256x64_0_1_2_3 : (⟨S1x1x1x64, .f32⟩ : BufTy).Contents (Elt F) → (⟨S16x256x256x64, .f32⟩ : BufTy).Contents (Elt F))
  :: StableHlo.binary main_v94 main_v96 main_v97 (addf : (⟨S16x256x256x64, .f32⟩ : BufTy).Contents (Elt F) → (⟨S16x256x256x64, .f32⟩ : BufTy).Contents (Elt F) → (⟨S16x256x256x64, .f32⟩ : BufTy).Contents (Elt F))
  :: [] )

set_option maxHeartbeats 40000000 in
/-- 2 operations of the reference, in order. -/
abbrev rT1 : List (HloOp τ sig (Elt F)) :=
  ( StableHlo.nullary main_c_22 (constantI S_ 32 1#32)
  :: StableHlo.unary main_c_22 main_v98 (broadcastInDim S4096 ![] bcast_S_S4096 : (⟨S_, .i32⟩ : BufTy).Contents (Elt F) → (⟨S4096, .i32⟩ : BufTy).Contents (Elt F))
  :: [] )

set_option maxHeartbeats 40000000 in
/-- 6 operations of the reference, in order. -/
abbrev rT2 : List (HloOp τ sig (Elt F)) :=
  ( StableHlo.nullary main_c_23 (constantI S_ 32 0#32)
  :: StableHlo.unary main_c_23 main_v99 (broadcastInDim S16 ![] bcast_S_S16 : (⟨S_, .i32⟩ : BufTy).Contents (Elt F) → (⟨S16, .i32⟩ : BufTy).Contents (Elt F))
  :: StableHlo.unary main_arg9 main_v100 (broadcastInDim S4096x1 ![0] bcast_S4096_S4096x1_0 : (⟨S4096, .i32⟩ : BufTy).Contents (Elt F) → (⟨S4096x1, .i32⟩ : BufTy).Contents (Elt F))
  :: StableHlo.ternary main_v99 main_v100 main_v98 main_v101 ((fun x i u => Host.scatter scatter_S16_S4096x1_S4096_n_0_0_1 IntOp.addi x i u) : (⟨S16, .i32⟩ : BufTy).Contents (Elt F) → (⟨S4096x1, .i32⟩ : BufTy).Contents (Elt F) → (⟨S4096, .i32⟩ : BufTy).Contents (Elt F) → (⟨S16, .i32⟩ : BufTy).Contents (Elt F))
  :: StableHlo.nullary main_c_24 (constantI S_ 32 0#32)
  :: StableHlo.unary main_c_24 main_v102 (broadcastInDim S1 ![] bcast_S_S1 : (⟨S_, .i32⟩ : BufTy).Contents (Elt F) → (⟨S1, .i32⟩ : BufTy).Contents (Elt F))
  :: [] )

set_option maxHeartbeats 40000000 in
/-- 3 operations of the reference, in order. -/
abbrev rT3 : List (HloOp τ sig (Elt F)) :=
  ( StableHlo.TRef.nullary (.of main_call1_call0_c : StableHlo.TRef sig ⟨S_, .i32⟩) (constantI S_ 32 0#32)
  :: StableHlo.TRef.unary (.of main_call1_call0_c : StableHlo.TRef sig ⟨S_, .i32⟩) (.of main_call1_call0_v0 : StableHlo.TRef sig ⟨S_, .i32⟩) (broadcastInDim S_ ![] bcast_S_S_)
  :: StableHlo.TRef.binary (.of main_v101 : StableHlo.TRef sig ⟨S16, .i32⟩) (.of main_call1_call0_v0 : StableHlo.TRef sig ⟨S_, .i32⟩) (.of main_v103 : StableHlo.TRef sig ⟨S16, .i32⟩) (fun x v => Host.reduceWindow IntOp.addi ![16] ![1] ![15] ![0] x v reduceWindows_S16_S16_w16s1p15_0 h_S_)
  :: [] )

set_option maxHeartbeats 40000000 in
/-- 53 operations of the reference, in order. -/
abbrev rT4 : List (HloOp τ sig (Elt F)) :=
  ( StableHlo.binary main_v102 main_v103 main_v104 ((fun a b => concatenate S17 0 [⟨S1, a⟩, ⟨S16, b⟩] concatenates_S1_S16_S17_d0) : (⟨S1, .i32⟩ : BufTy).Contents (Elt F) → (⟨S16, .i32⟩ : BufTy).Contents (Elt F) → (⟨S17, .i32⟩ : BufTy).Contents (Elt F))
  :: StableHlo.unary main_arg11 main_v105 ((extractStridedSlice S1x32768 ![0, 0] · slices_S2x32768_S1x32768_0_0) : (⟨S2x32768, .i32⟩ : BufTy).Contents (Elt F) → (⟨S1x32768, .i32⟩ : BufTy).Contents (Elt F))
  :: StableHlo.reshape main_v105 main_v106 rfl shapeCasts_S1x32768_S32768
  :: StableHlo.nullary main_c_25 (constantI S_ 32 0#32)
  :: StableHlo.unary main_c_25 main_v107 (broadcastInDim S32768 ![] bcast_S_S32768 : (⟨S_, .i32⟩ : BufTy).Contents (Elt F) → (⟨S32768, .i32⟩ : BufTy).Contents (Elt F))
  :: StableHlo.binary main_v106 main_v107 main_v108 (cmpi .slt : (⟨S32768, .i32⟩ : BufTy).Contents (Elt F) → (⟨S32768, .i32⟩ : BufTy).Contents (Elt F) → (⟨S32768, .i1⟩ : BufTy).Contents (Elt F))
  :: StableHlo.nullary main_c_26 (constantI S_ 32 4096#32)
  :: StableHlo.unary main_c_26 main_v109 (broadcastInDim S32768 ![] bcast_S_S32768 : (⟨S_, .i32⟩ : BufTy).Contents (Elt F) → (⟨S32768, .i32⟩ : BufTy).Contents (Elt F))
  :: StableHlo.binary main_v106 main_v109 main_v110 (addi : (⟨S32768, .i32⟩ : BufTy).Contents (Elt F) → (⟨S32768, .i32⟩ : BufTy).Contents (Elt F) → (⟨S32768, .i32⟩ : BufTy).Contents (Elt F))
  :: StableHlo.ternary main_v108 main_v110 main_v106 main_v111 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v111 main_v112 (broadcastInDim S32768x1 ![0] bcast_S32768_S32768x1_0 : (⟨S32768, .i32⟩ : BufTy).Contents (Elt F) → (⟨S32768x1, .i32⟩ : BufTy).Contents (Elt F))
  :: StableHlo.binary main_arg9 main_v112 main_v113 ((fun x i => Host.gather gather_S4096_S32768x1_S32768_n_0_n_n_0_1_1 x i) : (⟨S4096, .i32⟩ : BufTy).Contents (Elt F) → (⟨S32768x1, .i32⟩ : BufTy).Contents (Elt F) → (⟨S32768, .i32⟩ : BufTy).Contents (Elt F))
  :: StableHlo.unary main_arg11 main_v114 ((extractStridedSlice S1x32768 ![0, 0] · slices_S2x32768_S1x32768_0_0) : (⟨S2x32768, .i32⟩ : BufTy).Contents (Elt F) → (⟨S1x32768, .i32⟩ : BufTy).Contents (Elt F))
  :: StableHlo.reshape main_v114 main_v115 rfl shapeCasts_S1x32768_S32768
  :: StableHlo.nullary main_c_27 (constantI S_ 32 0#32)
  :: StableHlo.unary main_c_27 main_v116 (broadcastInDim S32768 ![] bcast_S_S32768 : (⟨S_, .i32⟩ : BufTy).Contents (Elt F) → (⟨S32768, .i32⟩ : BufTy).Contents (Elt F))
  :: StableHlo.binary main_v113 main_v116 main_v117 (cmpi .slt : (⟨S32768, .i32⟩ : BufTy).Contents (Elt F) → (⟨S32768, .i32⟩ : BufTy).Contents (Elt F) → (⟨S32768, .i1⟩ : BufTy).Contents (Elt F))
  :: StableHlo.nullary main_c_28 (constantI S_ 32 17#32)
  :: StableHlo.unary main_c_28 main_v118 (broadcastInDim S32768 ![] bcast_S_S32768 : (⟨S_, .i32⟩ : BufTy).Contents (Elt F) → (⟨S32768, .i32⟩ : BufTy).Contents (Elt F))
  :: StableHlo.binary main_v113 main_v118 main_v119 (addi : (⟨S32768, .i32⟩ : BufTy).Contents (Elt F) → (⟨S32768, .i32⟩ : BufTy).Contents (Elt F) → (⟨S32768, .i32⟩ : BufTy).Contents (Elt F))
  :: StableHlo.ternary main_v117 main_v119 main_v113 main_v120 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v120 main_v121 (broadcastInDim S32768x1 ![0] bcast_S32768_S32768x1_0 : (⟨S32768, .i32⟩ : BufTy).Contents (Elt F) → (⟨S32768x1, .i32⟩ : BufTy).Contents (Elt F))
  :: StableHlo.binary main_v104 main_v121 main_v122 ((fun x i => Host.gather gather_S17_S32768x1_S32768_n_0_n_n_0_1_1 x i) : (⟨S17, .i32⟩ : BufTy).Contents (Elt F) → (⟨S32768x1, .i32⟩ : BufTy).Contents (Elt F) → (⟨S32768, .i32⟩ : BufTy).Contents (Elt F))
  :: StableHlo.binary main_v115 main_v122 main_v123 (subi : (⟨S32768, .i32⟩ : BufTy).Contents (Elt F) → (⟨S32768, .i32⟩ : BufTy).Contents (Elt F) → (⟨S32768, .i32⟩ : BufTy).Contents (Elt F))
  :: StableHlo.unary main_arg11 main_v124 ((extractStridedSlice S1x32768 ![1, 0] · slices_S2x32768_S1x32768_1_0) : (⟨S2x32768, .i32⟩ : BufTy).Contents (Elt F) → (⟨S1x32768, .i32⟩ : BufTy).Contents (Elt F))
  :: StableHlo.reshape main_v124 main_v125 rfl shapeCasts_S1x32768_S32768
  :: StableHlo.unary main_arg11 main_v126 ((extractStridedSlice S1x32768 ![1, 0] · slices_S2x32768_S1x32768_1_0) : (⟨S2x32768, .i32⟩ : BufTy).Contents (Elt F) → (⟨S1x32768, .i32⟩ : BufTy).Contents (Elt F))
  :: StableHlo.reshape main_v126 main_v127 rfl shapeCasts_S1x32768_S32768
  :: StableHlo.nullary main_c_29 (constantI S_ 32 0#32)
  :: StableHlo.unary main_c_29 main_v128 (broadcastInDim S32768 ![] bcast_S_S32768 : (⟨S_, .i32⟩ : BufTy).Contents (Elt F) → (⟨S32768, .i32⟩ : BufTy).Contents (Elt F))
  :: StableHlo.binary main_v127 main_v128 main_v129 (cmpi .slt : (⟨S32768, .i32⟩ : BufTy).Contents (Elt F) → (⟨S32768, .i32⟩ : BufTy).Contents (Elt F) → (⟨S32768, .i1⟩ : BufTy).Contents (Elt F))
  :: StableHlo.nullary main_c_30 (constantI S_ 32 4096#32)
  :: StableHlo.unary main_c_30 main_v130 (broadcastInDim S32768 ![] bcast_S_S32768 : (⟨S_, .i32⟩ : BufTy).Contents (Elt F) → (⟨S32768, .i32⟩ : BufTy).Contents (Elt F))
  :: StableHlo.binary main_v127 main_v130 main_v131 (addi : (⟨S32768, .i32⟩ : BufTy).Contents (Elt F) → (⟨S32768, .i32⟩ : BufTy).Contents (Elt F) → (⟨S32768, .i32⟩ : BufTy).Contents (Elt F))
  :: StableHlo.ternary main_v129 main_v131 main_v127 main_v132 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v132 main_v133 (broadcastInDim S32768x1 ![0] bcast_S32768_S32768x1_0 : (⟨S32768, .i32⟩ : BufTy).Contents (Elt F) → (⟨S32768x1, .i32⟩ : BufTy).Contents (Elt F))
  :: StableHlo.binary main_arg9 main_v133 main_v134 ((fun x i => Host.gather gather_S4096_S32768x1_S32768_n_0_n_n_0_1_1 x i) : (⟨S4096, .i32⟩ : BufTy).Contents (Elt F) → (⟨S32768x1, .i32⟩ : BufTy).Contents (Elt F) → (⟨S32768, .i32⟩ : BufTy).Contents (Elt F))
  :: StableHlo.nullary main_c_31 (constantI S_ 32 0#32)
  :: StableHlo.unary main_c_31 main_v135 (broadcastInDim S32768 ![] bcast_S_S32768 : (⟨S_, .i32⟩ : BufTy).Contents (Elt F) → (⟨S32768, .i32⟩ : BufTy).Contents (Elt F))
  :: StableHlo.binary main_v134 main_v135 main_v136 (cmpi .slt : (⟨S32768, .i32⟩ : BufTy).Contents (Elt F) → (⟨S32768, .i32⟩ : BufTy).Contents (Elt F) → (⟨S32768, .i1⟩ : BufTy).Contents (Elt F))
  :: StableHlo.nullary main_c_32 (constantI S_ 32 17#32)
  :: StableHlo.unary main_c_32 main_v137 (broadcastInDim S32768 ![] bcast_S_S32768 : (⟨S_, .i32⟩ : BufTy).Contents (Elt F) → (⟨S32768, .i32⟩ : BufTy).Contents (Elt F))
  :: StableHlo.binary main_v134 main_v137 main_v138 (addi : (⟨S32768, .i32⟩ : BufTy).Contents (Elt F) → (⟨S32768, .i32⟩ : BufTy).Contents (Elt F) → (⟨S32768, .i32⟩ : BufTy).Contents (Elt F))
  :: StableHlo.ternary main_v136 main_v138 main_v134 main_v139 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v139 main_v140 (broadcastInDim S32768x1 ![0] bcast_S32768_S32768x1_0 : (⟨S32768, .i32⟩ : BufTy).Contents (Elt F) → (⟨S32768x1, .i32⟩ : BufTy).Contents (Elt F))
  :: StableHlo.binary main_v104 main_v140 main_v141 ((fun x i => Host.gather gather_S17_S32768x1_S32768_n_0_n_n_0_1_1 x i) : (⟨S17, .i32⟩ : BufTy).Contents (Elt F) → (⟨S32768x1, .i32⟩ : BufTy).Contents (Elt F) → (⟨S32768, .i32⟩ : BufTy).Contents (Elt F))
  :: StableHlo.binary main_v125 main_v141 main_v142 (subi : (⟨S32768, .i32⟩ : BufTy).Contents (Elt F) → (⟨S32768, .i32⟩ : BufTy).Contents (Elt F) → (⟨S32768, .i32⟩ : BufTy).Contents (Elt F))
  :: StableHlo.nullary main_c_33 (constantI S_ 32 0#32)
  :: StableHlo.unary main_c_33 main_v143 (broadcastInDim S32768 ![] bcast_S_S32768 : (⟨S_, .i32⟩ : BufTy).Contents (Elt F) → (⟨S32768, .i32⟩ : BufTy).Contents (Elt F))
  :: StableHlo.binary main_v113 main_v143 main_v144 (cmpi .slt : (⟨S32768, .i32⟩ : BufTy).Contents (Elt F) → (⟨S32768, .i32⟩ : BufTy).Contents (Elt F) → (⟨S32768, .i1⟩ : BufTy).Contents (Elt F))
  :: StableHlo.nullary main_c_34 (constantI S_ 32 16#32)
  :: StableHlo.unary main_c_34 main_v145 (broadcastInDim S32768 ![] bcast_S_S32768 : (⟨S_, .i32⟩ : BufTy).Contents (Elt F) → (⟨S32768, .i32⟩ : BufTy).Contents (Elt F))
  :: StableHlo.binary main_v113 main_v145 main_v146 (addi : (⟨S32768, .i32⟩ : BufTy).Contents (Elt F) → (⟨S32768, .i32⟩ : BufTy).Contents (Elt F) → (⟨S32768, .i32⟩ : BufTy).Contents (Elt F))
  :: [] )

set_option maxHeartbeats 40000000 in
/-- 49 operations of the reference, in order. -/
abbrev rT5 : List (HloOp τ sig (Elt F)) :=
  ( StableHlo.ternary main_v144 main_v146 main_v113 main_v147 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_35 (constantI S_ 32 0#32)
  :: StableHlo.unary main_c_35 main_v148 (broadcastInDim S32768 ![] bcast_S_S32768 : (⟨S_, .i32⟩ : BufTy).Contents (Elt F) → (⟨S32768, .i32⟩ : BufTy).Contents (Elt F))
  :: StableHlo.binary main_v123 main_v148 main_v149 (cmpi .slt : (⟨S32768, .i32⟩ : BufTy).Contents (Elt F) → (⟨S32768, .i32⟩ : BufTy).Contents (Elt F) → (⟨S32768, .i1⟩ : BufTy).Contents (Elt F))
  :: StableHlo.nullary main_c_36 (constantI S_ 32 256#32)
  :: StableHlo.unary main_c_36 main_v150 (broadcastInDim S32768 ![] bcast_S_S32768 : (⟨S_, .i32⟩ : BufTy).Contents (Elt F) → (⟨S32768, .i32⟩ : BufTy).Contents (Elt F))
  :: StableHlo.binary main_v123 main_v150 main_v151 (addi : (⟨S32768, .i32⟩ : BufTy).Contents (Elt F) → (⟨S32768, .i32⟩ : BufTy).Contents (Elt F) → (⟨S32768, .i32⟩ : BufTy).Contents (Elt F))
  :: StableHlo.ternary main_v149 main_v151 main_v123 main_v152 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_37 (constantI S_ 32 0#32)
  :: StableHlo.unary main_c_37 main_v153 (broadcastInDim S32768 ![] bcast_S_S32768 : (⟨S_, .i32⟩ : BufTy).Contents (Elt F) → (⟨S32768, .i32⟩ : BufTy).Contents (Elt F))
  :: StableHlo.binary main_v142 main_v153 main_v154 (cmpi .slt : (⟨S32768, .i32⟩ : BufTy).Contents (Elt F) → (⟨S32768, .i32⟩ : BufTy).Contents (Elt F) → (⟨S32768, .i1⟩ : BufTy).Contents (Elt F))
  :: StableHlo.nullary main_c_38 (constantI S_ 32 256#32)
  :: StableHlo.unary main_c_38 main_v155 (broadcastInDim S32768 ![] bcast_S_S32768 : (⟨S_, .i32⟩ : BufTy).Contents (Elt F) → (⟨S32768, .i32⟩ : BufTy).Contents (Elt F))
  :: StableHlo.binary main_v142 main_v155 main_v156 (addi : (⟨S32768, .i32⟩ : BufTy).Contents (Elt F) → (⟨S32768, .i32⟩ : BufTy).Contents (Elt F) → (⟨S32768, .i32⟩ : BufTy).Contents (Elt F))
  :: StableHlo.ternary main_v154 main_v156 main_v142 main_v157 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v147 main_v158 (broadcastInDim S32768x1 ![0] bcast_S32768_S32768x1_0 : (⟨S32768, .i32⟩ : BufTy).Contents (Elt F) → (⟨S32768x1, .i32⟩ : BufTy).Contents (Elt F))
  :: StableHlo.unary main_v152 main_v159 (broadcastInDim S32768x1 ![0] bcast_S32768_S32768x1_0 : (⟨S32768, .i32⟩ : BufTy).Contents (Elt F) → (⟨S32768x1, .i32⟩ : BufTy).Contents (Elt F))
  :: StableHlo.unary main_v157 main_v160 (broadcastInDim S32768x1 ![0] bcast_S32768_S32768x1_0 : (⟨S32768, .i32⟩ : BufTy).Contents (Elt F) → (⟨S32768x1, .i32⟩ : BufTy).Contents (Elt F))
  :: StableHlo.nary ![main_v158, main_v159, main_v160] main_v161 (fun u => concatenate S32768x3 1 [⟨S32768x1, u 0⟩, ⟨S32768x1, u 1⟩, ⟨S32768x1, u 2⟩] concatenates_S32768x1_S32768x1_S32768x1_S32768x3_d1)
  :: StableHlo.binary main_v97 main_v161 main_v162 ((fun x i => Host.gather gather_S16x256x256x64_S32768x3_S32768x64_1_012_n_n_012_1_11164 x i) : (⟨S16x256x256x64, .f32⟩ : BufTy).Contents (Elt F) → (⟨S32768x3, .i32⟩ : BufTy).Contents (Elt F) → (⟨S32768x64, .f32⟩ : BufTy).Contents (Elt F))
  :: StableHlo.nullary main_v163 (iotaInDim S2048 32 0)
  :: StableHlo.unary main_v163 main_v164 (broadcastInDim S1x2048 ![1] bcast_S2048_S1x2048_1 : (⟨S2048, .i32⟩ : BufTy).Contents (Elt F) → (⟨S1x2048, .i32⟩ : BufTy).Contents (Elt F))
  :: StableHlo.reshape main_v164 main_v165 rfl shapeCasts_S1x2048_S1x1x1x2048
  :: StableHlo.unary main_v165 main_v166 (broadcastInDim S2x1x1x2048 ![0, 1, 2, 3] bcast_S1x1x1x2048_S2x1x1x2048_0_1_2_3 : (⟨S1x1x1x2048, .i32⟩ : BufTy).Contents (Elt F) → (⟨S2x1x1x2048, .i32⟩ : BufTy).Contents (Elt F))
  :: StableHlo.reshape main_v166 main_v167 rfl shapeCasts_S2x1x1x2048_S2x2048
  :: StableHlo.binary main_arg12 main_v167 main_v168 ((fun a b => concatenate S2x67584 1 [⟨S2x65536, a⟩, ⟨S2x2048, b⟩] concatenates_S2x65536_S2x2048_S2x67584_d1) : (⟨S2x65536, .i32⟩ : BufTy).Contents (Elt F) → (⟨S2x2048, .i32⟩ : BufTy).Contents (Elt F) → (⟨S2x67584, .i32⟩ : BufTy).Contents (Elt F))
  :: StableHlo.nullary main_c_39 (constantI S_ 32 1#32)
  :: StableHlo.unary main_c_39 main_v169 (broadcastInDim S65536 ![] bcast_S_S65536 : (⟨S_, .i32⟩ : BufTy).Contents (Elt F) → (⟨S65536, .i32⟩ : BufTy).Contents (Elt F))
  :: StableHlo.binary main_arg13 main_v169 main_v170 (addi : (⟨S65536, .i32⟩ : BufTy).Contents (Elt F) → (⟨S65536, .i32⟩ : BufTy).Contents (Elt F) → (⟨S65536, .i32⟩ : BufTy).Contents (Elt F))
  :: StableHlo.nullary main_c_40 (constantI S_ 32 0#32)
  :: StableHlo.unary main_c_40 main_v171 (broadcastInDim S2048 ![] bcast_S_S2048 : (⟨S_, .i32⟩ : BufTy).Contents (Elt F) → (⟨S2048, .i32⟩ : BufTy).Contents (Elt F))
  :: StableHlo.binary main_v170 main_v171 main_v172 ((fun a b => concatenate S67584 0 [⟨S65536, a⟩, ⟨S2048, b⟩] concatenates_S65536_S2048_S67584_d0) : (⟨S65536, .i32⟩ : BufTy).Contents (Elt F) → (⟨S2048, .i32⟩ : BufTy).Contents (Elt F) → (⟨S67584, .i32⟩ : BufTy).Contents (Elt F))
  :: StableHlo.nullary main_c_41 (constantI S_ 32 0#32)
  :: StableHlo.unary main_c_41 main_v173 (broadcastInDim S67584 ![] bcast_S_S67584 : (⟨S_, .i32⟩ : BufTy).Contents (Elt F) → (⟨S67584, .i32⟩ : BufTy).Contents (Elt F))
  :: StableHlo.binary main_v172 main_v173 main_v174 (cmpi .slt : (⟨S67584, .i32⟩ : BufTy).Contents (Elt F) → (⟨S67584, .i32⟩ : BufTy).Contents (Elt F) → (⟨S67584, .i1⟩ : BufTy).Contents (Elt F))
  :: StableHlo.nullary main_c_42 (constantI S_ 32 12#32)
  :: StableHlo.unary main_c_42 main_v175 (broadcastInDim S67584 ![] bcast_S_S67584 : (⟨S_, .i32⟩ : BufTy).Contents (Elt F) → (⟨S67584, .i32⟩ : BufTy).Contents (Elt F))
  :: StableHlo.binary main_v172 main_v175 main_v176 (addi : (⟨S67584, .i32⟩ : BufTy).Contents (Elt F) → (⟨S67584, .i32⟩ : BufTy).Contents (Elt F) → (⟨S67584, .i32⟩ : BufTy).Contents (Elt F))
  :: StableHlo.ternary main_v174 main_v176 main_v172 main_v177 (select : (⟨S67584, .i1⟩ : BufTy).Contents (Elt F) → (⟨S67584, .i32⟩ : BufTy).Contents (Elt F) → (⟨S67584, .i32⟩ : BufTy).Contents (Elt F) → (⟨S67584, .i32⟩ : BufTy).Contents (Elt F))
  :: StableHlo.unary main_v177 main_v178 (broadcastInDim S67584x1 ![0] bcast_S67584_S67584x1_0 : (⟨S67584, .i32⟩ : BufTy).Contents (Elt F) → (⟨S67584x1, .i32⟩ : BufTy).Contents (Elt F))
  :: StableHlo.binary main_arg6 main_v178 main_v179 ((fun x i => Host.gather gather_S12x64_S67584x1_S67584x64_1_0_n_n_0_1_164 x i) : (⟨S12x64, .f32⟩ : BufTy).Contents (Elt F) → (⟨S67584x1, .i32⟩ : BufTy).Contents (Elt F) → (⟨S67584x64, .f32⟩ : BufTy).Contents (Elt F))
  :: StableHlo.nullary main_c_43 (constantI S_ 32 1#32)
  :: StableHlo.unary main_c_43 main_v180 (broadcastInDim S2048 ![] bcast_S_S2048 : (⟨S_, .i32⟩ : BufTy).Contents (Elt F) → (⟨S2048, .i32⟩ : BufTy).Contents (Elt F))
  :: StableHlo.nullary main_c_44 (constantI S_ 32 0#32)
  :: StableHlo.unary main_c_44 main_v181 (broadcastInDim S16 ![] bcast_S_S16 : (⟨S_, .i32⟩ : BufTy).Contents (Elt F) → (⟨S16, .i32⟩ : BufTy).Contents (Elt F))
  :: StableHlo.unary main_arg8 main_v182 (broadcastInDim S2048x1 ![0] bcast_S2048_S2048x1_0 : (⟨S2048, .i32⟩ : BufTy).Contents (Elt F) → (⟨S2048x1, .i32⟩ : BufTy).Contents (Elt F))
  :: StableHlo.ternary main_v181 main_v182 main_v180 main_v183 ((fun x i u => Host.scatter scatter_S16_S2048x1_S2048_n_0_0_1 IntOp.addi x i u) : (⟨S16, .i32⟩ : BufTy).Contents (Elt F) → (⟨S2048x1, .i32⟩ : BufTy).Contents (Elt F) → (⟨S2048, .i32⟩ : BufTy).Contents (Elt F) → (⟨S16, .i32⟩ : BufTy).Contents (Elt F))
  :: StableHlo.nullary main_c_45 (constantI S_ 32 0#32)
  :: StableHlo.unary main_c_45 main_v184 (broadcastInDim S1 ![] bcast_S_S1 : (⟨S_, .i32⟩ : BufTy).Contents (Elt F) → (⟨S1, .i32⟩ : BufTy).Contents (Elt F))
  :: [] )

set_option maxHeartbeats 40000000 in
/-- 3 operations of the reference, in order. -/
abbrev rT6 : List (HloOp τ sig (Elt F)) :=
  ( StableHlo.TRef.nullary (.of main_call2_call0_c : StableHlo.TRef sig ⟨S_, .i32⟩) (constantI S_ 32 0#32)
  :: StableHlo.TRef.unary (.of main_call2_call0_c : StableHlo.TRef sig ⟨S_, .i32⟩) (.of main_call2_call0_v0 : StableHlo.TRef sig ⟨S_, .i32⟩) (broadcastInDim S_ ![] bcast_S_S_)
  :: StableHlo.TRef.binary (.of main_v183 : StableHlo.TRef sig ⟨S16, .i32⟩) (.of main_call2_call0_v0 : StableHlo.TRef sig ⟨S_, .i32⟩) (.of main_v185 : StableHlo.TRef sig ⟨S16, .i32⟩) (fun x v => Host.reduceWindow IntOp.addi ![16] ![1] ![15] ![0] x v reduceWindows_S16_S16_w16s1p15_0 h_S_)
  :: [] )

set_option maxHeartbeats 40000000 in
/-- 10 operations of the reference, in order. -/
abbrev rT7 : List (HloOp τ sig (Elt F)) :=
  ( StableHlo.binary main_v184 main_v185 main_v186 ((fun a b => concatenate S17 0 [⟨S1, a⟩, ⟨S16, b⟩] concatenates_S1_S16_S17_d0) : (⟨S1, .i32⟩ : BufTy).Contents (Elt F) → (⟨S16, .i32⟩ : BufTy).Contents (Elt F) → (⟨S17, .i32⟩ : BufTy).Contents (Elt F))
  :: StableHlo.unary main_v168 main_v187 ((extractStridedSlice S1x67584 ![0, 0] · slices_S2x67584_S1x67584_0_0) : (⟨S2x67584, .i32⟩ : BufTy).Contents (Elt F) → (⟨S1x67584, .i32⟩ : BufTy).Contents (Elt F))
  :: StableHlo.reshape main_v187 main_v188 rfl shapeCasts_S1x67584_S67584
  :: StableHlo.nullary main_c_46 (constantI S_ 32 0#32)
  :: StableHlo.unary main_c_46 main_v189 (broadcastInDim S67584 ![] bcast_S_S67584 : (⟨S_, .i32⟩ : BufTy).Contents (Elt F) → (⟨S67584, .i32⟩ : BufTy).Contents (Elt F))
  :: StableHlo.binary main_v188 main_v189 main_v190 (cmpi .slt : (⟨S67584, .i32⟩ : BufTy).Contents (Elt F) → (⟨S67584, .i32⟩ : BufTy).Contents (Elt F) → (⟨S67584, .i1⟩ : BufTy).Contents (Elt F))
  :: StableHlo.nullary main_c_47 (constantI S_ 32 2048#32)
  :: StableHlo.unary main_c_47 main_v191 (broadcastInDim S67584 ![] bcast_S_S67584 : (⟨S_, .i32⟩ : BufTy).Contents (Elt F) → (⟨S67584, .i32⟩ : BufTy).Contents (Elt F))
  :: StableHlo.binary main_v188 main_v191 main_v192 (addi : (⟨S67584, .i32⟩ : BufTy).Contents (Elt F) → (⟨S67584, .i32⟩ : BufTy).Contents (Elt F) → (⟨S67584, .i32⟩ : BufTy).Contents (Elt F))
  :: StableHlo.ternary main_v190 main_v192 main_v188 main_v193 (select : (⟨S67584, .i1⟩ : BufTy).Contents (Elt F) → (⟨S67584, .i32⟩ : BufTy).Contents (Elt F) → (⟨S67584, .i32⟩ : BufTy).Contents (Elt F) → (⟨S67584, .i32⟩ : BufTy).Contents (Elt F))
  :: [] )

set_option maxHeartbeats 40000000 in
/-- 60 operations of the reference, in order. -/
abbrev rT8 : List (HloOp τ sig (Elt F)) :=
  ( StableHlo.unary main_v193 main_v194 (broadcastInDim S67584x1 ![0] bcast_S67584_S67584x1_0 : (⟨S67584, .i32⟩ : BufTy).Contents (Elt F) → (⟨S67584x1, .i32⟩ : BufTy).Contents (Elt F))
  :: StableHlo.binary main_arg8 main_v194 main_v195 ((fun x i => Host.gather gather_S2048_S67584x1_S67584_n_0_n_n_0_1_1 x i) : (⟨S2048, .i32⟩ : BufTy).Contents (Elt F) → (⟨S67584x1, .i32⟩ : BufTy).Contents (Elt F) → (⟨S67584, .i32⟩ : BufTy).Contents (Elt F))
  :: StableHlo.unary main_v168 main_v196 ((extractStridedSlice S1x67584 ![0, 0] · slices_S2x67584_S1x67584_0_0) : (⟨S2x67584, .i32⟩ : BufTy).Contents (Elt F) → (⟨S1x67584, .i32⟩ : BufTy).Contents (Elt F))
  :: StableHlo.reshape main_v196 main_v197 rfl shapeCasts_S1x67584_S67584
  :: StableHlo.nullary main_c_48 (constantI S_ 32 0#32)
  :: StableHlo.unary main_c_48 main_v198 (broadcastInDim S67584 ![] bcast_S_S67584 : (⟨S_, .i32⟩ : BufTy).Contents (Elt F) → (⟨S67584, .i32⟩ : BufTy).Contents (Elt F))
  :: StableHlo.binary main_v195 main_v198 main_v199 (cmpi .slt : (⟨S67584, .i32⟩ : BufTy).Contents (Elt F) → (⟨S67584, .i32⟩ : BufTy).Contents (Elt F) → (⟨S67584, .i1⟩ : BufTy).Contents (Elt F))
  :: StableHlo.nullary main_c_49 (constantI S_ 32 17#32)
  :: StableHlo.unary main_c_49 main_v200 (broadcastInDim S67584 ![] bcast_S_S67584 : (⟨S_, .i32⟩ : BufTy).Contents (Elt F) → (⟨S67584, .i32⟩ : BufTy).Contents (Elt F))
  :: StableHlo.binary main_v195 main_v200 main_v201 (addi : (⟨S67584, .i32⟩ : BufTy).Contents (Elt F) → (⟨S67584, .i32⟩ : BufTy).Contents (Elt F) → (⟨S67584, .i32⟩ : BufTy).Contents (Elt F))
  :: StableHlo.ternary main_v199 main_v201 main_v195 main_v202 (select : (⟨S67584, .i1⟩ : BufTy).Contents (Elt F) → (⟨S67584, .i32⟩ : BufTy).Contents (Elt F) → (⟨S67584, .i32⟩ : BufTy).Contents (Elt F) → (⟨S67584, .i32⟩ : BufTy).Contents (Elt F))
  :: StableHlo.unary main_v202 main_v203 (broadcastInDim S67584x1 ![0] bcast_S67584_S67584x1_0 : (⟨S67584, .i32⟩ : BufTy).Contents (Elt F) → (⟨S67584x1, .i32⟩ : BufTy).Contents (Elt F))
  :: StableHlo.binary main_v186 main_v203 main_v204 ((fun x i => Host.gather gather_S17_S67584x1_S67584_n_0_n_n_0_1_1 x i) : (⟨S17, .i32⟩ : BufTy).Contents (Elt F) → (⟨S67584x1, .i32⟩ : BufTy).Contents (Elt F) → (⟨S67584, .i32⟩ : BufTy).Contents (Elt F))
  :: StableHlo.binary main_v197 main_v204 main_v205 (subi : (⟨S67584, .i32⟩ : BufTy).Contents (Elt F) → (⟨S67584, .i32⟩ : BufTy).Contents (Elt F) → (⟨S67584, .i32⟩ : BufTy).Contents (Elt F))
  :: StableHlo.unary main_v168 main_v206 ((extractStridedSlice S1x67584 ![1, 0] · slices_S2x67584_S1x67584_1_0) : (⟨S2x67584, .i32⟩ : BufTy).Contents (Elt F) → (⟨S1x67584, .i32⟩ : BufTy).Contents (Elt F))
  :: StableHlo.reshape main_v206 main_v207 rfl shapeCasts_S1x67584_S67584
  :: StableHlo.unary main_v168 main_v208 ((extractStridedSlice S1x67584 ![1, 0] · slices_S2x67584_S1x67584_1_0) : (⟨S2x67584, .i32⟩ : BufTy).Contents (Elt F) → (⟨S1x67584, .i32⟩ : BufTy).Contents (Elt F))
  :: StableHlo.reshape main_v208 main_v209 rfl shapeCasts_S1x67584_S67584
  :: StableHlo.nullary main_c_50 (constantI S_ 32 0#32)
  :: StableHlo.unary main_c_50 main_v210 (broadcastInDim S67584 ![] bcast_S_S67584 : (⟨S_, .i32⟩ : BufTy).Contents (Elt F) → (⟨S67584, .i32⟩ : BufTy).Contents (Elt F))
  :: StableHlo.binary main_v209 main_v210 main_v211 (cmpi .slt : (⟨S67584, .i32⟩ : BufTy).Contents (Elt F) → (⟨S67584, .i32⟩ : BufTy).Contents (Elt F) → (⟨S67584, .i1⟩ : BufTy).Contents (Elt F))
  :: StableHlo.nullary main_c_51 (constantI S_ 32 2048#32)
  :: StableHlo.unary main_c_51 main_v212 (broadcastInDim S67584 ![] bcast_S_S67584 : (⟨S_, .i32⟩ : BufTy).Contents (Elt F) → (⟨S67584, .i32⟩ : BufTy).Contents (Elt F))
  :: StableHlo.binary main_v209 main_v212 main_v213 (addi : (⟨S67584, .i32⟩ : BufTy).Contents (Elt F) → (⟨S67584, .i32⟩ : BufTy).Contents (Elt F) → (⟨S67584, .i32⟩ : BufTy).Contents (Elt F))
  :: StableHlo.ternary main_v211 main_v213 main_v209 main_v214 (select : (⟨S67584, .i1⟩ : BufTy).Contents (Elt F) → (⟨S67584, .i32⟩ : BufTy).Contents (Elt F) → (⟨S67584, .i32⟩ : BufTy).Contents (Elt F) → (⟨S67584, .i32⟩ : BufTy).Contents (Elt F))
  :: StableHlo.unary main_v214 main_v215 (broadcastInDim S67584x1 ![0] bcast_S67584_S67584x1_0 : (⟨S67584, .i32⟩ : BufTy).Contents (Elt F) → (⟨S67584x1, .i32⟩ : BufTy).Contents (Elt F))
  :: StableHlo.binary main_arg8 main_v215 main_v216 ((fun x i => Host.gather gather_S2048_S67584x1_S67584_n_0_n_n_0_1_1 x i) : (⟨S2048, .i32⟩ : BufTy).Contents (Elt F) → (⟨S67584x1, .i32⟩ : BufTy).Contents (Elt F) → (⟨S67584, .i32⟩ : BufTy).Contents (Elt F))
  :: StableHlo.nullary main_c_52 (constantI S_ 32 0#32)
  :: StableHlo.unary main_c_52 main_v217 (broadcastInDim S67584 ![] bcast_S_S67584 : (⟨S_, .i32⟩ : BufTy).Contents (Elt F) → (⟨S67584, .i32⟩ : BufTy).Contents (Elt F))
  :: StableHlo.binary main_v216 main_v217 main_v218 (cmpi .slt : (⟨S67584, .i32⟩ : BufTy).Contents (Elt F) → (⟨S67584, .i32⟩ : BufTy).Contents (Elt F) → (⟨S67584, .i1⟩ : BufTy).Contents (Elt F))
  :: StableHlo.nullary main_c_53 (constantI S_ 32 17#32)
  :: StableHlo.unary main_c_53 main_v219 (broadcastInDim S67584 ![] bcast_S_S67584 : (⟨S_, .i32⟩ : BufTy).Contents (Elt F) → (⟨S67584, .i32⟩ : BufTy).Contents (Elt F))
  :: StableHlo.binary main_v216 main_v219 main_v220 (addi : (⟨S67584, .i32⟩ : BufTy).Contents (Elt F) → (⟨S67584, .i32⟩ : BufTy).Contents (Elt F) → (⟨S67584, .i32⟩ : BufTy).Contents (Elt F))
  :: StableHlo.ternary main_v218 main_v220 main_v216 main_v221 (select : (⟨S67584, .i1⟩ : BufTy).Contents (Elt F) → (⟨S67584, .i32⟩ : BufTy).Contents (Elt F) → (⟨S67584, .i32⟩ : BufTy).Contents (Elt F) → (⟨S67584, .i32⟩ : BufTy).Contents (Elt F))
  :: StableHlo.unary main_v221 main_v222 (broadcastInDim S67584x1 ![0] bcast_S67584_S67584x1_0 : (⟨S67584, .i32⟩ : BufTy).Contents (Elt F) → (⟨S67584x1, .i32⟩ : BufTy).Contents (Elt F))
  :: StableHlo.binary main_v186 main_v222 main_v223 ((fun x i => Host.gather gather_S17_S67584x1_S67584_n_0_n_n_0_1_1 x i) : (⟨S17, .i32⟩ : BufTy).Contents (Elt F) → (⟨S67584x1, .i32⟩ : BufTy).Contents (Elt F) → (⟨S67584, .i32⟩ : BufTy).Contents (Elt F))
  :: StableHlo.binary main_v207 main_v223 main_v224 (subi : (⟨S67584, .i32⟩ : BufTy).Contents (Elt F) → (⟨S67584, .i32⟩ : BufTy).Contents (Elt F) → (⟨S67584, .i32⟩ : BufTy).Contents (Elt F))
  :: StableHlo.nullary main_cst_54 (constant S_ .f32 0x00000000#32)
  :: StableHlo.unary main_cst_54 main_v225 (broadcastInDim S16x128x128x64 ![] bcast_S_S16x128x128x64 : (⟨S_, .f32⟩ : BufTy).Contents (Elt F) → (⟨S16x128x128x64, .f32⟩ : BufTy).Contents (Elt F))
  :: StableHlo.nullary main_c_55 (constantI S_ 32 0#32)
  :: StableHlo.unary main_c_55 main_v226 (broadcastInDim S67584 ![] bcast_S_S67584 : (⟨S_, .i32⟩ : BufTy).Contents (Elt F) → (⟨S67584, .i32⟩ : BufTy).Contents (Elt F))
  :: StableHlo.binary main_v195 main_v226 main_v227 (cmpi .slt : (⟨S67584, .i32⟩ : BufTy).Contents (Elt F) → (⟨S67584, .i32⟩ : BufTy).Contents (Elt F) → (⟨S67584, .i1⟩ : BufTy).Contents (Elt F))
  :: StableHlo.nullary main_c_56 (constantI S_ 32 16#32)
  :: StableHlo.unary main_c_56 main_v228 (broadcastInDim S67584 ![] bcast_S_S67584 : (⟨S_, .i32⟩ : BufTy).Contents (Elt F) → (⟨S67584, .i32⟩ : BufTy).Contents (Elt F))
  :: StableHlo.binary main_v195 main_v228 main_v229 (addi : (⟨S67584, .i32⟩ : BufTy).Contents (Elt F) → (⟨S67584, .i32⟩ : BufTy).Contents (Elt F) → (⟨S67584, .i32⟩ : BufTy).Contents (Elt F))
  :: StableHlo.ternary main_v227 main_v229 main_v195 main_v230 (select : (⟨S67584, .i1⟩ : BufTy).Contents (Elt F) → (⟨S67584, .i32⟩ : BufTy).Contents (Elt F) → (⟨S67584, .i32⟩ : BufTy).Contents (Elt F) → (⟨S67584, .i32⟩ : BufTy).Contents (Elt F))
  :: StableHlo.nullary main_c_57 (constantI S_ 32 0#32)
  :: StableHlo.unary main_c_57 main_v231 (broadcastInDim S67584 ![] bcast_S_S67584 : (⟨S_, .i32⟩ : BufTy).Contents (Elt F) → (⟨S67584, .i32⟩ : BufTy).Contents (Elt F))
  :: StableHlo.binary main_v205 main_v231 main_v232 (cmpi .slt : (⟨S67584, .i32⟩ : BufTy).Contents (Elt F) → (⟨S67584, .i32⟩ : BufTy).Contents (Elt F) → (⟨S67584, .i1⟩ : BufTy).Contents (Elt F))
  :: StableHlo.nullary main_c_58 (constantI S_ 32 128#32)
  :: StableHlo.unary main_c_58 main_v233 (broadcastInDim S67584 ![] bcast_S_S67584 : (⟨S_, .i32⟩ : BufTy).Contents (Elt F) → (⟨S67584, .i32⟩ : BufTy).Contents (Elt F))
  :: StableHlo.binary main_v205 main_v233 main_v234 (addi : (⟨S67584, .i32⟩ : BufTy).Contents (Elt F) → (⟨S67584, .i32⟩ : BufTy).Contents (Elt F) → (⟨S67584, .i32⟩ : BufTy).Contents (Elt F))
  :: StableHlo.ternary main_v232 main_v234 main_v205 main_v235 (select : (⟨S67584, .i1⟩ : BufTy).Contents (Elt F) → (⟨S67584, .i32⟩ : BufTy).Contents (Elt F) → (⟨S67584, .i32⟩ : BufTy).Contents (Elt F) → (⟨S67584, .i32⟩ : BufTy).Contents (Elt F))
  :: StableHlo.nullary main_c_59 (constantI S_ 32 0#32)
  :: StableHlo.unary main_c_59 main_v236 (broadcastInDim S67584 ![] bcast_S_S67584 : (⟨S_, .i32⟩ : BufTy).Contents (Elt F) → (⟨S67584, .i32⟩ : BufTy).Contents (Elt F))
  :: StableHlo.binary main_v224 main_v236 main_v237 (cmpi .slt : (⟨S67584, .i32⟩ : BufTy).Contents (Elt F) → (⟨S67584, .i32⟩ : BufTy).Contents (Elt F) → (⟨S67584, .i1⟩ : BufTy).Contents (Elt F))
  :: StableHlo.nullary main_c_60 (constantI S_ 32 128#32)
  :: StableHlo.unary main_c_60 main_v238 (broadcastInDim S67584 ![] bcast_S_S67584 : (⟨S_, .i32⟩ : BufTy).Contents (Elt F) → (⟨S67584, .i32⟩ : BufTy).Contents (Elt F))
  :: StableHlo.binary main_v224 main_v238 main_v239 (addi : (⟨S67584, .i32⟩ : BufTy).Contents (Elt F) → (⟨S67584, .i32⟩ : BufTy).Contents (Elt F) → (⟨S67584, .i32⟩ : BufTy).Contents (Elt F))
  :: StableHlo.ternary main_v237 main_v239 main_v224 main_v240 (select : (⟨S67584, .i1⟩ : BufTy).Contents (Elt F) → (⟨S67584, .i32⟩ : BufTy).Contents (Elt F) → (⟨S67584, .i32⟩ : BufTy).Contents (Elt F) → (⟨S67584, .i32⟩ : BufTy).Contents (Elt F))
  :: [] )

set_option maxHeartbeats 40000000 in
/-- 60 operations of the reference, in order. -/
abbrev rT9 : List (HloOp τ sig (Elt F)) :=
  ( StableHlo.unary main_v230 main_v241 (broadcastInDim S67584x1 ![0] bcast_S67584_S67584x1_0 : (⟨S67584, .i32⟩ : BufTy).Contents (Elt F) → (⟨S67584x1, .i32⟩ : BufTy).Contents (Elt F))
  :: StableHlo.unary main_v235 main_v242 (broadcastInDim S67584x1 ![0] bcast_S67584_S67584x1_0 : (⟨S67584, .i32⟩ : BufTy).Contents (Elt F) → (⟨S67584x1, .i32⟩ : BufTy).Contents (Elt F))
  :: StableHlo.unary main_v240 main_v243 (broadcastInDim S67584x1 ![0] bcast_S67584_S67584x1_0 : (⟨S67584, .i32⟩ : BufTy).Contents (Elt F) → (⟨S67584x1, .i32⟩ : BufTy).Contents (Elt F))
  :: StableHlo.nary ![main_v241, main_v242, main_v243] main_v244 (fun u => concatenate S67584x3 1 [⟨S67584x1, u 0⟩, ⟨S67584x1, u 1⟩, ⟨S67584x1, u 2⟩] concatenates_S67584x1_S67584x1_S67584x1_S67584x3_d1)
  :: StableHlo.ternary main_v225 main_v244 main_v179 main_v245 ((fun x i u => Host.scatterAdd scatter_S16x128x128x64_S67584x3_S67584x64_1_012_012_1 x i u) : (⟨S16x128x128x64, .f32⟩ : BufTy).Contents (Elt F) → (⟨S67584x3, .i32⟩ : BufTy).Contents (Elt F) → (⟨S67584x64, .f32⟩ : BufTy).Contents (Elt F) → (⟨S16x128x128x64, .f32⟩ : BufTy).Contents (Elt F))
  :: StableHlo.nullary main_c_61 (constantI S_ 32 0#32)
  :: StableHlo.unary main_c_61 main_v246 (broadcastInDim S32768 ![] bcast_S_S32768 : (⟨S_, .i32⟩ : BufTy).Contents (Elt F) → (⟨S32768, .i32⟩ : BufTy).Contents (Elt F))
  :: StableHlo.binary main_v20 main_v246 main_v247 (cmpi .slt : (⟨S32768, .i32⟩ : BufTy).Contents (Elt F) → (⟨S32768, .i32⟩ : BufTy).Contents (Elt F) → (⟨S32768, .i1⟩ : BufTy).Contents (Elt F))
  :: StableHlo.nullary main_c_62 (constantI S_ 32 16#32)
  :: StableHlo.unary main_c_62 main_v248 (broadcastInDim S32768 ![] bcast_S_S32768 : (⟨S_, .i32⟩ : BufTy).Contents (Elt F) → (⟨S32768, .i32⟩ : BufTy).Contents (Elt F))
  :: StableHlo.binary main_v20 main_v248 main_v249 (addi : (⟨S32768, .i32⟩ : BufTy).Contents (Elt F) → (⟨S32768, .i32⟩ : BufTy).Contents (Elt F) → (⟨S32768, .i32⟩ : BufTy).Contents (Elt F))
  :: StableHlo.ternary main_v247 main_v249 main_v20 main_v250 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_63 (constantI S_ 32 0#32)
  :: StableHlo.unary main_c_63 main_v251 (broadcastInDim S32768 ![] bcast_S_S32768 : (⟨S_, .i32⟩ : BufTy).Contents (Elt F) → (⟨S32768, .i32⟩ : BufTy).Contents (Elt F))
  :: StableHlo.binary main_v30 main_v251 main_v252 (cmpi .slt : (⟨S32768, .i32⟩ : BufTy).Contents (Elt F) → (⟨S32768, .i32⟩ : BufTy).Contents (Elt F) → (⟨S32768, .i1⟩ : BufTy).Contents (Elt F))
  :: StableHlo.nullary main_c_64 (constantI S_ 32 128#32)
  :: StableHlo.unary main_c_64 main_v253 (broadcastInDim S32768 ![] bcast_S_S32768 : (⟨S_, .i32⟩ : BufTy).Contents (Elt F) → (⟨S32768, .i32⟩ : BufTy).Contents (Elt F))
  :: StableHlo.binary main_v30 main_v253 main_v254 (addi : (⟨S32768, .i32⟩ : BufTy).Contents (Elt F) → (⟨S32768, .i32⟩ : BufTy).Contents (Elt F) → (⟨S32768, .i32⟩ : BufTy).Contents (Elt F))
  :: StableHlo.ternary main_v252 main_v254 main_v30 main_v255 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_65 (constantI S_ 32 0#32)
  :: StableHlo.unary main_c_65 main_v256 (broadcastInDim S32768 ![] bcast_S_S32768 : (⟨S_, .i32⟩ : BufTy).Contents (Elt F) → (⟨S32768, .i32⟩ : BufTy).Contents (Elt F))
  :: StableHlo.binary main_v49 main_v256 main_v257 (cmpi .slt : (⟨S32768, .i32⟩ : BufTy).Contents (Elt F) → (⟨S32768, .i32⟩ : BufTy).Contents (Elt F) → (⟨S32768, .i1⟩ : BufTy).Contents (Elt F))
  :: StableHlo.nullary main_c_66 (constantI S_ 32 128#32)
  :: StableHlo.unary main_c_66 main_v258 (broadcastInDim S32768 ![] bcast_S_S32768 : (⟨S_, .i32⟩ : BufTy).Contents (Elt F) → (⟨S32768, .i32⟩ : BufTy).Contents (Elt F))
  :: StableHlo.binary main_v49 main_v258 main_v259 (addi : (⟨S32768, .i32⟩ : BufTy).Contents (Elt F) → (⟨S32768, .i32⟩ : BufTy).Contents (Elt F) → (⟨S32768, .i32⟩ : BufTy).Contents (Elt F))
  :: StableHlo.ternary main_v257 main_v259 main_v49 main_v260 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v250 main_v261 (broadcastInDim S32768x1 ![0] bcast_S32768_S32768x1_0 : (⟨S32768, .i32⟩ : BufTy).Contents (Elt F) → (⟨S32768x1, .i32⟩ : BufTy).Contents (Elt F))
  :: StableHlo.unary main_v255 main_v262 (broadcastInDim S32768x1 ![0] bcast_S32768_S32768x1_0 : (⟨S32768, .i32⟩ : BufTy).Contents (Elt F) → (⟨S32768x1, .i32⟩ : BufTy).Contents (Elt F))
  :: StableHlo.unary main_v260 main_v263 (broadcastInDim S32768x1 ![0] bcast_S32768_S32768x1_0 : (⟨S32768, .i32⟩ : BufTy).Contents (Elt F) → (⟨S32768x1, .i32⟩ : BufTy).Contents (Elt F))
  :: StableHlo.nary ![main_v261, main_v262, main_v263] main_v264 (fun u => concatenate S32768x3 1 [⟨S32768x1, u 0⟩, ⟨S32768x1, u 1⟩, ⟨S32768x1, u 2⟩] concatenates_S32768x1_S32768x1_S32768x1_S32768x3_d1)
  :: StableHlo.binary main_v245 main_v264 main_v265 ((fun x i => Host.gather gather_S16x128x128x64_S32768x3_S32768x64_1_012_n_n_012_1_11164 x i) : (⟨S16x128x128x64, .f32⟩ : BufTy).Contents (Elt F) → (⟨S32768x3, .i32⟩ : BufTy).Contents (Elt F) → (⟨S32768x64, .f32⟩ : BufTy).Contents (Elt F))
  :: StableHlo.nullary main_v266 (iotaInDim S4096 32 0)
  :: StableHlo.unary main_v266 main_v267 (broadcastInDim S1x4096 ![1] bcast_S4096_S1x4096_1 : (⟨S4096, .i32⟩ : BufTy).Contents (Elt F) → (⟨S1x4096, .i32⟩ : BufTy).Contents (Elt F))
  :: StableHlo.reshape main_v267 main_v268 rfl shapeCasts_S1x4096_S1x1x1x4096
  :: StableHlo.unary main_v268 main_v269 (broadcastInDim S2x1x1x4096 ![0, 1, 2, 3] bcast_S1x1x1x4096_S2x1x1x4096_0_1_2_3 : (⟨S1x1x1x4096, .i32⟩ : BufTy).Contents (Elt F) → (⟨S2x1x1x4096, .i32⟩ : BufTy).Contents (Elt F))
  :: StableHlo.reshape main_v269 main_v270 rfl shapeCasts_S2x1x1x4096_S2x4096
  :: StableHlo.binary main_arg14 main_v270 main_v271 ((fun a b => concatenate S2x69632 1 [⟨S2x65536, a⟩, ⟨S2x4096, b⟩] concatenates_S2x65536_S2x4096_S2x69632_d1) : (⟨S2x65536, .i32⟩ : BufTy).Contents (Elt F) → (⟨S2x4096, .i32⟩ : BufTy).Contents (Elt F) → (⟨S2x69632, .i32⟩ : BufTy).Contents (Elt F))
  :: StableHlo.nullary main_c_67 (constantI S_ 32 1#32)
  :: StableHlo.unary main_c_67 main_v272 (broadcastInDim S65536 ![] bcast_S_S65536 : (⟨S_, .i32⟩ : BufTy).Contents (Elt F) → (⟨S65536, .i32⟩ : BufTy).Contents (Elt F))
  :: StableHlo.binary main_arg15 main_v272 main_v273 (addi : (⟨S65536, .i32⟩ : BufTy).Contents (Elt F) → (⟨S65536, .i32⟩ : BufTy).Contents (Elt F) → (⟨S65536, .i32⟩ : BufTy).Contents (Elt F))
  :: StableHlo.nullary main_c_68 (constantI S_ 32 0#32)
  :: StableHlo.unary main_c_68 main_v274 (broadcastInDim S4096 ![] bcast_S_S4096 : (⟨S_, .i32⟩ : BufTy).Contents (Elt F) → (⟨S4096, .i32⟩ : BufTy).Contents (Elt F))
  :: StableHlo.binary main_v273 main_v274 main_v275 ((fun a b => concatenate S69632 0 [⟨S65536, a⟩, ⟨S4096, b⟩] concatenates_S65536_S4096_S69632_d0) : (⟨S65536, .i32⟩ : BufTy).Contents (Elt F) → (⟨S4096, .i32⟩ : BufTy).Contents (Elt F) → (⟨S69632, .i32⟩ : BufTy).Contents (Elt F))
  :: StableHlo.nullary main_c_69 (constantI S_ 32 0#32)
  :: StableHlo.unary main_c_69 main_v276 (broadcastInDim S69632 ![] bcast_S_S69632 : (⟨S_, .i32⟩ : BufTy).Contents (Elt F) → (⟨S69632, .i32⟩ : BufTy).Contents (Elt F))
  :: StableHlo.binary main_v275 main_v276 main_v277 (cmpi .slt : (⟨S69632, .i32⟩ : BufTy).Contents (Elt F) → (⟨S69632, .i32⟩ : BufTy).Contents (Elt F) → (⟨S69632, .i1⟩ : BufTy).Contents (Elt F))
  :: StableHlo.nullary main_c_70 (constantI S_ 32 12#32)
  :: StableHlo.unary main_c_70 main_v278 (broadcastInDim S69632 ![] bcast_S_S69632 : (⟨S_, .i32⟩ : BufTy).Contents (Elt F) → (⟨S69632, .i32⟩ : BufTy).Contents (Elt F))
  :: StableHlo.binary main_v275 main_v278 main_v279 (addi : (⟨S69632, .i32⟩ : BufTy).Contents (Elt F) → (⟨S69632, .i32⟩ : BufTy).Contents (Elt F) → (⟨S69632, .i32⟩ : BufTy).Contents (Elt F))
  :: StableHlo.ternary main_v277 main_v279 main_v275 main_v280 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F))
  :: StableHlo.unary main_v280 main_v281 (broadcastInDim S69632x1 ![0] bcast_S69632_S69632x1_0 : (⟨S69632, .i32⟩ : BufTy).Contents (Elt F) → (⟨S69632x1, .i32⟩ : BufTy).Contents (Elt F))
  :: StableHlo.binary main_arg7 main_v281 main_v282 ((fun x i => Host.gather gather_S12x64_S69632x1_S69632x64_1_0_n_n_0_1_164 x i) : (⟨S12x64, .f32⟩ : BufTy).Contents (Elt F) → (⟨S69632x1, .i32⟩ : BufTy).Contents (Elt F) → (⟨S69632x64, .f32⟩ : BufTy).Contents (Elt F))
  :: StableHlo.nullary main_c_71 (constantI S_ 32 1#32)
  :: StableHlo.unary main_c_71 main_v283 (broadcastInDim S4096 ![] bcast_S_S4096 : (⟨S_, .i32⟩ : BufTy).Contents (Elt F) → (⟨S4096, .i32⟩ : BufTy).Contents (Elt F))
  :: StableHlo.nullary main_c_72 (constantI S_ 32 0#32)
  :: StableHlo.unary main_c_72 main_v284 (broadcastInDim S16 ![] bcast_S_S16 : (⟨S_, .i32⟩ : BufTy).Contents (Elt F) → (⟨S16, .i32⟩ : BufTy).Contents (Elt F))
  :: StableHlo.unary main_arg9 main_v285 (broadcastInDim S4096x1 ![0] bcast_S4096_S4096x1_0 : (⟨S4096, .i32⟩ : BufTy).Contents (Elt F) → (⟨S4096x1, .i32⟩ : BufTy).Contents (Elt F))
  :: StableHlo.ternary main_v284 main_v285 main_v283 main_v286 ((fun x i u => Host.scatter scatter_S16_S4096x1_S4096_n_0_0_1 IntOp.addi x i u) : (⟨S16, .i32⟩ : BufTy).Contents (Elt F) → (⟨S4096x1, .i32⟩ : BufTy).Contents (Elt F) → (⟨S4096, .i32⟩ : BufTy).Contents (Elt F) → (⟨S16, .i32⟩ : BufTy).Contents (Elt F))
  :: StableHlo.nullary main_c_73 (constantI S_ 32 0#32)
  :: StableHlo.unary main_c_73 main_v287 (broadcastInDim S1 ![] bcast_S_S1 : (⟨S_, .i32⟩ : BufTy).Contents (Elt F) → (⟨S1, .i32⟩ : BufTy).Contents (Elt F))
  :: [] )

set_option maxHeartbeats 40000000 in
/-- 3 operations of the reference, in order. -/
abbrev rT10 : List (HloOp τ sig (Elt F)) :=
  ( StableHlo.TRef.nullary (.of main_call3_call0_c : StableHlo.TRef sig ⟨S_, .i32⟩) (constantI S_ 32 0#32)
  :: StableHlo.TRef.unary (.of main_call3_call0_c : StableHlo.TRef sig ⟨S_, .i32⟩) (.of main_call3_call0_v0 : StableHlo.TRef sig ⟨S_, .i32⟩) (broadcastInDim S_ ![] bcast_S_S_)
  :: StableHlo.TRef.binary (.of main_v286 : StableHlo.TRef sig ⟨S16, .i32⟩) (.of main_call3_call0_v0 : StableHlo.TRef sig ⟨S_, .i32⟩) (.of main_v288 : StableHlo.TRef sig ⟨S16, .i32⟩) (fun x v => Host.reduceWindow IntOp.addi ![16] ![1] ![15] ![0] x v reduceWindows_S16_S16_w16s1p15_0 h_S_)
  :: [] )

set_option maxHeartbeats 40000000 in
/-- 59 operations of the reference, in order. -/
abbrev rT11 : List (HloOp τ sig (Elt F)) :=
  ( StableHlo.binary main_v287 main_v288 main_v289 ((fun a b => concatenate S17 0 [⟨S1, a⟩, ⟨S16, b⟩] concatenates_S1_S16_S17_d0) : (⟨S1, .i32⟩ : BufTy).Contents (Elt F) → (⟨S16, .i32⟩ : BufTy).Contents (Elt F) → (⟨S17, .i32⟩ : BufTy).Contents (Elt F))
  :: StableHlo.unary main_v271 main_v290 ((extractStridedSlice S1x69632 ![0, 0] · slices_S2x69632_S1x69632_0_0) : (⟨S2x69632, .i32⟩ : BufTy).Contents (Elt F) → (⟨S1x69632, .i32⟩ : BufTy).Contents (Elt F))
  :: StableHlo.reshape main_v290 main_v291 rfl shapeCasts_S1x69632_S69632
  :: StableHlo.nullary main_c_74 (constantI S_ 32 0#32)
  :: StableHlo.unary main_c_74 main_v292 (broadcastInDim S69632 ![] bcast_S_S69632 : (⟨S_, .i32⟩ : BufTy).Contents (Elt F) → (⟨S69632, .i32⟩ : BufTy).Contents (Elt F))
  :: StableHlo.binary main_v291 main_v292 main_v293 (cmpi .slt : (⟨S69632, .i32⟩ : BufTy).Contents (Elt F) → (⟨S69632, .i32⟩ : BufTy).Contents (Elt F) → (⟨S69632, .i1⟩ : BufTy).Contents (Elt F))
  :: StableHlo.nullary main_c_75 (constantI S_ 32 4096#32)
  :: StableHlo.unary main_c_75 main_v294 (broadcastInDim S69632 ![] bcast_S_S69632 : (⟨S_, .i32⟩ : BufTy).Contents (Elt F) → (⟨S69632, .i32⟩ : BufTy).Contents (Elt F))
  :: StableHlo.binary main_v291 main_v294 main_v295 (addi : (⟨S69632, .i32⟩ : BufTy).Contents (Elt F) → (⟨S69632, .i32⟩ : BufTy).Contents (Elt F) → (⟨S69632, .i32⟩ : BufTy).Contents (Elt F))
  :: StableHlo.ternary main_v293 main_v295 main_v291 main_v296 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F))
  :: StableHlo.unary main_v296 main_v297 (broadcastInDim S69632x1 ![0] bcast_S69632_S69632x1_0 : (⟨S69632, .i32⟩ : BufTy).Contents (Elt F) → (⟨S69632x1, .i32⟩ : BufTy).Contents (Elt F))
  :: StableHlo.binary main_arg9 main_v297 main_v298 ((fun x i => Host.gather gather_S4096_S69632x1_S69632_n_0_n_n_0_1_1 x i) : (⟨S4096, .i32⟩ : BufTy).Contents (Elt F) → (⟨S69632x1, .i32⟩ : BufTy).Contents (Elt F) → (⟨S69632, .i32⟩ : BufTy).Contents (Elt F))
  :: StableHlo.unary main_v271 main_v299 ((extractStridedSlice S1x69632 ![0, 0] · slices_S2x69632_S1x69632_0_0) : (⟨S2x69632, .i32⟩ : BufTy).Contents (Elt F) → (⟨S1x69632, .i32⟩ : BufTy).Contents (Elt F))
  :: StableHlo.reshape main_v299 main_v300 rfl shapeCasts_S1x69632_S69632
  :: StableHlo.nullary main_c_76 (constantI S_ 32 0#32)
  :: StableHlo.unary main_c_76 main_v301 (broadcastInDim S69632 ![] bcast_S_S69632 : (⟨S_, .i32⟩ : BufTy).Contents (Elt F) → (⟨S69632, .i32⟩ : BufTy).Contents (Elt F))
  :: StableHlo.binary main_v298 main_v301 main_v302 (cmpi .slt : (⟨S69632, .i32⟩ : BufTy).Contents (Elt F) → (⟨S69632, .i32⟩ : BufTy).Contents (Elt F) → (⟨S69632, .i1⟩ : BufTy).Contents (Elt F))
  :: StableHlo.nullary main_c_77 (constantI S_ 32 17#32)
  :: StableHlo.unary main_c_77 main_v303 (broadcastInDim S69632 ![] bcast_S_S69632 : (⟨S_, .i32⟩ : BufTy).Contents (Elt F) → (⟨S69632, .i32⟩ : BufTy).Contents (Elt F))
  :: StableHlo.binary main_v298 main_v303 main_v304 (addi : (⟨S69632, .i32⟩ : BufTy).Contents (Elt F) → (⟨S69632, .i32⟩ : BufTy).Contents (Elt F) → (⟨S69632, .i32⟩ : BufTy).Contents (Elt F))
  :: StableHlo.ternary main_v302 main_v304 main_v298 main_v305 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F))
  :: StableHlo.unary main_v305 main_v306 (broadcastInDim S69632x1 ![0] bcast_S69632_S69632x1_0 : (⟨S69632, .i32⟩ : BufTy).Contents (Elt F) → (⟨S69632x1, .i32⟩ : BufTy).Contents (Elt F))
  :: StableHlo.binary main_v289 main_v306 main_v307 ((fun x i => Host.gather gather_S17_S69632x1_S69632_n_0_n_n_0_1_1 x i) : (⟨S17, .i32⟩ : BufTy).Contents (Elt F) → (⟨S69632x1, .i32⟩ : BufTy).Contents (Elt F) → (⟨S69632, .i32⟩ : BufTy).Contents (Elt F))
  :: StableHlo.binary main_v300 main_v307 main_v308 (subi : (⟨S69632, .i32⟩ : BufTy).Contents (Elt F) → (⟨S69632, .i32⟩ : BufTy).Contents (Elt F) → (⟨S69632, .i32⟩ : BufTy).Contents (Elt F))
  :: StableHlo.unary main_v271 main_v309 ((extractStridedSlice S1x69632 ![1, 0] · slices_S2x69632_S1x69632_1_0) : (⟨S2x69632, .i32⟩ : BufTy).Contents (Elt F) → (⟨S1x69632, .i32⟩ : BufTy).Contents (Elt F))
  :: StableHlo.reshape main_v309 main_v310 rfl shapeCasts_S1x69632_S69632
  :: StableHlo.unary main_v271 main_v311 ((extractStridedSlice S1x69632 ![1, 0] · slices_S2x69632_S1x69632_1_0) : (⟨S2x69632, .i32⟩ : BufTy).Contents (Elt F) → (⟨S1x69632, .i32⟩ : BufTy).Contents (Elt F))
  :: StableHlo.reshape main_v311 main_v312 rfl shapeCasts_S1x69632_S69632
  :: StableHlo.nullary main_c_78 (constantI S_ 32 0#32)
  :: StableHlo.unary main_c_78 main_v313 (broadcastInDim S69632 ![] bcast_S_S69632 : (⟨S_, .i32⟩ : BufTy).Contents (Elt F) → (⟨S69632, .i32⟩ : BufTy).Contents (Elt F))
  :: StableHlo.binary main_v312 main_v313 main_v314 (cmpi .slt : (⟨S69632, .i32⟩ : BufTy).Contents (Elt F) → (⟨S69632, .i32⟩ : BufTy).Contents (Elt F) → (⟨S69632, .i1⟩ : BufTy).Contents (Elt F))
  :: StableHlo.nullary main_c_79 (constantI S_ 32 4096#32)
  :: StableHlo.unary main_c_79 main_v315 (broadcastInDim S69632 ![] bcast_S_S69632 : (⟨S_, .i32⟩ : BufTy).Contents (Elt F) → (⟨S69632, .i32⟩ : BufTy).Contents (Elt F))
  :: StableHlo.binary main_v312 main_v315 main_v316 (addi : (⟨S69632, .i32⟩ : BufTy).Contents (Elt F) → (⟨S69632, .i32⟩ : BufTy).Contents (Elt F) → (⟨S69632, .i32⟩ : BufTy).Contents (Elt F))
  :: StableHlo.ternary main_v314 main_v316 main_v312 main_v317 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F))
  :: StableHlo.unary main_v317 main_v318 (broadcastInDim S69632x1 ![0] bcast_S69632_S69632x1_0 : (⟨S69632, .i32⟩ : BufTy).Contents (Elt F) → (⟨S69632x1, .i32⟩ : BufTy).Contents (Elt F))
  :: StableHlo.binary main_arg9 main_v318 main_v319 ((fun x i => Host.gather gather_S4096_S69632x1_S69632_n_0_n_n_0_1_1 x i) : (⟨S4096, .i32⟩ : BufTy).Contents (Elt F) → (⟨S69632x1, .i32⟩ : BufTy).Contents (Elt F) → (⟨S69632, .i32⟩ : BufTy).Contents (Elt F))
  :: StableHlo.nullary main_c_80 (constantI S_ 32 0#32)
  :: StableHlo.unary main_c_80 main_v320 (broadcastInDim S69632 ![] bcast_S_S69632 : (⟨S_, .i32⟩ : BufTy).Contents (Elt F) → (⟨S69632, .i32⟩ : BufTy).Contents (Elt F))
  :: StableHlo.binary main_v319 main_v320 main_v321 (cmpi .slt : (⟨S69632, .i32⟩ : BufTy).Contents (Elt F) → (⟨S69632, .i32⟩ : BufTy).Contents (Elt F) → (⟨S69632, .i1⟩ : BufTy).Contents (Elt F))
  :: StableHlo.nullary main_c_81 (constantI S_ 32 17#32)
  :: StableHlo.unary main_c_81 main_v322 (broadcastInDim S69632 ![] bcast_S_S69632 : (⟨S_, .i32⟩ : BufTy).Contents (Elt F) → (⟨S69632, .i32⟩ : BufTy).Contents (Elt F))
  :: StableHlo.binary main_v319 main_v322 main_v323 (addi : (⟨S69632, .i32⟩ : BufTy).Contents (Elt F) → (⟨S69632, .i32⟩ : BufTy).Contents (Elt F) → (⟨S69632, .i32⟩ : BufTy).Contents (Elt F))
  :: StableHlo.ternary main_v321 main_v323 main_v319 main_v324 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F))
  :: StableHlo.unary main_v324 main_v325 (broadcastInDim S69632x1 ![0] bcast_S69632_S69632x1_0 : (⟨S69632, .i32⟩ : BufTy).Contents (Elt F) → (⟨S69632x1, .i32⟩ : BufTy).Contents (Elt F))
  :: StableHlo.binary main_v289 main_v325 main_v326 ((fun x i => Host.gather gather_S17_S69632x1_S69632_n_0_n_n_0_1_1 x i) : (⟨S17, .i32⟩ : BufTy).Contents (Elt F) → (⟨S69632x1, .i32⟩ : BufTy).Contents (Elt F) → (⟨S69632, .i32⟩ : BufTy).Contents (Elt F))
  :: StableHlo.binary main_v310 main_v326 main_v327 (subi : (⟨S69632, .i32⟩ : BufTy).Contents (Elt F) → (⟨S69632, .i32⟩ : BufTy).Contents (Elt F) → (⟨S69632, .i32⟩ : BufTy).Contents (Elt F))
  :: StableHlo.nullary main_cst_82 (constant S_ .f32 0x00000000#32)
  :: StableHlo.unary main_cst_82 main_v328 (broadcastInDim S16x256x256x64 ![] bcast_S_S16x256x256x64 : (⟨S_, .f32⟩ : BufTy).Contents (Elt F) → (⟨S16x256x256x64, .f32⟩ : BufTy).Contents (Elt F))
  :: StableHlo.nullary main_c_83 (constantI S_ 32 0#32)
  :: StableHlo.unary main_c_83 main_v329 (broadcastInDim S69632 ![] bcast_S_S69632 : (⟨S_, .i32⟩ : BufTy).Contents (Elt F) → (⟨S69632, .i32⟩ : BufTy).Contents (Elt F))
  :: StableHlo.binary main_v298 main_v329 main_v330 (cmpi .slt : (⟨S69632, .i32⟩ : BufTy).Contents (Elt F) → (⟨S69632, .i32⟩ : BufTy).Contents (Elt F) → (⟨S69632, .i1⟩ : BufTy).Contents (Elt F))
  :: StableHlo.nullary main_c_84 (constantI S_ 32 16#32)
  :: StableHlo.unary main_c_84 main_v331 (broadcastInDim S69632 ![] bcast_S_S69632 : (⟨S_, .i32⟩ : BufTy).Contents (Elt F) → (⟨S69632, .i32⟩ : BufTy).Contents (Elt F))
  :: StableHlo.binary main_v298 main_v331 main_v332 (addi : (⟨S69632, .i32⟩ : BufTy).Contents (Elt F) → (⟨S69632, .i32⟩ : BufTy).Contents (Elt F) → (⟨S69632, .i32⟩ : BufTy).Contents (Elt F))
  :: StableHlo.ternary main_v330 main_v332 main_v298 main_v333 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F))
  :: StableHlo.nullary main_c_85 (constantI S_ 32 0#32)
  :: StableHlo.unary main_c_85 main_v334 (broadcastInDim S69632 ![] bcast_S_S69632 : (⟨S_, .i32⟩ : BufTy).Contents (Elt F) → (⟨S69632, .i32⟩ : BufTy).Contents (Elt F))
  :: StableHlo.binary main_v308 main_v334 main_v335 (cmpi .slt : (⟨S69632, .i32⟩ : BufTy).Contents (Elt F) → (⟨S69632, .i32⟩ : BufTy).Contents (Elt F) → (⟨S69632, .i1⟩ : BufTy).Contents (Elt F))
  :: [] )

set_option maxHeartbeats 40000000 in
/-- 42 operations of the reference, in order. -/
abbrev rT12 : List (HloOp τ sig (Elt F)) :=
  ( StableHlo.nullary main_c_86 (constantI S_ 32 256#32)
  :: StableHlo.unary main_c_86 main_v336 (broadcastInDim S69632 ![] bcast_S_S69632 : (⟨S_, .i32⟩ : BufTy).Contents (Elt F) → (⟨S69632, .i32⟩ : BufTy).Contents (Elt F))
  :: StableHlo.binary main_v308 main_v336 main_v337 (addi : (⟨S69632, .i32⟩ : BufTy).Contents (Elt F) → (⟨S69632, .i32⟩ : BufTy).Contents (Elt F) → (⟨S69632, .i32⟩ : BufTy).Contents (Elt F))
  :: StableHlo.ternary main_v335 main_v337 main_v308 main_v338 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F))
  :: StableHlo.nullary main_c_87 (constantI S_ 32 0#32)
  :: StableHlo.unary main_c_87 main_v339 (broadcastInDim S69632 ![] bcast_S_S69632 : (⟨S_, .i32⟩ : BufTy).Contents (Elt F) → (⟨S69632, .i32⟩ : BufTy).Contents (Elt F))
  :: StableHlo.binary main_v327 main_v339 main_v340 (cmpi .slt : (⟨S69632, .i32⟩ : BufTy).Contents (Elt F) → (⟨S69632, .i32⟩ : BufTy).Contents (Elt F) → (⟨S69632, .i1⟩ : BufTy).Contents (Elt F))
  :: StableHlo.nullary main_c_88 (constantI S_ 32 256#32)
  :: StableHlo.unary main_c_88 main_v341 (broadcastInDim S69632 ![] bcast_S_S69632 : (⟨S_, .i32⟩ : BufTy).Contents (Elt F) → (⟨S69632, .i32⟩ : BufTy).Contents (Elt F))
  :: StableHlo.binary main_v327 main_v341 main_v342 (addi : (⟨S69632, .i32⟩ : BufTy).Contents (Elt F) → (⟨S69632, .i32⟩ : BufTy).Contents (Elt F) → (⟨S69632, .i32⟩ : BufTy).Contents (Elt F))
  :: StableHlo.ternary main_v340 main_v342 main_v327 main_v343 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F))
  :: StableHlo.unary main_v333 main_v344 (broadcastInDim S69632x1 ![0] bcast_S69632_S69632x1_0 : (⟨S69632, .i32⟩ : BufTy).Contents (Elt F) → (⟨S69632x1, .i32⟩ : BufTy).Contents (Elt F))
  :: StableHlo.unary main_v338 main_v345 (broadcastInDim S69632x1 ![0] bcast_S69632_S69632x1_0 : (⟨S69632, .i32⟩ : BufTy).Contents (Elt F) → (⟨S69632x1, .i32⟩ : BufTy).Contents (Elt F))
  :: StableHlo.unary main_v343 main_v346 (broadcastInDim S69632x1 ![0] bcast_S69632_S69632x1_0 : (⟨S69632, .i32⟩ : BufTy).Contents (Elt F) → (⟨S69632x1, .i32⟩ : BufTy).Contents (Elt F))
  :: StableHlo.nary ![main_v344, main_v345, main_v346] main_v347 (fun u => concatenate S69632x3 1 [⟨S69632x1, u 0⟩, ⟨S69632x1, u 1⟩, ⟨S69632x1, u 2⟩] concatenates_S69632x1_S69632x1_S69632x1_S69632x3_d1)
  :: StableHlo.ternary main_v328 main_v347 main_v282 main_v348 ((fun x i u => Host.scatterAdd scatter_S16x256x256x64_S69632x3_S69632x64_1_012_012_1 x i u) : (⟨S16x256x256x64, .f32⟩ : BufTy).Contents (Elt F) → (⟨S69632x3, .i32⟩ : BufTy).Contents (Elt F) → (⟨S69632x64, .f32⟩ : BufTy).Contents (Elt F) → (⟨S16x256x256x64, .f32⟩ : BufTy).Contents (Elt F))
  :: StableHlo.nullary main_c_89 (constantI S_ 32 0#32)
  :: StableHlo.unary main_c_89 main_v349 (broadcastInDim S32768 ![] bcast_S_S32768 : (⟨S_, .i32⟩ : BufTy).Contents (Elt F) → (⟨S32768, .i32⟩ : BufTy).Contents (Elt F))
  :: StableHlo.binary main_v113 main_v349 main_v350 (cmpi .slt : (⟨S32768, .i32⟩ : BufTy).Contents (Elt F) → (⟨S32768, .i32⟩ : BufTy).Contents (Elt F) → (⟨S32768, .i1⟩ : BufTy).Contents (Elt F))
  :: StableHlo.nullary main_c_90 (constantI S_ 32 16#32)
  :: StableHlo.unary main_c_90 main_v351 (broadcastInDim S32768 ![] bcast_S_S32768 : (⟨S_, .i32⟩ : BufTy).Contents (Elt F) → (⟨S32768, .i32⟩ : BufTy).Contents (Elt F))
  :: StableHlo.binary main_v113 main_v351 main_v352 (addi : (⟨S32768, .i32⟩ : BufTy).Contents (Elt F) → (⟨S32768, .i32⟩ : BufTy).Contents (Elt F) → (⟨S32768, .i32⟩ : BufTy).Contents (Elt F))
  :: StableHlo.ternary main_v350 main_v352 main_v113 main_v353 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_91 (constantI S_ 32 0#32)
  :: StableHlo.unary main_c_91 main_v354 (broadcastInDim S32768 ![] bcast_S_S32768 : (⟨S_, .i32⟩ : BufTy).Contents (Elt F) → (⟨S32768, .i32⟩ : BufTy).Contents (Elt F))
  :: StableHlo.binary main_v123 main_v354 main_v355 (cmpi .slt : (⟨S32768, .i32⟩ : BufTy).Contents (Elt F) → (⟨S32768, .i32⟩ : BufTy).Contents (Elt F) → (⟨S32768, .i1⟩ : BufTy).Contents (Elt F))
  :: StableHlo.nullary main_c_92 (constantI S_ 32 256#32)
  :: StableHlo.unary main_c_92 main_v356 (broadcastInDim S32768 ![] bcast_S_S32768 : (⟨S_, .i32⟩ : BufTy).Contents (Elt F) → (⟨S32768, .i32⟩ : BufTy).Contents (Elt F))
  :: StableHlo.binary main_v123 main_v356 main_v357 (addi : (⟨S32768, .i32⟩ : BufTy).Contents (Elt F) → (⟨S32768, .i32⟩ : BufTy).Contents (Elt F) → (⟨S32768, .i32⟩ : BufTy).Contents (Elt F))
  :: StableHlo.ternary main_v355 main_v357 main_v123 main_v358 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.nullary main_c_93 (constantI S_ 32 0#32)
  :: StableHlo.unary main_c_93 main_v359 (broadcastInDim S32768 ![] bcast_S_S32768 : (⟨S_, .i32⟩ : BufTy).Contents (Elt F) → (⟨S32768, .i32⟩ : BufTy).Contents (Elt F))
  :: StableHlo.binary main_v142 main_v359 main_v360 (cmpi .slt : (⟨S32768, .i32⟩ : BufTy).Contents (Elt F) → (⟨S32768, .i32⟩ : BufTy).Contents (Elt F) → (⟨S32768, .i1⟩ : BufTy).Contents (Elt F))
  :: StableHlo.nullary main_c_94 (constantI S_ 32 256#32)
  :: StableHlo.unary main_c_94 main_v361 (broadcastInDim S32768 ![] bcast_S_S32768 : (⟨S_, .i32⟩ : BufTy).Contents (Elt F) → (⟨S32768, .i32⟩ : BufTy).Contents (Elt F))
  :: StableHlo.binary main_v142 main_v361 main_v362 (addi : (⟨S32768, .i32⟩ : BufTy).Contents (Elt F) → (⟨S32768, .i32⟩ : BufTy).Contents (Elt F) → (⟨S32768, .i32⟩ : BufTy).Contents (Elt F))
  :: StableHlo.ternary main_v360 main_v362 main_v142 main_v363 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v353 main_v364 (broadcastInDim S32768x1 ![0] bcast_S32768_S32768x1_0 : (⟨S32768, .i32⟩ : BufTy).Contents (Elt F) → (⟨S32768x1, .i32⟩ : BufTy).Contents (Elt F))
  :: StableHlo.unary main_v358 main_v365 (broadcastInDim S32768x1 ![0] bcast_S32768_S32768x1_0 : (⟨S32768, .i32⟩ : BufTy).Contents (Elt F) → (⟨S32768x1, .i32⟩ : BufTy).Contents (Elt F))
  :: StableHlo.unary main_v363 main_v366 (broadcastInDim S32768x1 ![0] bcast_S32768_S32768x1_0 : (⟨S32768, .i32⟩ : BufTy).Contents (Elt F) → (⟨S32768x1, .i32⟩ : BufTy).Contents (Elt F))
  :: StableHlo.nary ![main_v364, main_v365, main_v366] main_v367 (fun u => concatenate S32768x3 1 [⟨S32768x1, u 0⟩, ⟨S32768x1, u 1⟩, ⟨S32768x1, u 2⟩] concatenates_S32768x1_S32768x1_S32768x1_S32768x3_d1)
  :: StableHlo.binary main_v348 main_v367 main_v368 ((fun x i => Host.gather gather_S16x256x256x64_S32768x3_S32768x64_1_012_n_n_012_1_11164 x i) : (⟨S16x256x256x64, .f32⟩ : BufTy).Contents (Elt F) → (⟨S32768x3, .i32⟩ : BufTy).Contents (Elt F) → (⟨S32768x64, .f32⟩ : BufTy).Contents (Elt F))
  :: [] )

/-- The whole line. -/
abbrev refOps : List (HloOp τ sig (Elt F)) :=
  rD1 ++ rA1 ++ rA2 ++ rA3 ++ rA4 ++ rD2 ++ rT1 ++ rT2 ++ rT3 ++ rT4 ++ rT5 ++ rT6 ++ rT7 ++ rT8 ++ rT9 ++ rT10 ++ rT11 ++ rT12

end Cert.ReferenceIdeal.Hand

end
-- ==== Proof.SimPairs.lean ====
import proofs.«175666_j17377437679648_2_alg».proof.Proof.SimSteps
import proofs.«175666_j17377437679648_2_alg».proof.Proof.KLists
import proofs.«175666_j17377437679648_2_alg».proof.Proof.RefOps

/-! # The buffers of the two programs that correspond

One pair per buffer of the common line of operations: the first program's buffer, the second program's buffer that the
corresponding operation writes (or the same argument), and that the two have one tensor type. -/

namespace Cert.Bridge

open Idealize.ShloMosaic Cert.Lib.LineSimulation

/-- A buffer of the first program and one of the second, of one tensor type. -/
noncomputable abbrev PR (a : Ref Cert.KernelIdeal.sig .tc) (b : Ref Cert.ReferenceIdeal.sig .tc) (h : a.ty = b.ty := by rfl) :
    Pair Cert.KernelIdeal.sig Cert.ReferenceIdeal.sig := ⟨a, b, h⟩

noncomputable abbrev q_arg0 : Pair Cert.KernelIdeal.sig Cert.ReferenceIdeal.sig := ⟨Cert.KernelIdeal.main_arg0, Cert.ReferenceIdeal.main_arg0, rfl⟩
noncomputable abbrev q_arg1 : Pair Cert.KernelIdeal.sig Cert.ReferenceIdeal.sig := ⟨Cert.KernelIdeal.main_arg1, Cert.ReferenceIdeal.main_arg1, rfl⟩
noncomputable abbrev q_arg2 : Pair Cert.KernelIdeal.sig Cert.ReferenceIdeal.sig := ⟨Cert.KernelIdeal.main_arg2, Cert.ReferenceIdeal.main_arg2, rfl⟩
noncomputable abbrev q_arg3 : Pair Cert.KernelIdeal.sig Cert.ReferenceIdeal.sig := ⟨Cert.KernelIdeal.main_arg3, Cert.ReferenceIdeal.main_arg3, rfl⟩
noncomputable abbrev q_arg4 : Pair Cert.KernelIdeal.sig Cert.ReferenceIdeal.sig := ⟨Cert.KernelIdeal.main_arg4, Cert.ReferenceIdeal.main_arg4, rfl⟩
noncomputable abbrev q_arg5 : Pair Cert.KernelIdeal.sig Cert.ReferenceIdeal.sig := ⟨Cert.KernelIdeal.main_arg5, Cert.ReferenceIdeal.main_arg5, rfl⟩
noncomputable abbrev q_arg6 : Pair Cert.KernelIdeal.sig Cert.ReferenceIdeal.sig := ⟨Cert.KernelIdeal.main_arg6, Cert.ReferenceIdeal.main_arg6, rfl⟩
noncomputable abbrev q_arg7 : Pair Cert.KernelIdeal.sig Cert.ReferenceIdeal.sig := ⟨Cert.KernelIdeal.main_arg7, Cert.ReferenceIdeal.main_arg7, rfl⟩
noncomputable abbrev q_arg8 : Pair Cert.KernelIdeal.sig Cert.ReferenceIdeal.sig := ⟨Cert.KernelIdeal.main_arg8, Cert.ReferenceIdeal.main_arg8, rfl⟩
noncomputable abbrev q_arg9 : Pair Cert.KernelIdeal.sig Cert.ReferenceIdeal.sig := ⟨Cert.KernelIdeal.main_arg9, Cert.ReferenceIdeal.main_arg9, rfl⟩
noncomputable abbrev q_arg10 : Pair Cert.KernelIdeal.sig Cert.ReferenceIdeal.sig := ⟨Cert.KernelIdeal.main_arg10, Cert.ReferenceIdeal.main_arg10, rfl⟩
noncomputable abbrev q_arg11 : Pair Cert.KernelIdeal.sig Cert.ReferenceIdeal.sig := ⟨Cert.KernelIdeal.main_arg11, Cert.ReferenceIdeal.main_arg11, rfl⟩
noncomputable abbrev q_arg12 : Pair Cert.KernelIdeal.sig Cert.ReferenceIdeal.sig := ⟨Cert.KernelIdeal.main_arg12, Cert.ReferenceIdeal.main_arg12, rfl⟩
noncomputable abbrev q_arg13 : Pair Cert.KernelIdeal.sig Cert.ReferenceIdeal.sig := ⟨Cert.KernelIdeal.main_arg13, Cert.ReferenceIdeal.main_arg13, rfl⟩
noncomputable abbrev q_arg14 : Pair Cert.KernelIdeal.sig Cert.ReferenceIdeal.sig := ⟨Cert.KernelIdeal.main_arg14, Cert.ReferenceIdeal.main_arg14, rfl⟩
noncomputable abbrev q_arg15 : Pair Cert.KernelIdeal.sig Cert.ReferenceIdeal.sig := ⟨Cert.KernelIdeal.main_arg15, Cert.ReferenceIdeal.main_arg15, rfl⟩
noncomputable abbrev q_v2 : Pair Cert.KernelIdeal.sig Cert.ReferenceIdeal.sig := ⟨Cert.KernelIdeal.main_v2, Cert.ReferenceIdeal.main_v4, rfl⟩
noncomputable abbrev q_v93 : Pair Cert.KernelIdeal.sig Cert.ReferenceIdeal.sig := ⟨Cert.KernelIdeal.main_v93, Cert.ReferenceIdeal.main_v97, rfl⟩
noncomputable abbrev q_c : Pair Cert.KernelIdeal.sig Cert.ReferenceIdeal.sig := ⟨Cert.KernelIdeal.main_c, Cert.ReferenceIdeal.main_c, rfl⟩
noncomputable abbrev q_v3 : Pair Cert.KernelIdeal.sig Cert.ReferenceIdeal.sig := ⟨Cert.KernelIdeal.main_v3, Cert.ReferenceIdeal.main_v5, rfl⟩
noncomputable abbrev q_c_0 : Pair Cert.KernelIdeal.sig Cert.ReferenceIdeal.sig := ⟨Cert.KernelIdeal.main_c_0, Cert.ReferenceIdeal.main_c_0, rfl⟩
noncomputable abbrev q_v4 : Pair Cert.KernelIdeal.sig Cert.ReferenceIdeal.sig := ⟨Cert.KernelIdeal.main_v4, Cert.ReferenceIdeal.main_v6, rfl⟩
noncomputable abbrev q_v5 : Pair Cert.KernelIdeal.sig Cert.ReferenceIdeal.sig := ⟨Cert.KernelIdeal.main_v5, Cert.ReferenceIdeal.main_v7, rfl⟩
noncomputable abbrev q_v6 : Pair Cert.KernelIdeal.sig Cert.ReferenceIdeal.sig := ⟨Cert.KernelIdeal.main_v6, Cert.ReferenceIdeal.main_v8, rfl⟩
noncomputable abbrev q_c_1 : Pair Cert.KernelIdeal.sig Cert.ReferenceIdeal.sig := ⟨Cert.KernelIdeal.main_c_1, Cert.ReferenceIdeal.main_c_1, rfl⟩
noncomputable abbrev q_v7 : Pair Cert.KernelIdeal.sig Cert.ReferenceIdeal.sig := ⟨Cert.KernelIdeal.main_v7, Cert.ReferenceIdeal.main_v9, rfl⟩
noncomputable abbrev q_call0_call0_c : Pair Cert.KernelIdeal.sig Cert.ReferenceIdeal.sig := ⟨Cert.KernelIdeal.main_call0_call0_c, Cert.ReferenceIdeal.main_call0_call0_c, rfl⟩
noncomputable abbrev q_call0_call0_v0 : Pair Cert.KernelIdeal.sig Cert.ReferenceIdeal.sig := ⟨Cert.KernelIdeal.main_call0_call0_v0, Cert.ReferenceIdeal.main_call0_call0_v0, rfl⟩
noncomputable abbrev q_v8 : Pair Cert.KernelIdeal.sig Cert.ReferenceIdeal.sig := ⟨Cert.KernelIdeal.main_v8, Cert.ReferenceIdeal.main_v10, rfl⟩
noncomputable abbrev q_v9 : Pair Cert.KernelIdeal.sig Cert.ReferenceIdeal.sig := ⟨Cert.KernelIdeal.main_v9, Cert.ReferenceIdeal.main_v11, rfl⟩
noncomputable abbrev q_v10 : Pair Cert.KernelIdeal.sig Cert.ReferenceIdeal.sig := ⟨Cert.KernelIdeal.main_v10, Cert.ReferenceIdeal.main_v12, rfl⟩
noncomputable abbrev q_v11 : Pair Cert.KernelIdeal.sig Cert.ReferenceIdeal.sig := ⟨Cert.KernelIdeal.main_v11, Cert.ReferenceIdeal.main_v13, rfl⟩
noncomputable abbrev q_c_2 : Pair Cert.KernelIdeal.sig Cert.ReferenceIdeal.sig := ⟨Cert.KernelIdeal.main_c_2, Cert.ReferenceIdeal.main_c_2, rfl⟩
noncomputable abbrev q_v12 : Pair Cert.KernelIdeal.sig Cert.ReferenceIdeal.sig := ⟨Cert.KernelIdeal.main_v12, Cert.ReferenceIdeal.main_v14, rfl⟩
noncomputable abbrev q_v13 : Pair Cert.KernelIdeal.sig Cert.ReferenceIdeal.sig := ⟨Cert.KernelIdeal.main_v13, Cert.ReferenceIdeal.main_v15, rfl⟩
noncomputable abbrev q_c_3 : Pair Cert.KernelIdeal.sig Cert.ReferenceIdeal.sig := ⟨Cert.KernelIdeal.main_c_3, Cert.ReferenceIdeal.main_c_3, rfl⟩
noncomputable abbrev q_v14 : Pair Cert.KernelIdeal.sig Cert.ReferenceIdeal.sig := ⟨Cert.KernelIdeal.main_v14, Cert.ReferenceIdeal.main_v16, rfl⟩
noncomputable abbrev q_v15 : Pair Cert.KernelIdeal.sig Cert.ReferenceIdeal.sig := ⟨Cert.KernelIdeal.main_v15, Cert.ReferenceIdeal.main_v17, rfl⟩
noncomputable abbrev q_v16 : Pair Cert.KernelIdeal.sig Cert.ReferenceIdeal.sig := ⟨Cert.KernelIdeal.main_v16, Cert.ReferenceIdeal.main_v18, rfl⟩
noncomputable abbrev q_v17 : Pair Cert.KernelIdeal.sig Cert.ReferenceIdeal.sig := ⟨Cert.KernelIdeal.main_v17, Cert.ReferenceIdeal.main_v19, rfl⟩
noncomputable abbrev q_v18 : Pair Cert.KernelIdeal.sig Cert.ReferenceIdeal.sig := ⟨Cert.KernelIdeal.main_v18, Cert.ReferenceIdeal.main_v20, rfl⟩
noncomputable abbrev q_v19 : Pair Cert.KernelIdeal.sig Cert.ReferenceIdeal.sig := ⟨Cert.KernelIdeal.main_v19, Cert.ReferenceIdeal.main_v21, rfl⟩
noncomputable abbrev q_v20 : Pair Cert.KernelIdeal.sig Cert.ReferenceIdeal.sig := ⟨Cert.KernelIdeal.main_v20, Cert.ReferenceIdeal.main_v22, rfl⟩
noncomputable abbrev q_c_4 : Pair Cert.KernelIdeal.sig Cert.ReferenceIdeal.sig := ⟨Cert.KernelIdeal.main_c_4, Cert.ReferenceIdeal.main_c_4, rfl⟩
noncomputable abbrev q_v21 : Pair Cert.KernelIdeal.sig Cert.ReferenceIdeal.sig := ⟨Cert.KernelIdeal.main_v21, Cert.ReferenceIdeal.main_v23, rfl⟩
noncomputable abbrev q_v22 : Pair Cert.KernelIdeal.sig Cert.ReferenceIdeal.sig := ⟨Cert.KernelIdeal.main_v22, Cert.ReferenceIdeal.main_v24, rfl⟩
noncomputable abbrev q_c_5 : Pair Cert.KernelIdeal.sig Cert.ReferenceIdeal.sig := ⟨Cert.KernelIdeal.main_c_5, Cert.ReferenceIdeal.main_c_5, rfl⟩
noncomputable abbrev q_v23 : Pair Cert.KernelIdeal.sig Cert.ReferenceIdeal.sig := ⟨Cert.KernelIdeal.main_v23, Cert.ReferenceIdeal.main_v25, rfl⟩
noncomputable abbrev q_v24 : Pair Cert.KernelIdeal.sig Cert.ReferenceIdeal.sig := ⟨Cert.KernelIdeal.main_v24, Cert.ReferenceIdeal.main_v26, rfl⟩
noncomputable abbrev q_v25 : Pair Cert.KernelIdeal.sig Cert.ReferenceIdeal.sig := ⟨Cert.KernelIdeal.main_v25, Cert.ReferenceIdeal.main_v27, rfl⟩
noncomputable abbrev q_v26 : Pair Cert.KernelIdeal.sig Cert.ReferenceIdeal.sig := ⟨Cert.KernelIdeal.main_v26, Cert.ReferenceIdeal.main_v28, rfl⟩
noncomputable abbrev q_v27 : Pair Cert.KernelIdeal.sig Cert.ReferenceIdeal.sig := ⟨Cert.KernelIdeal.main_v27, Cert.ReferenceIdeal.main_v29, rfl⟩
noncomputable abbrev q_v28 : Pair Cert.KernelIdeal.sig Cert.ReferenceIdeal.sig := ⟨Cert.KernelIdeal.main_v28, Cert.ReferenceIdeal.main_v30, rfl⟩
noncomputable abbrev q_v29 : Pair Cert.KernelIdeal.sig Cert.ReferenceIdeal.sig := ⟨Cert.KernelIdeal.main_v29, Cert.ReferenceIdeal.main_v31, rfl⟩
noncomputable abbrev q_v30 : Pair Cert.KernelIdeal.sig Cert.ReferenceIdeal.sig := ⟨Cert.KernelIdeal.main_v30, Cert.ReferenceIdeal.main_v32, rfl⟩
noncomputable abbrev q_v31 : Pair Cert.KernelIdeal.sig Cert.ReferenceIdeal.sig := ⟨Cert.KernelIdeal.main_v31, Cert.ReferenceIdeal.main_v33, rfl⟩
noncomputable abbrev q_v32 : Pair Cert.KernelIdeal.sig Cert.ReferenceIdeal.sig := ⟨Cert.KernelIdeal.main_v32, Cert.ReferenceIdeal.main_v34, rfl⟩
noncomputable abbrev q_c_6 : Pair Cert.KernelIdeal.sig Cert.ReferenceIdeal.sig := ⟨Cert.KernelIdeal.main_c_6, Cert.ReferenceIdeal.main_c_6, rfl⟩
noncomputable abbrev q_v33 : Pair Cert.KernelIdeal.sig Cert.ReferenceIdeal.sig := ⟨Cert.KernelIdeal.main_v33, Cert.ReferenceIdeal.main_v35, rfl⟩
noncomputable abbrev q_v34 : Pair Cert.KernelIdeal.sig Cert.ReferenceIdeal.sig := ⟨Cert.KernelIdeal.main_v34, Cert.ReferenceIdeal.main_v36, rfl⟩
noncomputable abbrev q_c_7 : Pair Cert.KernelIdeal.sig Cert.ReferenceIdeal.sig := ⟨Cert.KernelIdeal.main_c_7, Cert.ReferenceIdeal.main_c_7, rfl⟩
noncomputable abbrev q_v35 : Pair Cert.KernelIdeal.sig Cert.ReferenceIdeal.sig := ⟨Cert.KernelIdeal.main_v35, Cert.ReferenceIdeal.main_v37, rfl⟩
noncomputable abbrev q_v36 : Pair Cert.KernelIdeal.sig Cert.ReferenceIdeal.sig := ⟨Cert.KernelIdeal.main_v36, Cert.ReferenceIdeal.main_v38, rfl⟩
noncomputable abbrev q_v37 : Pair Cert.KernelIdeal.sig Cert.ReferenceIdeal.sig := ⟨Cert.KernelIdeal.main_v37, Cert.ReferenceIdeal.main_v39, rfl⟩
noncomputable abbrev q_v38 : Pair Cert.KernelIdeal.sig Cert.ReferenceIdeal.sig := ⟨Cert.KernelIdeal.main_v38, Cert.ReferenceIdeal.main_v40, rfl⟩
noncomputable abbrev q_v39 : Pair Cert.KernelIdeal.sig Cert.ReferenceIdeal.sig := ⟨Cert.KernelIdeal.main_v39, Cert.ReferenceIdeal.main_v41, rfl⟩
noncomputable abbrev q_c_8 : Pair Cert.KernelIdeal.sig Cert.ReferenceIdeal.sig := ⟨Cert.KernelIdeal.main_c_8, Cert.ReferenceIdeal.main_c_8, rfl⟩
noncomputable abbrev q_v40 : Pair Cert.KernelIdeal.sig Cert.ReferenceIdeal.sig := ⟨Cert.KernelIdeal.main_v40, Cert.ReferenceIdeal.main_v42, rfl⟩
noncomputable abbrev q_v41 : Pair Cert.KernelIdeal.sig Cert.ReferenceIdeal.sig := ⟨Cert.KernelIdeal.main_v41, Cert.ReferenceIdeal.main_v43, rfl⟩
noncomputable abbrev q_c_9 : Pair Cert.KernelIdeal.sig Cert.ReferenceIdeal.sig := ⟨Cert.KernelIdeal.main_c_9, Cert.ReferenceIdeal.main_c_9, rfl⟩
noncomputable abbrev q_v42 : Pair Cert.KernelIdeal.sig Cert.ReferenceIdeal.sig := ⟨Cert.KernelIdeal.main_v42, Cert.ReferenceIdeal.main_v44, rfl⟩
noncomputable abbrev q_v43 : Pair Cert.KernelIdeal.sig Cert.ReferenceIdeal.sig := ⟨Cert.KernelIdeal.main_v43, Cert.ReferenceIdeal.main_v45, rfl⟩
noncomputable abbrev q_v44 : Pair Cert.KernelIdeal.sig Cert.ReferenceIdeal.sig := ⟨Cert.KernelIdeal.main_v44, Cert.ReferenceIdeal.main_v46, rfl⟩
noncomputable abbrev q_v45 : Pair Cert.KernelIdeal.sig Cert.ReferenceIdeal.sig := ⟨Cert.KernelIdeal.main_v45, Cert.ReferenceIdeal.main_v47, rfl⟩
noncomputable abbrev q_v46 : Pair Cert.KernelIdeal.sig Cert.ReferenceIdeal.sig := ⟨Cert.KernelIdeal.main_v46, Cert.ReferenceIdeal.main_v48, rfl⟩
noncomputable abbrev q_v47 : Pair Cert.KernelIdeal.sig Cert.ReferenceIdeal.sig := ⟨Cert.KernelIdeal.main_v47, Cert.ReferenceIdeal.main_v49, rfl⟩
noncomputable abbrev q_c_10 : Pair Cert.KernelIdeal.sig Cert.ReferenceIdeal.sig := ⟨Cert.KernelIdeal.main_c_10, Cert.ReferenceIdeal.main_c_10, rfl⟩
noncomputable abbrev q_v48 : Pair Cert.KernelIdeal.sig Cert.ReferenceIdeal.sig := ⟨Cert.KernelIdeal.main_v48, Cert.ReferenceIdeal.main_v50, rfl⟩
noncomputable abbrev q_v49 : Pair Cert.KernelIdeal.sig Cert.ReferenceIdeal.sig := ⟨Cert.KernelIdeal.main_v49, Cert.ReferenceIdeal.main_v51, rfl⟩
noncomputable abbrev q_c_11 : Pair Cert.KernelIdeal.sig Cert.ReferenceIdeal.sig := ⟨Cert.KernelIdeal.main_c_11, Cert.ReferenceIdeal.main_c_11, rfl⟩
noncomputable abbrev q_v50 : Pair Cert.KernelIdeal.sig Cert.ReferenceIdeal.sig := ⟨Cert.KernelIdeal.main_v50, Cert.ReferenceIdeal.main_v52, rfl⟩
noncomputable abbrev q_v51 : Pair Cert.KernelIdeal.sig Cert.ReferenceIdeal.sig := ⟨Cert.KernelIdeal.main_v51, Cert.ReferenceIdeal.main_v53, rfl⟩
noncomputable abbrev q_v52 : Pair Cert.KernelIdeal.sig Cert.ReferenceIdeal.sig := ⟨Cert.KernelIdeal.main_v52, Cert.ReferenceIdeal.main_v54, rfl⟩
noncomputable abbrev q_c_12 : Pair Cert.KernelIdeal.sig Cert.ReferenceIdeal.sig := ⟨Cert.KernelIdeal.main_c_12, Cert.ReferenceIdeal.main_c_12, rfl⟩
noncomputable abbrev q_v53 : Pair Cert.KernelIdeal.sig Cert.ReferenceIdeal.sig := ⟨Cert.KernelIdeal.main_v53, Cert.ReferenceIdeal.main_v55, rfl⟩
noncomputable abbrev q_v54 : Pair Cert.KernelIdeal.sig Cert.ReferenceIdeal.sig := ⟨Cert.KernelIdeal.main_v54, Cert.ReferenceIdeal.main_v56, rfl⟩
noncomputable abbrev q_c_13 : Pair Cert.KernelIdeal.sig Cert.ReferenceIdeal.sig := ⟨Cert.KernelIdeal.main_c_13, Cert.ReferenceIdeal.main_c_13, rfl⟩
noncomputable abbrev q_v55 : Pair Cert.KernelIdeal.sig Cert.ReferenceIdeal.sig := ⟨Cert.KernelIdeal.main_v55, Cert.ReferenceIdeal.main_v57, rfl⟩
noncomputable abbrev q_v56 : Pair Cert.KernelIdeal.sig Cert.ReferenceIdeal.sig := ⟨Cert.KernelIdeal.main_v56, Cert.ReferenceIdeal.main_v58, rfl⟩
noncomputable abbrev q_v57 : Pair Cert.KernelIdeal.sig Cert.ReferenceIdeal.sig := ⟨Cert.KernelIdeal.main_v57, Cert.ReferenceIdeal.main_v59, rfl⟩
noncomputable abbrev q_c_14 : Pair Cert.KernelIdeal.sig Cert.ReferenceIdeal.sig := ⟨Cert.KernelIdeal.main_c_14, Cert.ReferenceIdeal.main_c_14, rfl⟩
noncomputable abbrev q_v58 : Pair Cert.KernelIdeal.sig Cert.ReferenceIdeal.sig := ⟨Cert.KernelIdeal.main_v58, Cert.ReferenceIdeal.main_v60, rfl⟩
noncomputable abbrev q_v59 : Pair Cert.KernelIdeal.sig Cert.ReferenceIdeal.sig := ⟨Cert.KernelIdeal.main_v59, Cert.ReferenceIdeal.main_v61, rfl⟩
noncomputable abbrev q_c_15 : Pair Cert.KernelIdeal.sig Cert.ReferenceIdeal.sig := ⟨Cert.KernelIdeal.main_c_15, Cert.ReferenceIdeal.main_c_15, rfl⟩
noncomputable abbrev q_v60 : Pair Cert.KernelIdeal.sig Cert.ReferenceIdeal.sig := ⟨Cert.KernelIdeal.main_v60, Cert.ReferenceIdeal.main_v62, rfl⟩
noncomputable abbrev q_v61 : Pair Cert.KernelIdeal.sig Cert.ReferenceIdeal.sig := ⟨Cert.KernelIdeal.main_v61, Cert.ReferenceIdeal.main_v63, rfl⟩
noncomputable abbrev q_v62 : Pair Cert.KernelIdeal.sig Cert.ReferenceIdeal.sig := ⟨Cert.KernelIdeal.main_v62, Cert.ReferenceIdeal.main_v64, rfl⟩
noncomputable abbrev q_v63 : Pair Cert.KernelIdeal.sig Cert.ReferenceIdeal.sig := ⟨Cert.KernelIdeal.main_v63, Cert.ReferenceIdeal.main_v65, rfl⟩
noncomputable abbrev q_v64 : Pair Cert.KernelIdeal.sig Cert.ReferenceIdeal.sig := ⟨Cert.KernelIdeal.main_v64, Cert.ReferenceIdeal.main_v66, rfl⟩
noncomputable abbrev q_v65 : Pair Cert.KernelIdeal.sig Cert.ReferenceIdeal.sig := ⟨Cert.KernelIdeal.main_v65, Cert.ReferenceIdeal.main_v67, rfl⟩
noncomputable abbrev q_v66 : Pair Cert.KernelIdeal.sig Cert.ReferenceIdeal.sig := ⟨Cert.KernelIdeal.main_v66, Cert.ReferenceIdeal.main_v68, rfl⟩
noncomputable abbrev q_v67 : Pair Cert.KernelIdeal.sig Cert.ReferenceIdeal.sig := ⟨Cert.KernelIdeal.main_v67, Cert.ReferenceIdeal.main_v69, rfl⟩
noncomputable abbrev q_c_16 : Pair Cert.KernelIdeal.sig Cert.ReferenceIdeal.sig := ⟨Cert.KernelIdeal.main_c_16, Cert.ReferenceIdeal.main_c_16, rfl⟩
noncomputable abbrev q_v68 : Pair Cert.KernelIdeal.sig Cert.ReferenceIdeal.sig := ⟨Cert.KernelIdeal.main_v68, Cert.ReferenceIdeal.main_v70, rfl⟩
noncomputable abbrev q_v69 : Pair Cert.KernelIdeal.sig Cert.ReferenceIdeal.sig := ⟨Cert.KernelIdeal.main_v69, Cert.ReferenceIdeal.main_v71, rfl⟩
noncomputable abbrev q_c_17 : Pair Cert.KernelIdeal.sig Cert.ReferenceIdeal.sig := ⟨Cert.KernelIdeal.main_c_17, Cert.ReferenceIdeal.main_c_17, rfl⟩
noncomputable abbrev q_v70 : Pair Cert.KernelIdeal.sig Cert.ReferenceIdeal.sig := ⟨Cert.KernelIdeal.main_v70, Cert.ReferenceIdeal.main_v72, rfl⟩
noncomputable abbrev q_v71 : Pair Cert.KernelIdeal.sig Cert.ReferenceIdeal.sig := ⟨Cert.KernelIdeal.main_v71, Cert.ReferenceIdeal.main_v73, rfl⟩
noncomputable abbrev q_v72 : Pair Cert.KernelIdeal.sig Cert.ReferenceIdeal.sig := ⟨Cert.KernelIdeal.main_v72, Cert.ReferenceIdeal.main_v74, rfl⟩
noncomputable abbrev q_c_18 : Pair Cert.KernelIdeal.sig Cert.ReferenceIdeal.sig := ⟨Cert.KernelIdeal.main_c_18, Cert.ReferenceIdeal.main_c_18, rfl⟩
noncomputable abbrev q_v73 : Pair Cert.KernelIdeal.sig Cert.ReferenceIdeal.sig := ⟨Cert.KernelIdeal.main_v73, Cert.ReferenceIdeal.main_v75, rfl⟩
noncomputable abbrev q_v74 : Pair Cert.KernelIdeal.sig Cert.ReferenceIdeal.sig := ⟨Cert.KernelIdeal.main_v74, Cert.ReferenceIdeal.main_v76, rfl⟩
noncomputable abbrev q_c_19 : Pair Cert.KernelIdeal.sig Cert.ReferenceIdeal.sig := ⟨Cert.KernelIdeal.main_c_19, Cert.ReferenceIdeal.main_c_19, rfl⟩
noncomputable abbrev q_v75 : Pair Cert.KernelIdeal.sig Cert.ReferenceIdeal.sig := ⟨Cert.KernelIdeal.main_v75, Cert.ReferenceIdeal.main_v77, rfl⟩
noncomputable abbrev q_v76 : Pair Cert.KernelIdeal.sig Cert.ReferenceIdeal.sig := ⟨Cert.KernelIdeal.main_v76, Cert.ReferenceIdeal.main_v78, rfl⟩
noncomputable abbrev q_v77 : Pair Cert.KernelIdeal.sig Cert.ReferenceIdeal.sig := ⟨Cert.KernelIdeal.main_v77, Cert.ReferenceIdeal.main_v79, rfl⟩
noncomputable abbrev q_c_20 : Pair Cert.KernelIdeal.sig Cert.ReferenceIdeal.sig := ⟨Cert.KernelIdeal.main_c_20, Cert.ReferenceIdeal.main_c_20, rfl⟩
noncomputable abbrev q_v78 : Pair Cert.KernelIdeal.sig Cert.ReferenceIdeal.sig := ⟨Cert.KernelIdeal.main_v78, Cert.ReferenceIdeal.main_v80, rfl⟩
noncomputable abbrev q_v79 : Pair Cert.KernelIdeal.sig Cert.ReferenceIdeal.sig := ⟨Cert.KernelIdeal.main_v79, Cert.ReferenceIdeal.main_v81, rfl⟩
noncomputable abbrev q_c_21 : Pair Cert.KernelIdeal.sig Cert.ReferenceIdeal.sig := ⟨Cert.KernelIdeal.main_c_21, Cert.ReferenceIdeal.main_c_21, rfl⟩
noncomputable abbrev q_v80 : Pair Cert.KernelIdeal.sig Cert.ReferenceIdeal.sig := ⟨Cert.KernelIdeal.main_v80, Cert.ReferenceIdeal.main_v82, rfl⟩
noncomputable abbrev q_v81 : Pair Cert.KernelIdeal.sig Cert.ReferenceIdeal.sig := ⟨Cert.KernelIdeal.main_v81, Cert.ReferenceIdeal.main_v83, rfl⟩
noncomputable abbrev q_v82 : Pair Cert.KernelIdeal.sig Cert.ReferenceIdeal.sig := ⟨Cert.KernelIdeal.main_v82, Cert.ReferenceIdeal.main_v84, rfl⟩
noncomputable abbrev q_v83 : Pair Cert.KernelIdeal.sig Cert.ReferenceIdeal.sig := ⟨Cert.KernelIdeal.main_v83, Cert.ReferenceIdeal.main_v85, rfl⟩
noncomputable abbrev q_v84 : Pair Cert.KernelIdeal.sig Cert.ReferenceIdeal.sig := ⟨Cert.KernelIdeal.main_v84, Cert.ReferenceIdeal.main_v86, rfl⟩
noncomputable abbrev q_v85 : Pair Cert.KernelIdeal.sig Cert.ReferenceIdeal.sig := ⟨Cert.KernelIdeal.main_v85, Cert.ReferenceIdeal.main_v87, rfl⟩
noncomputable abbrev q_v86 : Pair Cert.KernelIdeal.sig Cert.ReferenceIdeal.sig := ⟨Cert.KernelIdeal.main_v86, Cert.ReferenceIdeal.main_v88, rfl⟩
noncomputable abbrev q_v87 : Pair Cert.KernelIdeal.sig Cert.ReferenceIdeal.sig := ⟨Cert.KernelIdeal.main_v87, Cert.ReferenceIdeal.main_v89, rfl⟩
noncomputable abbrev q_v88 : Pair Cert.KernelIdeal.sig Cert.ReferenceIdeal.sig := ⟨Cert.KernelIdeal.main_v88, Cert.ReferenceIdeal.main_v90, rfl⟩
noncomputable abbrev q_cst : Pair Cert.KernelIdeal.sig Cert.ReferenceIdeal.sig := ⟨Cert.KernelIdeal.main_cst, Cert.ReferenceIdeal.main_cst, rfl⟩
noncomputable abbrev q_v89 : Pair Cert.KernelIdeal.sig Cert.ReferenceIdeal.sig := ⟨Cert.KernelIdeal.main_v89, Cert.ReferenceIdeal.main_v91, rfl⟩
noncomputable abbrev q_v90 : Pair Cert.KernelIdeal.sig Cert.ReferenceIdeal.sig := ⟨Cert.KernelIdeal.main_v90, Cert.ReferenceIdeal.main_v92, rfl⟩
noncomputable abbrev q_c_22 : Pair Cert.KernelIdeal.sig Cert.ReferenceIdeal.sig := ⟨Cert.KernelIdeal.main_c_22, Cert.ReferenceIdeal.main_c_22, rfl⟩
noncomputable abbrev q_v94 : Pair Cert.KernelIdeal.sig Cert.ReferenceIdeal.sig := ⟨Cert.KernelIdeal.main_v94, Cert.ReferenceIdeal.main_v98, rfl⟩
noncomputable abbrev q_c_23 : Pair Cert.KernelIdeal.sig Cert.ReferenceIdeal.sig := ⟨Cert.KernelIdeal.main_c_23, Cert.ReferenceIdeal.main_c_23, rfl⟩
noncomputable abbrev q_v95 : Pair Cert.KernelIdeal.sig Cert.ReferenceIdeal.sig := ⟨Cert.KernelIdeal.main_v95, Cert.ReferenceIdeal.main_v99, rfl⟩
noncomputable abbrev q_v96 : Pair Cert.KernelIdeal.sig Cert.ReferenceIdeal.sig := ⟨Cert.KernelIdeal.main_v96, Cert.ReferenceIdeal.main_v100, rfl⟩
noncomputable abbrev q_v97 : Pair Cert.KernelIdeal.sig Cert.ReferenceIdeal.sig := ⟨Cert.KernelIdeal.main_v97, Cert.ReferenceIdeal.main_v101, rfl⟩
noncomputable abbrev q_c_24 : Pair Cert.KernelIdeal.sig Cert.ReferenceIdeal.sig := ⟨Cert.KernelIdeal.main_c_24, Cert.ReferenceIdeal.main_c_24, rfl⟩
noncomputable abbrev q_v98 : Pair Cert.KernelIdeal.sig Cert.ReferenceIdeal.sig := ⟨Cert.KernelIdeal.main_v98, Cert.ReferenceIdeal.main_v102, rfl⟩
noncomputable abbrev q_call1_call0_c : Pair Cert.KernelIdeal.sig Cert.ReferenceIdeal.sig := ⟨Cert.KernelIdeal.main_call1_call0_c, Cert.ReferenceIdeal.main_call1_call0_c, rfl⟩
noncomputable abbrev q_call1_call0_v0 : Pair Cert.KernelIdeal.sig Cert.ReferenceIdeal.sig := ⟨Cert.KernelIdeal.main_call1_call0_v0, Cert.ReferenceIdeal.main_call1_call0_v0, rfl⟩
noncomputable abbrev q_v99 : Pair Cert.KernelIdeal.sig Cert.ReferenceIdeal.sig := ⟨Cert.KernelIdeal.main_v99, Cert.ReferenceIdeal.main_v103, rfl⟩
noncomputable abbrev q_v100 : Pair Cert.KernelIdeal.sig Cert.ReferenceIdeal.sig := ⟨Cert.KernelIdeal.main_v100, Cert.ReferenceIdeal.main_v104, rfl⟩
noncomputable abbrev q_v101 : Pair Cert.KernelIdeal.sig Cert.ReferenceIdeal.sig := ⟨Cert.KernelIdeal.main_v101, Cert.ReferenceIdeal.main_v105, rfl⟩
noncomputable abbrev q_v102 : Pair Cert.KernelIdeal.sig Cert.ReferenceIdeal.sig := ⟨Cert.KernelIdeal.main_v102, Cert.ReferenceIdeal.main_v106, rfl⟩
noncomputable abbrev q_c_25 : Pair Cert.KernelIdeal.sig Cert.ReferenceIdeal.sig := ⟨Cert.KernelIdeal.main_c_25, Cert.ReferenceIdeal.main_c_25, rfl⟩
noncomputable abbrev q_v103 : Pair Cert.KernelIdeal.sig Cert.ReferenceIdeal.sig := ⟨Cert.KernelIdeal.main_v103, Cert.ReferenceIdeal.main_v107, rfl⟩
noncomputable abbrev q_v104 : Pair Cert.KernelIdeal.sig Cert.ReferenceIdeal.sig := ⟨Cert.KernelIdeal.main_v104, Cert.ReferenceIdeal.main_v108, rfl⟩
noncomputable abbrev q_c_26 : Pair Cert.KernelIdeal.sig Cert.ReferenceIdeal.sig := ⟨Cert.KernelIdeal.main_c_26, Cert.ReferenceIdeal.main_c_26, rfl⟩
noncomputable abbrev q_v105 : Pair Cert.KernelIdeal.sig Cert.ReferenceIdeal.sig := ⟨Cert.KernelIdeal.main_v105, Cert.ReferenceIdeal.main_v109, rfl⟩
noncomputable abbrev q_v106 : Pair Cert.KernelIdeal.sig Cert.ReferenceIdeal.sig := ⟨Cert.KernelIdeal.main_v106, Cert.ReferenceIdeal.main_v110, rfl⟩
noncomputable abbrev q_v107 : Pair Cert.KernelIdeal.sig Cert.ReferenceIdeal.sig := ⟨Cert.KernelIdeal.main_v107, Cert.ReferenceIdeal.main_v111, rfl⟩
noncomputable abbrev q_v108 : Pair Cert.KernelIdeal.sig Cert.ReferenceIdeal.sig := ⟨Cert.KernelIdeal.main_v108, Cert.ReferenceIdeal.main_v112, rfl⟩
noncomputable abbrev q_v109 : Pair Cert.KernelIdeal.sig Cert.ReferenceIdeal.sig := ⟨Cert.KernelIdeal.main_v109, Cert.ReferenceIdeal.main_v113, rfl⟩
noncomputable abbrev q_v110 : Pair Cert.KernelIdeal.sig Cert.ReferenceIdeal.sig := ⟨Cert.KernelIdeal.main_v110, Cert.ReferenceIdeal.main_v114, rfl⟩
noncomputable abbrev q_v111 : Pair Cert.KernelIdeal.sig Cert.ReferenceIdeal.sig := ⟨Cert.KernelIdeal.main_v111, Cert.ReferenceIdeal.main_v115, rfl⟩
noncomputable abbrev q_c_27 : Pair Cert.KernelIdeal.sig Cert.ReferenceIdeal.sig := ⟨Cert.KernelIdeal.main_c_27, Cert.ReferenceIdeal.main_c_27, rfl⟩
noncomputable abbrev q_v112 : Pair Cert.KernelIdeal.sig Cert.ReferenceIdeal.sig := ⟨Cert.KernelIdeal.main_v112, Cert.ReferenceIdeal.main_v116, rfl⟩
noncomputable abbrev q_v113 : Pair Cert.KernelIdeal.sig Cert.ReferenceIdeal.sig := ⟨Cert.KernelIdeal.main_v113, Cert.ReferenceIdeal.main_v117, rfl⟩
noncomputable abbrev q_c_28 : Pair Cert.KernelIdeal.sig Cert.ReferenceIdeal.sig := ⟨Cert.KernelIdeal.main_c_28, Cert.ReferenceIdeal.main_c_28, rfl⟩
noncomputable abbrev q_v114 : Pair Cert.KernelIdeal.sig Cert.ReferenceIdeal.sig := ⟨Cert.KernelIdeal.main_v114, Cert.ReferenceIdeal.main_v118, rfl⟩
noncomputable abbrev q_v115 : Pair Cert.KernelIdeal.sig Cert.ReferenceIdeal.sig := ⟨Cert.KernelIdeal.main_v115, Cert.ReferenceIdeal.main_v119, rfl⟩
noncomputable abbrev q_v116 : Pair Cert.KernelIdeal.sig Cert.ReferenceIdeal.sig := ⟨Cert.KernelIdeal.main_v116, Cert.ReferenceIdeal.main_v120, rfl⟩
noncomputable abbrev q_v117 : Pair Cert.KernelIdeal.sig Cert.ReferenceIdeal.sig := ⟨Cert.KernelIdeal.main_v117, Cert.ReferenceIdeal.main_v121, rfl⟩
noncomputable abbrev q_v118 : Pair Cert.KernelIdeal.sig Cert.ReferenceIdeal.sig := ⟨Cert.KernelIdeal.main_v118, Cert.ReferenceIdeal.main_v122, rfl⟩
noncomputable abbrev q_v119 : Pair Cert.KernelIdeal.sig Cert.ReferenceIdeal.sig := ⟨Cert.KernelIdeal.main_v119, Cert.ReferenceIdeal.main_v123, rfl⟩
noncomputable abbrev q_v120 : Pair Cert.KernelIdeal.sig Cert.ReferenceIdeal.sig := ⟨Cert.KernelIdeal.main_v120, Cert.ReferenceIdeal.main_v124, rfl⟩
noncomputable abbrev q_v121 : Pair Cert.KernelIdeal.sig Cert.ReferenceIdeal.sig := ⟨Cert.KernelIdeal.main_v121, Cert.ReferenceIdeal.main_v125, rfl⟩
noncomputable abbrev q_v122 : Pair Cert.KernelIdeal.sig Cert.ReferenceIdeal.sig := ⟨Cert.KernelIdeal.main_v122, Cert.ReferenceIdeal.main_v126, rfl⟩
noncomputable abbrev q_v123 : Pair Cert.KernelIdeal.sig Cert.ReferenceIdeal.sig := ⟨Cert.KernelIdeal.main_v123, Cert.ReferenceIdeal.main_v127, rfl⟩
noncomputable abbrev q_c_29 : Pair Cert.KernelIdeal.sig Cert.ReferenceIdeal.sig := ⟨Cert.KernelIdeal.main_c_29, Cert.ReferenceIdeal.main_c_29, rfl⟩
noncomputable abbrev q_v124 : Pair Cert.KernelIdeal.sig Cert.ReferenceIdeal.sig := ⟨Cert.KernelIdeal.main_v124, Cert.ReferenceIdeal.main_v128, rfl⟩
noncomputable abbrev q_v125 : Pair Cert.KernelIdeal.sig Cert.ReferenceIdeal.sig := ⟨Cert.KernelIdeal.main_v125, Cert.ReferenceIdeal.main_v129, rfl⟩
noncomputable abbrev q_c_30 : Pair Cert.KernelIdeal.sig Cert.ReferenceIdeal.sig := ⟨Cert.KernelIdeal.main_c_30, Cert.ReferenceIdeal.main_c_30, rfl⟩
noncomputable abbrev q_v126 : Pair Cert.KernelIdeal.sig Cert.ReferenceIdeal.sig := ⟨Cert.KernelIdeal.main_v126, Cert.ReferenceIdeal.main_v130, rfl⟩
noncomputable abbrev q_v127 : Pair Cert.KernelIdeal.sig Cert.ReferenceIdeal.sig := ⟨Cert.KernelIdeal.main_v127, Cert.ReferenceIdeal.main_v131, rfl⟩
noncomputable abbrev q_v128 : Pair Cert.KernelIdeal.sig Cert.ReferenceIdeal.sig := ⟨Cert.KernelIdeal.main_v128, Cert.ReferenceIdeal.main_v132, rfl⟩
noncomputable abbrev q_v129 : Pair Cert.KernelIdeal.sig Cert.ReferenceIdeal.sig := ⟨Cert.KernelIdeal.main_v129, Cert.ReferenceIdeal.main_v133, rfl⟩
noncomputable abbrev q_v130 : Pair Cert.KernelIdeal.sig Cert.ReferenceIdeal.sig := ⟨Cert.KernelIdeal.main_v130, Cert.ReferenceIdeal.main_v134, rfl⟩
noncomputable abbrev q_c_31 : Pair Cert.KernelIdeal.sig Cert.ReferenceIdeal.sig := ⟨Cert.KernelIdeal.main_c_31, Cert.ReferenceIdeal.main_c_31, rfl⟩
noncomputable abbrev q_v131 : Pair Cert.KernelIdeal.sig Cert.ReferenceIdeal.sig := ⟨Cert.KernelIdeal.main_v131, Cert.ReferenceIdeal.main_v135, rfl⟩
noncomputable abbrev q_v132 : Pair Cert.KernelIdeal.sig Cert.ReferenceIdeal.sig := ⟨Cert.KernelIdeal.main_v132, Cert.ReferenceIdeal.main_v136, rfl⟩
noncomputable abbrev q_c_32 : Pair Cert.KernelIdeal.sig Cert.ReferenceIdeal.sig := ⟨Cert.KernelIdeal.main_c_32, Cert.ReferenceIdeal.main_c_32, rfl⟩
noncomputable abbrev q_v133 : Pair Cert.KernelIdeal.sig Cert.ReferenceIdeal.sig := ⟨Cert.KernelIdeal.main_v133, Cert.ReferenceIdeal.main_v137, rfl⟩
noncomputable abbrev q_v134 : Pair Cert.KernelIdeal.sig Cert.ReferenceIdeal.sig := ⟨Cert.KernelIdeal.main_v134, Cert.ReferenceIdeal.main_v138, rfl⟩
noncomputable abbrev q_v135 : Pair Cert.KernelIdeal.sig Cert.ReferenceIdeal.sig := ⟨Cert.KernelIdeal.main_v135, Cert.ReferenceIdeal.main_v139, rfl⟩
noncomputable abbrev q_v136 : Pair Cert.KernelIdeal.sig Cert.ReferenceIdeal.sig := ⟨Cert.KernelIdeal.main_v136, Cert.ReferenceIdeal.main_v140, rfl⟩
noncomputable abbrev q_v137 : Pair Cert.KernelIdeal.sig Cert.ReferenceIdeal.sig := ⟨Cert.KernelIdeal.main_v137, Cert.ReferenceIdeal.main_v141, rfl⟩
noncomputable abbrev q_v138 : Pair Cert.KernelIdeal.sig Cert.ReferenceIdeal.sig := ⟨Cert.KernelIdeal.main_v138, Cert.ReferenceIdeal.main_v142, rfl⟩
noncomputable abbrev q_c_33 : Pair Cert.KernelIdeal.sig Cert.ReferenceIdeal.sig := ⟨Cert.KernelIdeal.main_c_33, Cert.ReferenceIdeal.main_c_33, rfl⟩
noncomputable abbrev q_v139 : Pair Cert.KernelIdeal.sig Cert.ReferenceIdeal.sig := ⟨Cert.KernelIdeal.main_v139, Cert.ReferenceIdeal.main_v143, rfl⟩
noncomputable abbrev q_v140 : Pair Cert.KernelIdeal.sig Cert.ReferenceIdeal.sig := ⟨Cert.KernelIdeal.main_v140, Cert.ReferenceIdeal.main_v144, rfl⟩
noncomputable abbrev q_c_34 : Pair Cert.KernelIdeal.sig Cert.ReferenceIdeal.sig := ⟨Cert.KernelIdeal.main_c_34, Cert.ReferenceIdeal.main_c_34, rfl⟩
noncomputable abbrev q_v141 : Pair Cert.KernelIdeal.sig Cert.ReferenceIdeal.sig := ⟨Cert.KernelIdeal.main_v141, Cert.ReferenceIdeal.main_v145, rfl⟩
noncomputable abbrev q_v142 : Pair Cert.KernelIdeal.sig Cert.ReferenceIdeal.sig := ⟨Cert.KernelIdeal.main_v142, Cert.ReferenceIdeal.main_v146, rfl⟩
noncomputable abbrev q_v143 : Pair Cert.KernelIdeal.sig Cert.ReferenceIdeal.sig := ⟨Cert.KernelIdeal.main_v143, Cert.ReferenceIdeal.main_v147, rfl⟩
noncomputable abbrev q_c_35 : Pair Cert.KernelIdeal.sig Cert.ReferenceIdeal.sig := ⟨Cert.KernelIdeal.main_c_35, Cert.ReferenceIdeal.main_c_35, rfl⟩
noncomputable abbrev q_v144 : Pair Cert.KernelIdeal.sig Cert.ReferenceIdeal.sig := ⟨Cert.KernelIdeal.main_v144, Cert.ReferenceIdeal.main_v148, rfl⟩
noncomputable abbrev q_v145 : Pair Cert.KernelIdeal.sig Cert.ReferenceIdeal.sig := ⟨Cert.KernelIdeal.main_v145, Cert.ReferenceIdeal.main_v149, rfl⟩
noncomputable abbrev q_c_36 : Pair Cert.KernelIdeal.sig Cert.ReferenceIdeal.sig := ⟨Cert.KernelIdeal.main_c_36, Cert.ReferenceIdeal.main_c_36, rfl⟩
noncomputable abbrev q_v146 : Pair Cert.KernelIdeal.sig Cert.ReferenceIdeal.sig := ⟨Cert.KernelIdeal.main_v146, Cert.ReferenceIdeal.main_v150, rfl⟩
noncomputable abbrev q_v147 : Pair Cert.KernelIdeal.sig Cert.ReferenceIdeal.sig := ⟨Cert.KernelIdeal.main_v147, Cert.ReferenceIdeal.main_v151, rfl⟩
noncomputable abbrev q_v148 : Pair Cert.KernelIdeal.sig Cert.ReferenceIdeal.sig := ⟨Cert.KernelIdeal.main_v148, Cert.ReferenceIdeal.main_v152, rfl⟩
noncomputable abbrev q_c_37 : Pair Cert.KernelIdeal.sig Cert.ReferenceIdeal.sig := ⟨Cert.KernelIdeal.main_c_37, Cert.ReferenceIdeal.main_c_37, rfl⟩
noncomputable abbrev q_v149 : Pair Cert.KernelIdeal.sig Cert.ReferenceIdeal.sig := ⟨Cert.KernelIdeal.main_v149, Cert.ReferenceIdeal.main_v153, rfl⟩
noncomputable abbrev q_v150 : Pair Cert.KernelIdeal.sig Cert.ReferenceIdeal.sig := ⟨Cert.KernelIdeal.main_v150, Cert.ReferenceIdeal.main_v154, rfl⟩
noncomputable abbrev q_c_38 : Pair Cert.KernelIdeal.sig Cert.ReferenceIdeal.sig := ⟨Cert.KernelIdeal.main_c_38, Cert.ReferenceIdeal.main_c_38, rfl⟩
noncomputable abbrev q_v151 : Pair Cert.KernelIdeal.sig Cert.ReferenceIdeal.sig := ⟨Cert.KernelIdeal.main_v151, Cert.ReferenceIdeal.main_v155, rfl⟩
noncomputable abbrev q_v152 : Pair Cert.KernelIdeal.sig Cert.ReferenceIdeal.sig := ⟨Cert.KernelIdeal.main_v152, Cert.ReferenceIdeal.main_v156, rfl⟩
noncomputable abbrev q_v153 : Pair Cert.KernelIdeal.sig Cert.ReferenceIdeal.sig := ⟨Cert.KernelIdeal.main_v153, Cert.ReferenceIdeal.main_v157, rfl⟩
noncomputable abbrev q_v154 : Pair Cert.KernelIdeal.sig Cert.ReferenceIdeal.sig := ⟨Cert.KernelIdeal.main_v154, Cert.ReferenceIdeal.main_v158, rfl⟩
noncomputable abbrev q_v155 : Pair Cert.KernelIdeal.sig Cert.ReferenceIdeal.sig := ⟨Cert.KernelIdeal.main_v155, Cert.ReferenceIdeal.main_v159, rfl⟩
noncomputable abbrev q_v156 : Pair Cert.KernelIdeal.sig Cert.ReferenceIdeal.sig := ⟨Cert.KernelIdeal.main_v156, Cert.ReferenceIdeal.main_v160, rfl⟩
noncomputable abbrev q_v157 : Pair Cert.KernelIdeal.sig Cert.ReferenceIdeal.sig := ⟨Cert.KernelIdeal.main_v157, Cert.ReferenceIdeal.main_v161, rfl⟩
noncomputable abbrev q_v158 : Pair Cert.KernelIdeal.sig Cert.ReferenceIdeal.sig := ⟨Cert.KernelIdeal.main_v158, Cert.ReferenceIdeal.main_v162, rfl⟩
noncomputable abbrev q_v159 : Pair Cert.KernelIdeal.sig Cert.ReferenceIdeal.sig := ⟨Cert.KernelIdeal.main_v159, Cert.ReferenceIdeal.main_v163, rfl⟩
noncomputable abbrev q_v160 : Pair Cert.KernelIdeal.sig Cert.ReferenceIdeal.sig := ⟨Cert.KernelIdeal.main_v160, Cert.ReferenceIdeal.main_v164, rfl⟩
noncomputable abbrev q_v161 : Pair Cert.KernelIdeal.sig Cert.ReferenceIdeal.sig := ⟨Cert.KernelIdeal.main_v161, Cert.ReferenceIdeal.main_v165, rfl⟩
noncomputable abbrev q_v162 : Pair Cert.KernelIdeal.sig Cert.ReferenceIdeal.sig := ⟨Cert.KernelIdeal.main_v162, Cert.ReferenceIdeal.main_v166, rfl⟩
noncomputable abbrev q_v163 : Pair Cert.KernelIdeal.sig Cert.ReferenceIdeal.sig := ⟨Cert.KernelIdeal.main_v163, Cert.ReferenceIdeal.main_v167, rfl⟩
noncomputable abbrev q_v164 : Pair Cert.KernelIdeal.sig Cert.ReferenceIdeal.sig := ⟨Cert.KernelIdeal.main_v164, Cert.ReferenceIdeal.main_v168, rfl⟩
noncomputable abbrev q_c_39 : Pair Cert.KernelIdeal.sig Cert.ReferenceIdeal.sig := ⟨Cert.KernelIdeal.main_c_39, Cert.ReferenceIdeal.main_c_39, rfl⟩
noncomputable abbrev q_v165 : Pair Cert.KernelIdeal.sig Cert.ReferenceIdeal.sig := ⟨Cert.KernelIdeal.main_v165, Cert.ReferenceIdeal.main_v169, rfl⟩
noncomputable abbrev q_v166 : Pair Cert.KernelIdeal.sig Cert.ReferenceIdeal.sig := ⟨Cert.KernelIdeal.main_v166, Cert.ReferenceIdeal.main_v170, rfl⟩
noncomputable abbrev q_c_40 : Pair Cert.KernelIdeal.sig Cert.ReferenceIdeal.sig := ⟨Cert.KernelIdeal.main_c_40, Cert.ReferenceIdeal.main_c_40, rfl⟩
noncomputable abbrev q_v167 : Pair Cert.KernelIdeal.sig Cert.ReferenceIdeal.sig := ⟨Cert.KernelIdeal.main_v167, Cert.ReferenceIdeal.main_v171, rfl⟩
noncomputable abbrev q_v168 : Pair Cert.KernelIdeal.sig Cert.ReferenceIdeal.sig := ⟨Cert.KernelIdeal.main_v168, Cert.ReferenceIdeal.main_v172, rfl⟩
noncomputable abbrev q_c_41 : Pair Cert.KernelIdeal.sig Cert.ReferenceIdeal.sig := ⟨Cert.KernelIdeal.main_c_41, Cert.ReferenceIdeal.main_c_41, rfl⟩
noncomputable abbrev q_v169 : Pair Cert.KernelIdeal.sig Cert.ReferenceIdeal.sig := ⟨Cert.KernelIdeal.main_v169, Cert.ReferenceIdeal.main_v173, rfl⟩
noncomputable abbrev q_v170 : Pair Cert.KernelIdeal.sig Cert.ReferenceIdeal.sig := ⟨Cert.KernelIdeal.main_v170, Cert.ReferenceIdeal.main_v174, rfl⟩
noncomputable abbrev q_c_42 : Pair Cert.KernelIdeal.sig Cert.ReferenceIdeal.sig := ⟨Cert.KernelIdeal.main_c_42, Cert.ReferenceIdeal.main_c_42, rfl⟩
noncomputable abbrev q_v171 : Pair Cert.KernelIdeal.sig Cert.ReferenceIdeal.sig := ⟨Cert.KernelIdeal.main_v171, Cert.ReferenceIdeal.main_v175, rfl⟩
noncomputable abbrev q_v172 : Pair Cert.KernelIdeal.sig Cert.ReferenceIdeal.sig := ⟨Cert.KernelIdeal.main_v172, Cert.ReferenceIdeal.main_v176, rfl⟩
noncomputable abbrev q_v173 : Pair Cert.KernelIdeal.sig Cert.ReferenceIdeal.sig := ⟨Cert.KernelIdeal.main_v173, Cert.ReferenceIdeal.main_v177, rfl⟩
noncomputable abbrev q_v174 : Pair Cert.KernelIdeal.sig Cert.ReferenceIdeal.sig := ⟨Cert.KernelIdeal.main_v174, Cert.ReferenceIdeal.main_v178, rfl⟩
noncomputable abbrev q_v175 : Pair Cert.KernelIdeal.sig Cert.ReferenceIdeal.sig := ⟨Cert.KernelIdeal.main_v175, Cert.ReferenceIdeal.main_v179, rfl⟩
noncomputable abbrev q_c_43 : Pair Cert.KernelIdeal.sig Cert.ReferenceIdeal.sig := ⟨Cert.KernelIdeal.main_c_43, Cert.ReferenceIdeal.main_c_43, rfl⟩
noncomputable abbrev q_v176 : Pair Cert.KernelIdeal.sig Cert.ReferenceIdeal.sig := ⟨Cert.KernelIdeal.main_v176, Cert.ReferenceIdeal.main_v180, rfl⟩
noncomputable abbrev q_c_44 : Pair Cert.KernelIdeal.sig Cert.ReferenceIdeal.sig := ⟨Cert.KernelIdeal.main_c_44, Cert.ReferenceIdeal.main_c_44, rfl⟩
noncomputable abbrev q_v177 : Pair Cert.KernelIdeal.sig Cert.ReferenceIdeal.sig := ⟨Cert.KernelIdeal.main_v177, Cert.ReferenceIdeal.main_v181, rfl⟩
noncomputable abbrev q_v178 : Pair Cert.KernelIdeal.sig Cert.ReferenceIdeal.sig := ⟨Cert.KernelIdeal.main_v178, Cert.ReferenceIdeal.main_v182, rfl⟩
noncomputable abbrev q_v179 : Pair Cert.KernelIdeal.sig Cert.ReferenceIdeal.sig := ⟨Cert.KernelIdeal.main_v179, Cert.ReferenceIdeal.main_v183, rfl⟩
noncomputable abbrev q_c_45 : Pair Cert.KernelIdeal.sig Cert.ReferenceIdeal.sig := ⟨Cert.KernelIdeal.main_c_45, Cert.ReferenceIdeal.main_c_45, rfl⟩
noncomputable abbrev q_v180 : Pair Cert.KernelIdeal.sig Cert.ReferenceIdeal.sig := ⟨Cert.KernelIdeal.main_v180, Cert.ReferenceIdeal.main_v184, rfl⟩
noncomputable abbrev q_call2_call0_c : Pair Cert.KernelIdeal.sig Cert.ReferenceIdeal.sig := ⟨Cert.KernelIdeal.main_call2_call0_c, Cert.ReferenceIdeal.main_call2_call0_c, rfl⟩
noncomputable abbrev q_call2_call0_v0 : Pair Cert.KernelIdeal.sig Cert.ReferenceIdeal.sig := ⟨Cert.KernelIdeal.main_call2_call0_v0, Cert.ReferenceIdeal.main_call2_call0_v0, rfl⟩
noncomputable abbrev q_v181 : Pair Cert.KernelIdeal.sig Cert.ReferenceIdeal.sig := ⟨Cert.KernelIdeal.main_v181, Cert.ReferenceIdeal.main_v185, rfl⟩
noncomputable abbrev q_v182 : Pair Cert.KernelIdeal.sig Cert.ReferenceIdeal.sig := ⟨Cert.KernelIdeal.main_v182, Cert.ReferenceIdeal.main_v186, rfl⟩
noncomputable abbrev q_v183 : Pair Cert.KernelIdeal.sig Cert.ReferenceIdeal.sig := ⟨Cert.KernelIdeal.main_v183, Cert.ReferenceIdeal.main_v187, rfl⟩
noncomputable abbrev q_v184 : Pair Cert.KernelIdeal.sig Cert.ReferenceIdeal.sig := ⟨Cert.KernelIdeal.main_v184, Cert.ReferenceIdeal.main_v188, rfl⟩
noncomputable abbrev q_c_46 : Pair Cert.KernelIdeal.sig Cert.ReferenceIdeal.sig := ⟨Cert.KernelIdeal.main_c_46, Cert.ReferenceIdeal.main_c_46, rfl⟩
noncomputable abbrev q_v185 : Pair Cert.KernelIdeal.sig Cert.ReferenceIdeal.sig := ⟨Cert.KernelIdeal.main_v185, Cert.ReferenceIdeal.main_v189, rfl⟩
noncomputable abbrev q_v186 : Pair Cert.KernelIdeal.sig Cert.ReferenceIdeal.sig := ⟨Cert.KernelIdeal.main_v186, Cert.ReferenceIdeal.main_v190, rfl⟩
noncomputable abbrev q_c_47 : Pair Cert.KernelIdeal.sig Cert.ReferenceIdeal.sig := ⟨Cert.KernelIdeal.main_c_47, Cert.ReferenceIdeal.main_c_47, rfl⟩
noncomputable abbrev q_v187 : Pair Cert.KernelIdeal.sig Cert.ReferenceIdeal.sig := ⟨Cert.KernelIdeal.main_v187, Cert.ReferenceIdeal.main_v191, rfl⟩
noncomputable abbrev q_v188 : Pair Cert.KernelIdeal.sig Cert.ReferenceIdeal.sig := ⟨Cert.KernelIdeal.main_v188, Cert.ReferenceIdeal.main_v192, rfl⟩
noncomputable abbrev q_v189 : Pair Cert.KernelIdeal.sig Cert.ReferenceIdeal.sig := ⟨Cert.KernelIdeal.main_v189, Cert.ReferenceIdeal.main_v193, rfl⟩
noncomputable abbrev q_v190 : Pair Cert.KernelIdeal.sig Cert.ReferenceIdeal.sig := ⟨Cert.KernelIdeal.main_v190, Cert.ReferenceIdeal.main_v194, rfl⟩
noncomputable abbrev q_v191 : Pair Cert.KernelIdeal.sig Cert.ReferenceIdeal.sig := ⟨Cert.KernelIdeal.main_v191, Cert.ReferenceIdeal.main_v195, rfl⟩
noncomputable abbrev q_v192 : Pair Cert.KernelIdeal.sig Cert.ReferenceIdeal.sig := ⟨Cert.KernelIdeal.main_v192, Cert.ReferenceIdeal.main_v196, rfl⟩
noncomputable abbrev q_v193 : Pair Cert.KernelIdeal.sig Cert.ReferenceIdeal.sig := ⟨Cert.KernelIdeal.main_v193, Cert.ReferenceIdeal.main_v197, rfl⟩
noncomputable abbrev q_c_48 : Pair Cert.KernelIdeal.sig Cert.ReferenceIdeal.sig := ⟨Cert.KernelIdeal.main_c_48, Cert.ReferenceIdeal.main_c_48, rfl⟩
noncomputable abbrev q_v194 : Pair Cert.KernelIdeal.sig Cert.ReferenceIdeal.sig := ⟨Cert.KernelIdeal.main_v194, Cert.ReferenceIdeal.main_v198, rfl⟩
noncomputable abbrev q_v195 : Pair Cert.KernelIdeal.sig Cert.ReferenceIdeal.sig := ⟨Cert.KernelIdeal.main_v195, Cert.ReferenceIdeal.main_v199, rfl⟩
noncomputable abbrev q_c_49 : Pair Cert.KernelIdeal.sig Cert.ReferenceIdeal.sig := ⟨Cert.KernelIdeal.main_c_49, Cert.ReferenceIdeal.main_c_49, rfl⟩
noncomputable abbrev q_v196 : Pair Cert.KernelIdeal.sig Cert.ReferenceIdeal.sig := ⟨Cert.KernelIdeal.main_v196, Cert.ReferenceIdeal.main_v200, rfl⟩
noncomputable abbrev q_v197 : Pair Cert.KernelIdeal.sig Cert.ReferenceIdeal.sig := ⟨Cert.KernelIdeal.main_v197, Cert.ReferenceIdeal.main_v201, rfl⟩
noncomputable abbrev q_v198 : Pair Cert.KernelIdeal.sig Cert.ReferenceIdeal.sig := ⟨Cert.KernelIdeal.main_v198, Cert.ReferenceIdeal.main_v202, rfl⟩
noncomputable abbrev q_v199 : Pair Cert.KernelIdeal.sig Cert.ReferenceIdeal.sig := ⟨Cert.KernelIdeal.main_v199, Cert.ReferenceIdeal.main_v203, rfl⟩
noncomputable abbrev q_v200 : Pair Cert.KernelIdeal.sig Cert.ReferenceIdeal.sig := ⟨Cert.KernelIdeal.main_v200, Cert.ReferenceIdeal.main_v204, rfl⟩
noncomputable abbrev q_v201 : Pair Cert.KernelIdeal.sig Cert.ReferenceIdeal.sig := ⟨Cert.KernelIdeal.main_v201, Cert.ReferenceIdeal.main_v205, rfl⟩
noncomputable abbrev q_v202 : Pair Cert.KernelIdeal.sig Cert.ReferenceIdeal.sig := ⟨Cert.KernelIdeal.main_v202, Cert.ReferenceIdeal.main_v206, rfl⟩
noncomputable abbrev q_v203 : Pair Cert.KernelIdeal.sig Cert.ReferenceIdeal.sig := ⟨Cert.KernelIdeal.main_v203, Cert.ReferenceIdeal.main_v207, rfl⟩
noncomputable abbrev q_v204 : Pair Cert.KernelIdeal.sig Cert.ReferenceIdeal.sig := ⟨Cert.KernelIdeal.main_v204, Cert.ReferenceIdeal.main_v208, rfl⟩
noncomputable abbrev q_v205 : Pair Cert.KernelIdeal.sig Cert.ReferenceIdeal.sig := ⟨Cert.KernelIdeal.main_v205, Cert.ReferenceIdeal.main_v209, rfl⟩
noncomputable abbrev q_c_50 : Pair Cert.KernelIdeal.sig Cert.ReferenceIdeal.sig := ⟨Cert.KernelIdeal.main_c_50, Cert.ReferenceIdeal.main_c_50, rfl⟩
noncomputable abbrev q_v206 : Pair Cert.KernelIdeal.sig Cert.ReferenceIdeal.sig := ⟨Cert.KernelIdeal.main_v206, Cert.ReferenceIdeal.main_v210, rfl⟩
noncomputable abbrev q_v207 : Pair Cert.KernelIdeal.sig Cert.ReferenceIdeal.sig := ⟨Cert.KernelIdeal.main_v207, Cert.ReferenceIdeal.main_v211, rfl⟩
noncomputable abbrev q_c_51 : Pair Cert.KernelIdeal.sig Cert.ReferenceIdeal.sig := ⟨Cert.KernelIdeal.main_c_51, Cert.ReferenceIdeal.main_c_51, rfl⟩
noncomputable abbrev q_v208 : Pair Cert.KernelIdeal.sig Cert.ReferenceIdeal.sig := ⟨Cert.KernelIdeal.main_v208, Cert.ReferenceIdeal.main_v212, rfl⟩
noncomputable abbrev q_v209 : Pair Cert.KernelIdeal.sig Cert.ReferenceIdeal.sig := ⟨Cert.KernelIdeal.main_v209, Cert.ReferenceIdeal.main_v213, rfl⟩
noncomputable abbrev q_v210 : Pair Cert.KernelIdeal.sig Cert.ReferenceIdeal.sig := ⟨Cert.KernelIdeal.main_v210, Cert.ReferenceIdeal.main_v214, rfl⟩
noncomputable abbrev q_v211 : Pair Cert.KernelIdeal.sig Cert.ReferenceIdeal.sig := ⟨Cert.KernelIdeal.main_v211, Cert.ReferenceIdeal.main_v215, rfl⟩
noncomputable abbrev q_v212 : Pair Cert.KernelIdeal.sig Cert.ReferenceIdeal.sig := ⟨Cert.KernelIdeal.main_v212, Cert.ReferenceIdeal.main_v216, rfl⟩
noncomputable abbrev q_c_52 : Pair Cert.KernelIdeal.sig Cert.ReferenceIdeal.sig := ⟨Cert.KernelIdeal.main_c_52, Cert.ReferenceIdeal.main_c_52, rfl⟩
noncomputable abbrev q_v213 : Pair Cert.KernelIdeal.sig Cert.ReferenceIdeal.sig := ⟨Cert.KernelIdeal.main_v213, Cert.ReferenceIdeal.main_v217, rfl⟩
noncomputable abbrev q_v214 : Pair Cert.KernelIdeal.sig Cert.ReferenceIdeal.sig := ⟨Cert.KernelIdeal.main_v214, Cert.ReferenceIdeal.main_v218, rfl⟩
noncomputable abbrev q_c_53 : Pair Cert.KernelIdeal.sig Cert.ReferenceIdeal.sig := ⟨Cert.KernelIdeal.main_c_53, Cert.ReferenceIdeal.main_c_53, rfl⟩
noncomputable abbrev q_v215 : Pair Cert.KernelIdeal.sig Cert.ReferenceIdeal.sig := ⟨Cert.KernelIdeal.main_v215, Cert.ReferenceIdeal.main_v219, rfl⟩
noncomputable abbrev q_v216 : Pair Cert.KernelIdeal.sig Cert.ReferenceIdeal.sig := ⟨Cert.KernelIdeal.main_v216, Cert.ReferenceIdeal.main_v220, rfl⟩
noncomputable abbrev q_v217 : Pair Cert.KernelIdeal.sig Cert.ReferenceIdeal.sig := ⟨Cert.KernelIdeal.main_v217, Cert.ReferenceIdeal.main_v221, rfl⟩
noncomputable abbrev q_v218 : Pair Cert.KernelIdeal.sig Cert.ReferenceIdeal.sig := ⟨Cert.KernelIdeal.main_v218, Cert.ReferenceIdeal.main_v222, rfl⟩
noncomputable abbrev q_v219 : Pair Cert.KernelIdeal.sig Cert.ReferenceIdeal.sig := ⟨Cert.KernelIdeal.main_v219, Cert.ReferenceIdeal.main_v223, rfl⟩
noncomputable abbrev q_v220 : Pair Cert.KernelIdeal.sig Cert.ReferenceIdeal.sig := ⟨Cert.KernelIdeal.main_v220, Cert.ReferenceIdeal.main_v224, rfl⟩
noncomputable abbrev q_cst_54 : Pair Cert.KernelIdeal.sig Cert.ReferenceIdeal.sig := ⟨Cert.KernelIdeal.main_cst_54, Cert.ReferenceIdeal.main_cst_54, rfl⟩
noncomputable abbrev q_v221 : Pair Cert.KernelIdeal.sig Cert.ReferenceIdeal.sig := ⟨Cert.KernelIdeal.main_v221, Cert.ReferenceIdeal.main_v225, rfl⟩
noncomputable abbrev q_c_55 : Pair Cert.KernelIdeal.sig Cert.ReferenceIdeal.sig := ⟨Cert.KernelIdeal.main_c_55, Cert.ReferenceIdeal.main_c_55, rfl⟩
noncomputable abbrev q_v222 : Pair Cert.KernelIdeal.sig Cert.ReferenceIdeal.sig := ⟨Cert.KernelIdeal.main_v222, Cert.ReferenceIdeal.main_v226, rfl⟩
noncomputable abbrev q_v223 : Pair Cert.KernelIdeal.sig Cert.ReferenceIdeal.sig := ⟨Cert.KernelIdeal.main_v223, Cert.ReferenceIdeal.main_v227, rfl⟩
noncomputable abbrev q_c_56 : Pair Cert.KernelIdeal.sig Cert.ReferenceIdeal.sig := ⟨Cert.KernelIdeal.main_c_56, Cert.ReferenceIdeal.main_c_56, rfl⟩
noncomputable abbrev q_v224 : Pair Cert.KernelIdeal.sig Cert.ReferenceIdeal.sig := ⟨Cert.KernelIdeal.main_v224, Cert.ReferenceIdeal.main_v228, rfl⟩
noncomputable abbrev q_v225 : Pair Cert.KernelIdeal.sig Cert.ReferenceIdeal.sig := ⟨Cert.KernelIdeal.main_v225, Cert.ReferenceIdeal.main_v229, rfl⟩
noncomputable abbrev q_v226 : Pair Cert.KernelIdeal.sig Cert.ReferenceIdeal.sig := ⟨Cert.KernelIdeal.main_v226, Cert.ReferenceIdeal.main_v230, rfl⟩
noncomputable abbrev q_c_57 : Pair Cert.KernelIdeal.sig Cert.ReferenceIdeal.sig := ⟨Cert.KernelIdeal.main_c_57, Cert.ReferenceIdeal.main_c_57, rfl⟩
noncomputable abbrev q_v227 : Pair Cert.KernelIdeal.sig Cert.ReferenceIdeal.sig := ⟨Cert.KernelIdeal.main_v227, Cert.ReferenceIdeal.main_v231, rfl⟩
noncomputable abbrev q_v228 : Pair Cert.KernelIdeal.sig Cert.ReferenceIdeal.sig := ⟨Cert.KernelIdeal.main_v228, Cert.ReferenceIdeal.main_v232, rfl⟩
noncomputable abbrev q_c_58 : Pair Cert.KernelIdeal.sig Cert.ReferenceIdeal.sig := ⟨Cert.KernelIdeal.main_c_58, Cert.ReferenceIdeal.main_c_58, rfl⟩
noncomputable abbrev q_v229 : Pair Cert.KernelIdeal.sig Cert.ReferenceIdeal.sig := ⟨Cert.KernelIdeal.main_v229, Cert.ReferenceIdeal.main_v233, rfl⟩
noncomputable abbrev q_v230 : Pair Cert.KernelIdeal.sig Cert.ReferenceIdeal.sig := ⟨Cert.KernelIdeal.main_v230, Cert.ReferenceIdeal.main_v234, rfl⟩
noncomputable abbrev q_v231 : Pair Cert.KernelIdeal.sig Cert.ReferenceIdeal.sig := ⟨Cert.KernelIdeal.main_v231, Cert.ReferenceIdeal.main_v235, rfl⟩
noncomputable abbrev q_c_59 : Pair Cert.KernelIdeal.sig Cert.ReferenceIdeal.sig := ⟨Cert.KernelIdeal.main_c_59, Cert.ReferenceIdeal.main_c_59, rfl⟩
noncomputable abbrev q_v232 : Pair Cert.KernelIdeal.sig Cert.ReferenceIdeal.sig := ⟨Cert.KernelIdeal.main_v232, Cert.ReferenceIdeal.main_v236, rfl⟩
noncomputable abbrev q_v233 : Pair Cert.KernelIdeal.sig Cert.ReferenceIdeal.sig := ⟨Cert.KernelIdeal.main_v233, Cert.ReferenceIdeal.main_v237, rfl⟩
noncomputable abbrev q_c_60 : Pair Cert.KernelIdeal.sig Cert.ReferenceIdeal.sig := ⟨Cert.KernelIdeal.main_c_60, Cert.ReferenceIdeal.main_c_60, rfl⟩
noncomputable abbrev q_v234 : Pair Cert.KernelIdeal.sig Cert.ReferenceIdeal.sig := ⟨Cert.KernelIdeal.main_v234, Cert.ReferenceIdeal.main_v238, rfl⟩
noncomputable abbrev q_v235 : Pair Cert.KernelIdeal.sig Cert.ReferenceIdeal.sig := ⟨Cert.KernelIdeal.main_v235, Cert.ReferenceIdeal.main_v239, rfl⟩
noncomputable abbrev q_v236 : Pair Cert.KernelIdeal.sig Cert.ReferenceIdeal.sig := ⟨Cert.KernelIdeal.main_v236, Cert.ReferenceIdeal.main_v240, rfl⟩
noncomputable abbrev q_v237 : Pair Cert.KernelIdeal.sig Cert.ReferenceIdeal.sig := ⟨Cert.KernelIdeal.main_v237, Cert.ReferenceIdeal.main_v241, rfl⟩
noncomputable abbrev q_v238 : Pair Cert.KernelIdeal.sig Cert.ReferenceIdeal.sig := ⟨Cert.KernelIdeal.main_v238, Cert.ReferenceIdeal.main_v242, rfl⟩
noncomputable abbrev q_v239 : Pair Cert.KernelIdeal.sig Cert.ReferenceIdeal.sig := ⟨Cert.KernelIdeal.main_v239, Cert.ReferenceIdeal.main_v243, rfl⟩
noncomputable abbrev q_v240 : Pair Cert.KernelIdeal.sig Cert.ReferenceIdeal.sig := ⟨Cert.KernelIdeal.main_v240, Cert.ReferenceIdeal.main_v244, rfl⟩
noncomputable abbrev q_v241 : Pair Cert.KernelIdeal.sig Cert.ReferenceIdeal.sig := ⟨Cert.KernelIdeal.main_v241, Cert.ReferenceIdeal.main_v245, rfl⟩
noncomputable abbrev q_c_61 : Pair Cert.KernelIdeal.sig Cert.ReferenceIdeal.sig := ⟨Cert.KernelIdeal.main_c_61, Cert.ReferenceIdeal.main_c_61, rfl⟩
noncomputable abbrev q_v242 : Pair Cert.KernelIdeal.sig Cert.ReferenceIdeal.sig := ⟨Cert.KernelIdeal.main_v242, Cert.ReferenceIdeal.main_v246, rfl⟩
noncomputable abbrev q_v243 : Pair Cert.KernelIdeal.sig Cert.ReferenceIdeal.sig := ⟨Cert.KernelIdeal.main_v243, Cert.ReferenceIdeal.main_v247, rfl⟩
noncomputable abbrev q_c_62 : Pair Cert.KernelIdeal.sig Cert.ReferenceIdeal.sig := ⟨Cert.KernelIdeal.main_c_62, Cert.ReferenceIdeal.main_c_62, rfl⟩
noncomputable abbrev q_v244 : Pair Cert.KernelIdeal.sig Cert.ReferenceIdeal.sig := ⟨Cert.KernelIdeal.main_v244, Cert.ReferenceIdeal.main_v248, rfl⟩
noncomputable abbrev q_v245 : Pair Cert.KernelIdeal.sig Cert.ReferenceIdeal.sig := ⟨Cert.KernelIdeal.main_v245, Cert.ReferenceIdeal.main_v249, rfl⟩
noncomputable abbrev q_v246 : Pair Cert.KernelIdeal.sig Cert.ReferenceIdeal.sig := ⟨Cert.KernelIdeal.main_v246, Cert.ReferenceIdeal.main_v250, rfl⟩
noncomputable abbrev q_c_63 : Pair Cert.KernelIdeal.sig Cert.ReferenceIdeal.sig := ⟨Cert.KernelIdeal.main_c_63, Cert.ReferenceIdeal.main_c_63, rfl⟩
noncomputable abbrev q_v247 : Pair Cert.KernelIdeal.sig Cert.ReferenceIdeal.sig := ⟨Cert.KernelIdeal.main_v247, Cert.ReferenceIdeal.main_v251, rfl⟩
noncomputable abbrev q_v248 : Pair Cert.KernelIdeal.sig Cert.ReferenceIdeal.sig := ⟨Cert.KernelIdeal.main_v248, Cert.ReferenceIdeal.main_v252, rfl⟩
noncomputable abbrev q_c_64 : Pair Cert.KernelIdeal.sig Cert.ReferenceIdeal.sig := ⟨Cert.KernelIdeal.main_c_64, Cert.ReferenceIdeal.main_c_64, rfl⟩
noncomputable abbrev q_v249 : Pair Cert.KernelIdeal.sig Cert.ReferenceIdeal.sig := ⟨Cert.KernelIdeal.main_v249, Cert.ReferenceIdeal.main_v253, rfl⟩
noncomputable abbrev q_v250 : Pair Cert.KernelIdeal.sig Cert.ReferenceIdeal.sig := ⟨Cert.KernelIdeal.main_v250, Cert.ReferenceIdeal.main_v254, rfl⟩
noncomputable abbrev q_v251 : Pair Cert.KernelIdeal.sig Cert.ReferenceIdeal.sig := ⟨Cert.KernelIdeal.main_v251, Cert.ReferenceIdeal.main_v255, rfl⟩
noncomputable abbrev q_c_65 : Pair Cert.KernelIdeal.sig Cert.ReferenceIdeal.sig := ⟨Cert.KernelIdeal.main_c_65, Cert.ReferenceIdeal.main_c_65, rfl⟩
noncomputable abbrev q_v252 : Pair Cert.KernelIdeal.sig Cert.ReferenceIdeal.sig := ⟨Cert.KernelIdeal.main_v252, Cert.ReferenceIdeal.main_v256, rfl⟩
noncomputable abbrev q_v253 : Pair Cert.KernelIdeal.sig Cert.ReferenceIdeal.sig := ⟨Cert.KernelIdeal.main_v253, Cert.ReferenceIdeal.main_v257, rfl⟩
noncomputable abbrev q_c_66 : Pair Cert.KernelIdeal.sig Cert.ReferenceIdeal.sig := ⟨Cert.KernelIdeal.main_c_66, Cert.ReferenceIdeal.main_c_66, rfl⟩
noncomputable abbrev q_v254 : Pair Cert.KernelIdeal.sig Cert.ReferenceIdeal.sig := ⟨Cert.KernelIdeal.main_v254, Cert.ReferenceIdeal.main_v258, rfl⟩
noncomputable abbrev q_v255 : Pair Cert.KernelIdeal.sig Cert.ReferenceIdeal.sig := ⟨Cert.KernelIdeal.main_v255, Cert.ReferenceIdeal.main_v259, rfl⟩
noncomputable abbrev q_v256 : Pair Cert.KernelIdeal.sig Cert.ReferenceIdeal.sig := ⟨Cert.KernelIdeal.main_v256, Cert.ReferenceIdeal.main_v260, rfl⟩
noncomputable abbrev q_v257 : Pair Cert.KernelIdeal.sig Cert.ReferenceIdeal.sig := ⟨Cert.KernelIdeal.main_v257, Cert.ReferenceIdeal.main_v261, rfl⟩
noncomputable abbrev q_v258 : Pair Cert.KernelIdeal.sig Cert.ReferenceIdeal.sig := ⟨Cert.KernelIdeal.main_v258, Cert.ReferenceIdeal.main_v262, rfl⟩
noncomputable abbrev q_v259 : Pair Cert.KernelIdeal.sig Cert.ReferenceIdeal.sig := ⟨Cert.KernelIdeal.main_v259, Cert.ReferenceIdeal.main_v263, rfl⟩
noncomputable abbrev q_v260 : Pair Cert.KernelIdeal.sig Cert.ReferenceIdeal.sig := ⟨Cert.KernelIdeal.main_v260, Cert.ReferenceIdeal.main_v264, rfl⟩
noncomputable abbrev q_v261 : Pair Cert.KernelIdeal.sig Cert.ReferenceIdeal.sig := ⟨Cert.KernelIdeal.main_v261, Cert.ReferenceIdeal.main_v265, rfl⟩
noncomputable abbrev q_v262 : Pair Cert.KernelIdeal.sig Cert.ReferenceIdeal.sig := ⟨Cert.KernelIdeal.main_v262, Cert.ReferenceIdeal.main_v266, rfl⟩
noncomputable abbrev q_v263 : Pair Cert.KernelIdeal.sig Cert.ReferenceIdeal.sig := ⟨Cert.KernelIdeal.main_v263, Cert.ReferenceIdeal.main_v267, rfl⟩
noncomputable abbrev q_v264 : Pair Cert.KernelIdeal.sig Cert.ReferenceIdeal.sig := ⟨Cert.KernelIdeal.main_v264, Cert.ReferenceIdeal.main_v268, rfl⟩
noncomputable abbrev q_v265 : Pair Cert.KernelIdeal.sig Cert.ReferenceIdeal.sig := ⟨Cert.KernelIdeal.main_v265, Cert.ReferenceIdeal.main_v269, rfl⟩
noncomputable abbrev q_v266 : Pair Cert.KernelIdeal.sig Cert.ReferenceIdeal.sig := ⟨Cert.KernelIdeal.main_v266, Cert.ReferenceIdeal.main_v270, rfl⟩
noncomputable abbrev q_v267 : Pair Cert.KernelIdeal.sig Cert.ReferenceIdeal.sig := ⟨Cert.KernelIdeal.main_v267, Cert.ReferenceIdeal.main_v271, rfl⟩
noncomputable abbrev q_c_67 : Pair Cert.KernelIdeal.sig Cert.ReferenceIdeal.sig := ⟨Cert.KernelIdeal.main_c_67, Cert.ReferenceIdeal.main_c_67, rfl⟩
noncomputable abbrev q_v268 : Pair Cert.KernelIdeal.sig Cert.ReferenceIdeal.sig := ⟨Cert.KernelIdeal.main_v268, Cert.ReferenceIdeal.main_v272, rfl⟩
noncomputable abbrev q_v269 : Pair Cert.KernelIdeal.sig Cert.ReferenceIdeal.sig := ⟨Cert.KernelIdeal.main_v269, Cert.ReferenceIdeal.main_v273, rfl⟩
noncomputable abbrev q_c_68 : Pair Cert.KernelIdeal.sig Cert.ReferenceIdeal.sig := ⟨Cert.KernelIdeal.main_c_68, Cert.ReferenceIdeal.main_c_68, rfl⟩
noncomputable abbrev q_v270 : Pair Cert.KernelIdeal.sig Cert.ReferenceIdeal.sig := ⟨Cert.KernelIdeal.main_v270, Cert.ReferenceIdeal.main_v274, rfl⟩
noncomputable abbrev q_v271 : Pair Cert.KernelIdeal.sig Cert.ReferenceIdeal.sig := ⟨Cert.KernelIdeal.main_v271, Cert.ReferenceIdeal.main_v275, rfl⟩
noncomputable abbrev q_c_69 : Pair Cert.KernelIdeal.sig Cert.ReferenceIdeal.sig := ⟨Cert.KernelIdeal.main_c_69, Cert.ReferenceIdeal.main_c_69, rfl⟩
noncomputable abbrev q_v272 : Pair Cert.KernelIdeal.sig Cert.ReferenceIdeal.sig := ⟨Cert.KernelIdeal.main_v272, Cert.ReferenceIdeal.main_v276, rfl⟩
noncomputable abbrev q_v273 : Pair Cert.KernelIdeal.sig Cert.ReferenceIdeal.sig := ⟨Cert.KernelIdeal.main_v273, Cert.ReferenceIdeal.main_v277, rfl⟩
noncomputable abbrev q_c_70 : Pair Cert.KernelIdeal.sig Cert.ReferenceIdeal.sig := ⟨Cert.KernelIdeal.main_c_70, Cert.ReferenceIdeal.main_c_70, rfl⟩
noncomputable abbrev q_v274 : Pair Cert.KernelIdeal.sig Cert.ReferenceIdeal.sig := ⟨Cert.KernelIdeal.main_v274, Cert.ReferenceIdeal.main_v278, rfl⟩
noncomputable abbrev q_v275 : Pair Cert.KernelIdeal.sig Cert.ReferenceIdeal.sig := ⟨Cert.KernelIdeal.main_v275, Cert.ReferenceIdeal.main_v279, rfl⟩
noncomputable abbrev q_v276 : Pair Cert.KernelIdeal.sig Cert.ReferenceIdeal.sig := ⟨Cert.KernelIdeal.main_v276, Cert.ReferenceIdeal.main_v280, rfl⟩
noncomputable abbrev q_v277 : Pair Cert.KernelIdeal.sig Cert.ReferenceIdeal.sig := ⟨Cert.KernelIdeal.main_v277, Cert.ReferenceIdeal.main_v281, rfl⟩
noncomputable abbrev q_v278 : Pair Cert.KernelIdeal.sig Cert.ReferenceIdeal.sig := ⟨Cert.KernelIdeal.main_v278, Cert.ReferenceIdeal.main_v282, rfl⟩
noncomputable abbrev q_c_71 : Pair Cert.KernelIdeal.sig Cert.ReferenceIdeal.sig := ⟨Cert.KernelIdeal.main_c_71, Cert.ReferenceIdeal.main_c_71, rfl⟩
noncomputable abbrev q_v279 : Pair Cert.KernelIdeal.sig Cert.ReferenceIdeal.sig := ⟨Cert.KernelIdeal.main_v279, Cert.ReferenceIdeal.main_v283, rfl⟩
noncomputable abbrev q_c_72 : Pair Cert.KernelIdeal.sig Cert.ReferenceIdeal.sig := ⟨Cert.KernelIdeal.main_c_72, Cert.ReferenceIdeal.main_c_72, rfl⟩
noncomputable abbrev q_v280 : Pair Cert.KernelIdeal.sig Cert.ReferenceIdeal.sig := ⟨Cert.KernelIdeal.main_v280, Cert.ReferenceIdeal.main_v284, rfl⟩
noncomputable abbrev q_v281 : Pair Cert.KernelIdeal.sig Cert.ReferenceIdeal.sig := ⟨Cert.KernelIdeal.main_v281, Cert.ReferenceIdeal.main_v285, rfl⟩
noncomputable abbrev q_v282 : Pair Cert.KernelIdeal.sig Cert.ReferenceIdeal.sig := ⟨Cert.KernelIdeal.main_v282, Cert.ReferenceIdeal.main_v286, rfl⟩
noncomputable abbrev q_c_73 : Pair Cert.KernelIdeal.sig Cert.ReferenceIdeal.sig := ⟨Cert.KernelIdeal.main_c_73, Cert.ReferenceIdeal.main_c_73, rfl⟩
noncomputable abbrev q_v283 : Pair Cert.KernelIdeal.sig Cert.ReferenceIdeal.sig := ⟨Cert.KernelIdeal.main_v283, Cert.ReferenceIdeal.main_v287, rfl⟩
noncomputable abbrev q_call3_call0_c : Pair Cert.KernelIdeal.sig Cert.ReferenceIdeal.sig := ⟨Cert.KernelIdeal.main_call3_call0_c, Cert.ReferenceIdeal.main_call3_call0_c, rfl⟩
noncomputable abbrev q_call3_call0_v0 : Pair Cert.KernelIdeal.sig Cert.ReferenceIdeal.sig := ⟨Cert.KernelIdeal.main_call3_call0_v0, Cert.ReferenceIdeal.main_call3_call0_v0, rfl⟩
noncomputable abbrev q_v284 : Pair Cert.KernelIdeal.sig Cert.ReferenceIdeal.sig := ⟨Cert.KernelIdeal.main_v284, Cert.ReferenceIdeal.main_v288, rfl⟩
noncomputable abbrev q_v285 : Pair Cert.KernelIdeal.sig Cert.ReferenceIdeal.sig := ⟨Cert.KernelIdeal.main_v285, Cert.ReferenceIdeal.main_v289, rfl⟩
noncomputable abbrev q_v286 : Pair Cert.KernelIdeal.sig Cert.ReferenceIdeal.sig := ⟨Cert.KernelIdeal.main_v286, Cert.ReferenceIdeal.main_v290, rfl⟩
noncomputable abbrev q_v287 : Pair Cert.KernelIdeal.sig Cert.ReferenceIdeal.sig := ⟨Cert.KernelIdeal.main_v287, Cert.ReferenceIdeal.main_v291, rfl⟩
noncomputable abbrev q_c_74 : Pair Cert.KernelIdeal.sig Cert.ReferenceIdeal.sig := ⟨Cert.KernelIdeal.main_c_74, Cert.ReferenceIdeal.main_c_74, rfl⟩
noncomputable abbrev q_v288 : Pair Cert.KernelIdeal.sig Cert.ReferenceIdeal.sig := ⟨Cert.KernelIdeal.main_v288, Cert.ReferenceIdeal.main_v292, rfl⟩
noncomputable abbrev q_v289 : Pair Cert.KernelIdeal.sig Cert.ReferenceIdeal.sig := ⟨Cert.KernelIdeal.main_v289, Cert.ReferenceIdeal.main_v293, rfl⟩
noncomputable abbrev q_c_75 : Pair Cert.KernelIdeal.sig Cert.ReferenceIdeal.sig := ⟨Cert.KernelIdeal.main_c_75, Cert.ReferenceIdeal.main_c_75, rfl⟩
noncomputable abbrev q_v290 : Pair Cert.KernelIdeal.sig Cert.ReferenceIdeal.sig := ⟨Cert.KernelIdeal.main_v290, Cert.ReferenceIdeal.main_v294, rfl⟩
noncomputable abbrev q_v291 : Pair Cert.KernelIdeal.sig Cert.ReferenceIdeal.sig := ⟨Cert.KernelIdeal.main_v291, Cert.ReferenceIdeal.main_v295, rfl⟩
noncomputable abbrev q_v292 : Pair Cert.KernelIdeal.sig Cert.ReferenceIdeal.sig := ⟨Cert.KernelIdeal.main_v292, Cert.ReferenceIdeal.main_v296, rfl⟩
noncomputable abbrev q_v293 : Pair Cert.KernelIdeal.sig Cert.ReferenceIdeal.sig := ⟨Cert.KernelIdeal.main_v293, Cert.ReferenceIdeal.main_v297, rfl⟩
noncomputable abbrev q_v294 : Pair Cert.KernelIdeal.sig Cert.ReferenceIdeal.sig := ⟨Cert.KernelIdeal.main_v294, Cert.ReferenceIdeal.main_v298, rfl⟩
noncomputable abbrev q_v295 : Pair Cert.KernelIdeal.sig Cert.ReferenceIdeal.sig := ⟨Cert.KernelIdeal.main_v295, Cert.ReferenceIdeal.main_v299, rfl⟩
noncomputable abbrev q_v296 : Pair Cert.KernelIdeal.sig Cert.ReferenceIdeal.sig := ⟨Cert.KernelIdeal.main_v296, Cert.ReferenceIdeal.main_v300, rfl⟩
noncomputable abbrev q_c_76 : Pair Cert.KernelIdeal.sig Cert.ReferenceIdeal.sig := ⟨Cert.KernelIdeal.main_c_76, Cert.ReferenceIdeal.main_c_76, rfl⟩
noncomputable abbrev q_v297 : Pair Cert.KernelIdeal.sig Cert.ReferenceIdeal.sig := ⟨Cert.KernelIdeal.main_v297, Cert.ReferenceIdeal.main_v301, rfl⟩
noncomputable abbrev q_v298 : Pair Cert.KernelIdeal.sig Cert.ReferenceIdeal.sig := ⟨Cert.KernelIdeal.main_v298, Cert.ReferenceIdeal.main_v302, rfl⟩
noncomputable abbrev q_c_77 : Pair Cert.KernelIdeal.sig Cert.ReferenceIdeal.sig := ⟨Cert.KernelIdeal.main_c_77, Cert.ReferenceIdeal.main_c_77, rfl⟩
noncomputable abbrev q_v299 : Pair Cert.KernelIdeal.sig Cert.ReferenceIdeal.sig := ⟨Cert.KernelIdeal.main_v299, Cert.ReferenceIdeal.main_v303, rfl⟩
noncomputable abbrev q_v300 : Pair Cert.KernelIdeal.sig Cert.ReferenceIdeal.sig := ⟨Cert.KernelIdeal.main_v300, Cert.ReferenceIdeal.main_v304, rfl⟩
noncomputable abbrev q_v301 : Pair Cert.KernelIdeal.sig Cert.ReferenceIdeal.sig := ⟨Cert.KernelIdeal.main_v301, Cert.ReferenceIdeal.main_v305, rfl⟩
noncomputable abbrev q_v302 : Pair Cert.KernelIdeal.sig Cert.ReferenceIdeal.sig := ⟨Cert.KernelIdeal.main_v302, Cert.ReferenceIdeal.main_v306, rfl⟩
noncomputable abbrev q_v303 : Pair Cert.KernelIdeal.sig Cert.ReferenceIdeal.sig := ⟨Cert.KernelIdeal.main_v303, Cert.ReferenceIdeal.main_v307, rfl⟩
noncomputable abbrev q_v304 : Pair Cert.KernelIdeal.sig Cert.ReferenceIdeal.sig := ⟨Cert.KernelIdeal.main_v304, Cert.ReferenceIdeal.main_v308, rfl⟩
noncomputable abbrev q_v305 : Pair Cert.KernelIdeal.sig Cert.ReferenceIdeal.sig := ⟨Cert.KernelIdeal.main_v305, Cert.ReferenceIdeal.main_v309, rfl⟩
noncomputable abbrev q_v306 : Pair Cert.KernelIdeal.sig Cert.ReferenceIdeal.sig := ⟨Cert.KernelIdeal.main_v306, Cert.ReferenceIdeal.main_v310, rfl⟩
noncomputable abbrev q_v307 : Pair Cert.KernelIdeal.sig Cert.ReferenceIdeal.sig := ⟨Cert.KernelIdeal.main_v307, Cert.ReferenceIdeal.main_v311, rfl⟩
noncomputable abbrev q_v308 : Pair Cert.KernelIdeal.sig Cert.ReferenceIdeal.sig := ⟨Cert.KernelIdeal.main_v308, Cert.ReferenceIdeal.main_v312, rfl⟩
noncomputable abbrev q_c_78 : Pair Cert.KernelIdeal.sig Cert.ReferenceIdeal.sig := ⟨Cert.KernelIdeal.main_c_78, Cert.ReferenceIdeal.main_c_78, rfl⟩
noncomputable abbrev q_v309 : Pair Cert.KernelIdeal.sig Cert.ReferenceIdeal.sig := ⟨Cert.KernelIdeal.main_v309, Cert.ReferenceIdeal.main_v313, rfl⟩
noncomputable abbrev q_v310 : Pair Cert.KernelIdeal.sig Cert.ReferenceIdeal.sig := ⟨Cert.KernelIdeal.main_v310, Cert.ReferenceIdeal.main_v314, rfl⟩
noncomputable abbrev q_c_79 : Pair Cert.KernelIdeal.sig Cert.ReferenceIdeal.sig := ⟨Cert.KernelIdeal.main_c_79, Cert.ReferenceIdeal.main_c_79, rfl⟩
noncomputable abbrev q_v311 : Pair Cert.KernelIdeal.sig Cert.ReferenceIdeal.sig := ⟨Cert.KernelIdeal.main_v311, Cert.ReferenceIdeal.main_v315, rfl⟩
noncomputable abbrev q_v312 : Pair Cert.KernelIdeal.sig Cert.ReferenceIdeal.sig := ⟨Cert.KernelIdeal.main_v312, Cert.ReferenceIdeal.main_v316, rfl⟩
noncomputable abbrev q_v313 : Pair Cert.KernelIdeal.sig Cert.ReferenceIdeal.sig := ⟨Cert.KernelIdeal.main_v313, Cert.ReferenceIdeal.main_v317, rfl⟩
noncomputable abbrev q_v314 : Pair Cert.KernelIdeal.sig Cert.ReferenceIdeal.sig := ⟨Cert.KernelIdeal.main_v314, Cert.ReferenceIdeal.main_v318, rfl⟩
noncomputable abbrev q_v315 : Pair Cert.KernelIdeal.sig Cert.ReferenceIdeal.sig := ⟨Cert.KernelIdeal.main_v315, Cert.ReferenceIdeal.main_v319, rfl⟩
noncomputable abbrev q_c_80 : Pair Cert.KernelIdeal.sig Cert.ReferenceIdeal.sig := ⟨Cert.KernelIdeal.main_c_80, Cert.ReferenceIdeal.main_c_80, rfl⟩
noncomputable abbrev q_v316 : Pair Cert.KernelIdeal.sig Cert.ReferenceIdeal.sig := ⟨Cert.KernelIdeal.main_v316, Cert.ReferenceIdeal.main_v320, rfl⟩
noncomputable abbrev q_v317 : Pair Cert.KernelIdeal.sig Cert.ReferenceIdeal.sig := ⟨Cert.KernelIdeal.main_v317, Cert.ReferenceIdeal.main_v321, rfl⟩
noncomputable abbrev q_c_81 : Pair Cert.KernelIdeal.sig Cert.ReferenceIdeal.sig := ⟨Cert.KernelIdeal.main_c_81, Cert.ReferenceIdeal.main_c_81, rfl⟩
noncomputable abbrev q_v318 : Pair Cert.KernelIdeal.sig Cert.ReferenceIdeal.sig := ⟨Cert.KernelIdeal.main_v318, Cert.ReferenceIdeal.main_v322, rfl⟩
noncomputable abbrev q_v319 : Pair Cert.KernelIdeal.sig Cert.ReferenceIdeal.sig := ⟨Cert.KernelIdeal.main_v319, Cert.ReferenceIdeal.main_v323, rfl⟩
noncomputable abbrev q_v320 : Pair Cert.KernelIdeal.sig Cert.ReferenceIdeal.sig := ⟨Cert.KernelIdeal.main_v320, Cert.ReferenceIdeal.main_v324, rfl⟩
noncomputable abbrev q_v321 : Pair Cert.KernelIdeal.sig Cert.ReferenceIdeal.sig := ⟨Cert.KernelIdeal.main_v321, Cert.ReferenceIdeal.main_v325, rfl⟩
noncomputable abbrev q_v322 : Pair Cert.KernelIdeal.sig Cert.ReferenceIdeal.sig := ⟨Cert.KernelIdeal.main_v322, Cert.ReferenceIdeal.main_v326, rfl⟩
noncomputable abbrev q_v323 : Pair Cert.KernelIdeal.sig Cert.ReferenceIdeal.sig := ⟨Cert.KernelIdeal.main_v323, Cert.ReferenceIdeal.main_v327, rfl⟩
noncomputable abbrev q_cst_82 : Pair Cert.KernelIdeal.sig Cert.ReferenceIdeal.sig := ⟨Cert.KernelIdeal.main_cst_82, Cert.ReferenceIdeal.main_cst_82, rfl⟩
noncomputable abbrev q_v324 : Pair Cert.KernelIdeal.sig Cert.ReferenceIdeal.sig := ⟨Cert.KernelIdeal.main_v324, Cert.ReferenceIdeal.main_v328, rfl⟩
noncomputable abbrev q_c_83 : Pair Cert.KernelIdeal.sig Cert.ReferenceIdeal.sig := ⟨Cert.KernelIdeal.main_c_83, Cert.ReferenceIdeal.main_c_83, rfl⟩
noncomputable abbrev q_v325 : Pair Cert.KernelIdeal.sig Cert.ReferenceIdeal.sig := ⟨Cert.KernelIdeal.main_v325, Cert.ReferenceIdeal.main_v329, rfl⟩
noncomputable abbrev q_v326 : Pair Cert.KernelIdeal.sig Cert.ReferenceIdeal.sig := ⟨Cert.KernelIdeal.main_v326, Cert.ReferenceIdeal.main_v330, rfl⟩
noncomputable abbrev q_c_84 : Pair Cert.KernelIdeal.sig Cert.ReferenceIdeal.sig := ⟨Cert.KernelIdeal.main_c_84, Cert.ReferenceIdeal.main_c_84, rfl⟩
noncomputable abbrev q_v327 : Pair Cert.KernelIdeal.sig Cert.ReferenceIdeal.sig := ⟨Cert.KernelIdeal.main_v327, Cert.ReferenceIdeal.main_v331, rfl⟩
noncomputable abbrev q_v328 : Pair Cert.KernelIdeal.sig Cert.ReferenceIdeal.sig := ⟨Cert.KernelIdeal.main_v328, Cert.ReferenceIdeal.main_v332, rfl⟩
noncomputable abbrev q_v329 : Pair Cert.KernelIdeal.sig Cert.ReferenceIdeal.sig := ⟨Cert.KernelIdeal.main_v329, Cert.ReferenceIdeal.main_v333, rfl⟩
noncomputable abbrev q_c_85 : Pair Cert.KernelIdeal.sig Cert.ReferenceIdeal.sig := ⟨Cert.KernelIdeal.main_c_85, Cert.ReferenceIdeal.main_c_85, rfl⟩
noncomputable abbrev q_v330 : Pair Cert.KernelIdeal.sig Cert.ReferenceIdeal.sig := ⟨Cert.KernelIdeal.main_v330, Cert.ReferenceIdeal.main_v334, rfl⟩
noncomputable abbrev q_v331 : Pair Cert.KernelIdeal.sig Cert.ReferenceIdeal.sig := ⟨Cert.KernelIdeal.main_v331, Cert.ReferenceIdeal.main_v335, rfl⟩
noncomputable abbrev q_c_86 : Pair Cert.KernelIdeal.sig Cert.ReferenceIdeal.sig := ⟨Cert.KernelIdeal.main_c_86, Cert.ReferenceIdeal.main_c_86, rfl⟩
noncomputable abbrev q_v332 : Pair Cert.KernelIdeal.sig Cert.ReferenceIdeal.sig := ⟨Cert.KernelIdeal.main_v332, Cert.ReferenceIdeal.main_v336, rfl⟩
noncomputable abbrev q_v333 : Pair Cert.KernelIdeal.sig Cert.ReferenceIdeal.sig := ⟨Cert.KernelIdeal.main_v333, Cert.ReferenceIdeal.main_v337, rfl⟩
noncomputable abbrev q_v334 : Pair Cert.KernelIdeal.sig Cert.ReferenceIdeal.sig := ⟨Cert.KernelIdeal.main_v334, Cert.ReferenceIdeal.main_v338, rfl⟩
noncomputable abbrev q_c_87 : Pair Cert.KernelIdeal.sig Cert.ReferenceIdeal.sig := ⟨Cert.KernelIdeal.main_c_87, Cert.ReferenceIdeal.main_c_87, rfl⟩
noncomputable abbrev q_v335 : Pair Cert.KernelIdeal.sig Cert.ReferenceIdeal.sig := ⟨Cert.KernelIdeal.main_v335, Cert.ReferenceIdeal.main_v339, rfl⟩
noncomputable abbrev q_v336 : Pair Cert.KernelIdeal.sig Cert.ReferenceIdeal.sig := ⟨Cert.KernelIdeal.main_v336, Cert.ReferenceIdeal.main_v340, rfl⟩
noncomputable abbrev q_c_88 : Pair Cert.KernelIdeal.sig Cert.ReferenceIdeal.sig := ⟨Cert.KernelIdeal.main_c_88, Cert.ReferenceIdeal.main_c_88, rfl⟩
noncomputable abbrev q_v337 : Pair Cert.KernelIdeal.sig Cert.ReferenceIdeal.sig := ⟨Cert.KernelIdeal.main_v337, Cert.ReferenceIdeal.main_v341, rfl⟩
noncomputable abbrev q_v338 : Pair Cert.KernelIdeal.sig Cert.ReferenceIdeal.sig := ⟨Cert.KernelIdeal.main_v338, Cert.ReferenceIdeal.main_v342, rfl⟩
noncomputable abbrev q_v339 : Pair Cert.KernelIdeal.sig Cert.ReferenceIdeal.sig := ⟨Cert.KernelIdeal.main_v339, Cert.ReferenceIdeal.main_v343, rfl⟩
noncomputable abbrev q_v340 : Pair Cert.KernelIdeal.sig Cert.ReferenceIdeal.sig := ⟨Cert.KernelIdeal.main_v340, Cert.ReferenceIdeal.main_v344, rfl⟩
noncomputable abbrev q_v341 : Pair Cert.KernelIdeal.sig Cert.ReferenceIdeal.sig := ⟨Cert.KernelIdeal.main_v341, Cert.ReferenceIdeal.main_v345, rfl⟩
noncomputable abbrev q_v342 : Pair Cert.KernelIdeal.sig Cert.ReferenceIdeal.sig := ⟨Cert.KernelIdeal.main_v342, Cert.ReferenceIdeal.main_v346, rfl⟩
noncomputable abbrev q_v343 : Pair Cert.KernelIdeal.sig Cert.ReferenceIdeal.sig := ⟨Cert.KernelIdeal.main_v343, Cert.ReferenceIdeal.main_v347, rfl⟩
noncomputable abbrev q_v344 : Pair Cert.KernelIdeal.sig Cert.ReferenceIdeal.sig := ⟨Cert.KernelIdeal.main_v344, Cert.ReferenceIdeal.main_v348, rfl⟩
noncomputable abbrev q_c_89 : Pair Cert.KernelIdeal.sig Cert.ReferenceIdeal.sig := ⟨Cert.KernelIdeal.main_c_89, Cert.ReferenceIdeal.main_c_89, rfl⟩
noncomputable abbrev q_v345 : Pair Cert.KernelIdeal.sig Cert.ReferenceIdeal.sig := ⟨Cert.KernelIdeal.main_v345, Cert.ReferenceIdeal.main_v349, rfl⟩
noncomputable abbrev q_v346 : Pair Cert.KernelIdeal.sig Cert.ReferenceIdeal.sig := ⟨Cert.KernelIdeal.main_v346, Cert.ReferenceIdeal.main_v350, rfl⟩
noncomputable abbrev q_c_90 : Pair Cert.KernelIdeal.sig Cert.ReferenceIdeal.sig := ⟨Cert.KernelIdeal.main_c_90, Cert.ReferenceIdeal.main_c_90, rfl⟩
noncomputable abbrev q_v347 : Pair Cert.KernelIdeal.sig Cert.ReferenceIdeal.sig := ⟨Cert.KernelIdeal.main_v347, Cert.ReferenceIdeal.main_v351, rfl⟩
noncomputable abbrev q_v348 : Pair Cert.KernelIdeal.sig Cert.ReferenceIdeal.sig := ⟨Cert.KernelIdeal.main_v348, Cert.ReferenceIdeal.main_v352, rfl⟩
noncomputable abbrev q_v349 : Pair Cert.KernelIdeal.sig Cert.ReferenceIdeal.sig := ⟨Cert.KernelIdeal.main_v349, Cert.ReferenceIdeal.main_v353, rfl⟩
noncomputable abbrev q_c_91 : Pair Cert.KernelIdeal.sig Cert.ReferenceIdeal.sig := ⟨Cert.KernelIdeal.main_c_91, Cert.ReferenceIdeal.main_c_91, rfl⟩
noncomputable abbrev q_v350 : Pair Cert.KernelIdeal.sig Cert.ReferenceIdeal.sig := ⟨Cert.KernelIdeal.main_v350, Cert.ReferenceIdeal.main_v354, rfl⟩
noncomputable abbrev q_v351 : Pair Cert.KernelIdeal.sig Cert.ReferenceIdeal.sig := ⟨Cert.KernelIdeal.main_v351, Cert.ReferenceIdeal.main_v355, rfl⟩
noncomputable abbrev q_c_92 : Pair Cert.KernelIdeal.sig Cert.ReferenceIdeal.sig := ⟨Cert.KernelIdeal.main_c_92, Cert.ReferenceIdeal.main_c_92, rfl⟩
noncomputable abbrev q_v352 : Pair Cert.KernelIdeal.sig Cert.ReferenceIdeal.sig := ⟨Cert.KernelIdeal.main_v352, Cert.ReferenceIdeal.main_v356, rfl⟩
noncomputable abbrev q_v353 : Pair Cert.KernelIdeal.sig Cert.ReferenceIdeal.sig := ⟨Cert.KernelIdeal.main_v353, Cert.ReferenceIdeal.main_v357, rfl⟩
noncomputable abbrev q_v354 : Pair Cert.KernelIdeal.sig Cert.ReferenceIdeal.sig := ⟨Cert.KernelIdeal.main_v354, Cert.ReferenceIdeal.main_v358, rfl⟩
noncomputable abbrev q_c_93 : Pair Cert.KernelIdeal.sig Cert.ReferenceIdeal.sig := ⟨Cert.KernelIdeal.main_c_93, Cert.ReferenceIdeal.main_c_93, rfl⟩
noncomputable abbrev q_v355 : Pair Cert.KernelIdeal.sig Cert.ReferenceIdeal.sig := ⟨Cert.KernelIdeal.main_v355, Cert.ReferenceIdeal.main_v359, rfl⟩
noncomputable abbrev q_v356 : Pair Cert.KernelIdeal.sig Cert.ReferenceIdeal.sig := ⟨Cert.KernelIdeal.main_v356, Cert.ReferenceIdeal.main_v360, rfl⟩
noncomputable abbrev q_c_94 : Pair Cert.KernelIdeal.sig Cert.ReferenceIdeal.sig := ⟨Cert.KernelIdeal.main_c_94, Cert.ReferenceIdeal.main_c_94, rfl⟩
noncomputable abbrev q_v357 : Pair Cert.KernelIdeal.sig Cert.ReferenceIdeal.sig := ⟨Cert.KernelIdeal.main_v357, Cert.ReferenceIdeal.main_v361, rfl⟩
noncomputable abbrev q_v358 : Pair Cert.KernelIdeal.sig Cert.ReferenceIdeal.sig := ⟨Cert.KernelIdeal.main_v358, Cert.ReferenceIdeal.main_v362, rfl⟩
noncomputable abbrev q_v359 : Pair Cert.KernelIdeal.sig Cert.ReferenceIdeal.sig := ⟨Cert.KernelIdeal.main_v359, Cert.ReferenceIdeal.main_v363, rfl⟩
noncomputable abbrev q_v360 : Pair Cert.KernelIdeal.sig Cert.ReferenceIdeal.sig := ⟨Cert.KernelIdeal.main_v360, Cert.ReferenceIdeal.main_v364, rfl⟩
noncomputable abbrev q_v361 : Pair Cert.KernelIdeal.sig Cert.ReferenceIdeal.sig := ⟨Cert.KernelIdeal.main_v361, Cert.ReferenceIdeal.main_v365, rfl⟩
noncomputable abbrev q_v362 : Pair Cert.KernelIdeal.sig Cert.ReferenceIdeal.sig := ⟨Cert.KernelIdeal.main_v362, Cert.ReferenceIdeal.main_v366, rfl⟩
noncomputable abbrev q_v363 : Pair Cert.KernelIdeal.sig Cert.ReferenceIdeal.sig := ⟨Cert.KernelIdeal.main_v363, Cert.ReferenceIdeal.main_v367, rfl⟩
noncomputable abbrev q_v364 : Pair Cert.KernelIdeal.sig Cert.ReferenceIdeal.sig := ⟨Cert.KernelIdeal.main_v364, Cert.ReferenceIdeal.main_v368, rfl⟩

end Cert.Bridge
-- ==== Proof.SimRho.lean ====
import proofs.«175666_j17377437679648_2_alg».proof.Proof.SimPairs

/-! # Which buffers correspond, and which correspondences are still needed after each cut

The two programs run the same line of host operations on buffers of their own. A pair names a buffer of the first program and
the buffer of the second that holds the same contents. The line is cut into pieces; after each piece only the pairs
that a later piece reads (or that are results) are kept. -/

namespace Cert.Bridge

open Idealize.ShloMosaic Cert.Lib.LineSimulation

/-- The sixteen arguments, each with itself. -/
noncomputable def argPairs : List (Pair Cert.KernelIdeal.sig Cert.ReferenceIdeal.sig) :=
  [q_arg0,
    q_arg1,
    q_arg2,
    q_arg3,
    q_arg4,
    q_arg5,
    q_arg6,
    q_arg7,
    q_arg8,
    q_arg9,
    q_arg10,
    q_arg11,
    q_arg12,
    q_arg13,
    q_arg14,
    q_arg15]

/-- Before the middle stretch: the first dense array and the arguments. -/
noncomputable def ρMid0 : List (Pair Cert.KernelIdeal.sig Cert.ReferenceIdeal.sig) :=
  q_v2 :: argPairs

/-- Kept after piece 1 of the middle stretch. -/
noncomputable def ρM1 : List (Pair Cert.KernelIdeal.sig Cert.ReferenceIdeal.sig) :=
  [q_v2,
    q_arg0,
    q_arg1,
    q_arg2,
    q_arg3,
    q_arg4,
    q_arg5,
    q_arg6,
    q_arg7,
    q_arg8,
    q_arg9,
    q_arg10,
    q_arg11,
    q_arg12,
    q_arg13,
    q_arg14,
    q_arg15,
    q_v7,
    q_v6]

/-- Kept after piece 2 of the middle stretch. -/
noncomputable def ρM2 : List (Pair Cert.KernelIdeal.sig Cert.ReferenceIdeal.sig) :=
  [q_v2,
    q_arg0,
    q_arg1,
    q_arg2,
    q_arg3,
    q_arg4,
    q_arg5,
    q_arg6,
    q_arg7,
    q_arg8,
    q_arg9,
    q_arg10,
    q_arg11,
    q_arg12,
    q_arg13,
    q_arg14,
    q_arg15,
    q_v7,
    q_v8]

/-- Kept after piece 3 of the middle stretch. -/
noncomputable def ρM3 : List (Pair Cert.KernelIdeal.sig Cert.ReferenceIdeal.sig) :=
  [q_v47,
    q_v28,
    q_v18,
    q_v2,
    q_arg0,
    q_arg1,
    q_arg2,
    q_arg3,
    q_arg4,
    q_arg5,
    q_arg6,
    q_arg7,
    q_arg8,
    q_arg9,
    q_arg10,
    q_arg11,
    q_arg12,
    q_arg13,
    q_arg14,
    q_arg15,
    q_c_10]

/-- After the middle stretch: what it wrote that the last stretch still reads, its gathered result, the first dense array
    and the arguments. -/
noncomputable def ρMid1 : List (Pair Cert.KernelIdeal.sig Cert.ReferenceIdeal.sig) :=
  q_v47 ::
    q_v28 ::
    q_v18 ::
    q_v90 ::
    ρMid0

/-- Before the last stretch: the second dense array as well. -/
noncomputable def ρTail0 : List (Pair Cert.KernelIdeal.sig Cert.ReferenceIdeal.sig) :=
  q_v93 :: ρMid1

/-- Kept after piece 1 of the last stretch. -/
noncomputable def ρT1 : List (Pair Cert.KernelIdeal.sig Cert.ReferenceIdeal.sig) :=
  [q_v90,
    q_v2,
    q_v93,
    q_arg9,
    q_arg7,
    q_arg15,
    q_arg14,
    q_v47,
    q_v28,
    q_v18,
    q_arg8,
    q_arg6,
    q_arg13,
    q_arg12,
    q_arg11,
    q_v94]

/-- Kept after piece 2 of the last stretch. -/
noncomputable def ρT2 : List (Pair Cert.KernelIdeal.sig Cert.ReferenceIdeal.sig) :=
  [q_v90,
    q_v2,
    q_v93,
    q_arg9,
    q_arg7,
    q_arg15,
    q_arg14,
    q_v47,
    q_v28,
    q_v18,
    q_arg8,
    q_arg6,
    q_arg13,
    q_arg12,
    q_arg11,
    q_v98,
    q_v97]

/-- Kept after piece 3 of the last stretch. -/
noncomputable def ρT3 : List (Pair Cert.KernelIdeal.sig Cert.ReferenceIdeal.sig) :=
  [q_v90,
    q_v2,
    q_v93,
    q_arg9,
    q_arg7,
    q_arg15,
    q_arg14,
    q_v47,
    q_v28,
    q_v18,
    q_arg8,
    q_arg6,
    q_arg13,
    q_arg12,
    q_arg11,
    q_v98,
    q_v99]

/-- Kept after piece 4 of the last stretch. -/
noncomputable def ρT4 : List (Pair Cert.KernelIdeal.sig Cert.ReferenceIdeal.sig) :=
  [q_v90,
    q_v2,
    q_v93,
    q_v138,
    q_v119,
    q_v109,
    q_arg9,
    q_arg7,
    q_arg15,
    q_arg14,
    q_v47,
    q_v28,
    q_v18,
    q_arg8,
    q_arg6,
    q_arg13,
    q_arg12,
    q_v140,
    q_v142]

/-- Kept after piece 5 of the last stretch. -/
noncomputable def ρT5 : List (Pair Cert.KernelIdeal.sig Cert.ReferenceIdeal.sig) :=
  [q_v90,
    q_v2,
    q_v158,
    q_v93,
    q_v138,
    q_v119,
    q_v109,
    q_arg9,
    q_arg7,
    q_arg15,
    q_arg14,
    q_v47,
    q_v28,
    q_v18,
    q_v175,
    q_arg8,
    q_v164,
    q_v180,
    q_v179]

/-- Kept after piece 6 of the last stretch. -/
noncomputable def ρT6 : List (Pair Cert.KernelIdeal.sig Cert.ReferenceIdeal.sig) :=
  [q_v90,
    q_v2,
    q_v158,
    q_v93,
    q_v138,
    q_v119,
    q_v109,
    q_arg9,
    q_arg7,
    q_arg15,
    q_arg14,
    q_v47,
    q_v28,
    q_v18,
    q_v175,
    q_arg8,
    q_v164,
    q_v180,
    q_v181]

/-- Kept after piece 7 of the last stretch. -/
noncomputable def ρT7 : List (Pair Cert.KernelIdeal.sig Cert.ReferenceIdeal.sig) :=
  [q_v90,
    q_v2,
    q_v158,
    q_v93,
    q_v138,
    q_v119,
    q_v109,
    q_arg9,
    q_arg7,
    q_arg15,
    q_arg14,
    q_v47,
    q_v28,
    q_v18,
    q_v175,
    q_v182,
    q_arg8,
    q_v164,
    q_v189]

/-- Kept after piece 8 of the last stretch. -/
noncomputable def ρT8 : List (Pair Cert.KernelIdeal.sig Cert.ReferenceIdeal.sig) :=
  [q_v90,
    q_v2,
    q_v158,
    q_v93,
    q_v138,
    q_v119,
    q_v109,
    q_arg9,
    q_arg7,
    q_arg15,
    q_arg14,
    q_v47,
    q_v28,
    q_v18,
    q_v221,
    q_v175,
    q_v236,
    q_v231,
    q_v226]

/-- Kept after piece 9 of the last stretch. -/
noncomputable def ρT9 : List (Pair Cert.KernelIdeal.sig Cert.ReferenceIdeal.sig) :=
  [q_v90,
    q_v2,
    q_v158,
    q_v93,
    q_v261,
    q_v241,
    q_v138,
    q_v119,
    q_v109,
    q_v278,
    q_arg9,
    q_v267,
    q_v283,
    q_v282]

/-- Kept after piece 10 of the last stretch. -/
noncomputable def ρT10 : List (Pair Cert.KernelIdeal.sig Cert.ReferenceIdeal.sig) :=
  [q_v90,
    q_v2,
    q_v158,
    q_v93,
    q_v261,
    q_v241,
    q_v138,
    q_v119,
    q_v109,
    q_v278,
    q_arg9,
    q_v267,
    q_v283,
    q_v284]

/-- Kept after piece 11 of the last stretch. -/
noncomputable def ρT11 : List (Pair Cert.KernelIdeal.sig Cert.ReferenceIdeal.sig) :=
  [q_v90,
    q_v2,
    q_v158,
    q_v93,
    q_v261,
    q_v241,
    q_v138,
    q_v119,
    q_v109,
    q_v324,
    q_v278,
    q_v329,
    q_v323,
    q_v331,
    q_v304]

/-- The eight results. -/
noncomputable def ρRes : List (Pair Cert.KernelIdeal.sig Cert.ReferenceIdeal.sig) :=
  [q_v90,
    q_v2,
    q_v158,
    q_v93,
    q_v261,
    q_v241,
    q_v364,
    q_v344]

end Cert.Bridge
-- ==== Proof.SimStepsH.lean ====
import proofs.«175666_j17377437679648_2_alg».proof.Proof.SimSteps

/-! # Steps whose two functions are compared as they stand

The steps for operations of zero to three operands ask that the two functions agree after the contents are moved along
the pairs' type equalities. When the two functions are the same function at types that are the same once computed,
it is cheaper to say just that (a heterogeneous equality of the two functions, closed by reflexivity) and to derive the
agreement here, once, for functions of any types. -/

noncomputable section

namespace Cert.Lib.LineSimulation

open Idealize.ShloMosaic Idealize.ShloMosaic.TcCoe Idealize.SL.Sem Idealize.ShloMosaic.StableHlo

variable {τA τB : Topo} {sigA sigB : RefSig} {Val : EltTy → Type}

theorem cast_eq_of_heq {A A' : Type} (hA : A = A') {a : A} {b : A'} (h : HEq a b) : cast hA a = b := by
  subst hA; exact eq_of_heq h

theorem cast_app_of_heq₁ {A A' B B' : Type} (hA : A = A') (hB : B = B') {f : A → B} {g : A' → B'} (h : HEq f g) (u : A) :
    cast hB (f u) = g (cast hA u) := by
  subst hA; subst hB; cases h; rfl

theorem cast_app_of_heq₂ {A A' B B' C C' : Type} (hA : A = A') (hB : B = B') (hC : C = C') {f : A → B → C}
    {g : A' → B' → C'} (h : HEq f g) (u : A) (v : B) : cast hC (f u v) = g (cast hA u) (cast hB v) := by
  subst hA; subst hB; subst hC; cases h; rfl

theorem cast_app_of_heq₃ {A A' B B' C C' D D' : Type} (hA : A = A') (hB : B = B') (hC : C = C') (hD : D = D')
    {f : A → B → C → D} {g : A' → B' → C' → D'} (h : HEq f g) (w : A) (u : B) (v : C) :
    cast hD (f w u v) = g (cast hA w) (cast hB u) (cast hC v) := by
  subst hA; subst hB; subst hC; subst hD; cases h; rfl

theorem step_nullaryH {ρ : List (Pair sigA sigB)} (y : Pair sigA sigB)
    {vA : y.a.ty.Contents Val} {vB : y.b.ty.Contents Val} {hA hB}
    (hfresh : ∀ p ∈ ρ, p.a ≠ y.a ∧ p.b ≠ y.b) (hv : HEq vA vB) :
    Step ρ (nullary y.a vA hA : HloOp τA sigA Val) (nullary y.b vB hB : HloOp τB sigB Val) y :=
  step_nullary y hfresh (cast_eq_of_heq _ hv)

theorem step_unaryH {ρ : List (Pair sigA sigB)} (x y : Pair sigA sigB)
    {fA : x.a.ty.Contents Val → y.a.ty.Contents Val} {fB : x.b.ty.Contents Val → y.b.ty.Contents Val} {hxA hyA hxB hyB}
    (hx : x ∈ ρ) (hfresh : ∀ p ∈ ρ, p.a ≠ y.a ∧ p.b ≠ y.b) (hf : HEq fA fB) :
    Step ρ (unary x.a y.a fA hxA hyA : HloOp τA sigA Val) (unary x.b y.b fB hxB hyB : HloOp τB sigB Val) y :=
  step_unary x y hx hfresh fun u => cast_app_of_heq₁ _ _ hf u

theorem step_binaryH {ρ : List (Pair sigA sigB)} (a b y : Pair sigA sigB)
    {fA : a.a.ty.Contents Val → b.a.ty.Contents Val → y.a.ty.Contents Val}
    {fB : a.b.ty.Contents Val → b.b.ty.Contents Val → y.b.ty.Contents Val} {haA hbA hyA haB hbB hyB}
    (ha : a ∈ ρ) (hb : b ∈ ρ) (hfresh : ∀ p ∈ ρ, p.a ≠ y.a ∧ p.b ≠ y.b) (hf : HEq fA fB) :
    Step ρ (binary a.a b.a y.a fA haA hbA hyA : HloOp τA sigA Val) (binary a.b b.b y.b fB haB hbB hyB : HloOp τB sigB Val) y :=
  step_binary a b y ha hb hfresh fun u v => cast_app_of_heq₂ _ _ _ hf u v

theorem step_ternaryH {ρ : List (Pair sigA sigB)} (c a b y : Pair sigA sigB)
    {fA : c.a.ty.Contents Val → a.a.ty.Contents Val → b.a.ty.Contents Val → y.a.ty.Contents Val}
    {fB : c.b.ty.Contents Val → a.b.ty.Contents Val → b.b.ty.Contents Val → y.b.ty.Contents Val}
    {hcA haA hbA hyA hcB haB hbB hyB}
    (hc : c ∈ ρ) (ha : a ∈ ρ) (hb : b ∈ ρ) (hfresh : ∀ p ∈ ρ, p.a ≠ y.a ∧ p.b ≠ y.b) (hf : HEq fA fB) :
    Step ρ (ternary c.a a.a b.a y.a fA hcA haA hbA hyA : HloOp τA sigA Val)
      (ternary c.b a.b b.b y.b fB hcB haB hbB hyB : HloOp τB sigB Val) y :=
  step_ternary c a b y hc ha hb hfresh fun w u v => cast_app_of_heq₃ _ _ _ _ hf w u v

end Cert.Lib.LineSimulation

end
-- ==== Proof.SimMid1.lean ====
import proofs.«175666_j17377437679648_2_alg».proof.Proof.SimRho
import proofs.«175666_j17377437679648_2_alg».proof.Proof.SimStepsH

set_option maxRecDepth 8192

/-! # Piece 1 of the middle stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simMid1 : Sim (τA := Cert.KernelIdeal.τ) (τB := Cert.ReferenceIdeal.τ) (Val := Elt F) ρMid0
    Cert.KernelIdeal.Hand.part0_ops1_rest Cert.ReferenceIdeal.Hand.rA1 ρM1 :=
  Sim.cons (step_nullaryH q_c (by decide +kernel) HEq.rfl) <|
  Sim.cons (step_unaryH q_c q_v3 (List.Mem.head _) (by decide +kernel) HEq.rfl) <|
  Sim.cons (step_nullaryH q_c_0 (by decide +kernel) HEq.rfl) <|
  Sim.cons (step_unaryH q_c_0 q_v4 (List.Mem.head _) (by decide +kernel) HEq.rfl) <|
  Sim.cons (step_unaryH q_arg8 q_v5 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))) (by decide +kernel) HEq.rfl) <|
  Sim.cons (step_ternaryH q_v4 q_v5 q_v3 q_v6 (List.Mem.tail _ (List.Mem.head _)) (List.Mem.head _) (List.Mem.tail _ (List.Mem.tail _ (List.Mem.tail _ (List.Mem.head _)))) (by decide +kernel) HEq.rfl) <|
  Sim.cons (step_nullaryH q_c_1 (by decide +kernel) HEq.rfl) <|
  Sim.cons (step_unaryH q_c_1 q_v7 (List.Mem.head _) (by decide +kernel) HEq.rfl) <|
  Sim.nil (by decide +kernel)

end Cert.Bridge

end
-- ==== Proof.SimMid2.lean ====
import proofs.«175666_j17377437679648_2_alg».proof.Proof.SimRho
import proofs.«175666_j17377437679648_2_alg».proof.Proof.SimStepsH

set_option maxRecDepth 8192

/-! # Piece 2 of the middle stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simMid2 : Sim (τA := Cert.KernelIdeal.τ) (τB := Cert.ReferenceIdeal.τ) (Val := Elt F) ρM1
    Cert.KernelIdeal.Gen.main_part0_ops2 Cert.ReferenceIdeal.Hand.rA2 ρM2 :=
  Sim.cons (step_nullaryH q_call0_call0_c (by decide +kernel) HEq.rfl) <|
  Sim.cons (step_unaryH q_call0_call0_c q_call0_call0_v0 (List.Mem.head _) (by decide +kernel) HEq.rfl) <|
  Sim.cons (step_binaryH q_v6 q_call0_call0_v0 q_v8 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (List.Mem.head _) (by decide +kernel) HEq.rfl) <|
  Sim.nil (by decide +kernel)

end Cert.Bridge

end
-- ==== Proof.SimMid3.lean ====
import proofs.«175666_j17377437679648_2_alg».proof.Proof.SimRho
import proofs.«175666_j17377437679648_2_alg».proof.Proof.SimStepsH

set_option maxRecDepth 8192

/-! # Piece 3 of the middle stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simMid3 : Sim (τA := Cert.KernelIdeal.τ) (τB := Cert.ReferenceIdeal.τ) (Val := Elt F) ρM2
    Cert.KernelIdeal.Gen.main_part0_ops3 Cert.ReferenceIdeal.Hand.rA3 ρM3 :=
  Sim.cons (step_binaryH q_v7 q_v8 q_v9 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (by decide +kernel) HEq.rfl) <|
  Sim.cons (step_unaryH q_arg10 q_v10 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))) (by decide +kernel) HEq.rfl) <|
  Sim.cons (step_reshape q_v10 q_v11 (List.Mem.head _) (by decide +kernel)) <|
  Sim.cons (step_nullaryH q_c_2 (by decide +kernel) HEq.rfl) <|
  Sim.cons (step_unaryH q_c_2 q_v12 (List.Mem.head _) (by decide +kernel) HEq.rfl) <|
  Sim.cons (step_binaryH q_v11 q_v12 q_v13 (List.Mem.tail _ (List.Mem.tail _ (List.Mem.head _))) (List.Mem.head _) (by decide +kernel) HEq.rfl) <|
  Sim.cons (step_nullaryH q_c_3 (by decide +kernel) HEq.rfl) <|
  Sim.cons (step_unaryH q_c_3 q_v14 (List.Mem.head _) (by decide +kernel) HEq.rfl) <|
  Sim.cons (step_binaryH q_v11 q_v14 q_v15 (List.Mem.tail _ (List.Mem.tail _ (List.Mem.tail _ (List.Mem.tail _ (List.Mem.tail _ (List.Mem.head _)))))) (List.Mem.head _) (by decide +kernel) HEq.rfl) <|
  Sim.cons (step_ternaryH q_v13 q_v15 q_v11 q_v16 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v16 q_v17 (List.Mem.head _) (by decide +kernel) HEq.rfl) <|
  Sim.cons (step_binaryH q_arg8 q_v17 q_v18 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (List.Mem.head _) (by decide +kernel) HEq.rfl) <|
  Sim.cons (step_unaryH q_arg10 q_v19 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))) (by decide +kernel) HEq.rfl) <|
  Sim.cons (step_reshape q_v19 q_v20 (List.Mem.head _) (by decide +kernel)) <|
  Sim.cons (step_nullaryH q_c_4 (by decide +kernel) HEq.rfl) <|
  Sim.cons (step_unaryH q_c_4 q_v21 (List.Mem.head _) (by decide +kernel) HEq.rfl) <|
  Sim.cons (step_binaryH q_v18 q_v21 q_v22 (List.Mem.tail _ (List.Mem.tail _ (List.Mem.tail _ (List.Mem.tail _ (List.Mem.head _))))) (List.Mem.head _) (by decide +kernel) HEq.rfl) <|
  Sim.cons (step_nullaryH q_c_5 (by decide +kernel) HEq.rfl) <|
  Sim.cons (step_unaryH q_c_5 q_v23 (List.Mem.head _) (by decide +kernel) HEq.rfl) <|
  Sim.cons (step_binaryH q_v18 q_v23 q_v24 (List.Mem.tail _ (List.Mem.tail _ (List.Mem.tail _ (List.Mem.tail _ (List.Mem.tail _ (List.Mem.tail _ (List.Mem.tail _ (List.Mem.head _)))))))) (List.Mem.head _) (by decide +kernel) HEq.rfl) <|
  Sim.cons (step_ternaryH q_v22 q_v24 q_v18 q_v25 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v25 q_v26 (List.Mem.head _) (by decide +kernel) HEq.rfl) <|
  Sim.cons (step_binaryH q_v9 q_v26 q_v27 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))) (List.Mem.head _) (by decide +kernel) HEq.rfl) <|
  Sim.cons (step_binaryH q_v20 q_v27 q_v28 (List.Mem.tail _ (List.Mem.tail _ (List.Mem.tail _ (List.Mem.tail _ (List.Mem.tail _ (List.Mem.tail _ (List.Mem.tail _ (List.Mem.tail _ (List.Mem.tail _ (List.Mem.head _)))))))))) (List.Mem.head _) (by decide +kernel) HEq.rfl) <|
  Sim.cons (step_unaryH q_arg10 q_v29 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))) (by decide +kernel) HEq.rfl) <|
  Sim.cons (step_reshape q_v29 q_v30 (List.Mem.head _) (by decide +kernel)) <|
  Sim.cons (step_unaryH q_arg10 q_v31 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))) (by decide +kernel) HEq.rfl) <|
  Sim.cons (step_reshape q_v31 q_v32 (List.Mem.head _) (by decide +kernel)) <|
  Sim.cons (step_nullaryH q_c_6 (by decide +kernel) HEq.rfl) <|
  Sim.cons (step_unaryH q_c_6 q_v33 (List.Mem.head _) (by decide +kernel) HEq.rfl) <|
  Sim.cons (step_binaryH q_v32 q_v33 q_v34 (List.Mem.tail _ (List.Mem.tail _ (List.Mem.head _))) (List.Mem.head _) (by decide +kernel) HEq.rfl) <|
  Sim.cons (step_nullaryH q_c_7 (by decide +kernel) HEq.rfl) <|
  Sim.cons (step_unaryH q_c_7 q_v35 (List.Mem.head _) (by decide +kernel) HEq.rfl) <|
  Sim.cons (step_binaryH q_v32 q_v35 q_v36 (List.Mem.tail _ (List.Mem.tail _ (List.Mem.tail _ (List.Mem.tail _ (List.Mem.tail _ (List.Mem.head _)))))) (List.Mem.head _) (by decide +kernel) HEq.rfl) <|
  Sim.cons (step_ternaryH q_v34 q_v36 q_v32 q_v37 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v37 q_v38 (List.Mem.head _) (by decide +kernel) HEq.rfl) <|
  Sim.cons (step_binaryH q_arg8 q_v38 q_v39 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))) (List.Mem.head _) (by decide +kernel) HEq.rfl) <|
  Sim.cons (step_nullaryH q_c_8 (by decide +kernel) HEq.rfl) <|
  Sim.cons (step_unaryH q_c_8 q_v40 (List.Mem.head _) (by decide +kernel) HEq.rfl) <|
  Sim.cons (step_binaryH q_v39 q_v40 q_v41 (List.Mem.tail _ (List.Mem.tail _ (List.Mem.head _))) (List.Mem.head _) (by decide +kernel) HEq.rfl) <|
  Sim.cons (step_nullaryH q_c_9 (by decide +kernel) HEq.rfl) <|
  Sim.cons (step_unaryH q_c_9 q_v42 (List.Mem.head _) (by decide +kernel) HEq.rfl) <|
  Sim.cons (step_binaryH q_v39 q_v42 q_v43 (List.Mem.tail _ (List.Mem.tail _ (List.Mem.tail _ (List.Mem.tail _ (List.Mem.tail _ (List.Mem.head _)))))) (List.Mem.head _) (by decide +kernel) HEq.rfl) <|
  Sim.cons (step_ternaryH q_v41 q_v43 q_v39 q_v44 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v44 q_v45 (List.Mem.head _) (by decide +kernel) HEq.rfl) <|
  Sim.cons (step_binaryH q_v9 q_v45 q_v46 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))) (List.Mem.head _) (by decide +kernel) HEq.rfl) <|
  Sim.cons (step_binaryH q_v30 q_v46 q_v47 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (List.Mem.head _) (by decide +kernel) HEq.rfl) <|
  Sim.cons (step_nullaryH q_c_10 (by decide +kernel) HEq.rfl) <|
  Sim.nil (by decide +kernel)

end Cert.Bridge

end
-- ==== Proof.SimMid4.lean ====
import proofs.«175666_j17377437679648_2_alg».proof.Proof.SimRho
import proofs.«175666_j17377437679648_2_alg».proof.Proof.SimStepsH

set_option maxRecDepth 8192

/-! # Piece 4 of the middle stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simMid4 : Sim (τA := Cert.KernelIdeal.τ) (τB := Cert.ReferenceIdeal.τ) (Val := Elt F) ρM3
    Cert.KernelIdeal.Gen.main_part1_ops0 Cert.ReferenceIdeal.Hand.rA4 ρMid1 :=
  Sim.cons (step_unaryH q_c_10 q_v48 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (by decide +kernel) HEq.rfl) <|
  Sim.cons (step_binaryH q_v18 q_v48 q_v49 (List.Mem.tail _ (List.Mem.tail _ (List.Mem.tail _ (List.Mem.head _)))) (List.Mem.head _) (by decide +kernel) HEq.rfl) <|
  Sim.cons (step_nullaryH q_c_11 (by decide +kernel) HEq.rfl) <|
  Sim.cons (step_unaryH q_c_11 q_v50 (List.Mem.head _) (by decide +kernel) HEq.rfl) <|
  Sim.cons (step_binaryH q_v18 q_v50 q_v51 (List.Mem.tail _ (List.Mem.tail _ (List.Mem.tail _ (List.Mem.tail _ (List.Mem.tail _ (List.Mem.tail _ (List.Mem.head _))))))) (List.Mem.head _) (by decide +kernel) HEq.rfl) <|
  Sim.cons (step_ternaryH q_v49 q_v51 q_v18 q_v52 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.head _)))))))) (by decide +kernel) HEq.rfl) <|
  Sim.cons (step_nullaryH q_c_12 (by decide +kernel) HEq.rfl) <|
  Sim.cons (step_unaryH q_c_12 q_v53 (List.Mem.head _) (by decide +kernel) HEq.rfl) <|
  Sim.cons (step_binaryH q_v28 q_v53 q_v54 (List.Mem.tail _ (List.Mem.tail _ (List.Mem.tail _ (List.Mem.tail _ (List.Mem.tail _ (List.Mem.tail _ (List.Mem.tail _ (List.Mem.tail _ (List.Mem.tail _ (List.Mem.head _)))))))))) (List.Mem.head _) (by decide +kernel) HEq.rfl) <|
  Sim.cons (step_nullaryH q_c_13 (by decide +kernel) HEq.rfl) <|
  Sim.cons (step_unaryH q_c_13 q_v55 (List.Mem.head _) (by decide +kernel) HEq.rfl) <|
  Sim.cons (step_binaryH q_v28 q_v55 q_v56 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))) (List.Mem.head _) (by decide +kernel) HEq.rfl) <|
  Sim.cons (step_ternaryH q_v54 q_v56 q_v28 q_v57 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))) (by decide +kernel) HEq.rfl) <|
  Sim.cons (step_nullaryH q_c_14 (by decide +kernel) HEq.rfl) <|
  Sim.cons (step_unaryH q_c_14 q_v58 (List.Mem.head _) (by decide +kernel) HEq.rfl) <|
  Sim.cons (step_binaryH q_v47 q_v58 q_v59 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))) (List.Mem.head _) (by decide +kernel) HEq.rfl) <|
  Sim.cons (step_nullaryH q_c_15 (by decide +kernel) HEq.rfl) <|
  Sim.cons (step_unaryH q_c_15 q_v60 (List.Mem.head _) (by decide +kernel) HEq.rfl) <|
  Sim.cons (step_binaryH q_v47 q_v60 q_v61 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (List.Mem.head _) (by decide +kernel) HEq.rfl) <|
  Sim.cons (step_ternaryH q_v59 q_v61 q_v47 q_v62 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))) (by decide +kernel) HEq.rfl) <|
  Sim.cons (step_unaryH q_v52 q_v63 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (by decide +kernel) HEq.rfl) <|
  Sim.cons (step_unaryH q_v57 q_v64 (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v62 q_v65 (List.Mem.tail _ (List.Mem.tail _ (List.Mem.head _))) (by decide +kernel) HEq.rfl) <|
  Sim.cons (step_nary3 q_v63 q_v64 q_v65 q_v66 (List.Mem.tail _ (List.Mem.tail _ (List.Mem.head _))) (List.Mem.tail _ (List.Mem.head _)) (List.Mem.head _) (by decide +kernel) (fun _ => rfl)) <|
  Sim.cons (step_binaryH q_v2 q_v66 q_v67 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))) (List.Mem.head _) (by decide +kernel) HEq.rfl) <|
  Sim.cons (step_nullaryH q_c_16 (by decide +kernel) HEq.rfl) <|
  Sim.cons (step_unaryH q_c_16 q_v68 (List.Mem.head _) (by decide +kernel) HEq.rfl) <|
  Sim.cons (step_binaryH q_v18 q_v68 q_v69 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))) (List.Mem.head _) (by decide +kernel) HEq.rfl) <|
  Sim.cons (step_nullaryH q_c_17 (by decide +kernel) HEq.rfl) <|
  Sim.cons (step_unaryH q_c_17 q_v70 (List.Mem.head _) (by decide +kernel) HEq.rfl) <|
  Sim.cons (step_binaryH q_v18 q_v70 q_v71 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))) (List.Mem.head _) (by decide +kernel) HEq.rfl) <|
  Sim.cons (step_ternaryH q_v69 q_v71 q_v18 q_v72 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))) (by decide +kernel) HEq.rfl) <|
  Sim.cons (step_nullaryH q_c_18 (by decide +kernel) HEq.rfl) <|
  Sim.cons (step_unaryH q_c_18 q_v73 (List.Mem.head _) (by decide +kernel) HEq.rfl) <|
  Sim.cons (step_binaryH q_v47 q_v73 q_v74 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))) (List.Mem.head _) (by decide +kernel) HEq.rfl) <|
  Sim.cons (step_nullaryH q_c_19 (by decide +kernel) HEq.rfl) <|
  Sim.cons (step_unaryH q_c_19 q_v75 (List.Mem.head _) (by decide +kernel) HEq.rfl) <|
  Sim.cons (step_binaryH q_v47 q_v75 q_v76 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))) (List.Mem.head _) (by decide +kernel) HEq.rfl) <|
  Sim.cons (step_ternaryH q_v74 q_v76 q_v47 q_v77 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))) (by decide +kernel) HEq.rfl) <|
  Sim.cons (step_nullaryH q_c_20 (by decide +kernel) HEq.rfl) <|
  Sim.cons (step_unaryH q_c_20 q_v78 (List.Mem.head _) (by decide +kernel) HEq.rfl) <|
  Sim.cons (step_binaryH q_v28 q_v78 q_v79 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))) (List.Mem.head _) (by decide +kernel) HEq.rfl) <|
  Sim.cons (step_nullaryH q_c_21 (by decide +kernel) HEq.rfl) <|
  Sim.cons (step_unaryH q_c_21 q_v80 (List.Mem.head _) (by decide +kernel) HEq.rfl) <|
  Sim.cons (step_binaryH q_v28 q_v80 q_v81 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))) (List.Mem.head _) (by decide +kernel) HEq.rfl) <|
  Sim.cons (step_ternaryH q_v79 q_v81 q_v28 q_v82 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))) (by decide +kernel) HEq.rfl) <|
  Sim.cons (step_unaryH q_v72 q_v83 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (by decide +kernel) HEq.rfl) <|
  Sim.cons (step_unaryH q_v77 q_v84 (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v82 q_v85 (List.Mem.tail _ (List.Mem.tail _ (List.Mem.head _))) (by decide +kernel) HEq.rfl) <|
  Sim.cons (step_nary3 q_v83 q_v84 q_v85 q_v86 (List.Mem.tail _ (List.Mem.tail _ (List.Mem.head _))) (List.Mem.tail _ (List.Mem.head _)) (List.Mem.head _) (by decide +kernel) (fun _ => rfl)) <|
  Sim.cons (step_binaryH q_v2 q_v86 q_v87 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))) (List.Mem.head _) (by decide +kernel) HEq.rfl) <|
  Sim.cons (step_binaryH q_v67 q_v87 q_v88 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))) (List.Mem.head _) (by decide +kernel) HEq.rfl) <|
  Sim.cons (step_nullaryH q_cst (by decide +kernel) HEq.rfl) <|
  Sim.cons (step_unaryH q_cst q_v89 (List.Mem.head _) (by decide +kernel) HEq.rfl) <|
  Sim.cons (step_binaryH q_v89 q_v88 q_v90 (List.Mem.head _) (List.Mem.tail _ (List.Mem.tail _ (List.Mem.head _))) (by decide +kernel) HEq.rfl) <|
  Sim.consA Cert.KernelIdeal.main_v91 rfl (by decide +kernel) <|
  Sim.nil (by decide +kernel)

end Cert.Bridge

end
-- ==== Proof.SimTail1.lean ====
import proofs.«175666_j17377437679648_2_alg».proof.Proof.SimRho
import proofs.«175666_j17377437679648_2_alg».proof.Proof.SimStepsH

set_option maxRecDepth 8192

/-! # Piece 1 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail1 : Sim (τA := Cert.KernelIdeal.τ) (τB := Cert.ReferenceIdeal.τ) (Val := Elt F) ρTail0
    Cert.KernelIdeal.Hand.part1_ops1_rest Cert.ReferenceIdeal.Hand.rT1 ρT1 :=
  Sim.cons (step_nullaryH q_c_22 (by decide +kernel) HEq.rfl) <|
  Sim.cons (step_unaryH q_c_22 q_v94 (List.Mem.head _) (by decide +kernel) HEq.rfl) <|
  Sim.nil (by decide +kernel)

end Cert.Bridge

end
-- ==== Proof.SimTail2.lean ====
import proofs.«175666_j17377437679648_2_alg».proof.Proof.SimRho
import proofs.«175666_j17377437679648_2_alg».proof.Proof.SimStepsH

set_option maxRecDepth 8192

/-! # Piece 2 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail2 : Sim (τA := Cert.KernelIdeal.τ) (τB := Cert.ReferenceIdeal.τ) (Val := Elt F) ρT1
    Cert.KernelIdeal.Gen.main_part2_ops0 Cert.ReferenceIdeal.Hand.rT2 ρT2 :=
  Sim.cons (step_nullaryH q_c_23 (by decide +kernel) HEq.rfl) <|
  Sim.cons (step_unaryH q_c_23 q_v95 (List.Mem.head _) (by decide +kernel) HEq.rfl) <|
  Sim.cons (step_unaryH q_arg9 q_v96 (List.Mem.tail _ (List.Mem.tail _ (List.Mem.tail _ (List.Mem.tail _ (List.Mem.tail _ (List.Mem.head _)))))) (by decide +kernel) HEq.rfl) <|
  Sim.cons (step_ternaryH q_v95 q_v96 q_v94 q_v97 (List.Mem.tail _ (List.Mem.head _)) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (by decide +kernel) HEq.rfl) <|
  Sim.cons (step_nullaryH q_c_24 (by decide +kernel) HEq.rfl) <|
  Sim.cons (step_unaryH q_c_24 q_v98 (List.Mem.head _) (by decide +kernel) HEq.rfl) <|
  Sim.nil (by decide +kernel)

end Cert.Bridge

end
-- ==== Proof.SimTail3.lean ====
import proofs.«175666_j17377437679648_2_alg».proof.Proof.SimRho
import proofs.«175666_j17377437679648_2_alg».proof.Proof.SimStepsH

set_option maxRecDepth 8192

/-! # Piece 3 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail3 : Sim (τA := Cert.KernelIdeal.τ) (τB := Cert.ReferenceIdeal.τ) (Val := Elt F) ρT2
    Cert.KernelIdeal.Gen.main_part2_ops1 Cert.ReferenceIdeal.Hand.rT3 ρT3 :=
  Sim.cons (step_nullaryH q_call1_call0_c (by decide +kernel) HEq.rfl) <|
  Sim.cons (step_unaryH q_call1_call0_c q_call1_call0_v0 (List.Mem.head _) (by decide +kernel) HEq.rfl) <|
  Sim.cons (step_binaryH q_v97 q_call1_call0_v0 q_v99 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (List.Mem.head _) (by decide +kernel) HEq.rfl) <|
  Sim.nil (by decide +kernel)

end Cert.Bridge

end
-- ==== Proof.SimTail4.lean ====
import proofs.«175666_j17377437679648_2_alg».proof.Proof.SimRho
import proofs.«175666_j17377437679648_2_alg».proof.Proof.SimStepsH

set_option maxRecDepth 8192

/-! # Piece 4 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail4 : Sim (τA := Cert.KernelIdeal.τ) (τB := Cert.ReferenceIdeal.τ) (Val := Elt F) ρT3
    Cert.KernelIdeal.Gen.main_part2_ops2 Cert.ReferenceIdeal.Hand.rT4 ρT4 :=
  Sim.cons (step_binaryH q_v98 q_v99 q_v100 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))) (by decide +kernel) HEq.rfl) <|
  Sim.cons (step_unaryH q_arg11 q_v101 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))) (by decide +kernel) HEq.rfl) <|
  Sim.cons (step_reshape q_v101 q_v102 (List.Mem.head _) (by decide +kernel)) <|
  Sim.cons (step_nullaryH q_c_25 (by decide +kernel) HEq.rfl) <|
  Sim.cons (step_unaryH q_c_25 q_v103 (List.Mem.head _) (by decide +kernel) HEq.rfl) <|
  Sim.cons (step_binaryH q_v102 q_v103 q_v104 (List.Mem.tail _ (List.Mem.tail _ (List.Mem.head _))) (List.Mem.head _) (by decide +kernel) HEq.rfl) <|
  Sim.cons (step_nullaryH q_c_26 (by decide +kernel) HEq.rfl) <|
  Sim.cons (step_unaryH q_c_26 q_v105 (List.Mem.head _) (by decide +kernel) HEq.rfl) <|
  Sim.cons (step_binaryH q_v102 q_v105 q_v106 (List.Mem.tail _ (List.Mem.tail _ (List.Mem.tail _ (List.Mem.tail _ (List.Mem.tail _ (List.Mem.head _)))))) (List.Mem.head _) (by decide +kernel) HEq.rfl) <|
  Sim.cons (step_ternaryH q_v104 q_v106 q_v102 q_v107 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v107 q_v108 (List.Mem.head _) (by decide +kernel) HEq.rfl) <|
  Sim.cons (step_binaryH q_arg9 q_v108 q_v109 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (List.Mem.head _) (by decide +kernel) HEq.rfl) <|
  Sim.cons (step_unaryH q_arg11 q_v110 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))) (by decide +kernel) HEq.rfl) <|
  Sim.cons (step_reshape q_v110 q_v111 (List.Mem.head _) (by decide +kernel)) <|
  Sim.cons (step_nullaryH q_c_27 (by decide +kernel) HEq.rfl) <|
  Sim.cons (step_unaryH q_c_27 q_v112 (List.Mem.head _) (by decide +kernel) HEq.rfl) <|
  Sim.cons (step_binaryH q_v109 q_v112 q_v113 (List.Mem.tail _ (List.Mem.tail _ (List.Mem.tail _ (List.Mem.tail _ (List.Mem.head _))))) (List.Mem.head _) (by decide +kernel) HEq.rfl) <|
  Sim.cons (step_nullaryH q_c_28 (by decide +kernel) HEq.rfl) <|
  Sim.cons (step_unaryH q_c_28 q_v114 (List.Mem.head _) (by decide +kernel) HEq.rfl) <|
  Sim.cons (step_binaryH q_v109 q_v114 q_v115 (List.Mem.tail _ (List.Mem.tail _ (List.Mem.tail _ (List.Mem.tail _ (List.Mem.tail _ (List.Mem.tail _ (List.Mem.tail _ (List.Mem.head _)))))))) (List.Mem.head _) (by decide +kernel) HEq.rfl) <|
  Sim.cons (step_ternaryH q_v113 q_v115 q_v109 q_v116 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v116 q_v117 (List.Mem.head _) (by decide +kernel) HEq.rfl) <|
  Sim.cons (step_binaryH q_v100 q_v117 q_v118 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))) (List.Mem.head _) (by decide +kernel) HEq.rfl) <|
  Sim.cons (step_binaryH q_v111 q_v118 q_v119 (List.Mem.tail _ (List.Mem.tail _ (List.Mem.tail _ (List.Mem.tail _ (List.Mem.tail _ (List.Mem.tail _ (List.Mem.tail _ (List.Mem.tail _ (List.Mem.tail _ (List.Mem.head _)))))))))) (List.Mem.head _) (by decide +kernel) HEq.rfl) <|
  Sim.cons (step_unaryH q_arg11 q_v120 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))) (by decide +kernel) HEq.rfl) <|
  Sim.cons (step_reshape q_v120 q_v121 (List.Mem.head _) (by decide +kernel)) <|
  Sim.cons (step_unaryH q_arg11 q_v122 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))) (by decide +kernel) HEq.rfl) <|
  Sim.cons (step_reshape q_v122 q_v123 (List.Mem.head _) (by decide +kernel)) <|
  Sim.cons (step_nullaryH q_c_29 (by decide +kernel) HEq.rfl) <|
  Sim.cons (step_unaryH q_c_29 q_v124 (List.Mem.head _) (by decide +kernel) HEq.rfl) <|
  Sim.cons (step_binaryH q_v123 q_v124 q_v125 (List.Mem.tail _ (List.Mem.tail _ (List.Mem.head _))) (List.Mem.head _) (by decide +kernel) HEq.rfl) <|
  Sim.cons (step_nullaryH q_c_30 (by decide +kernel) HEq.rfl) <|
  Sim.cons (step_unaryH q_c_30 q_v126 (List.Mem.head _) (by decide +kernel) HEq.rfl) <|
  Sim.cons (step_binaryH q_v123 q_v126 q_v127 (List.Mem.tail _ (List.Mem.tail _ (List.Mem.tail _ (List.Mem.tail _ (List.Mem.tail _ (List.Mem.head _)))))) (List.Mem.head _) (by decide +kernel) HEq.rfl) <|
  Sim.cons (step_ternaryH q_v125 q_v127 q_v123 q_v128 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v128 q_v129 (List.Mem.head _) (by decide +kernel) HEq.rfl) <|
  Sim.cons (step_binaryH q_arg9 q_v129 q_v130 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))) (List.Mem.head _) (by decide +kernel) HEq.rfl) <|
  Sim.cons (step_nullaryH q_c_31 (by decide +kernel) HEq.rfl) <|
  Sim.cons (step_unaryH q_c_31 q_v131 (List.Mem.head _) (by decide +kernel) HEq.rfl) <|
  Sim.cons (step_binaryH q_v130 q_v131 q_v132 (List.Mem.tail _ (List.Mem.tail _ (List.Mem.head _))) (List.Mem.head _) (by decide +kernel) HEq.rfl) <|
  Sim.cons (step_nullaryH q_c_32 (by decide +kernel) HEq.rfl) <|
  Sim.cons (step_unaryH q_c_32 q_v133 (List.Mem.head _) (by decide +kernel) HEq.rfl) <|
  Sim.cons (step_binaryH q_v130 q_v133 q_v134 (List.Mem.tail _ (List.Mem.tail _ (List.Mem.tail _ (List.Mem.tail _ (List.Mem.tail _ (List.Mem.head _)))))) (List.Mem.head _) (by decide +kernel) HEq.rfl) <|
  Sim.cons (step_ternaryH q_v132 q_v134 q_v130 q_v135 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v135 q_v136 (List.Mem.head _) (by decide +kernel) HEq.rfl) <|
  Sim.cons (step_binaryH q_v100 q_v136 q_v137 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))) (List.Mem.head _) (by decide +kernel) HEq.rfl) <|
  Sim.cons (step_binaryH q_v121 q_v137 q_v138 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (List.Mem.head _) (by decide +kernel) HEq.rfl) <|
  Sim.cons (step_nullaryH q_c_33 (by decide +kernel) HEq.rfl) <|
  Sim.cons (step_unaryH q_c_33 q_v139 (List.Mem.head _) (by decide +kernel) HEq.rfl) <|
  Sim.cons (step_binaryH q_v109 q_v139 q_v140 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))) (List.Mem.head _) (by decide +kernel) HEq.rfl) <|
  Sim.cons (step_nullaryH q_c_34 (by decide +kernel) HEq.rfl) <|
  Sim.cons (step_unaryH q_c_34 q_v141 (List.Mem.head _) (by decide +kernel) HEq.rfl) <|
  Sim.cons (step_binaryH q_v109 q_v141 q_v142 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))) (List.Mem.head _) (by decide +kernel) HEq.rfl) <|
  Sim.nil (by decide +kernel)

end Cert.Bridge

end
-- ==== Proof.SimTail5.lean ====
import proofs.«175666_j17377437679648_2_alg».proof.Proof.SimRho
import proofs.«175666_j17377437679648_2_alg».proof.Proof.SimStepsH

set_option maxRecDepth 8192

/-! # Piece 5 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail5 : Sim (τA := Cert.KernelIdeal.τ) (τB := Cert.ReferenceIdeal.τ) (Val := Elt F) ρT4
    Cert.KernelIdeal.Gen.main_part3_ops0 Cert.ReferenceIdeal.Hand.rT5 ρT5 :=
  Sim.cons (step_ternaryH q_v140 q_v142 q_v109 q_v143 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (List.Mem.tail _ (List.Mem.tail _ (List.Mem.tail _ (List.Mem.tail _ (List.Mem.tail _ (List.Mem.head _)))))) (by decide +kernel) HEq.rfl) <|
  Sim.cons (step_nullaryH q_c_35 (by decide +kernel) HEq.rfl) <|
  Sim.cons (step_unaryH q_c_35 q_v144 (List.Mem.head _) (by decide +kernel) HEq.rfl) <|
  Sim.cons (step_binaryH q_v119 q_v144 q_v145 (List.Mem.tail _ (List.Mem.tail _ (List.Mem.tail _ (List.Mem.tail _ (List.Mem.tail _ (List.Mem.tail _ (List.Mem.tail _ (List.Mem.head _)))))))) (List.Mem.head _) (by decide +kernel) HEq.rfl) <|
  Sim.cons (step_nullaryH q_c_36 (by decide +kernel) HEq.rfl) <|
  Sim.cons (step_unaryH q_c_36 q_v146 (List.Mem.head _) (by decide +kernel) HEq.rfl) <|
  Sim.cons (step_binaryH q_v119 q_v146 q_v147 (List.Mem.tail _ (List.Mem.tail _ (List.Mem.tail _ (List.Mem.tail _ (List.Mem.tail _ (List.Mem.tail _ (List.Mem.tail _ (List.Mem.tail _ (List.Mem.tail _ (List.Mem.tail _ (List.Mem.head _))))))))))) (List.Mem.head _) (by decide +kernel) HEq.rfl) <|
  Sim.cons (step_ternaryH q_v145 q_v147 q_v119 q_v148 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))) (by decide +kernel) HEq.rfl) <|
  Sim.cons (step_nullaryH q_c_37 (by decide +kernel) HEq.rfl) <|
  Sim.cons (step_unaryH q_c_37 q_v149 (List.Mem.head _) (by decide +kernel) HEq.rfl) <|
  Sim.cons (step_binaryH q_v138 q_v149 q_v150 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))) (List.Mem.head _) (by decide +kernel) HEq.rfl) <|
  Sim.cons (step_nullaryH q_c_38 (by decide +kernel) HEq.rfl) <|
  Sim.cons (step_unaryH q_c_38 q_v151 (List.Mem.head _) (by decide +kernel) HEq.rfl) <|
  Sim.cons (step_binaryH q_v138 q_v151 q_v152 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))) (List.Mem.head _) (by decide +kernel) HEq.rfl) <|
  Sim.cons (step_ternaryH q_v150 q_v152 q_v138 q_v153 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))) (by decide +kernel) HEq.rfl) <|
  Sim.cons (step_unaryH q_v143 q_v154 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (by decide +kernel) HEq.rfl) <|
  Sim.cons (step_unaryH q_v148 q_v155 (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v153 q_v156 (List.Mem.tail _ (List.Mem.tail _ (List.Mem.head _))) (by decide +kernel) HEq.rfl) <|
  Sim.cons (step_nary3 q_v154 q_v155 q_v156 q_v157 (List.Mem.tail _ (List.Mem.tail _ (List.Mem.head _))) (List.Mem.tail _ (List.Mem.head _)) (List.Mem.head _) (by decide +kernel) (fun _ => rfl)) <|
  Sim.cons (step_binaryH q_v93 q_v157 q_v158 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))) (List.Mem.head _) (by decide +kernel) HEq.rfl) <|
  Sim.cons (step_nullaryH q_v159 (by decide +kernel) HEq.rfl) <|
  Sim.cons (step_unaryH q_v159 q_v160 (List.Mem.head _) (by decide +kernel) HEq.rfl) <|
  Sim.cons (step_reshape q_v160 q_v161 (List.Mem.head _) (by decide +kernel)) <|
  Sim.cons (step_unaryH q_v161 q_v162 (List.Mem.head _) (by decide +kernel) HEq.rfl) <|
  Sim.cons (step_reshape q_v162 q_v163 (List.Mem.head _) (by decide +kernel)) <|
  Sim.cons (step_binaryH q_arg12 q_v163 q_v164 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))) (List.Mem.head _) (by decide +kernel) HEq.rfl) <|
  Sim.cons (step_nullaryH q_c_39 (by decide +kernel) HEq.rfl) <|
  Sim.cons (step_unaryH q_c_39 q_v165 (List.Mem.head _) (by decide +kernel) HEq.rfl) <|
  Sim.cons (step_binaryH q_arg13 q_v165 q_v166 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))) (List.Mem.head _) (by decide +kernel) HEq.rfl) <|
  Sim.cons (step_nullaryH q_c_40 (by decide +kernel) HEq.rfl) <|
  Sim.cons (step_unaryH q_c_40 q_v167 (List.Mem.head _) (by decide +kernel) HEq.rfl) <|
  Sim.cons (step_binaryH q_v166 q_v167 q_v168 (List.Mem.tail _ (List.Mem.tail _ (List.Mem.head _))) (List.Mem.head _) (by decide +kernel) HEq.rfl) <|
  Sim.cons (step_nullaryH q_c_41 (by decide +kernel) HEq.rfl) <|
  Sim.cons (step_unaryH q_c_41 q_v169 (List.Mem.head _) (by decide +kernel) HEq.rfl) <|
  Sim.cons (step_binaryH q_v168 q_v169 q_v170 (List.Mem.tail _ (List.Mem.tail _ (List.Mem.head _))) (List.Mem.head _) (by decide +kernel) HEq.rfl) <|
  Sim.cons (step_nullaryH q_c_42 (by decide +kernel) HEq.rfl) <|
  Sim.cons (step_unaryH q_c_42 q_v171 (List.Mem.head _) (by decide +kernel) HEq.rfl) <|
  Sim.cons (step_binaryH q_v168 q_v171 q_v172 (List.Mem.tail _ (List.Mem.tail _ (List.Mem.tail _ (List.Mem.tail _ (List.Mem.tail _ (List.Mem.head _)))))) (List.Mem.head _) (by decide +kernel) HEq.rfl) <|
  Sim.cons (step_ternaryH q_v170 q_v172 q_v168 q_v173 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v173 q_v174 (List.Mem.head _) (by decide +kernel) HEq.rfl) <|
  Sim.cons (step_binaryH q_arg6 q_v174 q_v175 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))) (List.Mem.head _) (by decide +kernel) HEq.rfl) <|
  Sim.cons (step_nullaryH q_c_43 (by decide +kernel) HEq.rfl) <|
  Sim.cons (step_unaryH q_c_43 q_v176 (List.Mem.head _) (by decide +kernel) HEq.rfl) <|
  Sim.cons (step_nullaryH q_c_44 (by decide +kernel) HEq.rfl) <|
  Sim.cons (step_unaryH q_c_44 q_v177 (List.Mem.head _) (by decide +kernel) HEq.rfl) <|
  Sim.cons (step_unaryH q_arg8 q_v178 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))))))))))) (by decide +kernel) HEq.rfl) <|
  Sim.cons (step_ternaryH q_v177 q_v178 q_v176 q_v179 (List.Mem.tail _ (List.Mem.head _)) (List.Mem.head _) (List.Mem.tail _ (List.Mem.tail _ (List.Mem.tail _ (List.Mem.head _)))) (by decide +kernel) HEq.rfl) <|
  Sim.cons (step_nullaryH q_c_45 (by decide +kernel) HEq.rfl) <|
  Sim.cons (step_unaryH q_c_45 q_v180 (List.Mem.head _) (by decide +kernel) HEq.rfl) <|
  Sim.nil (by decide +kernel)

end Cert.Bridge

end
-- ==== Proof.SimTail6.lean ====
import proofs.«175666_j17377437679648_2_alg».proof.Proof.SimRho
import proofs.«175666_j17377437679648_2_alg».proof.Proof.SimStepsH

set_option maxRecDepth 8192

/-! # Piece 6 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail6 : Sim (τA := Cert.KernelIdeal.τ) (τB := Cert.ReferenceIdeal.τ) (Val := Elt F) ρT5
    Cert.KernelIdeal.Gen.main_part3_ops1 Cert.ReferenceIdeal.Hand.rT6 ρT6 :=
  Sim.cons (step_nullaryH q_call2_call0_c (by decide +kernel) HEq.rfl) <|
  Sim.cons (step_unaryH q_call2_call0_c q_call2_call0_v0 (List.Mem.head _) (by decide +kernel) HEq.rfl) <|
  Sim.cons (step_binaryH q_v179 q_call2_call0_v0 q_v181 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (List.Mem.head _) (by decide +kernel) HEq.rfl) <|
  Sim.nil (by decide +kernel)

end Cert.Bridge

end
-- ==== Proof.SimTail7.lean ====
import proofs.«175666_j17377437679648_2_alg».proof.Proof.SimRho
import proofs.«175666_j17377437679648_2_alg».proof.Proof.SimStepsH

set_option maxRecDepth 8192

/-! # Piece 7 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail7 : Sim (τA := Cert.KernelIdeal.τ) (τB := Cert.ReferenceIdeal.τ) (Val := Elt F) ρT6
    Cert.KernelIdeal.Gen.main_part3_ops2 Cert.ReferenceIdeal.Hand.rT7 ρT7 :=
  Sim.cons (step_binaryH q_v180 q_v181 q_v182 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (by decide +kernel) HEq.rfl) <|
  Sim.cons (step_unaryH q_v164 q_v183 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))) (by decide +kernel) HEq.rfl) <|
  Sim.cons (step_reshape q_v183 q_v184 (List.Mem.head _) (by decide +kernel)) <|
  Sim.cons (step_nullaryH q_c_46 (by decide +kernel) HEq.rfl) <|
  Sim.cons (step_unaryH q_c_46 q_v185 (List.Mem.head _) (by decide +kernel) HEq.rfl) <|
  Sim.cons (step_binaryH q_v184 q_v185 q_v186 (List.Mem.tail _ (List.Mem.tail _ (List.Mem.head _))) (List.Mem.head _) (by decide +kernel) HEq.rfl) <|
  Sim.cons (step_nullaryH q_c_47 (by decide +kernel) HEq.rfl) <|
  Sim.cons (step_unaryH q_c_47 q_v187 (List.Mem.head _) (by decide +kernel) HEq.rfl) <|
  Sim.cons (step_binaryH q_v184 q_v187 q_v188 (List.Mem.tail _ (List.Mem.tail _ (List.Mem.tail _ (List.Mem.tail _ (List.Mem.tail _ (List.Mem.head _)))))) (List.Mem.head _) (by decide +kernel) HEq.rfl) <|
  Sim.cons (step_ternaryH q_v186 q_v188 q_v184 q_v189 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.nil (by decide +kernel)

end Cert.Bridge

end
-- ==== Proof.SimTail8.lean ====
import proofs.«175666_j17377437679648_2_alg».proof.Proof.SimRho
import proofs.«175666_j17377437679648_2_alg».proof.Proof.SimStepsH

set_option maxRecDepth 8192

/-! # Piece 8 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail8 : Sim (τA := Cert.KernelIdeal.τ) (τB := Cert.ReferenceIdeal.τ) (Val := Elt F) ρT7
    Cert.KernelIdeal.Gen.main_part4_ops0 Cert.ReferenceIdeal.Hand.rT8 ρT8 :=
  Sim.cons (step_unaryH q_v189 q_v190 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (by decide +kernel) HEq.rfl) <|
  Sim.cons (step_binaryH q_arg8 q_v190 q_v191 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))) (List.Mem.head _) (by decide +kernel) HEq.rfl) <|
  Sim.cons (step_unaryH q_v164 q_v192 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))) (by decide +kernel) HEq.rfl) <|
  Sim.cons (step_reshape q_v192 q_v193 (List.Mem.head _) (by decide +kernel)) <|
  Sim.cons (step_nullaryH q_c_48 (by decide +kernel) HEq.rfl) <|
  Sim.cons (step_unaryH q_c_48 q_v194 (List.Mem.head _) (by decide +kernel) HEq.rfl) <|
  Sim.cons (step_binaryH q_v191 q_v194 q_v195 (List.Mem.tail _ (List.Mem.tail _ (List.Mem.tail _ (List.Mem.tail _ (List.Mem.head _))))) (List.Mem.head _) (by decide +kernel) HEq.rfl) <|
  Sim.cons (step_nullaryH q_c_49 (by decide +kernel) HEq.rfl) <|
  Sim.cons (step_unaryH q_c_49 q_v196 (List.Mem.head _) (by decide +kernel) HEq.rfl) <|
  Sim.cons (step_binaryH q_v191 q_v196 q_v197 (List.Mem.tail _ (List.Mem.tail _ (List.Mem.tail _ (List.Mem.tail _ (List.Mem.tail _ (List.Mem.tail _ (List.Mem.tail _ (List.Mem.head _)))))))) (List.Mem.head _) (by decide +kernel) HEq.rfl) <|
  Sim.cons (step_ternaryH q_v195 q_v197 q_v191 q_v198 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v198 q_v199 (List.Mem.head _) (by decide +kernel) HEq.rfl) <|
  Sim.cons (step_binaryH q_v182 q_v199 q_v200 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))) (List.Mem.head _) (by decide +kernel) HEq.rfl) <|
  Sim.cons (step_binaryH q_v193 q_v200 q_v201 (List.Mem.tail _ (List.Mem.tail _ (List.Mem.tail _ (List.Mem.tail _ (List.Mem.tail _ (List.Mem.tail _ (List.Mem.tail _ (List.Mem.tail _ (List.Mem.tail _ (List.Mem.head _)))))))))) (List.Mem.head _) (by decide +kernel) HEq.rfl) <|
  Sim.cons (step_unaryH q_v164 q_v202 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))) (by decide +kernel) HEq.rfl) <|
  Sim.cons (step_reshape q_v202 q_v203 (List.Mem.head _) (by decide +kernel)) <|
  Sim.cons (step_unaryH q_v164 q_v204 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))) (by decide +kernel) HEq.rfl) <|
  Sim.cons (step_reshape q_v204 q_v205 (List.Mem.head _) (by decide +kernel)) <|
  Sim.cons (step_nullaryH q_c_50 (by decide +kernel) HEq.rfl) <|
  Sim.cons (step_unaryH q_c_50 q_v206 (List.Mem.head _) (by decide +kernel) HEq.rfl) <|
  Sim.cons (step_binaryH q_v205 q_v206 q_v207 (List.Mem.tail _ (List.Mem.tail _ (List.Mem.head _))) (List.Mem.head _) (by decide +kernel) HEq.rfl) <|
  Sim.cons (step_nullaryH q_c_51 (by decide +kernel) HEq.rfl) <|
  Sim.cons (step_unaryH q_c_51 q_v208 (List.Mem.head _) (by decide +kernel) HEq.rfl) <|
  Sim.cons (step_binaryH q_v205 q_v208 q_v209 (List.Mem.tail _ (List.Mem.tail _ (List.Mem.tail _ (List.Mem.tail _ (List.Mem.tail _ (List.Mem.head _)))))) (List.Mem.head _) (by decide +kernel) HEq.rfl) <|
  Sim.cons (step_ternaryH q_v207 q_v209 q_v205 q_v210 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v210 q_v211 (List.Mem.head _) (by decide +kernel) HEq.rfl) <|
  Sim.cons (step_binaryH q_arg8 q_v211 q_v212 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))) (List.Mem.head _) (by decide +kernel) HEq.rfl) <|
  Sim.cons (step_nullaryH q_c_52 (by decide +kernel) HEq.rfl) <|
  Sim.cons (step_unaryH q_c_52 q_v213 (List.Mem.head _) (by decide +kernel) HEq.rfl) <|
  Sim.cons (step_binaryH q_v212 q_v213 q_v214 (List.Mem.tail _ (List.Mem.tail _ (List.Mem.head _))) (List.Mem.head _) (by decide +kernel) HEq.rfl) <|
  Sim.cons (step_nullaryH q_c_53 (by decide +kernel) HEq.rfl) <|
  Sim.cons (step_unaryH q_c_53 q_v215 (List.Mem.head _) (by decide +kernel) HEq.rfl) <|
  Sim.cons (step_binaryH q_v212 q_v215 q_v216 (List.Mem.tail _ (List.Mem.tail _ (List.Mem.tail _ (List.Mem.tail _ (List.Mem.tail _ (List.Mem.head _)))))) (List.Mem.head _) (by decide +kernel) HEq.rfl) <|
  Sim.cons (step_ternaryH q_v214 q_v216 q_v212 q_v217 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v217 q_v218 (List.Mem.head _) (by decide +kernel) HEq.rfl) <|
  Sim.cons (step_binaryH q_v182 q_v218 q_v219 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))))) (List.Mem.head _) (by decide +kernel) HEq.rfl) <|
  Sim.cons (step_binaryH q_v203 q_v219 q_v220 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (List.Mem.head _) (by decide +kernel) HEq.rfl) <|
  Sim.cons (step_nullaryH q_cst_54 (by decide +kernel) HEq.rfl) <|
  Sim.cons (step_unaryH q_cst_54 q_v221 (List.Mem.head _) (by decide +kernel) HEq.rfl) <|
  Sim.cons (step_nullaryH q_c_55 (by decide +kernel) HEq.rfl) <|
  Sim.cons (step_unaryH q_c_55 q_v222 (List.Mem.head _) (by decide +kernel) HEq.rfl) <|
  Sim.cons (step_binaryH q_v191 q_v222 q_v223 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))) (List.Mem.head _) (by decide +kernel) HEq.rfl) <|
  Sim.cons (step_nullaryH q_c_56 (by decide +kernel) HEq.rfl) <|
  Sim.cons (step_unaryH q_c_56 q_v224 (List.Mem.head _) (by decide +kernel) HEq.rfl) <|
  Sim.cons (step_binaryH q_v191 q_v224 q_v225 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))) (List.Mem.head _) (by decide +kernel) HEq.rfl) <|
  Sim.cons (step_ternaryH q_v223 q_v225 q_v191 q_v226 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))) (by decide +kernel) HEq.rfl) <|
  Sim.cons (step_nullaryH q_c_57 (by decide +kernel) HEq.rfl) <|
  Sim.cons (step_unaryH q_c_57 q_v227 (List.Mem.head _) (by decide +kernel) HEq.rfl) <|
  Sim.cons (step_binaryH q_v201 q_v227 q_v228 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))) (List.Mem.head _) (by decide +kernel) HEq.rfl) <|
  Sim.cons (step_nullaryH q_c_58 (by decide +kernel) HEq.rfl) <|
  Sim.cons (step_unaryH q_c_58 q_v229 (List.Mem.head _) (by decide +kernel) HEq.rfl) <|
  Sim.cons (step_binaryH q_v201 q_v229 q_v230 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))) (List.Mem.head _) (by decide +kernel) HEq.rfl) <|
  Sim.cons (step_ternaryH q_v228 q_v230 q_v201 q_v231 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))) (by decide +kernel) HEq.rfl) <|
  Sim.cons (step_nullaryH q_c_59 (by decide +kernel) HEq.rfl) <|
  Sim.cons (step_unaryH q_c_59 q_v232 (List.Mem.head _) (by decide +kernel) HEq.rfl) <|
  Sim.cons (step_binaryH q_v220 q_v232 q_v233 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (List.Mem.head _) (by decide +kernel) HEq.rfl) <|
  Sim.cons (step_nullaryH q_c_60 (by decide +kernel) HEq.rfl) <|
  Sim.cons (step_unaryH q_c_60 q_v234 (List.Mem.head _) (by decide +kernel) HEq.rfl) <|
  Sim.cons (step_binaryH q_v220 q_v234 q_v235 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))) (List.Mem.head _) (by decide +kernel) HEq.rfl) <|
  Sim.cons (step_ternaryH q_v233 q_v235 q_v220 q_v236 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))) (by decide +kernel) HEq.rfl) <|
  Sim.nil (by decide +kernel)

end Cert.Bridge

end
-- ==== Proof.SimTail9.lean ====
import proofs.«175666_j17377437679648_2_alg».proof.Proof.SimRho
import proofs.«175666_j17377437679648_2_alg».proof.Proof.SimStepsH

set_option maxRecDepth 8192

/-! # Piece 9 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail9 : Sim (τA := Cert.KernelIdeal.τ) (τB := Cert.ReferenceIdeal.τ) (Val := Elt F) ρT8
    Cert.KernelIdeal.Gen.main_part5_ops0 Cert.ReferenceIdeal.Hand.rT9 ρT9 :=
  Sim.cons (step_unaryH q_v226 q_v237 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (by decide +kernel) HEq.rfl) <|
  Sim.cons (step_unaryH q_v231 q_v238 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (by decide +kernel) HEq.rfl) <|
  Sim.cons (step_unaryH q_v236 q_v239 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (by decide +kernel) HEq.rfl) <|
  Sim.cons (step_nary3 q_v237 q_v238 q_v239 q_v240 (List.Mem.tail _ (List.Mem.tail _ (List.Mem.head _))) (List.Mem.tail _ (List.Mem.head _)) (List.Mem.head _) (by decide +kernel) (fun _ => rfl)) <|
  Sim.cons (step_ternaryH q_v221 q_v240 q_v175 q_v241 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))) (by decide +kernel) HEq.rfl) <|
  Sim.cons (step_nullaryH q_c_61 (by decide +kernel) HEq.rfl) <|
  Sim.cons (step_unaryH q_c_61 q_v242 (List.Mem.head _) (by decide +kernel) HEq.rfl) <|
  Sim.cons (step_binaryH q_v18 q_v242 q_v243 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (List.Mem.head _) (by decide +kernel) HEq.rfl) <|
  Sim.cons (step_nullaryH q_c_62 (by decide +kernel) HEq.rfl) <|
  Sim.cons (step_unaryH q_c_62 q_v244 (List.Mem.head _) (by decide +kernel) HEq.rfl) <|
  Sim.cons (step_binaryH q_v18 q_v244 q_v245 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))) (List.Mem.head _) (by decide +kernel) HEq.rfl) <|
  Sim.cons (step_ternaryH q_v243 q_v245 q_v18 q_v246 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))) (by decide +kernel) HEq.rfl) <|
  Sim.cons (step_nullaryH q_c_63 (by decide +kernel) HEq.rfl) <|
  Sim.cons (step_unaryH q_c_63 q_v247 (List.Mem.head _) (by decide +kernel) HEq.rfl) <|
  Sim.cons (step_binaryH q_v28 q_v247 q_v248 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))) (List.Mem.head _) (by decide +kernel) HEq.rfl) <|
  Sim.cons (step_nullaryH q_c_64 (by decide +kernel) HEq.rfl) <|
  Sim.cons (step_unaryH q_c_64 q_v249 (List.Mem.head _) (by decide +kernel) HEq.rfl) <|
  Sim.cons (step_binaryH q_v28 q_v249 q_v250 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))) (List.Mem.head _) (by decide +kernel) HEq.rfl) <|
  Sim.cons (step_ternaryH q_v248 q_v250 q_v28 q_v251 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))) (by decide +kernel) HEq.rfl) <|
  Sim.cons (step_nullaryH q_c_65 (by decide +kernel) HEq.rfl) <|
  Sim.cons (step_unaryH q_c_65 q_v252 (List.Mem.head _) (by decide +kernel) HEq.rfl) <|
  Sim.cons (step_binaryH q_v47 q_v252 q_v253 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))) (List.Mem.head _) (by decide +kernel) HEq.rfl) <|
  Sim.cons (step_nullaryH q_c_66 (by decide +kernel) HEq.rfl) <|
  Sim.cons (step_unaryH q_c_66 q_v254 (List.Mem.head _) (by decide +kernel) HEq.rfl) <|
  Sim.cons (step_binaryH q_v47 q_v254 q_v255 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))) (List.Mem.head _) (by decide +kernel) HEq.rfl) <|
  Sim.cons (step_ternaryH q_v253 q_v255 q_v47 q_v256 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))) (by decide +kernel) HEq.rfl) <|
  Sim.cons (step_unaryH q_v246 q_v257 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (by decide +kernel) HEq.rfl) <|
  Sim.cons (step_unaryH q_v251 q_v258 (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v256 q_v259 (List.Mem.tail _ (List.Mem.tail _ (List.Mem.head _))) (by decide +kernel) HEq.rfl) <|
  Sim.cons (step_nary3 q_v257 q_v258 q_v259 q_v260 (List.Mem.tail _ (List.Mem.tail _ (List.Mem.head _))) (List.Mem.tail _ (List.Mem.head _)) (List.Mem.head _) (by decide +kernel) (fun _ => rfl)) <|
  Sim.cons (step_binaryH q_v241 q_v260 q_v261 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))) (List.Mem.head _) (by decide +kernel) HEq.rfl) <|
  Sim.cons (step_nullaryH q_v262 (by decide +kernel) HEq.rfl) <|
  Sim.cons (step_unaryH q_v262 q_v263 (List.Mem.head _) (by decide +kernel) HEq.rfl) <|
  Sim.cons (step_reshape q_v263 q_v264 (List.Mem.head _) (by decide +kernel)) <|
  Sim.cons (step_unaryH q_v264 q_v265 (List.Mem.head _) (by decide +kernel) HEq.rfl) <|
  Sim.cons (step_reshape q_v265 q_v266 (List.Mem.head _) (by decide +kernel)) <|
  Sim.cons (step_binaryH q_arg14 q_v266 q_v267 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))) (List.Mem.head _) (by decide +kernel) HEq.rfl) <|
  Sim.cons (step_nullaryH q_c_67 (by decide +kernel) HEq.rfl) <|
  Sim.cons (step_unaryH q_c_67 q_v268 (List.Mem.head _) (by decide +kernel) HEq.rfl) <|
  Sim.cons (step_binaryH q_arg15 q_v268 q_v269 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))))) (List.Mem.head _) (by decide +kernel) HEq.rfl) <|
  Sim.cons (step_nullaryH q_c_68 (by decide +kernel) HEq.rfl) <|
  Sim.cons (step_unaryH q_c_68 q_v270 (List.Mem.head _) (by decide +kernel) HEq.rfl) <|
  Sim.cons (step_binaryH q_v269 q_v270 q_v271 (List.Mem.tail _ (List.Mem.tail _ (List.Mem.head _))) (List.Mem.head _) (by decide +kernel) HEq.rfl) <|
  Sim.cons (step_nullaryH q_c_69 (by decide +kernel) HEq.rfl) <|
  Sim.cons (step_unaryH q_c_69 q_v272 (List.Mem.head _) (by decide +kernel) HEq.rfl) <|
  Sim.cons (step_binaryH q_v271 q_v272 q_v273 (List.Mem.tail _ (List.Mem.tail _ (List.Mem.head _))) (List.Mem.head _) (by decide +kernel) HEq.rfl) <|
  Sim.cons (step_nullaryH q_c_70 (by decide +kernel) HEq.rfl) <|
  Sim.cons (step_unaryH q_c_70 q_v274 (List.Mem.head _) (by decide +kernel) HEq.rfl) <|
  Sim.cons (step_binaryH q_v271 q_v274 q_v275 (List.Mem.tail _ (List.Mem.tail _ (List.Mem.tail _ (List.Mem.tail _ (List.Mem.tail _ (List.Mem.head _)))))) (List.Mem.head _) (by decide +kernel) HEq.rfl) <|
  Sim.cons (step_ternaryH q_v273 q_v275 q_v271 q_v276 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v276 q_v277 (List.Mem.head _) (by decide +kernel) HEq.rfl) <|
  Sim.cons (step_binaryH q_arg7 q_v277 q_v278 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))))))) (List.Mem.head _) (by decide +kernel) HEq.rfl) <|
  Sim.cons (step_nullaryH q_c_71 (by decide +kernel) HEq.rfl) <|
  Sim.cons (step_unaryH q_c_71 q_v279 (List.Mem.head _) (by decide +kernel) HEq.rfl) <|
  Sim.cons (step_nullaryH q_c_72 (by decide +kernel) HEq.rfl) <|
  Sim.cons (step_unaryH q_c_72 q_v280 (List.Mem.head _) (by decide +kernel) HEq.rfl) <|
  Sim.cons (step_unaryH q_arg9 q_v281 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))))))))))))))))))))))) (by decide +kernel) HEq.rfl) <|
  Sim.cons (step_ternaryH q_v280 q_v281 q_v279 q_v282 (List.Mem.tail _ (List.Mem.head _)) (List.Mem.head _) (List.Mem.tail _ (List.Mem.tail _ (List.Mem.tail _ (List.Mem.head _)))) (by decide +kernel) HEq.rfl) <|
  Sim.cons (step_nullaryH q_c_73 (by decide +kernel) HEq.rfl) <|
  Sim.cons (step_unaryH q_c_73 q_v283 (List.Mem.head _) (by decide +kernel) HEq.rfl) <|
  Sim.nil (by decide +kernel)

end Cert.Bridge

end
-- ==== Proof.SimTail10.lean ====
import proofs.«175666_j17377437679648_2_alg».proof.Proof.SimRho
import proofs.«175666_j17377437679648_2_alg».proof.Proof.SimStepsH

set_option maxRecDepth 8192

/-! # Piece 10 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail10 : Sim (τA := Cert.KernelIdeal.τ) (τB := Cert.ReferenceIdeal.τ) (Val := Elt F) ρT9
    Cert.KernelIdeal.Gen.main_part6_ops0 Cert.ReferenceIdeal.Hand.rT10 ρT10 :=
  Sim.cons (step_nullaryH q_call3_call0_c (by decide +kernel) HEq.rfl) <|
  Sim.cons (step_unaryH q_call3_call0_c q_call3_call0_v0 (List.Mem.head _) (by decide +kernel) HEq.rfl) <|
  Sim.cons (step_binaryH q_v282 q_call3_call0_v0 q_v284 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))) (List.Mem.head _) (by decide +kernel) HEq.rfl) <|
  Sim.nil (by decide +kernel)

end Cert.Bridge

end
-- ==== Proof.SimTail11.lean ====
import proofs.«175666_j17377437679648_2_alg».proof.Proof.SimRho
import proofs.«175666_j17377437679648_2_alg».proof.Proof.SimStepsH

set_option maxRecDepth 8192

/-! # Piece 11 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail11 : Sim (τA := Cert.KernelIdeal.τ) (τB := Cert.ReferenceIdeal.τ) (Val := Elt F) ρT10
    Cert.KernelIdeal.Gen.main_part6_ops1 Cert.ReferenceIdeal.Hand.rT11 ρT11 :=
  Sim.cons (step_binaryH q_v283 q_v284 q_v285 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))) (by decide +kernel) HEq.rfl) <|
  Sim.cons (step_unaryH q_v267 q_v286 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))) (by decide +kernel) HEq.rfl) <|
  Sim.cons (step_reshape q_v286 q_v287 (List.Mem.head _) (by decide +kernel)) <|
  Sim.cons (step_nullaryH q_c_74 (by decide +kernel) HEq.rfl) <|
  Sim.cons (step_unaryH q_c_74 q_v288 (List.Mem.head _) (by decide +kernel) HEq.rfl) <|
  Sim.cons (step_binaryH q_v287 q_v288 q_v289 (List.Mem.tail _ (List.Mem.tail _ (List.Mem.head _))) (List.Mem.head _) (by decide +kernel) HEq.rfl) <|
  Sim.cons (step_nullaryH q_c_75 (by decide +kernel) HEq.rfl) <|
  Sim.cons (step_unaryH q_c_75 q_v290 (List.Mem.head _) (by decide +kernel) HEq.rfl) <|
  Sim.cons (step_binaryH q_v287 q_v290 q_v291 (List.Mem.tail _ (List.Mem.tail _ (List.Mem.tail _ (List.Mem.tail _ (List.Mem.tail _ (List.Mem.head _)))))) (List.Mem.head _) (by decide +kernel) HEq.rfl) <|
  Sim.cons (step_ternaryH q_v289 q_v291 q_v287 q_v292 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v292 q_v293 (List.Mem.head _) (by decide +kernel) HEq.rfl) <|
  Sim.cons (step_binaryH q_arg9 q_v293 q_v294 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))) (List.Mem.head _) (by decide +kernel) HEq.rfl) <|
  Sim.cons (step_unaryH q_v267 q_v295 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))) (by decide +kernel) HEq.rfl) <|
  Sim.cons (step_reshape q_v295 q_v296 (List.Mem.head _) (by decide +kernel)) <|
  Sim.cons (step_nullaryH q_c_76 (by decide +kernel) HEq.rfl) <|
  Sim.cons (step_unaryH q_c_76 q_v297 (List.Mem.head _) (by decide +kernel) HEq.rfl) <|
  Sim.cons (step_binaryH q_v294 q_v297 q_v298 (List.Mem.tail _ (List.Mem.tail _ (List.Mem.tail _ (List.Mem.tail _ (List.Mem.head _))))) (List.Mem.head _) (by decide +kernel) HEq.rfl) <|
  Sim.cons (step_nullaryH q_c_77 (by decide +kernel) HEq.rfl) <|
  Sim.cons (step_unaryH q_c_77 q_v299 (List.Mem.head _) (by decide +kernel) HEq.rfl) <|
  Sim.cons (step_binaryH q_v294 q_v299 q_v300 (List.Mem.tail _ (List.Mem.tail _ (List.Mem.tail _ (List.Mem.tail _ (List.Mem.tail _ (List.Mem.tail _ (List.Mem.tail _ (List.Mem.head _)))))))) (List.Mem.head _) (by decide +kernel) HEq.rfl) <|
  Sim.cons (step_ternaryH q_v298 q_v300 q_v294 q_v301 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v301 q_v302 (List.Mem.head _) (by decide +kernel) HEq.rfl) <|
  Sim.cons (step_binaryH q_v285 q_v302 q_v303 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))) (List.Mem.head _) (by decide +kernel) HEq.rfl) <|
  Sim.cons (step_binaryH q_v296 q_v303 q_v304 (List.Mem.tail _ (List.Mem.tail _ (List.Mem.tail _ (List.Mem.tail _ (List.Mem.tail _ (List.Mem.tail _ (List.Mem.tail _ (List.Mem.tail _ (List.Mem.tail _ (List.Mem.head _)))))))))) (List.Mem.head _) (by decide +kernel) HEq.rfl) <|
  Sim.cons (step_unaryH q_v267 q_v305 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))) (by decide +kernel) HEq.rfl) <|
  Sim.cons (step_reshape q_v305 q_v306 (List.Mem.head _) (by decide +kernel)) <|
  Sim.cons (step_unaryH q_v267 q_v307 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))) (by decide +kernel) HEq.rfl) <|
  Sim.cons (step_reshape q_v307 q_v308 (List.Mem.head _) (by decide +kernel)) <|
  Sim.cons (step_nullaryH q_c_78 (by decide +kernel) HEq.rfl) <|
  Sim.cons (step_unaryH q_c_78 q_v309 (List.Mem.head _) (by decide +kernel) HEq.rfl) <|
  Sim.cons (step_binaryH q_v308 q_v309 q_v310 (List.Mem.tail _ (List.Mem.tail _ (List.Mem.head _))) (List.Mem.head _) (by decide +kernel) HEq.rfl) <|
  Sim.cons (step_nullaryH q_c_79 (by decide +kernel) HEq.rfl) <|
  Sim.cons (step_unaryH q_c_79 q_v311 (List.Mem.head _) (by decide +kernel) HEq.rfl) <|
  Sim.cons (step_binaryH q_v308 q_v311 q_v312 (List.Mem.tail _ (List.Mem.tail _ (List.Mem.tail _ (List.Mem.tail _ (List.Mem.tail _ (List.Mem.head _)))))) (List.Mem.head _) (by decide +kernel) HEq.rfl) <|
  Sim.cons (step_ternaryH q_v310 q_v312 q_v308 q_v313 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v313 q_v314 (List.Mem.head _) (by decide +kernel) HEq.rfl) <|
  Sim.cons (step_binaryH q_arg9 q_v314 q_v315 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))))) (List.Mem.head _) (by decide +kernel) HEq.rfl) <|
  Sim.cons (step_nullaryH q_c_80 (by decide +kernel) HEq.rfl) <|
  Sim.cons (step_unaryH q_c_80 q_v316 (List.Mem.head _) (by decide +kernel) HEq.rfl) <|
  Sim.cons (step_binaryH q_v315 q_v316 q_v317 (List.Mem.tail _ (List.Mem.tail _ (List.Mem.head _))) (List.Mem.head _) (by decide +kernel) HEq.rfl) <|
  Sim.cons (step_nullaryH q_c_81 (by decide +kernel) HEq.rfl) <|
  Sim.cons (step_unaryH q_c_81 q_v318 (List.Mem.head _) (by decide +kernel) HEq.rfl) <|
  Sim.cons (step_binaryH q_v315 q_v318 q_v319 (List.Mem.tail _ (List.Mem.tail _ (List.Mem.tail _ (List.Mem.tail _ (List.Mem.tail _ (List.Mem.head _)))))) (List.Mem.head _) (by decide +kernel) HEq.rfl) <|
  Sim.cons (step_ternaryH q_v317 q_v319 q_v315 q_v320 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.head _))))))) (by decide +kernel) HEq.rfl) <|
  Sim.cons (step_unaryH q_v320 q_v321 (List.Mem.head _) (by decide +kernel) HEq.rfl) <|
  Sim.cons (step_binaryH q_v285 q_v321 q_v322 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))))) (List.Mem.head _) (by decide +kernel) HEq.rfl) <|
  Sim.cons (step_binaryH q_v306 q_v322 q_v323 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))) (List.Mem.head _) (by decide +kernel) HEq.rfl) <|
  Sim.cons (step_nullaryH q_cst_82 (by decide +kernel) HEq.rfl) <|
  Sim.cons (step_unaryH q_cst_82 q_v324 (List.Mem.head _) (by decide +kernel) HEq.rfl) <|
  Sim.cons (step_nullaryH q_c_83 (by decide +kernel) HEq.rfl) <|
  Sim.cons (step_unaryH q_c_83 q_v325 (List.Mem.head _) (by decide +kernel) HEq.rfl) <|
  Sim.cons (step_binaryH q_v294 q_v325 q_v326 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))) (List.Mem.head _) (by decide +kernel) HEq.rfl) <|
  Sim.cons (step_nullaryH q_c_84 (by decide +kernel) HEq.rfl) <|
  Sim.cons (step_unaryH q_c_84 q_v327 (List.Mem.head _) (by decide +kernel) HEq.rfl) <|
  Sim.cons (step_binaryH q_v294 q_v327 q_v328 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))) (List.Mem.head _) (by decide +kernel) HEq.rfl) <|
  Sim.cons (step_ternaryH q_v326 q_v328 q_v294 q_v329 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))))) (by decide +kernel) HEq.rfl) <|
  Sim.cons (step_nullaryH q_c_85 (by decide +kernel) HEq.rfl) <|
  Sim.cons (step_unaryH q_c_85 q_v330 (List.Mem.head _) (by decide +kernel) HEq.rfl) <|
  Sim.cons (step_binaryH q_v304 q_v330 q_v331 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))) (List.Mem.head _) (by decide +kernel) HEq.rfl) <|
  Sim.nil (by decide +kernel)

end Cert.Bridge

end
-- ==== Proof.SimTail12.lean ====
import proofs.«175666_j17377437679648_2_alg».proof.Proof.SimRho
import proofs.«175666_j17377437679648_2_alg».proof.Proof.SimStepsH

set_option maxRecDepth 8192

/-! # Piece 12 of the last stretch: the two lines compute the same values

Operation by operation: the operands are paired buffers, the function is the same, the written pair is new. At the end the
pairs no later piece reads are dropped. -/

noncomputable section

namespace Cert.Bridge

open Idealize.ShloMosaic Cert.Lib.LineSimulation

variable {F : FTy → Type} [FloatOps F]

set_option maxHeartbeats 1000000 in
theorem simTail12 : Sim (τA := Cert.KernelIdeal.τ) (τB := Cert.ReferenceIdeal.τ) (Val := Elt F) ρT11
    Cert.KernelIdeal.Gen.main_part7_ops0 Cert.ReferenceIdeal.Hand.rT12 ρRes :=
  Sim.cons (step_nullaryH q_c_86 (by decide +kernel) HEq.rfl) <|
  Sim.cons (step_unaryH q_c_86 q_v332 (List.Mem.head _) (by decide +kernel) HEq.rfl) <|
  Sim.cons (step_binaryH q_v304 q_v332 q_v333 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))) (List.Mem.head _) (by decide +kernel) HEq.rfl) <|
  Sim.cons (step_ternaryH q_v331 q_v333 q_v304 q_v334 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))) (by decide +kernel) HEq.rfl) <|
  Sim.cons (step_nullaryH q_c_87 (by decide +kernel) HEq.rfl) <|
  Sim.cons (step_unaryH q_c_87 q_v335 (List.Mem.head _) (by decide +kernel) HEq.rfl) <|
  Sim.cons (step_binaryH q_v323 q_v335 q_v336 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))) (List.Mem.head _) (by decide +kernel) HEq.rfl) <|
  Sim.cons (step_nullaryH q_c_88 (by decide +kernel) HEq.rfl) <|
  Sim.cons (step_unaryH q_c_88 q_v337 (List.Mem.head _) (by decide +kernel) HEq.rfl) <|
  Sim.cons (step_binaryH q_v323 q_v337 q_v338 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))) (List.Mem.head _) (by decide +kernel) HEq.rfl) <|
  Sim.cons (step_ternaryH q_v336 q_v338 q_v323 q_v339 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))) (by decide +kernel) HEq.rfl) <|
  Sim.cons (step_unaryH q_v329 q_v340 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))) (by decide +kernel) HEq.rfl) <|
  Sim.cons (step_unaryH q_v334 q_v341 (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v339 q_v342 (List.Mem.tail _ (List.Mem.tail _ (List.Mem.head _))) (by decide +kernel) HEq.rfl) <|
  Sim.cons (step_nary3 q_v340 q_v341 q_v342 q_v343 (List.Mem.tail _ (List.Mem.tail _ (List.Mem.head _))) (List.Mem.tail _ (List.Mem.head _)) (List.Mem.head _) (by decide +kernel) (fun _ => rfl)) <|
  Sim.cons (step_ternaryH q_v324 q_v343 q_v278 q_v344 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))) (by decide +kernel) HEq.rfl) <|
  Sim.cons (step_nullaryH q_c_89 (by decide +kernel) HEq.rfl) <|
  Sim.cons (step_unaryH q_c_89 q_v345 (List.Mem.head _) (by decide +kernel) HEq.rfl) <|
  Sim.cons (step_binaryH q_v109 q_v345 q_v346 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))) (List.Mem.head _) (by decide +kernel) HEq.rfl) <|
  Sim.cons (step_nullaryH q_c_90 (by decide +kernel) HEq.rfl) <|
  Sim.cons (step_unaryH q_c_90 q_v347 (List.Mem.head _) (by decide +kernel) HEq.rfl) <|
  Sim.cons (step_binaryH q_v109 q_v347 q_v348 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))) (List.Mem.head _) (by decide +kernel) HEq.rfl) <|
  Sim.cons (step_ternaryH q_v346 q_v348 q_v109 q_v349 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))) (by decide +kernel) HEq.rfl) <|
  Sim.cons (step_nullaryH q_c_91 (by decide +kernel) HEq.rfl) <|
  Sim.cons (step_unaryH q_c_91 q_v350 (List.Mem.head _) (by decide +kernel) HEq.rfl) <|
  Sim.cons (step_binaryH q_v119 q_v350 q_v351 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))) (List.Mem.head _) (by decide +kernel) HEq.rfl) <|
  Sim.cons (step_nullaryH q_c_92 (by decide +kernel) HEq.rfl) <|
  Sim.cons (step_unaryH q_c_92 q_v352 (List.Mem.head _) (by decide +kernel) HEq.rfl) <|
  Sim.cons (step_binaryH q_v119 q_v352 q_v353 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))) (List.Mem.head _) (by decide +kernel) HEq.rfl) <|
  Sim.cons (step_ternaryH q_v351 q_v353 q_v119 q_v354 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))) (by decide +kernel) HEq.rfl) <|
  Sim.cons (step_nullaryH q_c_93 (by decide +kernel) HEq.rfl) <|
  Sim.cons (step_unaryH q_c_93 q_v355 (List.Mem.head _) (by decide +kernel) HEq.rfl) <|
  Sim.cons (step_binaryH q_v138 q_v355 q_v356 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))) (List.Mem.head _) (by decide +kernel) HEq.rfl) <|
  Sim.cons (step_nullaryH q_c_94 (by decide +kernel) HEq.rfl) <|
  Sim.cons (step_unaryH q_c_94 q_v357 (List.Mem.head _) (by decide +kernel) HEq.rfl) <|
  Sim.cons (step_binaryH q_v138 q_v357 q_v358 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))))))))))))) (List.Mem.head _) (by decide +kernel) HEq.rfl) <|
  Sim.cons (step_ternaryH q_v356 q_v358 q_v138 q_v359 (List.Mem.tail _ (List.Mem.tail _ (List.Mem.tail _ (List.Mem.head _)))) (List.Mem.head _) (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))))))))))))))) (by decide +kernel) HEq.rfl) <|
  Sim.cons (step_unaryH q_v349 q_v360 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))) (by decide +kernel) HEq.rfl) <|
  Sim.cons (step_unaryH q_v354 q_v361 (List.Mem.tail _ (List.Mem.tail _ (List.Mem.tail _ (List.Mem.tail _ (List.Mem.tail _ (List.Mem.tail _ (List.Mem.tail _ (List.Mem.tail _ (List.Mem.head _))))))))) (by decide +kernel) HEq.rfl) <|
  Sim.cons (step_unaryH q_v359 q_v362 (List.Mem.tail _ (List.Mem.tail _ (List.Mem.head _))) (by decide +kernel) HEq.rfl) <|
  Sim.cons (step_nary3 q_v360 q_v361 q_v362 q_v363 (List.Mem.tail _ (List.Mem.tail _ (List.Mem.head _))) (List.Mem.tail _ (List.Mem.head _)) (List.Mem.head _) (by decide +kernel) (fun _ => rfl)) <|
  Sim.cons (step_binaryH q_v344 q_v363 q_v364 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))) (List.Mem.head _) (by decide +kernel) HEq.rfl) <|
  Sim.nil (by decide +kernel)

end Cert.Bridge

end
-- ==== Proof.SimAll.lean ====
import proofs.«175666_j17377437679648_2_alg».proof.Proof.SimMid1
import proofs.«175666_j17377437679648_2_alg».proof.Proof.SimMid2
import proofs.«175666_j17377437679648_2_alg».proof.Proof.SimMid3
import proofs.«175666_j17377437679648_2_alg».proof.Proof.SimMid4
import proofs.«175666_j17377437679648_2_alg».proof.Proof.SimTail1
import proofs.«175666_j17377437679648_2_alg».proof.Proof.SimTail2
import proofs.«175666_j17377437679648_2_alg».proof.Proof.SimTail3
import proofs.«175666_j17377437679648_2_alg».proof.Proof.SimTail4
import proofs.«175666_j17377437679648_2_alg».proof.Proof.SimTail5
import proofs.«175666_j17377437679648_2_alg».proof.Proof.SimTail6
import proofs.«175666_j17377437679648_2_alg».proof.Proof.SimTail7
import proofs.«175666_j17377437679648_2_alg».proof.Proof.SimTail8
import proofs.«175666_j17377437679648_2_alg».proof.Proof.SimTail9
import proofs.«175666_j17377437679648_2_alg».proof.Proof.SimTail10
import proofs.«175666_j17377437679648_2_alg».proof.Proof.SimTail11
import proofs.«175666_j17377437679648_2_alg».proof.Proof.SimTail12

/-! # The common lines of the two programs compute the same values

The pieces, glued in order. The middle stretch starts from agreement on the first dense array and the arguments and ends
with agreement on what the last stretch reads; the last stretch starts from that and the second dense array and ends with
agreement on the eight results. -/

noncomputable section

namespace Cert.Bridge

open Idealize.ShloMosaic Cert.Lib.LineSimulation

variable {F : FTy → Type} [FloatOps F]

/-- The middle stretch (between the two dense arrays), the two programs side by side. -/
theorem simMid : Sim (τA := Cert.KernelIdeal.τ) (τB := Cert.ReferenceIdeal.τ) (Val := Elt F) ρMid0
    (Cert.KernelIdeal.Hand.part0_ops1_rest ++ Cert.KernelIdeal.Gen.main_part0_ops2 ++ Cert.KernelIdeal.Gen.main_part0_ops3
      ++ Cert.KernelIdeal.Gen.main_part1_ops0)
    (Cert.ReferenceIdeal.Hand.rA1 ++ Cert.ReferenceIdeal.Hand.rA2 ++ Cert.ReferenceIdeal.Hand.rA3 ++ Cert.ReferenceIdeal.Hand.rA4)
    ρMid1 :=
  ((simMid1.append simMid2).append simMid3).append simMid4

/-- The last stretch (after the second dense array), the two programs side by side, down to the eight results. -/
theorem simTail : Sim (τA := Cert.KernelIdeal.τ) (τB := Cert.ReferenceIdeal.τ) (Val := Elt F) ρTail0
    (Cert.KernelIdeal.Hand.part1_ops1_rest ++ Cert.KernelIdeal.Gen.main_part2_ops0
      ++ Cert.KernelIdeal.Gen.main_part2_ops1
      ++ Cert.KernelIdeal.Gen.main_part2_ops2
      ++ Cert.KernelIdeal.Gen.main_part3_ops0
      ++ Cert.KernelIdeal.Gen.main_part3_ops1
      ++ Cert.KernelIdeal.Gen.main_part3_ops2
      ++ Cert.KernelIdeal.Gen.main_part4_ops0
      ++ Cert.KernelIdeal.Gen.main_part5_ops0
      ++ Cert.KernelIdeal.Gen.main_part6_ops0
      ++ Cert.KernelIdeal.Gen.main_part6_ops1
      ++ Cert.KernelIdeal.Gen.main_part7_ops0)
    (Cert.ReferenceIdeal.Hand.rT1
      ++ Cert.ReferenceIdeal.Hand.rT2
      ++ Cert.ReferenceIdeal.Hand.rT3
      ++ Cert.ReferenceIdeal.Hand.rT4
      ++ Cert.ReferenceIdeal.Hand.rT5
      ++ Cert.ReferenceIdeal.Hand.rT6
      ++ Cert.ReferenceIdeal.Hand.rT7
      ++ Cert.ReferenceIdeal.Hand.rT8
      ++ Cert.ReferenceIdeal.Hand.rT9
      ++ Cert.ReferenceIdeal.Hand.rT10
      ++ Cert.ReferenceIdeal.Hand.rT11
      ++ Cert.ReferenceIdeal.Hand.rT12)
    ρRes :=
  ((((((((((simTail1.append simTail2).append simTail3).append simTail4).append simTail5).append simTail6).append simTail7).append simTail8).append simTail9).append simTail10).append simTail11).append simTail12

end Cert.Bridge

end
-- ==== Proof.RefRunWrites.lean ====
import proofs.«175666_j17377437679648_2_alg».proof.Proof.RefOps

set_option maxRecDepth 8192

/-! # What the reference's line writes, and that it writes no argument

Each operation of the line writes exactly one buffer, its result. Listing those results in order beside the
operations (the lists pair off: the k-th operation writes the k-th reference), a reference that is not in
the list is written by no operation, so it holds after the piece what it held before. None of the sixteen arguments
is in any piece's list (membership of references is decidable), so the whole line leaves every argument as it was. -/

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- The k-th operation writes exactly the k-th reference. -/
abbrev WritesExactly {τ : Topo} {sig : RefSig} {Val : EltTy → Type} (ops : List (HloOp τ sig Val)) (W : List (Ref sig .tc)) : Prop :=
  List.Forall₂ (fun op y => op.writes = {Proc.devRef (τ := τ) .tc y}) ops W

/-- Then each operation writes one reference of the list. -/
theorem WritesExactly.exists {τ : Topo} {sig : RefSig} {Val : EltTy → Type} {ops : List (HloOp τ sig Val)} {W : List (Ref sig .tc)}
    (h : WritesExactly ops W) : ∀ op ∈ ops, ∃ y ∈ W, op.writes = {Proc.devRef (τ := τ) .tc y} := by
  induction h with
  | nil => intro op hop; exact nomatch hop
  | cons hab _ ih =>
    intro op hop
    rcases List.mem_cons.mp hop with rfl | hop
    · exact ⟨_, List.mem_cons_self, hab⟩
    · obtain ⟨y, hy, he⟩ := ih op hop
      exact ⟨y, List.mem_cons_of_mem _ hy, he⟩

/-- So every operation writes inside the list (the form the library's lemma on unwritten references takes). -/
theorem WritesExactly.sub {τ : Topo} {sig : RefSig} {Val : EltTy → Type} {ops : List (HloOp τ sig Val)} {W : List (Ref sig .tc)}
    (h : WritesExactly ops W) : ops.Forall fun op => op.writes ⊆ (W.map (Proc.devRef (τ := τ) .tc)).toFinset :=
  List.forall_iff_forall_mem.mpr fun op hop => by
    obtain ⟨y, hy, he⟩ := h.exists op hop
    rw [he]
    exact Finset.singleton_subset_iff.mpr (List.mem_toFinset.mpr (List.mem_map_of_mem hy))

/-- A reference outside the list holds after the operations what it held before. -/
theorem WritesExactly.keep {τ : Topo} {sig : RefSig} {Val : EltTy → Type} {ops : List (HloOp τ sig Val)} {W : List (Ref sig .tc)}
    (h : WritesExactly ops W) {r : Ref sig .tc} (hr : r ∉ W) (V : Valuation τ sig Val) :
    after ops V (Proc.devRef .tc r) = V (Proc.devRef .tc r) :=
  after_of_writes_sub ops V h.sub hr

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer that each of two lines leaves as it was is left as it was by the two in a row. -/
theorem keep_append {τ : Topo} {sig : RefSig} {Val : EltTy → Type} {l₁ l₂ : List (HloOp τ sig Val)} {b : DevRef τ sig}
    (h₁ : ∀ V, after l₁ V b = V b) (h₂ : ∀ V, after l₂ V b = V b) : ∀ V, after (l₁ ++ l₂) V b = V b :=
  fun V => by rw [after_append, h₂, h₁]

/-- The sixteen arguments. -/
abbrev argRefs : List (Ref sig .tc) :=
  [main_arg0, main_arg1, main_arg2, main_arg3, main_arg4, main_arg5, main_arg6, main_arg7, main_arg8, main_arg9, main_arg10, main_arg11, main_arg12, main_arg13, main_arg14, main_arg15]

/-- The references rD1's operations write, in order. -/
abbrev rD1_W : List (Ref sig .tc) :=
  [main_v0, main_v1, main_v2, main_v3, main_v4]
theorem rD1_writes : WritesExactly (rD1 : List (HloOp τ sig (Elt F))) rD1_W :=
  .cons rfl (.cons rfl (.cons rfl (.cons rfl (.cons rfl (.nil)))))
theorem rD1_args : ∀ r ∈ argRefs, r ∉ rD1_W := by decide

/-- The references rA1's operations write, in order. -/
abbrev rA1_W : List (Ref sig .tc) :=
  [main_c, main_v5, main_c_0, main_v6, main_v7, main_v8, main_c_1, main_v9]
theorem rA1_writes : WritesExactly (rA1 : List (HloOp τ sig (Elt F))) rA1_W :=
  .cons rfl (.cons rfl (.cons rfl (.cons rfl (.cons rfl (.cons rfl (.cons rfl (.cons rfl (.nil))))))))
theorem rA1_args : ∀ r ∈ argRefs, r ∉ rA1_W := by decide

/-- The references rA2's operations write, in order. -/
abbrev rA2_W : List (Ref sig .tc) :=
  [main_call0_call0_c, main_call0_call0_v0, main_v10]
theorem rA2_writes : WritesExactly (rA2 : List (HloOp τ sig (Elt F))) rA2_W :=
  .cons rfl (.cons rfl (.cons rfl (.nil)))
theorem rA2_args : ∀ r ∈ argRefs, r ∉ rA2_W := by decide

/-- The references rA3's operations write, in order. -/
abbrev rA3_W : List (Ref sig .tc) :=
  [main_v11, main_v12, main_v13, main_c_2, main_v14, main_v15, main_c_3, main_v16, main_v17, main_v18,
    main_v19, main_v20, main_v21, main_v22, main_c_4, main_v23, main_v24, main_c_5, main_v25, main_v26,
    main_v27, main_v28, main_v29, main_v30, main_v31, main_v32, main_v33, main_v34, main_c_6, main_v35,
    main_v36, main_c_7, main_v37, main_v38, main_v39, main_v40, main_v41, main_c_8, main_v42, main_v43,
    main_c_9, main_v44, main_v45, main_v46, main_v47, main_v48, main_v49, main_c_10]
theorem rA3_writes : WritesExactly (rA3 : List (HloOp τ sig (Elt F))) rA3_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))
theorem rA3_args : ∀ r ∈ argRefs, r ∉ rA3_W := by decide

/-- The references rA4's operations write, in order. -/
abbrev rA4_W : List (Ref sig .tc) :=
  [main_v50, main_v51, main_c_11, main_v52, main_v53, main_v54, main_c_12, main_v55, main_v56, main_c_13,
    main_v57, main_v58, main_v59, main_c_14, main_v60, main_v61, main_c_15, main_v62, main_v63, main_v64,
    main_v65, main_v66, main_v67, main_v68, main_v69, main_c_16, main_v70, main_v71, main_c_17, main_v72,
    main_v73, main_v74, main_c_18, main_v75, main_v76, main_c_19, main_v77, main_v78, main_v79, main_c_20,
    main_v80, main_v81, main_c_21, main_v82, main_v83, main_v84, main_v85, main_v86, main_v87, main_v88,
    main_v89, main_v90, main_cst, main_v91, main_v92]
theorem rA4_writes : WritesExactly (rA4 : List (HloOp τ sig (Elt F))) rA4_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))
theorem rA4_args : ∀ r ∈ argRefs, r ∉ rA4_W := by decide

/-- The references rD2's operations write, in order. -/
abbrev rD2_W : List (Ref sig .tc) :=
  [main_v93, main_v94, main_v95, main_v96, main_v97]
theorem rD2_writes : WritesExactly (rD2 : List (HloOp τ sig (Elt F))) rD2_W :=
  .cons rfl (.cons rfl (.cons rfl (.cons rfl (.cons rfl (.nil)))))
theorem rD2_args : ∀ r ∈ argRefs, r ∉ rD2_W := by decide

/-- The references rT1's operations write, in order. -/
abbrev rT1_W : List (Ref sig .tc) :=
  [main_c_22, main_v98]
theorem rT1_writes : WritesExactly (rT1 : List (HloOp τ sig (Elt F))) rT1_W :=
  .cons rfl (.cons rfl (.nil))
theorem rT1_args : ∀ r ∈ argRefs, r ∉ rT1_W := by decide

/-- The references rT2's operations write, in order. -/
abbrev rT2_W : List (Ref sig .tc) :=
  [main_c_23, main_v99, main_v100, main_v101, main_c_24, main_v102]
theorem rT2_writes : WritesExactly (rT2 : List (HloOp τ sig (Elt F))) rT2_W :=
  .cons rfl (.cons rfl (.cons rfl (.cons rfl (.cons rfl (.cons rfl (.nil))))))
theorem rT2_args : ∀ r ∈ argRefs, r ∉ rT2_W := by decide

/-- The references rT3's operations write, in order. -/
abbrev rT3_W : List (Ref sig .tc) :=
  [main_call1_call0_c, main_call1_call0_v0, main_v103]
theorem rT3_writes : WritesExactly (rT3 : List (HloOp τ sig (Elt F))) rT3_W :=
  .cons rfl (.cons rfl (.cons rfl (.nil)))
theorem rT3_args : ∀ r ∈ argRefs, r ∉ rT3_W := by decide

/-- The references rT4's operations write, in order. -/
abbrev rT4_W : List (Ref sig .tc) :=
  [main_v104, main_v105, main_v106, main_c_25, main_v107, main_v108, main_c_26, main_v109, main_v110, main_v111,
    main_v112, main_v113, main_v114, main_v115, main_c_27, main_v116, main_v117, main_c_28, main_v118, main_v119,
    main_v120, main_v121, main_v122, main_v123, main_v124, main_v125, main_v126, main_v127, main_c_29, main_v128,
    main_v129, main_c_30, main_v130, main_v131, main_v132, main_v133, main_v134, main_c_31, main_v135, main_v136,
    main_c_32, main_v137, main_v138, main_v139, main_v140, main_v141, main_v142, main_c_33, main_v143, main_v144,
    main_c_34, main_v145, main_v146]
theorem rT4_writes : WritesExactly (rT4 : List (HloOp τ sig (Elt F))) rT4_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))
theorem rT4_args : ∀ r ∈ argRefs, r ∉ rT4_W := by decide

/-- The references rT5's operations write, in order. -/
abbrev rT5_W : List (Ref sig .tc) :=
  [main_v147, main_c_35, main_v148, main_v149, main_c_36, main_v150, main_v151, main_v152, main_c_37, main_v153,
    main_v154, main_c_38, main_v155, main_v156, main_v157, main_v158, main_v159, main_v160, main_v161, main_v162,
    main_v163, main_v164, main_v165, main_v166, main_v167, main_v168, main_c_39, main_v169, main_v170, main_c_40,
    main_v171, main_v172, main_c_41, main_v173, main_v174, main_c_42, main_v175, main_v176, main_v177, main_v178,
    main_v179, main_c_43, main_v180, main_c_44, main_v181, main_v182, main_v183, main_c_45, main_v184]
theorem rT5_writes : WritesExactly (rT5 : List (HloOp τ sig (Elt F))) rT5_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))
theorem rT5_args : ∀ r ∈ argRefs, r ∉ rT5_W := by decide

/-- The references rT6's operations write, in order. -/
abbrev rT6_W : List (Ref sig .tc) :=
  [main_call2_call0_c, main_call2_call0_v0, main_v185]
theorem rT6_writes : WritesExactly (rT6 : List (HloOp τ sig (Elt F))) rT6_W :=
  .cons rfl (.cons rfl (.cons rfl (.nil)))
theorem rT6_args : ∀ r ∈ argRefs, r ∉ rT6_W := by decide

/-- The references rT7's operations write, in order. -/
abbrev rT7_W : List (Ref sig .tc) :=
  [main_v186, main_v187, main_v188, main_c_46, main_v189, main_v190, main_c_47, main_v191, main_v192, main_v193]
theorem rT7_writes : WritesExactly (rT7 : List (HloOp τ sig (Elt F))) rT7_W :=
  .cons rfl (.cons rfl (.cons rfl (.cons rfl (.cons rfl (.cons rfl (.cons rfl (.cons rfl (.cons rfl (.cons rfl (.nil))))))))))
theorem rT7_args : ∀ r ∈ argRefs, r ∉ rT7_W := by decide

/-- The references rT8's operations write, in order. -/
abbrev rT8_W : List (Ref sig .tc) :=
  [main_v194, main_v195, main_v196, main_v197, main_c_48, main_v198, main_v199, main_c_49, main_v200, main_v201,
    main_v202, main_v203, main_v204, main_v205, main_v206, main_v207, main_v208, main_v209, main_c_50, main_v210,
    main_v211, main_c_51, main_v212, main_v213, main_v214, main_v215, main_v216, main_c_52, main_v217, main_v218,
    main_c_53, main_v219, main_v220, main_v221, main_v222, main_v223, main_v224, main_cst_54, main_v225, main_c_55,
    main_v226, main_v227, main_c_56, main_v228, main_v229, main_v230, main_c_57, main_v231, main_v232, main_c_58,
    main_v233, main_v234, main_v235, main_c_59, main_v236, main_v237, main_c_60, main_v238, main_v239, main_v240]
theorem rT8_writes : WritesExactly (rT8 : List (HloOp τ sig (Elt F))) rT8_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))
theorem rT8_args : ∀ r ∈ argRefs, r ∉ rT8_W := by decide

/-- The references rT9's operations write, in order. -/
abbrev rT9_W : List (Ref sig .tc) :=
  [main_v241, main_v242, main_v243, main_v244, main_v245, main_c_61, main_v246, main_v247, main_c_62, main_v248,
    main_v249, main_v250, main_c_63, main_v251, main_v252, main_c_64, main_v253, main_v254, main_v255, main_c_65,
    main_v256, main_v257, main_c_66, main_v258, main_v259, main_v260, main_v261, main_v262, main_v263, main_v264,
    main_v265, main_v266, main_v267, main_v268, main_v269, main_v270, main_v271, main_c_67, main_v272, main_v273,
    main_c_68, main_v274, main_v275, main_c_69, main_v276, main_v277, main_c_70, main_v278, main_v279, main_v280,
    main_v281, main_v282, main_c_71, main_v283, main_c_72, main_v284, main_v285, main_v286, main_c_73, main_v287]
theorem rT9_writes : WritesExactly (rT9 : List (HloOp τ sig (Elt F))) rT9_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))
theorem rT9_args : ∀ r ∈ argRefs, r ∉ rT9_W := by decide

/-- The references rT10's operations write, in order. -/
abbrev rT10_W : List (Ref sig .tc) :=
  [main_call3_call0_c, main_call3_call0_v0, main_v288]
theorem rT10_writes : WritesExactly (rT10 : List (HloOp τ sig (Elt F))) rT10_W :=
  .cons rfl (.cons rfl (.cons rfl (.nil)))
theorem rT10_args : ∀ r ∈ argRefs, r ∉ rT10_W := by decide

/-- The references rT11's operations write, in order. -/
abbrev rT11_W : List (Ref sig .tc) :=
  [main_v289, main_v290, main_v291, main_c_74, main_v292, main_v293, main_c_75, main_v294, main_v295, main_v296,
    main_v297, main_v298, main_v299, main_v300, main_c_76, main_v301, main_v302, main_c_77, main_v303, main_v304,
    main_v305, main_v306, main_v307, main_v308, main_v309, main_v310, main_v311, main_v312, main_c_78, main_v313,
    main_v314, main_c_79, main_v315, main_v316, main_v317, main_v318, main_v319, main_c_80, main_v320, main_v321,
    main_c_81, main_v322, main_v323, main_v324, main_v325, main_v326, main_v327, main_cst_82, main_v328, main_c_83,
    main_v329, main_v330, main_c_84, main_v331, main_v332, main_v333, main_c_85, main_v334, main_v335]
theorem rT11_writes : WritesExactly (rT11 : List (HloOp τ sig (Elt F))) rT11_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))
theorem rT11_args : ∀ r ∈ argRefs, r ∉ rT11_W := by decide

/-- The references rT12's operations write, in order. -/
abbrev rT12_W : List (Ref sig .tc) :=
  [main_c_86, main_v336, main_v337, main_v338, main_c_87, main_v339, main_v340, main_c_88, main_v341, main_v342,
    main_v343, main_v344, main_v345, main_v346, main_v347, main_v348, main_c_89, main_v349, main_v350, main_c_90,
    main_v351, main_v352, main_v353, main_c_91, main_v354, main_v355, main_c_92, main_v356, main_v357, main_v358,
    main_c_93, main_v359, main_v360, main_c_94, main_v361, main_v362, main_v363, main_v364, main_v365, main_v366,
    main_v367, main_v368]
theorem rT12_writes : WritesExactly (rT12 : List (HloOp τ sig (Elt F))) rT12_W :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))
theorem rT12_args : ∀ r ∈ argRefs, r ∉ rT12_W := by decide

/-- The whole line leaves each of the sixteen arguments as it was. -/
theorem refOps_args (r : Ref sig .tc) (hr : r ∈ argRefs) (V : Valuation τ sig (Elt F)) :
    after (refOps (F := F)) V (Proc.devRef .tc r) = V (Proc.devRef .tc r) :=
  (keep_append (keep_append (keep_append (keep_append (keep_append (keep_append (keep_append (keep_append (keep_append (keep_append (keep_append (keep_append (keep_append (keep_append (keep_append (keep_append (keep_append ((rD1_writes.keep (rD1_args r hr))) (rA1_writes.keep (rA1_args r hr))) (rA2_writes.keep (rA2_args r hr))) (rA3_writes.keep (rA3_args r hr))) (rA4_writes.keep (rA4_args r hr))) (rD2_writes.keep (rD2_args r hr))) (rT1_writes.keep (rT1_args r hr))) (rT2_writes.keep (rT2_args r hr))) (rT3_writes.keep (rT3_args r hr))) (rT4_writes.keep (rT4_args r hr))) (rT5_writes.keep (rT5_args r hr))) (rT6_writes.keep (rT6_args r hr))) (rT7_writes.keep (rT7_args r hr))) (rT8_writes.keep (rT8_args r hr))) (rT9_writes.keep (rT9_args r hr))) (rT10_writes.keep (rT10_args r hr))) (rT11_writes.keep (rT11_args r hr))) (rT12_writes.keep (rT12_args r hr))) V

theorem refOps_arg0 (V : Valuation τ sig (Elt F)) : after (refOps (F := F)) V (Proc.devRef .tc main_arg0) = V (Proc.devRef .tc main_arg0) :=
  refOps_args main_arg0 (by decide) V
theorem refOps_arg1 (V : Valuation τ sig (Elt F)) : after (refOps (F := F)) V (Proc.devRef .tc main_arg1) = V (Proc.devRef .tc main_arg1) :=
  refOps_args main_arg1 (by decide) V
theorem refOps_arg2 (V : Valuation τ sig (Elt F)) : after (refOps (F := F)) V (Proc.devRef .tc main_arg2) = V (Proc.devRef .tc main_arg2) :=
  refOps_args main_arg2 (by decide) V
theorem refOps_arg3 (V : Valuation τ sig (Elt F)) : after (refOps (F := F)) V (Proc.devRef .tc main_arg3) = V (Proc.devRef .tc main_arg3) :=
  refOps_args main_arg3 (by decide) V
theorem refOps_arg4 (V : Valuation τ sig (Elt F)) : after (refOps (F := F)) V (Proc.devRef .tc main_arg4) = V (Proc.devRef .tc main_arg4) :=
  refOps_args main_arg4 (by decide) V
theorem refOps_arg5 (V : Valuation τ sig (Elt F)) : after (refOps (F := F)) V (Proc.devRef .tc main_arg5) = V (Proc.devRef .tc main_arg5) :=
  refOps_args main_arg5 (by decide) V
theorem refOps_arg6 (V : Valuation τ sig (Elt F)) : after (refOps (F := F)) V (Proc.devRef .tc main_arg6) = V (Proc.devRef .tc main_arg6) :=
  refOps_args main_arg6 (by decide) V
theorem refOps_arg7 (V : Valuation τ sig (Elt F)) : after (refOps (F := F)) V (Proc.devRef .tc main_arg7) = V (Proc.devRef .tc main_arg7) :=
  refOps_args main_arg7 (by decide) V
theorem refOps_arg8 (V : Valuation τ sig (Elt F)) : after (refOps (F := F)) V (Proc.devRef .tc main_arg8) = V (Proc.devRef .tc main_arg8) :=
  refOps_args main_arg8 (by decide) V
theorem refOps_arg9 (V : Valuation τ sig (Elt F)) : after (refOps (F := F)) V (Proc.devRef .tc main_arg9) = V (Proc.devRef .tc main_arg9) :=
  refOps_args main_arg9 (by decide) V
theorem refOps_arg10 (V : Valuation τ sig (Elt F)) : after (refOps (F := F)) V (Proc.devRef .tc main_arg10) = V (Proc.devRef .tc main_arg10) :=
  refOps_args main_arg10 (by decide) V
theorem refOps_arg11 (V : Valuation τ sig (Elt F)) : after (refOps (F := F)) V (Proc.devRef .tc main_arg11) = V (Proc.devRef .tc main_arg11) :=
  refOps_args main_arg11 (by decide) V
theorem refOps_arg12 (V : Valuation τ sig (Elt F)) : after (refOps (F := F)) V (Proc.devRef .tc main_arg12) = V (Proc.devRef .tc main_arg12) :=
  refOps_args main_arg12 (by decide) V
theorem refOps_arg13 (V : Valuation τ sig (Elt F)) : after (refOps (F := F)) V (Proc.devRef .tc main_arg13) = V (Proc.devRef .tc main_arg13) :=
  refOps_args main_arg13 (by decide) V
theorem refOps_arg14 (V : Valuation τ sig (Elt F)) : after (refOps (F := F)) V (Proc.devRef .tc main_arg14) = V (Proc.devRef .tc main_arg14) :=
  refOps_args main_arg14 (by decide) V
theorem refOps_arg15 (V : Valuation τ sig (Elt F)) : after (refOps (F := F)) V (Proc.devRef .tc main_arg15) = V (Proc.devRef .tc main_arg15) :=
  refOps_args main_arg15 (by decide) V

end Cert.ReferenceIdeal.Hand

end
-- ==== Proof.Bridge.lean ====
import proofs.«175666_j17377437679648_2_alg».proof.Proof.KFold
import proofs.«175666_j17377437679648_2_alg».proof.Proof.KValue
import proofs.«175666_j17377437679648_2_alg».proof.Proof.KLists
import proofs.«175666_j17377437679648_2_alg».proof.Proof.DenseMath
import proofs.«175666_j17377437679648_2_alg».proof.Proof.SimAll
import proofs.«175666_j17377437679648_2_alg».proof.Proof.RefRunWrites
import Idealize.ShloMosaic.Lib.ValueLayout

set_option maxRecDepth 65536

/-! # The two programs end with equal results

On the extended reals, from launch contents that agree on the sixteen arguments. The kernel program's buffers pass through
twenty boundaries (its stretches of host operations and its two regions); the reference's are one fold of its line. The
two lines are the same operations on corresponding buffers except at two places, where the kernel program runs a region
and reshapes its result and the reference contracts, broadcasts the bias and adds: there the region's output, entry by
entry the rows' products with the weights plus the bias, reshaped to four axes, is the reference's dense array. So the
agreement on the arguments is carried to the first dense array, through the common middle stretch, to the second dense
array, and through the common last stretch to the eight results. -/

noncomputable section

namespace Cert.Bridge

open Idealize.ShloMosaic Idealize.ShloMosaic.TcCoe Idealize.SL.Sem Idealize.ShloMosaic.StableHlo Idealize.ShloMosaic.ValueIdx
open Cert.Lib.LineSimulation

variable {τA τB : Topo} {sigA sigB : RefSig} {Val : EltTy → Type}

/-- Agreement only looks at the paired buffers: valuations that hold there what two agreeing ones hold agree. -/
theorem Agree.congr {ρ : List (Pair sigA sigB)} {WA WA' : Valuation τA sigA Val} {WB WB' : Valuation τB sigB Val}
    (hA : ∀ p ∈ ρ, WA' (Proc.devRef .tc p.a) = WA (Proc.devRef .tc p.a))
    (hB : ∀ p ∈ ρ, WB' (Proc.devRef .tc p.b) = WB (Proc.devRef .tc p.b))
    (h : Agree ρ WA WB) : Agree ρ WA' WB' := fun p hp => by rw [hA p hp, hB p hp]; exact h p hp

/-- A pair whose two types are one type by computation: its cast is the identity. -/
theorem agree_at {ρ : List (Pair Cert.KernelIdeal.sig Cert.ReferenceIdeal.sig)} {WA : Valuation Cert.KernelIdeal.τ Cert.KernelIdeal.sig (Elt Ideal)} {WB : Valuation Cert.ReferenceIdeal.τ Cert.ReferenceIdeal.sig (Elt Ideal)}
    (h : Agree ρ WA WB) (a : Ref Cert.KernelIdeal.sig .tc) (b : Ref Cert.ReferenceIdeal.sig .tc) (hty : a.ty = b.ty) (hp : (⟨a, b, hty⟩ : Pair _ _) ∈ ρ) :
    (⟨a, b, hty⟩ : Pair Cert.KernelIdeal.sig Cert.ReferenceIdeal.sig).cast (WA (Proc.devRef .tc a)) = WB (Proc.devRef .tc b) := h _ hp

section
variable (m : (ℓ : Loc Cert.KernelIdeal.nD Cert.KernelIdeal.τ Cert.KernelIdeal.sig) → Buf (Elt Ideal) ℓ) (ρ : Dev Cert.KernelIdeal.nD → PrngReg)

open Cert.KernelIdeal.Hand in
/-- THE FIRST JUNCTION. With the arguments agreeing when the first region is entered, the region's output reshaped to four axes
    is the reference's first dense array; the arguments still agree. -/
theorem junction0 (c : Dev Cert.KernelIdeal.nD) (WB : Valuation Cert.ReferenceIdeal.τ Cert.ReferenceIdeal.sig (Elt Ideal))
    (h : Agree argPairs (W1 (F := Ideal) m ρ c) WB) :
    Agree ρMid0 ((opV2 (F := Ideal)).result (W2 (F := Ideal) m ρ c)) (after (Cert.ReferenceIdeal.Hand.rD1 (F := Ideal)) WB) := by
  have hx : (W1 (F := Ideal) m ρ c (Proc.devRef .tc Cert.KernelIdeal.main_arg0) : FVec Ideal Cert.KernelIdeal.S262144x16 .f32) = WB (Proc.devRef .tc Cert.ReferenceIdeal.main_arg0) :=
    h (q_arg0) (by decide +kernel)
  have hw : (W1 (F := Ideal) m ρ c (Proc.devRef .tc Cert.KernelIdeal.main_arg2) : FVec Ideal Cert.KernelIdeal.S16x64 .f32) = WB (Proc.devRef .tc Cert.ReferenceIdeal.main_arg2) :=
    h (q_arg2) (by decide +kernel)
  have hb : (W1 (F := Ideal) m ρ c (Proc.devRef .tc Cert.KernelIdeal.main_arg3) : FVec Ideal Cert.KernelIdeal.S64 .f32) = WB (Proc.devRef .tc Cert.ReferenceIdeal.main_arg3) :=
    h (q_arg3) (by decide +kernel)
  refine Agree.cons ?_ (Agree.congr (fun p hp => ?_) (fun p hp => ?_) h)
  · -- the dense array
    show ((opV2 (F := Ideal)).result (W2 (F := Ideal) m ρ c)) (Proc.devRef .tc Cert.KernelIdeal.main_v2) = after (Cert.ReferenceIdeal.Hand.rD1 (F := Ideal)) WB (Proc.devRef .tc Cert.ReferenceIdeal.main_v4)
    obtain ⟨x, hxe⟩ : ∃ x : FVec Ideal Cert.ReferenceIdeal.S262144x16 .f32, x = WB (Proc.devRef .tc Cert.ReferenceIdeal.main_arg0) := ⟨_, rfl⟩
    obtain ⟨w, hwe⟩ : ∃ w : FVec Ideal Cert.ReferenceIdeal.S16x64 .f32, w = WB (Proc.devRef .tc Cert.ReferenceIdeal.main_arg2) := ⟨_, rfl⟩
    obtain ⟨b, hbe⟩ : ∃ b : FVec Ideal Cert.ReferenceIdeal.S64 .f32, b = WB (Proc.devRef .tc Cert.ReferenceIdeal.main_arg3) := ⟨_, rfl⟩
    obtain ⟨o, hoe⟩ : ∃ o : FVec Ideal Cert.KernelIdeal.S262144x64 .f32, o = W2 (F := Ideal) m ρ c (Proc.devRef .tc Cert.KernelIdeal.main_v1) := ⟨_, rfl⟩
    have hR : after (Cert.ReferenceIdeal.Hand.rD1 (F := Ideal)) WB (Proc.devRef .tc Cert.ReferenceIdeal.main_v4)
        = addf (Host.dotGeneral (F := Ideal) Cert.ReferenceIdeal.dot_S16x128x128x16_S16x64_S16x128x128x64_3_0_012_1_n_n none
              (shapeCast Cert.ReferenceIdeal.S16x128x128x16 x Cert.ReferenceIdeal.Gen.shapeCasts_S262144x16_S16x128x128x16) w)
            (broadcastInDim Cert.ReferenceIdeal.S16x128x128x64 ![0, 1, 2, 3] Cert.ReferenceIdeal.Gen.bcast_S1x1x1x64_S16x128x128x64_0_1_2_3
              (broadcastInDim Cert.ReferenceIdeal.S1x1x1x64 ![3] Cert.ReferenceIdeal.Gen.bcast_S64_S1x1x1x64_3 b)) := by
      rw [hxe, hwe, hbe]; after_results; rfl
    have hL : ((opV2 (F := Ideal)).result (W2 (F := Ideal) m ρ c)) (Proc.devRef .tc Cert.KernelIdeal.main_v2)
        = shapeCast Cert.KernelIdeal.S16x128x128x64 o Cert.KernelIdeal.Gen.shapeCasts_S262144x64_S16x128x128x64 := by
      rw [hoe]; exact reshape_result _ _ _ _ _ _ _
    rw [hR, hL]
    refine Dense.dense0_eq x w b o (fun R j => ?_) Cert.KernelIdeal.Gen.shapeCasts_S262144x64_S16x128x128x64
    · rw [hxe, hwe, hbe, hoe, ← hx, ← hw, ← hb]
      have e := arr0_entry (V1 (F := Ideal) m ρ) Dense.pay0_apply c R j
      have e1 : (W2 (F := Ideal) m ρ c (Proc.devRef .tc Cert.KernelIdeal.main_v1) : FVec Ideal Cert.KernelIdeal.S262144x64 .f32) = (dat0 (F := Ideal) (V1 (F := Ideal) m ρ) c).arrAt 3 Cert.KernelIdeal.cfg0.N :=
        W2_arr m ρ c 3
      rw [e1]
      refine e.trans ?_
      have e2 : arrB0 (V1 (F := Ideal) m ρ) c (ix2 0 j) = (W1 (F := Ideal) m ρ c (Proc.devRef .tc Cert.KernelIdeal.main_arg3) : FVec Ideal Cert.KernelIdeal.S64 .f32) (ix1 j) := by
        show (W1 (F := Ideal) m ρ c (Proc.devRef .tc Cert.KernelIdeal.main_v0) : FVec Ideal Cert.KernelIdeal.S1x64 .f32) (ix2 0 j) = _
        rw [W1_v0 m ρ c, ← W1_of m ρ c Cert.KernelIdeal.main_arg3 (by decide)]
        exact shapeCast_a_1a_apply _ _ _ _
      rw [e2]
  · have hne : p.a ≠ Cert.KernelIdeal.main_v2 ∧ p.a ≠ Cert.KernelIdeal.main_v1 :=
      (by decide +kernel : ∀ p ∈ argPairs, p.a ≠ Cert.KernelIdeal.main_v2 ∧ p.a ≠ Cert.KernelIdeal.main_v1) p hp
    exact (reshape_result_ne (h := hne.1) ..).trans (W2_of m ρ c p.a hne.2)
  · exact Cert.ReferenceIdeal.Hand.rD1_writes.keep ((by decide +kernel : ∀ p ∈ argPairs, p.b ∉ Cert.ReferenceIdeal.Hand.rD1_W) p hp) WB

open Cert.KernelIdeal.Hand in
/-- THE SECOND JUNCTION. With the pairs of the middle stretch agreeing when the second region is entered, the region's output
    reshaped to four axes is the reference's second dense array; those pairs still agree. -/
theorem junction1 (c : Dev Cert.KernelIdeal.nD) (WB : Valuation Cert.ReferenceIdeal.τ Cert.ReferenceIdeal.sig (Elt Ideal))
    (h : Agree ρMid1 (W6 (F := Ideal) m ρ c) WB) :
    Agree ρTail0 ((opV93 (F := Ideal)).result (W7 (F := Ideal) m ρ c)) (after (Cert.ReferenceIdeal.Hand.rD2 (F := Ideal)) WB) := by
  have hx : (W6 (F := Ideal) m ρ c (Proc.devRef .tc Cert.KernelIdeal.main_arg1) : FVec Ideal Cert.KernelIdeal.S1048576x16 .f32) = WB (Proc.devRef .tc Cert.ReferenceIdeal.main_arg1) :=
    h (q_arg1) (by decide +kernel)
  have hw : (W6 (F := Ideal) m ρ c (Proc.devRef .tc Cert.KernelIdeal.main_arg4) : FVec Ideal Cert.KernelIdeal.S16x64 .f32) = WB (Proc.devRef .tc Cert.ReferenceIdeal.main_arg4) :=
    h (q_arg4) (by decide +kernel)
  have hb : (W6 (F := Ideal) m ρ c (Proc.devRef .tc Cert.KernelIdeal.main_arg5) : FVec Ideal Cert.KernelIdeal.S64 .f32) = WB (Proc.devRef .tc Cert.ReferenceIdeal.main_arg5) :=
    h (q_arg5) (by decide +kernel)
  refine Agree.cons ?_ (Agree.congr (fun p hp => ?_) (fun p hp => ?_) h)
  · show ((opV93 (F := Ideal)).result (W7 (F := Ideal) m ρ c)) (Proc.devRef .tc Cert.KernelIdeal.main_v93) = after (Cert.ReferenceIdeal.Hand.rD2 (F := Ideal)) WB (Proc.devRef .tc Cert.ReferenceIdeal.main_v97)
    obtain ⟨x, hxe⟩ : ∃ x : FVec Ideal Cert.ReferenceIdeal.S1048576x16 .f32, x = WB (Proc.devRef .tc Cert.ReferenceIdeal.main_arg1) := ⟨_, rfl⟩
    obtain ⟨w, hwe⟩ : ∃ w : FVec Ideal Cert.ReferenceIdeal.S16x64 .f32, w = WB (Proc.devRef .tc Cert.ReferenceIdeal.main_arg4) := ⟨_, rfl⟩
    obtain ⟨b, hbe⟩ : ∃ b : FVec Ideal Cert.ReferenceIdeal.S64 .f32, b = WB (Proc.devRef .tc Cert.ReferenceIdeal.main_arg5) := ⟨_, rfl⟩
    obtain ⟨o, hoe⟩ : ∃ o : FVec Ideal Cert.KernelIdeal.S1048576x64 .f32, o = W7 (F := Ideal) m ρ c (Proc.devRef .tc Cert.KernelIdeal.main_v92) := ⟨_, rfl⟩
    have hR : after (Cert.ReferenceIdeal.Hand.rD2 (F := Ideal)) WB (Proc.devRef .tc Cert.ReferenceIdeal.main_v97)
        = addf (Host.dotGeneral (F := Ideal) Cert.ReferenceIdeal.dot_S16x256x256x16_S16x64_S16x256x256x64_3_0_012_1_n_n none
              (shapeCast Cert.ReferenceIdeal.S16x256x256x16 x Cert.ReferenceIdeal.Gen.shapeCasts_S1048576x16_S16x256x256x16) w)
            (broadcastInDim Cert.ReferenceIdeal.S16x256x256x64 ![0, 1, 2, 3] Cert.ReferenceIdeal.Gen.bcast_S1x1x1x64_S16x256x256x64_0_1_2_3
              (broadcastInDim Cert.ReferenceIdeal.S1x1x1x64 ![3] Cert.ReferenceIdeal.Gen.bcast_S64_S1x1x1x64_3 b)) := by
      rw [hxe, hwe, hbe]; after_results; rfl
    have hL : ((opV93 (F := Ideal)).result (W7 (F := Ideal) m ρ c)) (Proc.devRef .tc Cert.KernelIdeal.main_v93)
        = shapeCast Cert.KernelIdeal.S16x256x256x64 o Cert.KernelIdeal.Gen.shapeCasts_S1048576x64_S16x256x256x64 := by
      rw [hoe]; exact reshape_result _ _ _ _ _ _ _
    rw [hR, hL]
    refine Dense.dense1_eq x w b o (fun R j => ?_) Cert.KernelIdeal.Gen.shapeCasts_S1048576x64_S16x256x256x64
    · rw [hxe, hwe, hbe, hoe, ← hx, ← hw, ← hb]
      have e := arr1_entry (V6 (F := Ideal) m ρ) Dense.pay1_apply c R j
      have e1 : (W7 (F := Ideal) m ρ c (Proc.devRef .tc Cert.KernelIdeal.main_v92) : FVec Ideal Cert.KernelIdeal.S1048576x64 .f32) = (dat1 (F := Ideal) (V6 (F := Ideal) m ρ) c).arrAt 3 Cert.KernelIdeal.cfg1.N :=
        W7_arr m ρ c 3
      rw [e1]
      refine e.trans ?_
      have e2 : arrB1 (V6 (F := Ideal) m ρ) c (ix2 0 j) = (W6 (F := Ideal) m ρ c (Proc.devRef .tc Cert.KernelIdeal.main_arg5) : FVec Ideal Cert.KernelIdeal.S64 .f32) (ix1 j) := by
        show (W6 (F := Ideal) m ρ c (Proc.devRef .tc Cert.KernelIdeal.main_v91) : FVec Ideal Cert.KernelIdeal.S1x64 .f32) (ix2 0 j) = _
        rw [W6_v91 m ρ c, ← W6_of m ρ c Cert.KernelIdeal.main_arg5 (by decide)]
        exact shapeCast_a_1a_apply _ _ _ _
      rw [e2]
  · have hne : p.a ≠ Cert.KernelIdeal.main_v93 ∧ p.a ≠ Cert.KernelIdeal.main_v92 :=
      (by decide +kernel : ∀ p ∈ ρMid1, p.a ≠ Cert.KernelIdeal.main_v93 ∧ p.a ≠ Cert.KernelIdeal.main_v92) p hp
    exact (reshape_result_ne (h := hne.1) ..).trans (W7_of m ρ c p.a hne.2)
  · exact Cert.ReferenceIdeal.Hand.rD2_writes.keep ((by decide +kernel : ∀ p ∈ ρMid1, p.b ∉ Cert.ReferenceIdeal.Hand.rD2_W) p hp) WB

open Cert.KernelIdeal.Hand in
/-- FROM THE ARGUMENTS TO THE RESULTS: launch contents agreeing on the sixteen arguments end, after the kernel program's twenty
    boundaries and after the reference's line, agreeing on the eight results. -/
theorem results_agree (c : Dev Cert.KernelIdeal.nD) (WB : Valuation Cert.ReferenceIdeal.τ Cert.ReferenceIdeal.sig (Elt Ideal))
    (h0 : Agree argPairs (W0 (F := Ideal) m ρ c) WB) :
    Agree ρRes (W19 (F := Ideal) m ρ c) (after (Cert.ReferenceIdeal.Hand.refOps (F := Ideal)) WB) := by
  have h1 : Agree argPairs (W1 (F := Ideal) m ρ c) WB :=
    Agree.congr (fun p hp => W1_of m ρ c p.a ((by decide +kernel : ∀ p ∈ argPairs, p.a ∉ Cert.KernelIdeal.Hand.main_part0_ops0_W) p hp)) (fun _ _ => rfl) h0
  have j0 := junction0 m ρ c WB h1
  have hm := simMid (F := Ideal) _ _ j0
  have hm' : Agree ρMid1 (W6 (F := Ideal) m ρ c) (after (Cert.ReferenceIdeal.Hand.rA1 ++ Cert.ReferenceIdeal.Hand.rA2 ++ Cert.ReferenceIdeal.Hand.rA3 ++ Cert.ReferenceIdeal.Hand.rA4) (after (Cert.ReferenceIdeal.Hand.rD1 (F := Ideal)) WB)) := by
    have e : W6 (F := Ideal) m ρ c = after (part0_ops1_rest ++ Cert.KernelIdeal.Gen.main_part0_ops2 ++ Cert.KernelIdeal.Gen.main_part0_ops3 ++ Cert.KernelIdeal.Gen.main_part1_ops0) ((opV2 (F := Ideal)).result (W2 (F := Ideal) m ρ c)) := by
      rw [after_append', after_append', after_append']
      show after Cert.KernelIdeal.Gen.main_part1_ops0 (after Cert.KernelIdeal.Gen.main_part0_ops3 (after Cert.KernelIdeal.Gen.main_part0_ops2 (after Cert.KernelIdeal.Gen.main_part0_ops1 (W2 (F := Ideal) m ρ c)))) = _
      rw [part0_ops1_eq]; rfl
    rw [e]; exact hm
  have j1 := junction1 m ρ c _ hm'
  have ht := simTail (F := Ideal) _ _ j1
  have eA : W19 (F := Ideal) m ρ c = after (part1_ops1_rest ++ Cert.KernelIdeal.Gen.main_part2_ops0 ++ Cert.KernelIdeal.Gen.main_part2_ops1 ++ Cert.KernelIdeal.Gen.main_part2_ops2 ++ Cert.KernelIdeal.Gen.main_part3_ops0 ++ Cert.KernelIdeal.Gen.main_part3_ops1 ++ Cert.KernelIdeal.Gen.main_part3_ops2 ++ Cert.KernelIdeal.Gen.main_part4_ops0 ++ Cert.KernelIdeal.Gen.main_part5_ops0 ++ Cert.KernelIdeal.Gen.main_part6_ops0 ++ Cert.KernelIdeal.Gen.main_part6_ops1 ++ Cert.KernelIdeal.Gen.main_part7_ops0) ((opV93 (F := Ideal)).result (W7 (F := Ideal) m ρ c)) := by
    simp only [after_append']
    show after Cert.KernelIdeal.Gen.main_part7_ops0 (after Cert.KernelIdeal.Gen.main_part6_ops1 (after Cert.KernelIdeal.Gen.main_part6_ops0 (after Cert.KernelIdeal.Gen.main_part5_ops0 (after Cert.KernelIdeal.Gen.main_part4_ops0 (after Cert.KernelIdeal.Gen.main_part3_ops2 (after Cert.KernelIdeal.Gen.main_part3_ops1 (after Cert.KernelIdeal.Gen.main_part3_ops0 (after Cert.KernelIdeal.Gen.main_part2_ops2 (after Cert.KernelIdeal.Gen.main_part2_ops1 (after Cert.KernelIdeal.Gen.main_part2_ops0 (after Cert.KernelIdeal.Gen.main_part1_ops1 (W7 (F := Ideal) m ρ c)))))))))))) = _
    rw [part1_ops1_eq]; rfl
  have eB : after (Cert.ReferenceIdeal.Hand.refOps (F := Ideal)) WB = after (Cert.ReferenceIdeal.Hand.rT1 ++ Cert.ReferenceIdeal.Hand.rT2 ++ Cert.ReferenceIdeal.Hand.rT3 ++ Cert.ReferenceIdeal.Hand.rT4 ++ Cert.ReferenceIdeal.Hand.rT5 ++ Cert.ReferenceIdeal.Hand.rT6 ++ Cert.ReferenceIdeal.Hand.rT7 ++ Cert.ReferenceIdeal.Hand.rT8 ++ Cert.ReferenceIdeal.Hand.rT9 ++ Cert.ReferenceIdeal.Hand.rT10 ++ Cert.ReferenceIdeal.Hand.rT11 ++ Cert.ReferenceIdeal.Hand.rT12)
      (after (Cert.ReferenceIdeal.Hand.rD2 (F := Ideal)) (after (Cert.ReferenceIdeal.Hand.rA1 ++ Cert.ReferenceIdeal.Hand.rA2 ++ Cert.ReferenceIdeal.Hand.rA3 ++ Cert.ReferenceIdeal.Hand.rA4) (after (Cert.ReferenceIdeal.Hand.rD1 (F := Ideal)) WB))) := by
    simp only [Cert.ReferenceIdeal.Hand.refOps, after_append']
  rw [eA, eB]; exact ht

end

end Cert.Bridge

end
-- ==== Proof.RefRunSub.lean ====
import proofs.«175666_j17377437679648_2_alg».proof.Proof.RefOps

set_option maxRecDepth 8192

/-! # The reference's operations touch TensorCore buffers only, and allocate nothing

Two facts about every operation of the line, piece by piece and then for the whole: the buffers it reads and
writes are references of the TensorCore (each builder's own lemma), and it allocates no fresh buffer (by
computation: only an allocation does). A property of every element of two lists holds of their concatenation. -/

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- What holds of every element of two lists holds of every element of their concatenation. -/
theorem forall_append {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem rD1_sub : (rD1 : List (HloOp τ sig (Elt F))).Forall fun op => op.bufs ⊆ tcRefs τ sig :=
  ⟨reshape_bufs_sub .., binary_bufs_sub .., unary_bufs_sub .., unary_bufs_sub .., binary_bufs_sub ..⟩
theorem rD1_fresh : (rD1 : List (HloOp τ sig (Elt F))).Forall fun op => op.fresh = ∅ :=
  ⟨rfl, rfl, rfl, rfl, rfl⟩

theorem rA1_sub : (rA1 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub ..⟩
theorem rA1_fresh : (rA1 : List (HloOp τ sig (Elt F))).Forall fun op => op.fresh = ∅ :=
  ⟨rfl, rfl, rfl, rfl, rfl, rfl, rfl, rfl⟩

theorem rA2_sub : (rA2 : List (HloOp τ sig (Elt F))).Forall fun op => op.bufs ⊆ tcRefs τ sig :=
  ⟨nullary_bufs_sub .., unary_bufs_sub .., binary_bufs_sub ..⟩
theorem rA2_fresh : (rA2 : List (HloOp τ sig (Elt F))).Forall fun op => op.fresh = ∅ :=
  ⟨rfl, rfl, rfl⟩

theorem rA3_sub : (rA3 : List (HloOp τ sig (Elt F))).Forall fun op => op.bufs ⊆ tcRefs τ sig :=
  ⟨binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..⟩
theorem rA3_fresh : (rA3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

theorem rA4_sub : (rA4 : List (HloOp τ sig (Elt F))).Forall fun op => op.bufs ⊆ tcRefs τ sig :=
  ⟨unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., nary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., nary_bufs_sub .., binary_bufs_sub .., binary_bufs_sub .., nullary_bufs_sub .., unary_bufs_sub ..,
    binary_bufs_sub ..⟩
theorem rA4_fresh : (rA4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem rD2_sub : (rD2 : List (HloOp τ sig (Elt F))).Forall fun op => op.bufs ⊆ tcRefs τ sig :=
  ⟨reshape_bufs_sub .., binary_bufs_sub .., unary_bufs_sub .., unary_bufs_sub .., binary_bufs_sub ..⟩
theorem rD2_fresh : (rD2 : List (HloOp τ sig (Elt F))).Forall fun op => op.fresh = ∅ :=
  ⟨rfl, rfl, rfl, rfl, rfl⟩

theorem rT1_sub : (rT1 : List (HloOp τ sig (Elt F))).Forall fun op => op.bufs ⊆ tcRefs τ sig :=
  ⟨nullary_bufs_sub .., unary_bufs_sub ..⟩
theorem rT1_fresh : (rT1 : List (HloOp τ sig (Elt F))).Forall fun op => op.fresh = ∅ :=
  ⟨rfl, rfl⟩

theorem rT2_sub : (rT2 : List (HloOp τ sig (Elt F))).Forall fun op => op.bufs ⊆ tcRefs τ sig :=
  ⟨nullary_bufs_sub .., unary_bufs_sub .., unary_bufs_sub .., ternary_bufs_sub .., nullary_bufs_sub .., unary_bufs_sub ..⟩
theorem rT2_fresh : (rT2 : List (HloOp τ sig (Elt F))).Forall fun op => op.fresh = ∅ :=
  ⟨rfl, rfl, rfl, rfl, rfl, rfl⟩

theorem rT3_sub : (rT3 : List (HloOp τ sig (Elt F))).Forall fun op => op.bufs ⊆ tcRefs τ sig :=
  ⟨nullary_bufs_sub .., unary_bufs_sub .., binary_bufs_sub ..⟩
theorem rT3_fresh : (rT3 : List (HloOp τ sig (Elt F))).Forall fun op => op.fresh = ∅ :=
  ⟨rfl, rfl, rfl⟩

theorem rT4_sub : (rT4 : List (HloOp τ sig (Elt F))).Forall fun op => op.bufs ⊆ tcRefs τ sig :=
  ⟨binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub ..⟩
theorem rT4_fresh : (rT4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem rT5_sub : (rT5 : List (HloOp τ sig (Elt F))).Forall fun op => op.bufs ⊆ tcRefs τ sig :=
  ⟨ternary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    nary_bufs_sub .., binary_bufs_sub .., nullary_bufs_sub .., unary_bufs_sub .., reshape_bufs_sub .., unary_bufs_sub ..,
    reshape_bufs_sub .., binary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., nullary_bufs_sub .., unary_bufs_sub .., unary_bufs_sub .., ternary_bufs_sub .., nullary_bufs_sub ..,
    unary_bufs_sub ..⟩
theorem rT5_fresh : (rT5 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl⟩

theorem rT6_sub : (rT6 : List (HloOp τ sig (Elt F))).Forall fun op => op.bufs ⊆ tcRefs τ sig :=
  ⟨nullary_bufs_sub .., unary_bufs_sub .., binary_bufs_sub ..⟩
theorem rT6_fresh : (rT6 : List (HloOp τ sig (Elt F))).Forall fun op => op.fresh = ∅ :=
  ⟨rfl, rfl, rfl⟩

theorem rT7_sub : (rT7 : List (HloOp τ sig (Elt F))).Forall fun op => op.bufs ⊆ tcRefs τ sig :=
  ⟨binary_bufs_sub .., unary_bufs_sub .., reshape_bufs_sub .., nullary_bufs_sub .., unary_bufs_sub .., binary_bufs_sub ..,
    nullary_bufs_sub .., unary_bufs_sub .., binary_bufs_sub .., ternary_bufs_sub ..⟩
theorem rT7_fresh : (rT7 : List (HloOp τ sig (Elt F))).Forall fun op => op.fresh = ∅ :=
  ⟨rfl, rfl, rfl, rfl, rfl, rfl, rfl, rfl, rfl, rfl⟩

theorem rT8_sub : (rT8 : List (HloOp τ sig (Elt F))).Forall fun op => op.bufs ⊆ tcRefs τ sig :=
  ⟨unary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..⟩
theorem rT8_fresh : (rT8 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem rT9_sub : (rT9 : List (HloOp τ sig (Elt F))).Forall fun op => op.bufs ⊆ tcRefs τ sig :=
  ⟨unary_bufs_sub .., unary_bufs_sub .., unary_bufs_sub .., nary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., nary_bufs_sub ..,
    binary_bufs_sub .., nullary_bufs_sub .., unary_bufs_sub .., reshape_bufs_sub .., unary_bufs_sub .., reshape_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    nullary_bufs_sub .., unary_bufs_sub .., unary_bufs_sub .., ternary_bufs_sub .., nullary_bufs_sub .., unary_bufs_sub ..⟩
theorem rT9_fresh : (rT9 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

theorem rT10_sub : (rT10 : List (HloOp τ sig (Elt F))).Forall fun op => op.bufs ⊆ tcRefs τ sig :=
  ⟨nullary_bufs_sub .., unary_bufs_sub .., binary_bufs_sub ..⟩
theorem rT10_fresh : (rT10 : List (HloOp τ sig (Elt F))).Forall fun op => op.fresh = ∅ :=
  ⟨rfl, rfl, rfl⟩

theorem rT11_sub : (rT11 : List (HloOp τ sig (Elt F))).Forall fun op => op.bufs ⊆ tcRefs τ sig :=
  ⟨binary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub ..⟩
theorem rT11_fresh : (rT11 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl⟩

theorem rT12_sub : (rT12 : List (HloOp τ sig (Elt F))).Forall fun op => op.bufs ⊆ tcRefs τ sig :=
  ⟨nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub .., nary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., nary_bufs_sub .., binary_bufs_sub ..⟩
theorem rT12_fresh : (rT12 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

end Cert.ReferenceIdeal.Hand

end
-- ==== Proof.RefRunJoin.lean ====
import proofs.«175666_j17377437679648_2_alg».proof.Proof.RefRunSub

/-! # The two facts of every operation, for the whole line

The line is the concatenation of its pieces, so an operation of the line is an operation of one of them; what was
shown piece by piece (TensorCore references only, nothing allocated) therefore holds of every operation of the line. -/

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- An operation of the line is an operation of one of its pieces. -/
theorem mem_refOps {op : HloOp τ sig (Elt F)} (h : op ∈ (refOps : List (HloOp τ sig (Elt F)))) :
    op ∈ (rD1 : List (HloOp τ sig (Elt F))) ∨ op ∈ (rA1 : List (HloOp τ sig (Elt F))) ∨ op ∈ (rA2 : List (HloOp τ sig (Elt F))) ∨ op ∈ (rA3 : List (HloOp τ sig (Elt F))) ∨ op ∈ (rA4 : List (HloOp τ sig (Elt F))) ∨ op ∈ (rD2 : List (HloOp τ sig (Elt F))) ∨ op ∈ (rT1 : List (HloOp τ sig (Elt F))) ∨ op ∈ (rT2 : List (HloOp τ sig (Elt F))) ∨ op ∈ (rT3 : List (HloOp τ sig (Elt F))) ∨ op ∈ (rT4 : List (HloOp τ sig (Elt F))) ∨ op ∈ (rT5 : List (HloOp τ sig (Elt F))) ∨ op ∈ (rT6 : List (HloOp τ sig (Elt F))) ∨ op ∈ (rT7 : List (HloOp τ sig (Elt F))) ∨ op ∈ (rT8 : List (HloOp τ sig (Elt F))) ∨ op ∈ (rT9 : List (HloOp τ sig (Elt F))) ∨ op ∈ (rT10 : List (HloOp τ sig (Elt F))) ∨ op ∈ (rT11 : List (HloOp τ sig (Elt F))) ∨ op ∈ (rT12 : List (HloOp τ sig (Elt F))) := by
  delta refOps at h
  simp only [List.mem_append, or_assoc] at h
  exact h

set_option maxHeartbeats 1000000 in
/-- Every operation of the line touches TensorCore references only: each piece's operations do. -/
theorem refOps_sub_mem : ∀ op ∈ (refOps : List (HloOp τ sig (Elt F))), op.bufs ⊆ tcRefs τ sig :=
  fun op hop => by
    rcases mem_refOps hop with h | h | h | h | h | h | h | h | h | h | h | h | h | h | h | h | h | h
    · exact List.forall_iff_forall_mem.mp rD1_sub op h
    · exact List.forall_iff_forall_mem.mp rA1_sub op h
    · exact List.forall_iff_forall_mem.mp rA2_sub op h
    · exact List.forall_iff_forall_mem.mp rA3_sub op h
    · exact List.forall_iff_forall_mem.mp rA4_sub op h
    · exact List.forall_iff_forall_mem.mp rD2_sub op h
    · exact List.forall_iff_forall_mem.mp rT1_sub op h
    · exact List.forall_iff_forall_mem.mp rT2_sub op h
    · exact List.forall_iff_forall_mem.mp rT3_sub op h
    · exact List.forall_iff_forall_mem.mp rT4_sub op h
    · exact List.forall_iff_forall_mem.mp rT5_sub op h
    · exact List.forall_iff_forall_mem.mp rT6_sub op h
    · exact List.forall_iff_forall_mem.mp rT7_sub op h
    · exact List.forall_iff_forall_mem.mp rT8_sub op h
    · exact List.forall_iff_forall_mem.mp rT9_sub op h
    · exact List.forall_iff_forall_mem.mp rT10_sub op h
    · exact List.forall_iff_forall_mem.mp rT11_sub op h
    · exact List.forall_iff_forall_mem.mp rT12_sub op h

set_option maxHeartbeats 1000000 in
/-- No operation of the line allocates a buffer: no piece's operation does. -/
theorem refOps_fresh : ∀ op ∈ (refOps : List (HloOp τ sig (Elt F))), op.fresh = ∅ :=
  fun op hop => by
    rcases mem_refOps hop with h | h | h | h | h | h | h | h | h | h | h | h | h | h | h | h | h | h
    · exact List.forall_iff_forall_mem.mp rD1_fresh op h
    · exact List.forall_iff_forall_mem.mp rA1_fresh op h
    · exact List.forall_iff_forall_mem.mp rA2_fresh op h
    · exact List.forall_iff_forall_mem.mp rA3_fresh op h
    · exact List.forall_iff_forall_mem.mp rA4_fresh op h
    · exact List.forall_iff_forall_mem.mp rD2_fresh op h
    · exact List.forall_iff_forall_mem.mp rT1_fresh op h
    · exact List.forall_iff_forall_mem.mp rT2_fresh op h
    · exact List.forall_iff_forall_mem.mp rT3_fresh op h
    · exact List.forall_iff_forall_mem.mp rT4_fresh op h
    · exact List.forall_iff_forall_mem.mp rT5_fresh op h
    · exact List.forall_iff_forall_mem.mp rT6_fresh op h
    · exact List.forall_iff_forall_mem.mp rT7_fresh op h
    · exact List.forall_iff_forall_mem.mp rT8_fresh op h
    · exact List.forall_iff_forall_mem.mp rT9_fresh op h
    · exact List.forall_iff_forall_mem.mp rT10_fresh op h
    · exact List.forall_iff_forall_mem.mp rT11_fresh op h
    · exact List.forall_iff_forall_mem.mp rT12_fresh op h

set_option maxHeartbeats 4000000 in
/-- The first of the two, as a property of the list (the same fact; the elementwise form above is the one to use:
    this form makes the elaborator walk the whole list wherever it is mentioned). -/
theorem refOps_sub : (refOps : List (HloOp τ sig (Elt F))).Forall fun op => op.bufs ⊆ tcRefs τ sig :=
  List.forall_iff_forall_mem.mpr refOps_sub_mem

end Cert.ReferenceIdeal.Hand

end
-- ==== Proof.RefRun.lean ====
import proofs.«175666_j17377437679648_2_alg».proof.Proof.RefOps
import proofs.«175666_j17377437679648_2_alg».proof.Proof.RefRunJoin
import proofs.«175666_j17377437679648_2_alg».proof.Proof.RefRunWrites
import Idealize.ShloMosaic.Lib.Pipeline.Regions

/-! # The reference program's run

The reference's @main is a straight line of host operations: unfolding its eight windows, and the bodies of the
cumulative-sum helper at its four calls, gives exactly the list of operations written out beside it, so the
program is the sequence of that list. The signature scopes no TensorCore buffer and no semaphore, every operation
touches TensorCore references only and none allocates; hence every weakly fair execution terminates, and each
TensorCore buffer ends at the fold of the operations over what the buffers held at launch. -/

noncomputable section

namespace Cert.ReferenceIdeal.Hand

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-- @main is the sequence of the listed operations: both sides unfold to one and the same chain of steps (the
    windows in order, each helper call replaced by its three operations), which the kernel checks by computation. -/
theorem main_eq (c : Dev nD) : main (F := F) c = seq (refOps (F := F)) := by
  chain_rfl

/-- The signature scopes no TensorCore buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- The line under a name the elaborator never unfolds (comparing two mentions of the concatenation itself makes
    it evaluate the concatenation, which is long). -/
def refLine : List (HloOp τ sig (Elt F)) := refOps

theorem refLine_eq : (refLine : List (HloOp τ sig (Elt F))) = refOps := rfl

attribute [irreducible] refLine

theorem main_eq_line (c : Dev nD) : main (F := F) c = seq (refLine (F := F)) :=
  (main_eq c).trans (congrArg seq refLine_eq.symm)

theorem refLine_sub : (refLine : List (HloOp τ sig (Elt F))).Forall fun op => op.bufs ⊆ tcRefs τ sig :=
  List.forall_iff_forall_mem.mpr fun op hop => refOps_sub_mem op (by rw [refLine_eq] at hop; exact hop)

theorem refLine_fresh : ∀ op ∈ (refLine : List (HloOp τ sig (Elt F))), op.fresh = ∅ :=
  fun op hop => refOps_fresh op (by rw [refLine_eq] at hop; exact hop)

/-- The run, over that name. -/
theorem run_line (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after (refLine (F := F)) (launchContents m d) (Proc.devRef .tc b) :=
  run_seq scopedRefs_eq scopedSems_eq defs main (fun _ => refLine) main_eq_line (fun _ => refLine_sub) m ρ
    (fun _ => refLine_fresh)

/-- Every weakly fair execution terminates with EVERY TensorCore buffer at the fold of the operations over the
    launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after (refOps (F := F)) (launchContents m d) (Proc.devRef .tc b) := by
  have h := run_line (F := F) m ρ
  rw [refLine_eq] at h
  exact h

end Cert.ReferenceIdeal.Hand

end
-- ==== Proof.lean ====
/- The proof of the certificate's five claims.

   Both printings of the kernel program (at machine words and on the extended reals) run as the same list of segments — seventeen
   stretches of host operations and two kernel regions — and every weakly fair execution ends with each unscoped buffer at the last
   boundary's contents; no stretch and no region writes an argument, which gives the two frames. The reference is one straight line of
   host operations, which gives its frame. The idealization rewrote nothing, so the preservation claim is empty. For the algebraic
   claim the results of the kernel program on the extended reals are the last boundary's contents at the eight result buffers, and
   the reference's fold from agreeing arguments holds the same arrays there: the two dense arrays are equal entry by entry (the rows'
   products with the weights plus the bias, on both sides), and everything else is the same operations on corresponding buffers. -/
import proofs.«175666_j17377437679648_2_alg».proof.Defs
import proofs.«175666_j17377437679648_2_alg».proof.Proof.Gen.Kernel
import proofs.«175666_j17377437679648_2_alg».proof.Proof.Gen.KernelIdeal
import proofs.«175666_j17377437679648_2_alg».proof.Proof.Gen.ReferenceIdeal
import proofs.«175666_j17377437679648_2_alg».proof.Proof.Gen.Pre_finite_inputs
import proofs.«175666_j17377437679648_2_alg».proof.Proof.BFold
import proofs.«175666_j17377437679648_2_alg».proof.Proof.KFold
import proofs.«175666_j17377437679648_2_alg».proof.Proof.Bridge
import proofs.«175666_j17377437679648_2_alg».proof.Proof.RefRun
import Idealize.ShloMosaic.Adequacy
import Idealize.ShloMosaic.Init

set_option maxRecDepth 65536

noncomputable section

namespace Cert.Proof

open Idealize.ShloMosaic Idealize.ShloMosaic.TcCoe Idealize.SL.Sem Idealize.ShloMosaic.StableHlo
open Cert.Lib.LineSimulation Cert.Bridge

/-- The word-level program runs and leaves its sixteen arguments as launched. -/
theorem frame_k : Cert.frame_Kernel := fun m ρ _ =>
  (θ_run Cert.Kernel.defs _ _).mono (fun r h c => ⟨(h c Cert.Kernel.main_arg0 (by decide)).trans (Cert.Kernel.Hand.W19_arg0 m ρ c),
    (h c Cert.Kernel.main_arg1 (by decide)).trans (Cert.Kernel.Hand.W19_arg1 m ρ c),
    (h c Cert.Kernel.main_arg2 (by decide)).trans (Cert.Kernel.Hand.W19_arg2 m ρ c),
    (h c Cert.Kernel.main_arg3 (by decide)).trans (Cert.Kernel.Hand.W19_arg3 m ρ c),
    (h c Cert.Kernel.main_arg4 (by decide)).trans (Cert.Kernel.Hand.W19_arg4 m ρ c),
    (h c Cert.Kernel.main_arg5 (by decide)).trans (Cert.Kernel.Hand.W19_arg5 m ρ c),
    (h c Cert.Kernel.main_arg6 (by decide)).trans (Cert.Kernel.Hand.W19_arg6 m ρ c),
    (h c Cert.Kernel.main_arg7 (by decide)).trans (Cert.Kernel.Hand.W19_arg7 m ρ c),
    (h c Cert.Kernel.main_arg8 (by decide)).trans (Cert.Kernel.Hand.W19_arg8 m ρ c),
    (h c Cert.Kernel.main_arg9 (by decide)).trans (Cert.Kernel.Hand.W19_arg9 m ρ c),
    (h c Cert.Kernel.main_arg10 (by decide)).trans (Cert.Kernel.Hand.W19_arg10 m ρ c),
    (h c Cert.Kernel.main_arg11 (by decide)).trans (Cert.Kernel.Hand.W19_arg11 m ρ c),
    (h c Cert.Kernel.main_arg12 (by decide)).trans (Cert.Kernel.Hand.W19_arg12 m ρ c),
    (h c Cert.Kernel.main_arg13 (by decide)).trans (Cert.Kernel.Hand.W19_arg13 m ρ c),
    (h c Cert.Kernel.main_arg14 (by decide)).trans (Cert.Kernel.Hand.W19_arg14 m ρ c),
    (h c Cert.Kernel.main_arg15 (by decide)).trans (Cert.Kernel.Hand.W19_arg15 m ρ c)⟩)
    (Cert.Kernel.Hand.run (F := Bits) m ρ)

/-- The program on the extended reals runs and leaves its sixteen arguments as launched. -/
theorem frame_ki : Cert.frame_KernelIdeal := fun m ρ _ =>
  (θ_run Cert.KernelIdeal.defs _ _).mono (fun r h c => ⟨(h c Cert.KernelIdeal.main_arg0 (by decide)).trans (Cert.KernelIdeal.Hand.W19_arg0 m ρ c),
    (h c Cert.KernelIdeal.main_arg1 (by decide)).trans (Cert.KernelIdeal.Hand.W19_arg1 m ρ c),
    (h c Cert.KernelIdeal.main_arg2 (by decide)).trans (Cert.KernelIdeal.Hand.W19_arg2 m ρ c),
    (h c Cert.KernelIdeal.main_arg3 (by decide)).trans (Cert.KernelIdeal.Hand.W19_arg3 m ρ c),
    (h c Cert.KernelIdeal.main_arg4 (by decide)).trans (Cert.KernelIdeal.Hand.W19_arg4 m ρ c),
    (h c Cert.KernelIdeal.main_arg5 (by decide)).trans (Cert.KernelIdeal.Hand.W19_arg5 m ρ c),
    (h c Cert.KernelIdeal.main_arg6 (by decide)).trans (Cert.KernelIdeal.Hand.W19_arg6 m ρ c),
    (h c Cert.KernelIdeal.main_arg7 (by decide)).trans (Cert.KernelIdeal.Hand.W19_arg7 m ρ c),
    (h c Cert.KernelIdeal.main_arg8 (by decide)).trans (Cert.KernelIdeal.Hand.W19_arg8 m ρ c),
    (h c Cert.KernelIdeal.main_arg9 (by decide)).trans (Cert.KernelIdeal.Hand.W19_arg9 m ρ c),
    (h c Cert.KernelIdeal.main_arg10 (by decide)).trans (Cert.KernelIdeal.Hand.W19_arg10 m ρ c),
    (h c Cert.KernelIdeal.main_arg11 (by decide)).trans (Cert.KernelIdeal.Hand.W19_arg11 m ρ c),
    (h c Cert.KernelIdeal.main_arg12 (by decide)).trans (Cert.KernelIdeal.Hand.W19_arg12 m ρ c),
    (h c Cert.KernelIdeal.main_arg13 (by decide)).trans (Cert.KernelIdeal.Hand.W19_arg13 m ρ c),
    (h c Cert.KernelIdeal.main_arg14 (by decide)).trans (Cert.KernelIdeal.Hand.W19_arg14 m ρ c),
    (h c Cert.KernelIdeal.main_arg15 (by decide)).trans (Cert.KernelIdeal.Hand.W19_arg15 m ρ c)⟩)
    (Cert.KernelIdeal.Hand.run (F := Ideal) m ρ)

/-- The reference runs and leaves its sixteen arguments as launched: no operation of its line writes one. -/
theorem frame_ri : Cert.frame_ReferenceIdeal := fun m ρ _ =>
  (θ_run Cert.ReferenceIdeal.defs _ _).mono (fun r h c => ⟨(h c Cert.ReferenceIdeal.main_arg0).trans (Cert.ReferenceIdeal.Hand.refOps_arg0 _),
    (h c Cert.ReferenceIdeal.main_arg1).trans (Cert.ReferenceIdeal.Hand.refOps_arg1 _),
    (h c Cert.ReferenceIdeal.main_arg2).trans (Cert.ReferenceIdeal.Hand.refOps_arg2 _),
    (h c Cert.ReferenceIdeal.main_arg3).trans (Cert.ReferenceIdeal.Hand.refOps_arg3 _),
    (h c Cert.ReferenceIdeal.main_arg4).trans (Cert.ReferenceIdeal.Hand.refOps_arg4 _),
    (h c Cert.ReferenceIdeal.main_arg5).trans (Cert.ReferenceIdeal.Hand.refOps_arg5 _),
    (h c Cert.ReferenceIdeal.main_arg6).trans (Cert.ReferenceIdeal.Hand.refOps_arg6 _),
    (h c Cert.ReferenceIdeal.main_arg7).trans (Cert.ReferenceIdeal.Hand.refOps_arg7 _),
    (h c Cert.ReferenceIdeal.main_arg8).trans (Cert.ReferenceIdeal.Hand.refOps_arg8 _),
    (h c Cert.ReferenceIdeal.main_arg9).trans (Cert.ReferenceIdeal.Hand.refOps_arg9 _),
    (h c Cert.ReferenceIdeal.main_arg10).trans (Cert.ReferenceIdeal.Hand.refOps_arg10 _),
    (h c Cert.ReferenceIdeal.main_arg11).trans (Cert.ReferenceIdeal.Hand.refOps_arg11 _),
    (h c Cert.ReferenceIdeal.main_arg12).trans (Cert.ReferenceIdeal.Hand.refOps_arg12 _),
    (h c Cert.ReferenceIdeal.main_arg13).trans (Cert.ReferenceIdeal.Hand.refOps_arg13 _),
    (h c Cert.ReferenceIdeal.main_arg14).trans (Cert.ReferenceIdeal.Hand.refOps_arg14 _),
    (h c Cert.ReferenceIdeal.main_arg15).trans (Cert.ReferenceIdeal.Hand.refOps_arg15 _)⟩)
    (Cert.ReferenceIdeal.Hand.run (F := Ideal) m ρ)

/-- The idealization rewrote no operation: nothing to preserve. -/
theorem preserves : Cert.preserves_Kernel_KernelIdeal := trivial

/-- Launch memories that agree on the arguments give launch contents that agree on the sixteen argument pairs. -/
theorem args_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Agree argPairs (Cert.KernelIdeal.Hand.W0 (F := Ideal) m ρ c) (launchContents m' c) := by
  unfold argPairs
  exact Agree.cons h.1.symm <|
    Agree.cons h.2.1.symm <|
    Agree.cons h.2.2.1.symm <|
    Agree.cons h.2.2.2.1.symm <|
    Agree.cons h.2.2.2.2.1.symm <|
    Agree.cons h.2.2.2.2.2.1.symm <|
    Agree.cons h.2.2.2.2.2.2.1.symm <|
    Agree.cons h.2.2.2.2.2.2.2.1.symm <|
    Agree.cons h.2.2.2.2.2.2.2.2.1.symm <|
    Agree.cons h.2.2.2.2.2.2.2.2.2.1.symm <|
    Agree.cons h.2.2.2.2.2.2.2.2.2.2.1.symm <|
    Agree.cons h.2.2.2.2.2.2.2.2.2.2.2.1.symm <|
    Agree.cons h.2.2.2.2.2.2.2.2.2.2.2.2.1.symm <|
    Agree.cons h.2.2.2.2.2.2.2.2.2.2.2.2.2.1.symm <|
    Agree.cons h.2.2.2.2.2.2.2.2.2.2.2.2.2.2.1.symm <|
    Agree.cons h.2.2.2.2.2.2.2.2.2.2.2.2.2.2.2.symm <| Agree.nil

set_option maxHeartbeats 8000000 in
/-- On the extended reals, from memories agreeing on the arguments, the two programs end with equal results. -/
theorem algebraic : Cert.algebraic_KernelIdeal_ReferenceIdeal := by
  intro m ρ m' ρ' _ hagree
  refine ⟨fun c => Cert.KernelIdeal.Hand.W19 (F := Ideal) m ρ c (Proc.devRef .tc Cert.KernelIdeal.main_v90),
    fun c => Cert.KernelIdeal.Hand.W19 (F := Ideal) m ρ c (Proc.devRef .tc Cert.KernelIdeal.main_v2),
    fun c => Cert.KernelIdeal.Hand.W19 (F := Ideal) m ρ c (Proc.devRef .tc Cert.KernelIdeal.main_v158),
    fun c => Cert.KernelIdeal.Hand.W19 (F := Ideal) m ρ c (Proc.devRef .tc Cert.KernelIdeal.main_v93),
    fun c => Cert.KernelIdeal.Hand.W19 (F := Ideal) m ρ c (Proc.devRef .tc Cert.KernelIdeal.main_v261),
    fun c => Cert.KernelIdeal.Hand.W19 (F := Ideal) m ρ c (Proc.devRef .tc Cert.KernelIdeal.main_v241),
    fun c => Cert.KernelIdeal.Hand.W19 (F := Ideal) m ρ c (Proc.devRef .tc Cert.KernelIdeal.main_v364),
    fun c => Cert.KernelIdeal.Hand.W19 (F := Ideal) m ρ c (Proc.devRef .tc Cert.KernelIdeal.main_v344), ?_, ?_⟩
  · exact (θ_run Cert.KernelIdeal.defs _ _).mono (fun r h c => ⟨h c Cert.KernelIdeal.main_v90 (by decide), h c Cert.KernelIdeal.main_v2 (by decide), h c Cert.KernelIdeal.main_v158 (by decide), h c Cert.KernelIdeal.main_v93 (by decide), h c Cert.KernelIdeal.main_v261 (by decide), h c Cert.KernelIdeal.main_v241 (by decide), h c Cert.KernelIdeal.main_v364 (by decide), h c Cert.KernelIdeal.main_v344 (by decide),
      (h c Cert.KernelIdeal.main_arg0 (by decide)).trans (Cert.KernelIdeal.Hand.W19_arg0 m ρ c),
      (h c Cert.KernelIdeal.main_arg1 (by decide)).trans (Cert.KernelIdeal.Hand.W19_arg1 m ρ c),
      (h c Cert.KernelIdeal.main_arg2 (by decide)).trans (Cert.KernelIdeal.Hand.W19_arg2 m ρ c),
      (h c Cert.KernelIdeal.main_arg3 (by decide)).trans (Cert.KernelIdeal.Hand.W19_arg3 m ρ c),
      (h c Cert.KernelIdeal.main_arg4 (by decide)).trans (Cert.KernelIdeal.Hand.W19_arg4 m ρ c),
      (h c Cert.KernelIdeal.main_arg5 (by decide)).trans (Cert.KernelIdeal.Hand.W19_arg5 m ρ c),
      (h c Cert.KernelIdeal.main_arg6 (by decide)).trans (Cert.KernelIdeal.Hand.W19_arg6 m ρ c),
      (h c Cert.KernelIdeal.main_arg7 (by decide)).trans (Cert.KernelIdeal.Hand.W19_arg7 m ρ c),
      (h c Cert.KernelIdeal.main_arg8 (by decide)).trans (Cert.KernelIdeal.Hand.W19_arg8 m ρ c),
      (h c Cert.KernelIdeal.main_arg9 (by decide)).trans (Cert.KernelIdeal.Hand.W19_arg9 m ρ c),
      (h c Cert.KernelIdeal.main_arg10 (by decide)).trans (Cert.KernelIdeal.Hand.W19_arg10 m ρ c),
      (h c Cert.KernelIdeal.main_arg11 (by decide)).trans (Cert.KernelIdeal.Hand.W19_arg11 m ρ c),
      (h c Cert.KernelIdeal.main_arg12 (by decide)).trans (Cert.KernelIdeal.Hand.W19_arg12 m ρ c),
      (h c Cert.KernelIdeal.main_arg13 (by decide)).trans (Cert.KernelIdeal.Hand.W19_arg13 m ρ c),
      (h c Cert.KernelIdeal.main_arg14 (by decide)).trans (Cert.KernelIdeal.Hand.W19_arg14 m ρ c),
      (h c Cert.KernelIdeal.main_arg15 (by decide)).trans (Cert.KernelIdeal.Hand.W19_arg15 m ρ c)⟩)
      (Cert.KernelIdeal.Hand.run (F := Ideal) m ρ)
  · refine (θ_run Cert.ReferenceIdeal.defs _ _).mono (fun r h c => ?_) (Cert.ReferenceIdeal.Hand.run (F := Ideal) m' ρ')
    have hR := results_agree m ρ c (launchContents m' c) (args_agree m ρ m' c (hagree c))
    exact ⟨(h c Cert.ReferenceIdeal.main_v92).trans (hR (q_v90) (by decide +kernel)).symm,
      (h c Cert.ReferenceIdeal.main_v4).trans (hR (q_v2) (by decide +kernel)).symm,
      (h c Cert.ReferenceIdeal.main_v162).trans (hR (q_v158) (by decide +kernel)).symm,
      (h c Cert.ReferenceIdeal.main_v97).trans (hR (q_v93) (by decide +kernel)).symm,
      (h c Cert.ReferenceIdeal.main_v265).trans (hR (q_v261) (by decide +kernel)).symm,
      (h c Cert.ReferenceIdeal.main_v245).trans (hR (q_v241) (by decide +kernel)).symm,
      (h c Cert.ReferenceIdeal.main_v368).trans (hR (q_v364) (by decide +kernel)).symm,
      (h c Cert.ReferenceIdeal.main_v348).trans (hR (q_v344) (by decide +kernel)).symm,
      (h c Cert.ReferenceIdeal.main_arg0).trans (Cert.ReferenceIdeal.Hand.refOps_arg0 _),
      (h c Cert.ReferenceIdeal.main_arg1).trans (Cert.ReferenceIdeal.Hand.refOps_arg1 _),
      (h c Cert.ReferenceIdeal.main_arg2).trans (Cert.ReferenceIdeal.Hand.refOps_arg2 _),
      (h c Cert.ReferenceIdeal.main_arg3).trans (Cert.ReferenceIdeal.Hand.refOps_arg3 _),
      (h c Cert.ReferenceIdeal.main_arg4).trans (Cert.ReferenceIdeal.Hand.refOps_arg4 _),
      (h c Cert.ReferenceIdeal.main_arg5).trans (Cert.ReferenceIdeal.Hand.refOps_arg5 _),
      (h c Cert.ReferenceIdeal.main_arg6).trans (Cert.ReferenceIdeal.Hand.refOps_arg6 _),
      (h c Cert.ReferenceIdeal.main_arg7).trans (Cert.ReferenceIdeal.Hand.refOps_arg7 _),
      (h c Cert.ReferenceIdeal.main_arg8).trans (Cert.ReferenceIdeal.Hand.refOps_arg8 _),
      (h c Cert.ReferenceIdeal.main_arg9).trans (Cert.ReferenceIdeal.Hand.refOps_arg9 _),
      (h c Cert.ReferenceIdeal.main_arg10).trans (Cert.ReferenceIdeal.Hand.refOps_arg10 _),
      (h c Cert.ReferenceIdeal.main_arg11).trans (Cert.ReferenceIdeal.Hand.refOps_arg11 _),
      (h c Cert.ReferenceIdeal.main_arg12).trans (Cert.ReferenceIdeal.Hand.refOps_arg12 _),
      (h c Cert.ReferenceIdeal.main_arg13).trans (Cert.ReferenceIdeal.Hand.refOps_arg13 _),
      (h c Cert.ReferenceIdeal.main_arg14).trans (Cert.ReferenceIdeal.Hand.refOps_arg14 _),
      (h c Cert.ReferenceIdeal.main_arg15).trans (Cert.ReferenceIdeal.Hand.refOps_arg15 _)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
